-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x512 : Shape := ⟨3, ![32, 2048, 512]⟩
abbrev S32x128x512 : Shape := ⟨3, ![32, 128, 512]⟩
abbrev S32x512 : Shape := ⟨2, ![32, 512]⟩
abbrev S32x2048 : Shape := ⟨2, ![32, 2048]⟩
abbrev S32x128 : Shape := ⟨2, ![32, 128]⟩
abbrev S32x1 : Shape := ⟨2, ![32, 1]⟩
abbrev S_ : Shape := ⟨0, ![]⟩

class Facts : Prop where
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S32x128x512 : S_.BroadcastsInDim S32x128x512 (![] : Fin 0 → Fin S32x128x512.rank)
  reducesTo_S32x128x512_S_d0_1_2 : S32x128x512.ReducesTo [0, 1, 2] S_
  bcast_S_S32x512 : S_.BroadcastsInDim S32x512 (![] : Fin 0 → Fin S32x512.rank)
  reducesTo_S32x512_S_d0_1 : S32x512.ReducesTo [0, 1] S_
  bcast_S_S32x2048 : S_.BroadcastsInDim S32x2048 (![] : Fin 0 → Fin S32x2048.rank)
  reducesTo_S32x2048_S_d0_1 : S32x2048.ReducesTo [0, 1] S_
  bcast_S_S32x128 : S_.BroadcastsInDim S32x128 (![] : Fin 0 → Fin S32x128.rank)
  reducesTo_S32x128_S_d0_1 : S32x128.ReducesTo [0, 1] S_
  bcast_S_S32x1 : S_.BroadcastsInDim S32x1 (![] : Fin 0 → Fin S32x1.rank)
  reducesTo_S32x1_S_d0_1 : S32x1.ReducesTo [0, 1] S_

variable [Facts]

def fn_part3 {F : FTy → Type} [FloatOps F] (main_v48 : IVec S_ 1) (main_v49 : FVec F S32x1 .f32) (main_v50 : FVec F S32x1 .f32) : IVec S_ 1 :=
  let main_v51 : IVec S32x1 1 := cmpf .olt main_v49 main_v50
  let main_c_19 : IVec S_ 1 := constantI S_ 1 1#1
  let main_v52 : IVec S_ 1 := (fun x v => Host.reduce IntOp.andi x v reducesTo_S32x1_S_d0_1 h_S_) main_v51 main_c_19
  let main_v53 : IVec S_ 1 := andi main_v48 main_v52
  main_v53

def fn_part2 {F : FTy → Type} [FloatOps F] (main_arg7 : FVec F S32x2048x512 .f32) (main_arg8 : FVec F S32x2048 .f32) (main_arg9 : FVec F S32x128 .f32) (main_arg10 : FVec F S32x1 .f32) (main_v33 : IVec S_ 1) : IVec S_ 1 :=
  let main_v34 : FVec F S32x2048x512 .f32 := Host.absf main_arg7
  let main_cst_12 : FVec F S_ .f32 := constant S_ .f32 0x7F800000#32
  let main_v35 : FVec F S32x2048x512 .f32 := broadcastInDim S32x2048x512 ![] bcast_S_S32x2048x512 main_cst_12
  let main_v36 : IVec S32x2048x512 1 := cmpf .olt main_v34 main_v35
  let main_c_13 : IVec S_ 1 := constantI S_ 1 1#1
  let main_v37 : IVec S_ 1 := (fun x v => Host.reduce IntOp.andi x v reducesTo_S32x2048x512_S_d0_1_2 h_S_) main_v36 main_c_13
  let main_v38 : IVec S_ 1 := andi main_v33 main_v37
  let main_v39 : FVec F S32x2048 .f32 := Host.absf main_arg8
  let main_cst_14 : FVec F S_ .f32 := constant S_ .f32 0x7F800000#32
  let main_v40 : FVec F S32x2048 .f32 := broadcastInDim S32x2048 ![] bcast_S_S32x2048 main_cst_14
  let main_v41 : IVec S32x2048 1 := cmpf .olt main_v39 main_v40
  let main_c_15 : IVec S_ 1 := constantI S_ 1 1#1
  let main_v42 : IVec S_ 1 := (fun x v => Host.reduce IntOp.andi x v reducesTo_S32x2048_S_d0_1 h_S_) main_v41 main_c_15
  let main_v43 : IVec S_ 1 := andi main_v38 main_v42
  let main_v44 : FVec F S32x128 .f32 := Host.absf main_arg9
  let main_cst_16 : FVec F S_ .f32 := constant S_ .f32 0x7F800000#32
  let main_v45 : FVec F S32x128 .f32 := broadcastInDim S32x128 ![] bcast_S_S32x128 main_cst_16
  let main_v46 : IVec S32x128 1 := cmpf .olt main_v44 main_v45
  let main_c_17 : IVec S_ 1 := constantI S_ 1 1#1
  let main_v47 : IVec S_ 1 := (fun x v => Host.reduce IntOp.andi x v reducesTo_S32x128_S_d0_1 h_S_) main_v46 main_c_17
  let main_v48 : IVec S_ 1 := andi main_v43 main_v47
  let main_v49 : FVec F S32x1 .f32 := Host.absf main_arg10
  let main_cst_18 : FVec F S_ .f32 := constant S_ .f32 0x7F800000#32
  let main_v50 : FVec F S32x1 .f32 := broadcastInDim S32x1 ![] bcast_S_S32x1 main_cst_18
  fn_part3 (F := F) main_v48 main_v49 main_v50

def fn_part1 {F : FTy → Type} [FloatOps F] (main_arg4 : FVec F S32x2048x512 .f32) (main_arg5 : FVec F S32x128x512 .f32) (main_arg6 : FVec F S32x512 .f32) (main_arg7 : FVec F S32x2048x512 .f32) (main_arg8 : FVec F S32x2048 .f32) (main_arg9 : FVec F S32x128 .f32) (main_arg10 : FVec F S32x1 .f32) (main_v13 : IVec S_ 1) (main_v16 : IVec S32x2048x512 1) : IVec S_ 1 :=
  let main_c_5 : IVec S_ 1 := constantI S_ 1 1#1
  let main_v17 : IVec S_ 1 := (fun x v => Host.reduce IntOp.andi x v reducesTo_S32x2048x512_S_d0_1_2 h_S_) main_v16 main_c_5
  let main_v18 : IVec S_ 1 := andi main_v13 main_v17
  let main_v19 : FVec F S32x2048x512 .f32 := Host.absf main_arg4
  let main_cst_6 : FVec F S_ .f32 := constant S_ .f32 0x7F800000#32
  let main_v20 : FVec F S32x2048x512 .f32 := broadcastInDim S32x2048x512 ![] bcast_S_S32x2048x512 main_cst_6
  let main_v21 : IVec S32x2048x512 1 := cmpf .olt main_v19 main_v20
  let main_c_7 : IVec S_ 1 := constantI S_ 1 1#1
  let main_v22 : IVec S_ 1 := (fun x v => Host.reduce IntOp.andi x v reducesTo_S32x2048x512_S_d0_1_2 h_S_) main_v21 main_c_7
  let main_v23 : IVec S_ 1 := andi main_v18 main_v22
  let main_v24 : FVec F S32x128x512 .f32 := Host.absf main_arg5
  let main_cst_8 : FVec F S_ .f32 := constant S_ .f32 0x7F800000#32
  let main_v25 : FVec F S32x128x512 .f32 := broadcastInDim S32x128x512 ![] bcast_S_S32x128x512 main_cst_8
  let main_v26 : IVec S32x128x512 1 := cmpf .olt main_v24 main_v25
  let main_c_9 : IVec S_ 1 := constantI S_ 1 1#1
  let main_v27 : IVec S_ 1 := (fun x v => Host.reduce IntOp.andi x v reducesTo_S32x128x512_S_d0_1_2 h_S_) main_v26 main_c_9
  let main_v28 : IVec S_ 1 := andi main_v23 main_v27
  let main_v29 : FVec F S32x512 .f32 := Host.absf main_arg6
  let main_cst_10 : FVec F S_ .f32 := constant S_ .f32 0x7F800000#32
  let main_v30 : FVec F S32x512 .f32 := broadcastInDim S32x512 ![] bcast_S_S32x512 main_cst_10
  let main_v31 : IVec S32x512 1 := cmpf .olt main_v29 main_v30
  let main_c_11 : IVec S_ 1 := constantI S_ 1 1#1
  let main_v32 : IVec S_ 1 := (fun x v => Host.reduce IntOp.andi x v reducesTo_S32x512_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S32x2048x512 .f32) (main_arg1 : FVec F S32x128x512 .f32) (main_arg2 : FVec F S32x512 .f32) (main_arg3 : FVec F S32x2048x512 .f32) (main_arg4 : FVec F S32x2048x512 .f32) (main_arg5 : FVec F S32x128x512 .f32) (main_arg6 : FVec F S32x512 .f32) (main_arg7 : FVec F S32x2048x512 .f32) (main_arg8 : FVec F S32x2048 .f32) (main_arg9 : FVec F S32x128 .f32) (main_arg10 : FVec F S32x1 .f32) (main_arg11 : IVec S32x2048 32) : IVec S_ 1 :=
  let main_v0 : FVec F S32x2048x512 .f32 := Host.absf main_arg0
  let main_cst : FVec F S_ .f32 := constant S_ .f32 0x7F800000#32
  let main_v1 : FVec F S32x2048x512 .f32 := broadcastInDim S32x2048x512 ![] bcast_S_S32x2048x512 main_cst
  let main_v2 : IVec S32x2048x512 1 := cmpf .olt main_v0 main_v1
  let main_c : IVec S_ 1 := constantI S_ 1 1#1
  let main_v3 : IVec S_ 1 := (fun x v => Host.reduce IntOp.andi x v reducesTo_S32x2048x512_S_d0_1_2 h_S_) main_v2 main_c
  let main_v4 : FVec F S32x128x512 .f32 := Host.absf main_arg1
  let main_cst_0 : FVec F S_ .f32 := constant S_ .f32 0x7F800000#32
  let main_v5 : FVec F S32x128x512 .f32 := broadcastInDim S32x128x512 ![] bcast_S_S32x128x512 main_cst_0
  let main_v6 : IVec S32x128x512 1 := cmpf .olt main_v4 main_v5
  let main_c_1 : IVec S_ 1 := constantI S_ 1 1#1
  let main_v7 : IVec S_ 1 := (fun x v => Host.reduce IntOp.andi x v reducesTo_S32x128x512_S_d0_1_2 h_S_) main_v6 main_c_1
  let main_v8 : IVec S_ 1 := andi main_v3 main_v7
  let main_v9 : FVec F S32x512 .f32 := Host.absf main_arg2
  let main_cst_2 : FVec F S_ .f32 := constant S_ .f32 0x7F800000#32
  let main_v10 : FVec F S32x512 .f32 := broadcastInDim S32x512 ![] bcast_S_S32x512 main_cst_2
  let main_v11 : IVec S32x512 1 := cmpf .olt main_v9 main_v10
  let main_c_3 : IVec S_ 1 := constantI S_ 1 1#1
  let main_v12 : IVec S_ 1 := (fun x v => Host.reduce IntOp.andi x v reducesTo_S32x512_S_d0_1 h_S_) main_v11 main_c_3
  let main_v13 : IVec S_ 1 := andi main_v8 main_v12
  let main_v14 : FVec F S32x2048x512 .f32 := Host.absf main_arg3
  let main_cst_4 : FVec F S_ .f32 := constant S_ .f32 0x7F800000#32
  let main_v15 : FVec F S32x2048x512 .f32 := broadcastInDim S32x2048x512 ![] bcast_S_S32x2048x512 main_cst_4
  let main_v16 : IVec S32x2048x512 1 := cmpf .olt main_v14 main_v15
  fn_part1 (F := F) main_arg4 main_arg5 main_arg6 main_arg7 main_arg8 main_arg9 main_arg10 main_v13 main_v16
-- ==== Kernel.lean ====
abbrev S32x2048x512 : Shape := ⟨3, ![32, 2048, 512]⟩
abbrev S32x128x512 : Shape := ⟨3, ![32, 128, 512]⟩
abbrev S32x512 : Shape := ⟨2, ![32, 512]⟩
abbrev S32x2048 : Shape := ⟨2, ![32, 2048]⟩
abbrev S32x128 : Shape := ⟨2, ![32, 128]⟩
abbrev S32x1 : Shape := ⟨2, ![32, 1]⟩
abbrev S2x1x1 : Shape := ⟨3, ![2, 1, 1]⟩
abbrev S32x64x512 : Shape := ⟨3, ![32, 64, 512]⟩
abbrev S1x1x1 : Shape := ⟨3, ![1, 1, 1]⟩
abbrev S32x64 : Shape := ⟨2, ![32, 64]⟩
abbrev S32x64x1 : Shape := ⟨3, ![32, 64, 1]⟩
abbrev S64x512 : Shape := ⟨2, ![64, 512]⟩
abbrev S64 : Shape := ⟨1, ![64]⟩
abbrev S64x1 : Shape := ⟨2, ![64, 1]⟩
abbrev S1 : Shape := ⟨1, ![1]⟩
abbrev S1x1 : Shape := ⟨2, ![1, 1]⟩
abbrev S_ : Shape := ⟨0, ![]⟩
abbrev S32 : Shape := ⟨1, ![32]⟩
abbrev S512 : Shape := ⟨1, ![512]⟩
abbrev S32x2047 : Shape := ⟨2, ![32, 2047]⟩
abbrev S2047 : Shape := ⟨1, ![2047]⟩

abbrev nBuf : Space → Nat
  | .hbm => 222
  | .vmem => 18
  | .smem => 0
  | _ => 0

abbrev hbmTy0_0 (i : Nat) : BufTy := match i % 128 with
  | 0 => ⟨S32x2048x512, .f32⟩
  | 1 => ⟨S32x128x512, .f32⟩
  | 2 => ⟨S32x512, .f32⟩
  | 3 => ⟨S32x2048x512, .f32⟩
  | 4 => ⟨S32x2048x512, .f32⟩
  | 5 => ⟨S32x128x512, .f32⟩
  | 6 => ⟨S32x512, .f32⟩
  | 7 => ⟨S32x2048x512, .f32⟩
  | 8 => ⟨S32x2048, .f32⟩
  | 9 => ⟨S32x128, .f32⟩
  | 10 => ⟨S32x1, .f32⟩
  | 11 => ⟨S32x2048, .i32⟩
  | 12 => ⟨S2x1x1, .f32⟩
  | 13 => ⟨S_, .f32⟩
  | 14 => ⟨S_, .f32⟩
  | 15 => ⟨S2x1x1, .f32⟩
  | 16 => ⟨S_, .f32⟩
  | 17 => ⟨S_, .f32⟩
  | 18 => ⟨S2x1x1, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S32x512, .f32⟩
  | 28 => ⟨S_, .f32⟩
  | 29 => ⟨S32, .f32⟩
  | 30 => ⟨S32x1, .f32⟩
  | 31 => ⟨S32x1, .f32⟩
  | 32 => ⟨S_, .f32⟩
  | 33 => ⟨S32x1, .f32⟩
  | 34 => ⟨S32x1, .f32⟩
  | 35 => ⟨S32x512, .f32⟩
  | 36 => ⟨S32x512, .f32⟩
  | 37 => ⟨S32x512, .f32⟩
  | 38 => ⟨S_, .f32⟩
  | 39 => ⟨S32, .f32⟩
  | 40 => ⟨S32x1, .f32⟩
  | 41 => ⟨S32x1, .f32⟩
  | 42 => ⟨S_, .f32⟩
  | 43 => ⟨S32x1, .f32⟩
  | 44 => ⟨S32x1, .f32⟩
  | 45 => ⟨S32x512, .f32⟩
  | 46 => ⟨S32x512, .f32⟩
  | 47 => ⟨S_, .f32⟩
  | 48 => ⟨S512, .f32⟩
  | 49 => ⟨S_, .f32⟩
  | 50 => ⟨S512, .f32⟩
  | 51 => ⟨S512, .f32⟩
  | 52 => ⟨S_, .f32⟩
  | 53 => ⟨S512, .f32⟩
  | 54 => ⟨S_, .f32⟩
  | 55 => ⟨S512, .f32⟩
  | 56 => ⟨S512, .f32⟩
  | 57 => ⟨S512, .f32⟩
  | 58 => ⟨S512, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .i32⟩
  | 77 => ⟨S32x2048, .i32⟩
  | 78 => ⟨S32x2048, .i1⟩
  | 79 => ⟨S_, .i32⟩
  | 80 => ⟨S32x2048, .i32⟩
  | 81 => ⟨S32x2048, .i1⟩
  | 82 => ⟨S32x2048, .i1⟩
  | 83 => ⟨S32x2048, .f32⟩
  | 84 => ⟨S32x2047, .f32⟩
  | 85 => ⟨S32x2047, .f32⟩
  | 86 => ⟨S32x2047, .f32⟩
  | 87 => ⟨S32x2047, .f32⟩
  | 88 => ⟨S_, .f32⟩
  | 89 => ⟨S_, .f32⟩
  | 90 => ⟨S_, .f32⟩
  | 91 => ⟨S_, .f32⟩
  | 92 => ⟨S_, .i32⟩
  | 93 => ⟨S32x2048, .i32⟩
  | 94 => ⟨S32x2048, .i1⟩
  | 95 => ⟨S32x2048, .i32⟩
  | 96 => ⟨S32x2048, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S32x2048, .i32⟩
  | 104 => ⟨S32x2048, .i32⟩
  | 105 => ⟨S_, .i32⟩
  | 106 => ⟨S32x2048, .i32⟩
  | 107 => ⟨S32x2048, .i1⟩
  | 108 => ⟨S_, .i32⟩
  | 109 => ⟨S32x2048, .i32⟩
  | 110 => ⟨S32x2048, .i1⟩
  | 111 => ⟨S_, .i32⟩
  | 112 => ⟨S_, .i1⟩
  | 113 => ⟨S32x2048, .i1⟩
  | 114 => ⟨S32x2048, .i1⟩
  | 115 => ⟨S32x2048, .i1⟩
  | 116 => ⟨S32x2048, .i32⟩
  | 117 => ⟨S32x2048, .i32⟩
  | 118 => ⟨S32x2048, .i32⟩
  | 119 => ⟨S32x2047, .i32⟩
  | 120 => ⟨S32x2047, .i32⟩
  | 121 => ⟨S32x2047, .i32⟩
  | 122 => ⟨S32x2047, .i32⟩
  | 123 => ⟨S_, .i32⟩
  | 124 => ⟨S32x2047, .i32⟩
  | 125 => ⟨S32x2047, .i1⟩
  | 126 => ⟨S_, .i32⟩
  | 127 => ⟨S32x2047, .i32⟩
  | _ => ⟨S32x2048x512, .f32⟩

abbrev hbmTy0_1 (i : Nat) : BufTy := match i % 128 with
  | 0 => ⟨S32x2047, .i1⟩
  | 1 => ⟨S32x2047, .i1⟩
  | 2 => ⟨S32x2047, .f32⟩
  | 3 => ⟨S_, .f32⟩
  | 4 => ⟨S2047, .f32⟩
  | 5 => ⟨S_, .f32⟩
  | 6 => ⟨S2047, .f32⟩
  | 7 => ⟨S2047, .f32⟩
  | 8 => ⟨S_, .f32⟩
  | 9 => ⟨S_, .f32⟩
  | 10 => ⟨S_, .f32⟩
  | 11 => ⟨S_, .f32⟩
  | 12 => ⟨S32x2048, .f32⟩
  | 13 => ⟨S32x2047, .f32⟩
  | 14 => ⟨S32x2047, .f32⟩
  | 15 => ⟨S32x2047, .f32⟩
  | 16 => ⟨S32x2047, .f32⟩
  | 17 => ⟨S_, .f32⟩
  | 18 => ⟨S32x2047, .f32⟩
  | 19 => ⟨S32x2047, .i1⟩
  | 20 => ⟨S32x2047, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S32x2048, .f32⟩
  | 28 => ⟨S_, .f32⟩
  | 29 => ⟨S32x2048, .f32⟩
  | 30 => ⟨S32x2048, .f32⟩
  | 31 => ⟨S32x2048, .f32⟩
  | 32 => ⟨S32x2048, .f32⟩
  | 33 => ⟨S32x2048, .i1⟩
  | 34 => ⟨S32x2048, .f32⟩
  | 35 => ⟨S32x2048, .f32⟩
  | 36 => ⟨S32x2048, .f32⟩
  | 37 => ⟨S32x2048, .f32⟩
  | 38 => ⟨S32x2048, .f32⟩
  | 39 => ⟨S32x2048, .f32⟩
  | 40 => ⟨S32x2048, .f32⟩
  | 41 => ⟨S32x2048, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S32x128, .f32⟩
  | 49 => ⟨S_, .f32⟩
  | 50 => ⟨S32x128, .f32⟩
  | 51 => ⟨S32x128, .f32⟩
  | 52 => ⟨S32x128, .f32⟩
  | 53 => ⟨S32x128, .f32⟩
  | 54 => ⟨S32x128, .i1⟩
  | 55 => ⟨S32x128, .f32⟩
  | 56 => ⟨S32x128, .f32⟩
  | 57 => ⟨S32x128, .f32⟩
  | 58 => ⟨S32x128, .f32⟩
  | 59 => ⟨S32x128, .f32⟩
  | 60 => ⟨S32x128, .f32⟩
  | 61 => ⟨S32x128, .f32⟩
  | 62 => ⟨S32x128, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S32x1, .f32⟩
  | 71 => ⟨S_, .f32⟩
  | 72 => ⟨S32x1, .f32⟩
  | 73 => ⟨S32x1, .f32⟩
  | 74 => ⟨S32x1, .f32⟩
  | 75 => ⟨S32x1, .f32⟩
  | 76 => ⟨S32x1, .i1⟩
  | 77 => ⟨S32x1, .f32⟩
  | 78 => ⟨S32x1, .f32⟩
  | 79 => ⟨S32x1, .f32⟩
  | 80 => ⟨S32x1, .f32⟩
  | 81 => ⟨S32x1, .f32⟩
  | 82 => ⟨S32x1, .f32⟩
  | 83 => ⟨S32x1, .f32⟩
  | 84 => ⟨S32x1, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | _ => ⟨S32x2048x512, .f32⟩

abbrev hbmTy (i : Nat) : BufTy := match i / 128 with
  | 0 => hbmTy0_0 i
  | 1 => hbmTy0_1 i
  | _ => ⟨S32x2048x512, .f32⟩

abbrev bufTy : (tb : Table) → Fin (tcTables nBuf tb) → BufTy
  | .hbm, ⟨i, _⟩ => hbmTy i
  | .local _ .vmem, ⟨0, _⟩ => ⟨S32x64x512, .f32⟩
  | .local _ .vmem, ⟨1, _⟩ => ⟨S32x64x512, .f32⟩
  | .local _ .vmem, ⟨2, _⟩ => ⟨S32x64x512, .f32⟩
  | .local _ .vmem, ⟨3, _⟩ => ⟨S32x64x512, .f32⟩
  | .local _ .vmem, ⟨4, _⟩ => ⟨S1x1x1, .f32⟩
  | .local _ .vmem, ⟨5, _⟩ => ⟨S1x1x1, .f32⟩
  | .local _ .vmem, ⟨6, _⟩ => ⟨S32x64x512, .f32⟩
  | .local _ .vmem, ⟨7, _⟩ => ⟨S32x64x512, .f32⟩
  | .local _ .vmem, ⟨8, _⟩ => ⟨S32x64x512, .f32⟩
  | .local _ .vmem, ⟨9, _⟩ => ⟨S32x64x512, .f32⟩
  | .local _ .vmem, ⟨10, _⟩ => ⟨S1x1x1, .f32⟩
  | .local _ .vmem, ⟨11, _⟩ => ⟨S1x1x1, .f32⟩
  | .local _ .vmem, ⟨12, _⟩ => ⟨S32x64x512, .f32⟩
  | .local _ .vmem, ⟨13, _⟩ => ⟨S32x64x512, .f32⟩
  | .local _ .vmem, ⟨14, _⟩ => ⟨S32x64x512, .f32⟩
  | .local _ .vmem, ⟨15, _⟩ => ⟨S32x64x512, .f32⟩
  | .local _ .vmem, ⟨16, _⟩ => ⟨S1x1x1, .f32⟩
  | .local _ .vmem, ⟨17, _⟩ => ⟨S1x1x1, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_cst_3 : Ref sig .tc := ⟨.hbm, 23, rfl⟩
abbrev main_v7 : Ref sig .tc := ⟨.hbm, 24, rfl⟩
abbrev main_cst_4 : Ref sig .tc := ⟨.hbm, 25, rfl⟩
abbrev main_v8 : Ref sig .tc := ⟨.hbm, 26, rfl⟩
abbrev main_v9 : Ref sig .tc := ⟨.hbm, 27, rfl⟩
abbrev main_cst_5 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_6 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_7 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_8 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_9 : Ref sig .tc := ⟨.hbm, 47, rfl⟩
abbrev main_v25 : Ref sig .tc := ⟨.hbm, 48, rfl⟩
abbrev main_cst_10 : Ref sig .tc := ⟨.hbm, 49, rfl⟩
abbrev main_v26 : Ref sig .tc := ⟨.hbm, 50, rfl⟩
abbrev main_v27 : Ref sig .tc := ⟨.hbm, 51, rfl⟩
abbrev main_cst_11 : Ref sig .tc := ⟨.hbm, 52, rfl⟩
abbrev main_v28 : Ref sig .tc := ⟨.hbm, 53, rfl⟩
abbrev main_cst_12 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_13 : Ref sig .tc := ⟨.hbm, 59, rfl⟩
abbrev main_v33 : Ref sig .tc := ⟨.hbm, 60, rfl⟩
abbrev main_cst_14 : Ref sig .tc := ⟨.hbm, 61, rfl⟩
abbrev main_v34 : Ref sig .tc := ⟨.hbm, 62, rfl⟩
abbrev main_cst_15 : Ref sig .tc := ⟨.hbm, 63, rfl⟩
abbrev main_v35 : Ref sig .tc := ⟨.hbm, 64, rfl⟩
abbrev main_cst_16 : Ref sig .tc := ⟨.hbm, 65, rfl⟩
abbrev main_v36 : Ref sig .tc := ⟨.hbm, 66, rfl⟩
abbrev main_v37 : Ref sig .tc := ⟨.hbm, 67, rfl⟩
abbrev main_cst_17 : Ref sig .tc := ⟨.hbm, 68, rfl⟩
abbrev main_v38 : Ref sig .tc := ⟨.hbm, 69, rfl⟩
abbrev main_v39 : Ref sig .tc := ⟨.hbm, 70, rfl⟩
abbrev main_cst_18 : Ref sig .tc := ⟨.hbm, 71, rfl⟩
abbrev main_v40 : Ref sig .tc := ⟨.hbm, 72, rfl⟩
abbrev main_v41 : Ref sig .tc := ⟨.hbm, 73, rfl⟩
abbrev main_cst_19 : Ref sig .tc := ⟨.hbm, 74, rfl⟩
abbrev main_v42 : Ref sig .tc := ⟨.hbm, 75, rfl⟩
abbrev main_c : Ref sig .tc := ⟨.hbm, 76, rfl⟩
abbrev main_v43 : Ref sig .tc := ⟨.hbm, 77, rfl⟩
abbrev main_v44 : Ref sig .tc := ⟨.hbm, 78, rfl⟩
abbrev main_c_20 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_call0_v0 : Ref sig .tc := ⟨.hbm, 84, rfl⟩
abbrev main_call0_v1 : Ref sig .tc := ⟨.hbm, 85, rfl⟩
abbrev main_v49 : Ref sig .tc := ⟨.hbm, 86, rfl⟩
abbrev main_v50 : Ref sig .tc := ⟨.hbm, 87, rfl⟩
abbrev main_cst_21 : Ref sig .tc := ⟨.hbm, 88, rfl⟩
abbrev main_v51 : Ref sig .tc := ⟨.hbm, 89, rfl⟩
abbrev main_cst_22 : Ref sig .tc := ⟨.hbm, 90, rfl⟩
abbrev main_v52 : Ref sig .tc := ⟨.hbm, 91, rfl⟩
abbrev main_c_23 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_c_24 : Ref sig .tc := ⟨.hbm, 97, rfl⟩
abbrev main_call1_v0 : Ref sig .tc := ⟨.hbm, 98, rfl⟩
abbrev main_call1_c : Ref sig .tc := ⟨.hbm, 99, rfl⟩
abbrev main_call1_v1 : Ref sig .tc := ⟨.hbm, 100, rfl⟩
abbrev main_call1_c_0 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_call1_c_1 : Ref sig .tc := ⟨.hbm, 105, rfl⟩
abbrev main_call1_v5 : Ref sig .tc := ⟨.hbm, 106, rfl⟩
abbrev main_call1_v6 : Ref sig .tc := ⟨.hbm, 107, rfl⟩
abbrev main_call1_c_2 : Ref sig .tc := ⟨.hbm, 108, rfl⟩
abbrev main_call1_v7 : Ref sig .tc := ⟨.hbm, 109, rfl⟩
abbrev main_call1_v8 : Ref sig .tc := ⟨.hbm, 110, rfl⟩
abbrev main_call1_c_3 : Ref sig .tc := ⟨.hbm, 111, rfl⟩
abbrev main_call1_v9 : Ref sig .tc := ⟨.hbm, 112, rfl⟩
abbrev main_call1_v10 : Ref sig .tc := ⟨.hbm, 113, rfl⟩
abbrev main_call1_v11 : Ref sig .tc := ⟨.hbm, 114, rfl⟩
abbrev main_call1_v12 : Ref sig .tc := ⟨.hbm, 115, rfl⟩
abbrev main_call1_v13 : Ref sig .tc := ⟨.hbm, 116, rfl⟩
abbrev main_call1_v14 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_c_25 : Ref sig .tc := ⟨.hbm, 123, rfl⟩
abbrev main_v62 : Ref sig .tc := ⟨.hbm, 124, rfl⟩
abbrev main_v63 : Ref sig .tc := ⟨.hbm, 125, rfl⟩
abbrev main_c_26 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_cst_27 : Ref sig .tc := ⟨.hbm, 131, rfl⟩
abbrev main_v68 : Ref sig .tc := ⟨.hbm, 132, rfl⟩
abbrev main_cst_28 : Ref sig .tc := ⟨.hbm, 133, rfl⟩
abbrev main_v69 : Ref sig .tc := ⟨.hbm, 134, rfl⟩
abbrev main_v70 : Ref sig .tc := ⟨.hbm, 135, rfl⟩
abbrev main_cst_29 : Ref sig .tc := ⟨.hbm, 136, rfl⟩
abbrev main_v71 : Ref sig .tc := ⟨.hbm, 137, rfl⟩
abbrev main_cst_30 : Ref sig .tc := ⟨.hbm, 138, rfl⟩
abbrev main_v72 : Ref sig .tc := ⟨.hbm, 139, rfl⟩
abbrev main_v73 : Ref sig .tc := ⟨.hbm, 140, rfl⟩
abbrev main_call2_v0 : Ref sig .tc := ⟨.hbm, 141, rfl⟩
abbrev main_call2_v1 : Ref sig .tc := ⟨.hbm, 142, rfl⟩
abbrev main_v74 : Ref sig .tc := ⟨.hbm, 143, rfl⟩
abbrev main_v75 : Ref sig .tc := ⟨.hbm, 144, rfl⟩
abbrev main_cst_31 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_cst_32 : Ref sig .tc := ⟨.hbm, 149, rfl⟩
abbrev main_v79 : Ref sig .tc := ⟨.hbm, 150, rfl⟩
abbrev main_cst_33 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_call3_cst : Ref sig .tc := ⟨.hbm, 156, rfl⟩
abbrev main_call3_v0 : Ref sig .tc := ⟨.hbm, 157, rfl⟩
abbrev main_call3_v1 : Ref sig .tc := ⟨.hbm, 158, rfl⟩
abbrev main_call3_v2 : Ref sig .tc := ⟨.hbm, 159, rfl⟩
abbrev main_call3_v3 : Ref sig .tc := ⟨.hbm, 160, rfl⟩
abbrev main_call3_v4 : Ref sig .tc := ⟨.hbm, 161, rfl⟩
abbrev main_call3_v5 : Ref sig .tc := ⟨.hbm, 162, rfl⟩
abbrev main_call3_v6 : Ref sig .tc := ⟨.hbm, 163, rfl⟩
abbrev main_call3_v7 : Ref sig .tc := ⟨.hbm, 164, rfl⟩
abbrev main_call3_v8 : Ref sig .tc := ⟨.hbm, 165, rfl⟩
abbrev main_call3_v9 : Ref sig .tc := ⟨.hbm, 166, rfl⟩
abbrev main_call3_v10 : Ref sig .tc := ⟨.hbm, 167, rfl⟩
abbrev main_call3_v11 : Ref sig .tc := ⟨.hbm, 168, rfl⟩
abbrev main_v84 : Ref sig .tc := ⟨.hbm, 169, rfl⟩
abbrev main_cst_34 : Ref sig .tc := ⟨.hbm, 170, rfl⟩
abbrev main_v85 : Ref sig .tc := ⟨.hbm, 171, rfl⟩
abbrev main_cst_35 : Ref sig .tc := ⟨.hbm, 172, rfl⟩
abbrev main_v86 : Ref sig .tc := ⟨.hbm, 173, rfl⟩
abbrev main_cst_36 : Ref sig .tc := ⟨.hbm, 174, rfl⟩
abbrev main_v87 : Ref sig .tc := ⟨.hbm, 175, rfl⟩
abbrev main_v88 : Ref sig .tc := ⟨.hbm, 176, rfl⟩
abbrev main_call4_cst : Ref sig .tc := ⟨.hbm, 177, rfl⟩
abbrev main_call4_v0 : Ref sig .tc := ⟨.hbm, 178, rfl⟩
abbrev main_call4_v1 : Ref sig .tc := ⟨.hbm, 179, rfl⟩
abbrev main_call4_v2 : Ref sig .tc := ⟨.hbm, 180, rfl⟩
abbrev main_call4_v3 : Ref sig .tc := ⟨.hbm, 181, rfl⟩
abbrev main_call4_v4 : Ref sig .tc := ⟨.hbm, 182, rfl⟩
abbrev main_call4_v5 : Ref sig .tc := ⟨.hbm, 183, rfl⟩
abbrev main_call4_v6 : Ref sig .tc := ⟨.hbm, 184, rfl⟩
abbrev main_call4_v7 : Ref sig .tc := ⟨.hbm, 185, rfl⟩
abbrev main_call4_v8 : Ref sig .tc := ⟨.hbm, 186, rfl⟩
abbrev main_call4_v9 : Ref sig .tc := ⟨.hbm, 187, rfl⟩
abbrev main_call4_v10 : Ref sig .tc := ⟨.hbm, 188, rfl⟩
abbrev main_call4_v11 : Ref sig .tc := ⟨.hbm, 189, rfl⟩
abbrev main_v89 : Ref sig .tc := ⟨.hbm, 190, rfl⟩
abbrev main_cst_37 : Ref sig .tc := ⟨.hbm, 191, rfl⟩
abbrev main_v90 : Ref sig .tc := ⟨.hbm, 192, rfl⟩
abbrev main_cst_38 : Ref sig .tc := ⟨.hbm, 193, rfl⟩
abbrev main_v91 : Ref sig .tc := ⟨.hbm, 194, rfl⟩
abbrev main_cst_39 : Ref sig .tc := ⟨.hbm, 195, rfl⟩
abbrev main_v92 : Ref sig .tc := ⟨.hbm, 196, rfl⟩
abbrev main_v93 : Ref sig .tc := ⟨.hbm, 197, rfl⟩
abbrev main_v94 : Ref sig .tc := ⟨.hbm, 198, rfl⟩
abbrev main_call5_cst : Ref sig .tc := ⟨.hbm, 199, rfl⟩
abbrev main_call5_v0 : Ref sig .tc := ⟨.hbm, 200, rfl⟩
abbrev main_call5_v1 : Ref sig .tc := ⟨.hbm, 201, rfl⟩
abbrev main_call5_v2 : Ref sig .tc := ⟨.hbm, 202, rfl⟩
abbrev main_call5_v3 : Ref sig .tc := ⟨.hbm, 203, rfl⟩
abbrev main_call5_v4 : Ref sig .tc := ⟨.hbm, 204, rfl⟩
abbrev main_call5_v5 : Ref sig .tc := ⟨.hbm, 205, rfl⟩
abbrev main_call5_v6 : Ref sig .tc := ⟨.hbm, 206, rfl⟩
abbrev main_call5_v7 : Ref sig .tc := ⟨.hbm, 207, rfl⟩
abbrev main_call5_v8 : Ref sig .tc := ⟨.hbm, 208, rfl⟩
abbrev main_call5_v9 : Ref sig .tc := ⟨.hbm, 209, rfl⟩
abbrev main_call5_v10 : Ref sig .tc := ⟨.hbm, 210, rfl⟩
abbrev main_call5_v11 : Ref sig .tc := ⟨.hbm, 211, rfl⟩
abbrev main_v95 : Ref sig .tc := ⟨.hbm, 212, rfl⟩
abbrev main_cst_40 : Ref sig .tc := ⟨.hbm, 213, rfl⟩
abbrev main_v96 : Ref sig .tc := ⟨.hbm, 214, rfl⟩
abbrev main_cst_41 : Ref sig .tc := ⟨.hbm, 215, rfl⟩
abbrev main_v97 : Ref sig .tc := ⟨.hbm, 216, rfl⟩
abbrev main_cst_42 : Ref sig .tc := ⟨.hbm, 217, rfl⟩
abbrev main_v98 : Ref sig .tc := ⟨.hbm, 218, rfl⟩
abbrev main_v99 : Ref sig .tc := ⟨.hbm, 219, rfl⟩
abbrev main_v100 : Ref sig .tc := ⟨.hbm, 220, rfl⟩
abbrev main_v101 : Ref sig .tc := ⟨.hbm, 221, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 1], ![false, false]⟩

def cc1_transform_0 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S32x64x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S32x64x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![2, 16], ![false, false]⟩

def cc2_transform_0 (i : grid2.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc2_transform_1 (i : grid2.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S32x64x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S32x64x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  inb_S1x1x1_S1x1x1_0_0_0 : ∀ a, (![0, 0, 0] : Fin 3 → Nat) a + S1x1x1.size a ≤ S1x1x1.size a
  h_S1x1x1 : 0 < S1x1x1.numel
  inb_S32x64x512_S32x64x512_0_0_0 : ∀ a, (![0, 0, 0] : Fin 3 → Nat) a + S32x64x512.size a ≤ S32x64x512.size a
  h_S32x64x512 : 0 < S32x64x512.numel
  reduces_S32x64x512_S32x64 : S32x64x512.Reduces [2] S32x64
  shapeCasts_S32x64_S32x64x1 : S32x64.ShapeCasts S32x64x1
  broadcasts_S32x64x1_S32x64x512 : S32x64x1.Broadcasts S32x64x512
  reduces_S32x64x512_S64x512 : S32x64x512.Reduces [0] S64x512
  reduces_S64x512_S64 : S64x512.Reduces [1] S64
  shapeCasts_S64_S64x1 : S64.ShapeCasts S64x1
  reduces_S64x1_S1 : S64x1.Reduces [0] S1
  shapeCasts_S1_S1x1 : S1.ShapeCasts S1x1
  shapeCasts_S1x1x1_S1x1x1 : S1x1x1.ShapeCasts S1x1x1
  shapeCasts_S1x1_S1x1x1 : S1x1.ShapeCasts S1x1x1
  reducesTo_S2x1x1_S_d0_1_2 : S2x1x1.ReducesTo [0, 1, 2] S_
  h_S_ : 0 < S_.numel
  reducesTo_S32x512_S32_d1 : S32x512.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x512_0_1 : S32x1.BroadcastsInDim S32x512 (![0, 1] : Fin 2 → Fin S32x512.rank)
  reducesTo_S32x512_S512_d0 : S32x512.ReducesTo [0] S512
  bcast_S_S512 : S_.BroadcastsInDim S512 (![] : Fin 0 → Fin S512.rank)
  reducesTo_S512_S_d0 : S512.ReducesTo [0] S_
  bcast_S_S32x2048 : S_.BroadcastsInDim S32x2048 (![] : Fin 0 → Fin S32x2048.rank)
  slices_S32x2048_S32x2047_0_1 : S32x2048.Slices ![0, 1] S32x2047
  slices_S32x2048_S32x2047_0_0 : S32x2048.Slices ![0, 0] S32x2047
  reducesTo_S32x2047_S_d0_1 : S32x2047.ReducesTo [0, 1] S_
  natLt_1_32 : 1 < 32
  bcast_S_S32x2047 : S_.BroadcastsInDim S32x2047 (![] : Fin 0 → Fin S32x2047.rank)
  reducesTo_S32x2047_S2047_d0 : S32x2047.ReducesTo [0] S2047
  bcast_S_S2047 : S_.BroadcastsInDim S2047 (![] : Fin 0 → Fin S2047.rank)
  reducesTo_S2047_S_d0 : S2047.ReducesTo [0] S_
  reducesTo_S32x2048_S_d0_1 : S32x2048.ReducesTo [0, 1] S_
  bcast_S_S32x128 : S_.BroadcastsInDim S32x128 (![] : Fin 0 → Fin S32x128.rank)
  reducesTo_S32x128_S_d0_1 : S32x128.ReducesTo [0, 1] S_
  reducesTo_S32x1_S_d0_1 : S32x1.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x512.size a ≤ S32x2048x512.size a
  hwx0_0 : ∀ i : grid0.Coords, EltTy.bits .f32 = 32 ∨ (Rect.block (s := S32x2048x512) S32x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x64x512.size a ≤ S32x2048x512.size a
  hwx0_1 : ∀ i : grid0.Coords, EltTy.bits .f32 = 32 ∨ (Rect.block (s := S32x2048x512) S32x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x64x512.size a ≤ S32x128x512.size a
  hwx1_0 : ∀ i : grid1.Coords, EltTy.bits .f32 = 32 ∨ (Rect.block (s := S32x128x512) S32x64x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x64x512.size a ≤ S32x128x512.size a
  hwx1_1 : ∀ i : grid1.Coords, EltTy.bits .f32 = 32 ∨ (Rect.block (s := S32x128x512) S32x64x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1.size a ≤ S2x1x1.size a
  hwx1_2 : ∀ i : grid1.Coords, EltTy.bits .f32 = 32 ∨ (Rect.block (s := S2x1x1) S1x1x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S32x64x512.size a ≤ S32x2048x512.size a
  hwx2_0 : ∀ i : grid2.Coords, EltTy.bits .f32 = 32 ∨ (Rect.block (s := S32x2048x512) S32x64x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S32x64x512.size a ≤ S32x2048x512.size a
  hwx2_1 : ∀ i : grid2.Coords, EltTy.bits .f32 = 32 ∨ (Rect.block (s := S32x2048x512) S32x64x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x1.size a ≤ S2x1x1.size a
  hwx2_2 : ∀ i : grid2.Coords, EltTy.bits .f32 = 32 ∨ (Rect.block (s := S2x1x1) S1x1x1.size (cc2_transform_2 i) (hinb2_2 i)).WholeWords (EltTy.packing .f32)

variable [Facts₀]

abbrev win0_0 : Pipeline.Window sig grid0 :=
  Pipeline.Window.ofSpec (Memref.whole main_arg0) S32x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S32x64x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S32x64x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg3) S32x64x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S32x64x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S32x2048x512 : Shape := ⟨3, ![32, 2048, 512]⟩
abbrev S32x128x512 : Shape := ⟨3, ![32, 128, 512]⟩
abbrev S32x512 : Shape := ⟨2, ![32, 512]⟩
abbrev S32x2048 : Shape := ⟨2, ![32, 2048]⟩
abbrev S32x128 : Shape := ⟨2, ![32, 128]⟩
abbrev S32x1 : Shape := ⟨2, ![32, 1]⟩
abbrev S_ : Shape := ⟨0, ![]⟩
abbrev S32x2048x1 : Shape := ⟨3, ![32, 2048, 1]⟩
abbrev S2048x512 : Shape := ⟨2, ![2048, 512]⟩
abbrev S32x128x1 : Shape := ⟨3, ![32, 128, 1]⟩
abbrev S128x512 : Shape := ⟨2, ![128, 512]⟩
abbrev S32 : Shape := ⟨1, ![32]⟩
abbrev S512 : Shape := ⟨1, ![512]⟩
abbrev S32x2047 : Shape := ⟨2, ![32, 2047]⟩
abbrev S2047 : Shape := ⟨1, ![2047]⟩

abbrev nBuf : Space → Nat
  | .hbm => 317
  | .vmem => 0
  | .smem => 0
  | _ => 0

abbrev hbmTy0_0 (i : Nat) : BufTy := match i % 128 with
  | 0 => ⟨S32x2048x512, .f32⟩
  | 1 => ⟨S32x128x512, .f32⟩
  | 2 => ⟨S32x512, .f32⟩
  | 3 => ⟨S32x2048x512, .f32⟩
  | 4 => ⟨S32x2048x512, .f32⟩
  | 5 => ⟨S32x128x512, .f32⟩
  | 6 => ⟨S32x512, .f32⟩
  | 7 => ⟨S32x2048x512, .f32⟩
  | 8 => ⟨S32x2048, .f32⟩
  | 9 => ⟨S32x128, .f32⟩
  | 10 => ⟨S32x1, .f32⟩
  | 11 => ⟨S32x2048, .i32⟩
  | 12 => ⟨S32x2048x512, .f32⟩
  | 13 => ⟨S_, .f32⟩
  | 14 => ⟨S32x2048, .f32⟩
  | 15 => ⟨S32x2048x1, .f32⟩
  | 16 => ⟨S32x2048x1, .f32⟩
  | 17 => ⟨S_, .f32⟩
  | 18 => ⟨S32x2048x1, .f32⟩
  | 19 => ⟨S32x2048x1, .f32⟩
  | 20 => ⟨S32x2048x512, .f32⟩
  | 21 => ⟨S32x2048x512, .f32⟩
  | 22 => ⟨S32x2048x512, .f32⟩
  | 23 => ⟨S_, .f32⟩
  | 24 => ⟨S32x2048, .f32⟩
  | 25 => ⟨S32x2048x1, .f32⟩
  | 26 => ⟨S32x2048x1, .f32⟩
  | 27 => ⟨S_, .f32⟩
  | 28 => ⟨S32x2048x1, .f32⟩
  | 29 => ⟨S32x2048x1, .f32⟩
  | 30 => ⟨S32x2048x512, .f32⟩
  | 31 => ⟨S32x2048x512, .f32⟩
  | 32 => ⟨S_, .f32⟩
  | 33 => ⟨S2048x512, .f32⟩
  | 34 => ⟨S_, .f32⟩
  | 35 => ⟨S2048x512, .f32⟩
  | 36 => ⟨S2048x512, .f32⟩
  | 37 => ⟨S_, .f32⟩
  | 38 => ⟨S2048x512, .f32⟩
  | 39 => ⟨S_, .f32⟩
  | 40 => ⟨S2048x512, .f32⟩
  | 41 => ⟨S2048x512, .f32⟩
  | 42 => ⟨S2048x512, .f32⟩
  | 43 => ⟨S2048x512, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S32x128x512, .f32⟩
  | 53 => ⟨S_, .f32⟩
  | 54 => ⟨S32x128, .f32⟩
  | 55 => ⟨S32x128x1, .f32⟩
  | 56 => ⟨S32x128x1, .f32⟩
  | 57 => ⟨S_, .f32⟩
  | 58 => ⟨S32x128x1, .f32⟩
  | 59 => ⟨S32x128x1, .f32⟩
  | 60 => ⟨S32x128x512, .f32⟩
  | 61 => ⟨S32x128x512, .f32⟩
  | 62 => ⟨S32x128x512, .f32⟩
  | 63 => ⟨S_, .f32⟩
  | 64 => ⟨S32x128, .f32⟩
  | 65 => ⟨S32x128x1, .f32⟩
  | 66 => ⟨S32x128x1, .f32⟩
  | 67 => ⟨S_, .f32⟩
  | 68 => ⟨S32x128x1, .f32⟩
  | 69 => ⟨S32x128x1, .f32⟩
  | 70 => ⟨S32x128x512, .f32⟩
  | 71 => ⟨S32x128x512, .f32⟩
  | 72 => ⟨S_, .f32⟩
  | 73 => ⟨S128x512, .f32⟩
  | 74 => ⟨S_, .f32⟩
  | 75 => ⟨S128x512, .f32⟩
  | 76 => ⟨S128x512, .f32⟩
  | 77 => ⟨S_, .f32⟩
  | 78 => ⟨S128x512, .f32⟩
  | 79 => ⟨S_, .f32⟩
  | 80 => ⟨S128x512, .f32⟩
  | 81 => ⟨S128x512, .f32⟩
  | 82 => ⟨S128x512, .f32⟩
  | 83 => ⟨S128x512, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S32x512, .f32⟩
  | 92 => ⟨S_, .f32⟩
  | 93 => ⟨S32, .f32⟩
  | 94 => ⟨S32x1, .f32⟩
  | 95 => ⟨S32x1, .f32⟩
  | 96 => ⟨S_, .f32⟩
  | 97 => ⟨S32x1, .f32⟩
  | 98 => ⟨S32x1, .f32⟩
  | 99 => ⟨S32x512, .f32⟩
  | 100 => ⟨S32x512, .f32⟩
  | 101 => ⟨S32x512, .f32⟩
  | 102 => ⟨S_, .f32⟩
  | 103 => ⟨S32, .f32⟩
  | 104 => ⟨S32x1, .f32⟩
  | 105 => ⟨S32x1, .f32⟩
  | 106 => ⟨S_, .f32⟩
  | 107 => ⟨S32x1, .f32⟩
  | 108 => ⟨S32x1, .f32⟩
  | 109 => ⟨S32x512, .f32⟩
  | 110 => ⟨S32x512, .f32⟩
  | 111 => ⟨S_, .f32⟩
  | 112 => ⟨S512, .f32⟩
  | 113 => ⟨S_, .f32⟩
  | 114 => ⟨S512, .f32⟩
  | 115 => ⟨S512, .f32⟩
  | 116 => ⟨S_, .f32⟩
  | 117 => ⟨S512, .f32⟩
  | 118 => ⟨S_, .f32⟩
  | 119 => ⟨S512, .f32⟩
  | 120 => ⟨S512, .f32⟩
  | 121 => ⟨S512, .f32⟩
  | 122 => ⟨S512, .f32⟩
  | 123 => ⟨S_, .f32⟩
  | 124 => ⟨S_, .f32⟩
  | 125 => ⟨S_, .f32⟩
  | 126 => ⟨S_, .f32⟩
  | 127 => ⟨S_, .f32⟩
  | _ => ⟨S32x2048x512, .f32⟩

abbrev hbmTy0_1 (i : Nat) : BufTy := match i % 128 with
  | 0 => ⟨S_, .f32⟩
  | 1 => ⟨S_, .f32⟩
  | 2 => ⟨S32x2048x512, .f32⟩
  | 3 => ⟨S_, .f32⟩
  | 4 => ⟨S32x2048, .f32⟩
  | 5 => ⟨S32x2048x1, .f32⟩
  | 6 => ⟨S32x2048x1, .f32⟩
  | 7 => ⟨S_, .f32⟩
  | 8 => ⟨S32x2048x1, .f32⟩
  | 9 => ⟨S32x2048x1, .f32⟩
  | 10 => ⟨S32x2048x512, .f32⟩
  | 11 => ⟨S32x2048x512, .f32⟩
  | 12 => ⟨S32x2048x512, .f32⟩
  | 13 => ⟨S_, .f32⟩
  | 14 => ⟨S32x2048, .f32⟩
  | 15 => ⟨S32x2048x1, .f32⟩
  | 16 => ⟨S32x2048x1, .f32⟩
  | 17 => ⟨S_, .f32⟩
  | 18 => ⟨S32x2048x1, .f32⟩
  | 19 => ⟨S32x2048x1, .f32⟩
  | 20 => ⟨S32x2048x512, .f32⟩
  | 21 => ⟨S32x2048x512, .f32⟩
  | 22 => ⟨S_, .f32⟩
  | 23 => ⟨S2048x512, .f32⟩
  | 24 => ⟨S_, .f32⟩
  | 25 => ⟨S2048x512, .f32⟩
  | 26 => ⟨S2048x512, .f32⟩
  | 27 => ⟨S_, .f32⟩
  | 28 => ⟨S2048x512, .f32⟩
  | 29 => ⟨S_, .f32⟩
  | 30 => ⟨S2048x512, .f32⟩
  | 31 => ⟨S2048x512, .f32⟩
  | 32 => ⟨S2048x512, .f32⟩
  | 33 => ⟨S2048x512, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .i32⟩
  | 44 => ⟨S32x2048, .i32⟩
  | 45 => ⟨S32x2048, .i1⟩
  | 46 => ⟨S_, .i32⟩
  | 47 => ⟨S32x2048, .i32⟩
  | 48 => ⟨S32x2048, .i1⟩
  | 49 => ⟨S32x2048, .i1⟩
  | 50 => ⟨S32x2048, .f32⟩
  | 51 => ⟨S32x2047, .f32⟩
  | 52 => ⟨S32x2047, .f32⟩
  | 53 => ⟨S32x2047, .f32⟩
  | 54 => ⟨S32x2047, .f32⟩
  | 55 => ⟨S_, .f32⟩
  | 56 => ⟨S_, .f32⟩
  | 57 => ⟨S_, .f32⟩
  | 58 => ⟨S_, .f32⟩
  | 59 => ⟨S_, .i32⟩
  | 60 => ⟨S32x2048, .i32⟩
  | 61 => ⟨S32x2048, .i1⟩
  | 62 => ⟨S32x2048, .i32⟩
  | 63 => ⟨S32x2048, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S32x2048, .i32⟩
  | 71 => ⟨S32x2048, .i32⟩
  | 72 => ⟨S_, .i32⟩
  | 73 => ⟨S32x2048, .i32⟩
  | 74 => ⟨S32x2048, .i1⟩
  | 75 => ⟨S_, .i32⟩
  | 76 => ⟨S32x2048, .i32⟩
  | 77 => ⟨S32x2048, .i1⟩
  | 78 => ⟨S_, .i32⟩
  | 79 => ⟨S_, .i1⟩
  | 80 => ⟨S32x2048, .i1⟩
  | 81 => ⟨S32x2048, .i1⟩
  | 82 => ⟨S32x2048, .i1⟩
  | 83 => ⟨S32x2048, .i32⟩
  | 84 => ⟨S32x2048, .i32⟩
  | 85 => ⟨S32x2048, .i32⟩
  | 86 => ⟨S32x2047, .i32⟩
  | 87 => ⟨S32x2047, .i32⟩
  | 88 => ⟨S32x2047, .i32⟩
  | 89 => ⟨S32x2047, .i32⟩
  | 90 => ⟨S_, .i32⟩
  | 91 => ⟨S32x2047, .i32⟩
  | 92 => ⟨S32x2047, .i1⟩
  | 93 => ⟨S_, .i32⟩
  | 94 => ⟨S32x2047, .i32⟩
  | 95 => ⟨S32x2047, .i1⟩
  | 96 => ⟨S32x2047, .i1⟩
  | 97 => ⟨S32x2047, .f32⟩
  | 98 => ⟨S_, .f32⟩
  | 99 => ⟨S2047, .f32⟩
  | 100 => ⟨S_, .f32⟩
  | 101 => ⟨S2047, .f32⟩
  | 102 => ⟨S2047, .f32⟩
  | 103 => ⟨S_, .f32⟩
  | 104 => ⟨S_, .f32⟩
  | 105 => ⟨S_, .f32⟩
  | 106 => ⟨S_, .f32⟩
  | 107 => ⟨S32x2048, .f32⟩
  | 108 => ⟨S32x2047, .f32⟩
  | 109 => ⟨S32x2047, .f32⟩
  | 110 => ⟨S32x2047, .f32⟩
  | 111 => ⟨S32x2047, .f32⟩
  | 112 => ⟨S_, .f32⟩
  | 113 => ⟨S32x2047, .f32⟩
  | 114 => ⟨S32x2047, .i1⟩
  | 115 => ⟨S32x2047, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S32x2048, .f32⟩
  | 123 => ⟨S_, .f32⟩
  | 124 => ⟨S32x2048, .f32⟩
  | 125 => ⟨S32x2048, .f32⟩
  | 126 => ⟨S32x2048, .f32⟩
  | 127 => ⟨S32x2048, .f32⟩
  | _ => ⟨S32x2048x512, .f32⟩

abbrev hbmTy0_2 (i : Nat) : BufTy := match i % 128 with
  | 0 => ⟨S32x2048, .i1⟩
  | 1 => ⟨S32x2048, .f32⟩
  | 2 => ⟨S32x2048, .f32⟩
  | 3 => ⟨S32x2048, .f32⟩
  | 4 => ⟨S32x2048, .f32⟩
  | 5 => ⟨S32x2048, .f32⟩
  | 6 => ⟨S32x2048, .f32⟩
  | 7 => ⟨S32x2048, .f32⟩
  | 8 => ⟨S32x2048, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S32x128, .f32⟩
  | 16 => ⟨S_, .f32⟩
  | 17 => ⟨S32x128, .f32⟩
  | 18 => ⟨S32x128, .f32⟩
  | 19 => ⟨S32x128, .f32⟩
  | 20 => ⟨S32x128, .f32⟩
  | 21 => ⟨S32x128, .i1⟩
  | 22 => ⟨S32x128, .f32⟩
  | 23 => ⟨S32x128, .f32⟩
  | 24 => ⟨S32x128, .f32⟩
  | 25 => ⟨S32x128, .f32⟩
  | 26 => ⟨S32x128, .f32⟩
  | 27 => ⟨S32x128, .f32⟩
  | 28 => ⟨S32x128, .f32⟩
  | 29 => ⟨S32x128, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S32x1, .f32⟩
  | 38 => ⟨S_, .f32⟩
  | 39 => ⟨S32x1, .f32⟩
  | 40 => ⟨S32x1, .f32⟩
  | 41 => ⟨S32x1, .f32⟩
  | 42 => ⟨S32x1, .f32⟩
  | 43 => ⟨S32x1, .i1⟩
  | 44 => ⟨S32x1, .f32⟩
  | 45 => ⟨S32x1, .f32⟩
  | 46 => ⟨S32x1, .f32⟩
  | 47 => ⟨S32x1, .f32⟩
  | 48 => ⟨S32x1, .f32⟩
  | 49 => ⟨S32x1, .f32⟩
  | 50 => ⟨S32x1, .f32⟩
  | 51 => ⟨S32x1, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | _ => ⟨S32x2048x512, .f32⟩

abbrev hbmTy (i : Nat) : BufTy := match i / 128 with
  | 0 => hbmTy0_0 i
  | 1 => hbmTy0_1 i
  | 2 => hbmTy0_2 i
  | _ => ⟨S32x2048x512, .f32⟩

abbrev bufTy : (tb : Table) → Fin (tcTables nBuf tb) → BufTy
  | .hbm, ⟨i, _⟩ => hbmTy i
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_cst_4 : Ref sig .tc := ⟨.hbm, 34, rfl⟩
abbrev main_v17 : Ref sig .tc := ⟨.hbm, 35, rfl⟩
abbrev main_v18 : Ref sig .tc := ⟨.hbm, 36, rfl⟩
abbrev main_cst_5 : Ref sig .tc := ⟨.hbm, 37, rfl⟩
abbrev main_v19 : Ref sig .tc := ⟨.hbm, 38, rfl⟩
abbrev main_cst_6 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_cst_8 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_cst_10 : Ref sig .tc := ⟨.hbm, 50, rfl⟩
abbrev main_v27 : Ref sig .tc := ⟨.hbm, 51, rfl⟩
abbrev main_v28 : Ref sig .tc := ⟨.hbm, 52, rfl⟩
abbrev main_cst_11 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_12 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_15 : Ref sig .tc := ⟨.hbm, 72, rfl⟩
abbrev main_v44 : Ref sig .tc := ⟨.hbm, 73, rfl⟩
abbrev main_cst_16 : Ref sig .tc := ⟨.hbm, 74, rfl⟩
abbrev main_v45 : Ref sig .tc := ⟨.hbm, 75, rfl⟩
abbrev main_v46 : Ref sig .tc := ⟨.hbm, 76, rfl⟩
abbrev main_cst_17 : Ref sig .tc := ⟨.hbm, 77, rfl⟩
abbrev main_v47 : Ref sig .tc := ⟨.hbm, 78, rfl⟩
abbrev main_cst_18 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_19 : Ref sig .tc := ⟨.hbm, 84, rfl⟩
abbrev main_v52 : Ref sig .tc := ⟨.hbm, 85, rfl⟩
abbrev main_cst_20 : Ref sig .tc := ⟨.hbm, 86, rfl⟩
abbrev main_v53 : Ref sig .tc := ⟨.hbm, 87, rfl⟩
abbrev main_cst_21 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_22 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_23 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_24 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_25 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_26 : Ref sig .tc := ⟨.hbm, 111, rfl⟩
abbrev main_v72 : Ref sig .tc := ⟨.hbm, 112, rfl⟩
abbrev main_cst_27 : Ref sig .tc := ⟨.hbm, 113, rfl⟩
abbrev main_v73 : Ref sig .tc := ⟨.hbm, 114, rfl⟩
abbrev main_v74 : Ref sig .tc := ⟨.hbm, 115, rfl⟩
abbrev main_cst_28 : Ref sig .tc := ⟨.hbm, 116, rfl⟩
abbrev main_v75 : Ref sig .tc := ⟨.hbm, 117, rfl⟩
abbrev main_cst_29 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_30 : Ref sig .tc := ⟨.hbm, 123, rfl⟩
abbrev main_v80 : Ref sig .tc := ⟨.hbm, 124, rfl⟩
abbrev main_cst_31 : Ref sig .tc := ⟨.hbm, 125, rfl⟩
abbrev main_v81 : Ref sig .tc := ⟨.hbm, 126, rfl⟩
abbrev main_cst_32 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_cst_33 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_cst_34 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_cst_35 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_cst_36 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_cst_37 : Ref sig .tc := ⟨.hbm, 150, rfl⟩
abbrev main_v100 : Ref sig .tc := ⟨.hbm, 151, rfl⟩
abbrev main_cst_38 : Ref sig .tc := ⟨.hbm, 152, rfl⟩
abbrev main_v101 : Ref sig .tc := ⟨.hbm, 153, rfl⟩
abbrev main_v102 : Ref sig .tc := ⟨.hbm, 154, rfl⟩
abbrev main_cst_39 : Ref sig .tc := ⟨.hbm, 155, rfl⟩
abbrev main_v103 : Ref sig .tc := ⟨.hbm, 156, rfl⟩
abbrev main_cst_40 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_cst_41 : Ref sig .tc := ⟨.hbm, 162, rfl⟩
abbrev main_v108 : Ref sig .tc := ⟨.hbm, 163, rfl⟩
abbrev main_cst_42 : Ref sig .tc := ⟨.hbm, 164, rfl⟩
abbrev main_v109 : Ref sig .tc := ⟨.hbm, 165, rfl⟩
abbrev main_cst_43 : Ref sig .tc := ⟨.hbm, 166, rfl⟩
abbrev main_v110 : Ref sig .tc := ⟨.hbm, 167, rfl⟩
abbrev main_v111 : Ref sig .tc := ⟨.hbm, 168, rfl⟩
abbrev main_cst_44 : Ref sig .tc := ⟨.hbm, 169, rfl⟩
abbrev main_v112 : Ref sig .tc := ⟨.hbm, 170, rfl⟩
abbrev main_c : Ref sig .tc := ⟨.hbm, 171, rfl⟩
abbrev main_v113 : Ref sig .tc := ⟨.hbm, 172, rfl⟩
abbrev main_v114 : Ref sig .tc := ⟨.hbm, 173, rfl⟩
abbrev main_c_45 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_call0_v0 : Ref sig .tc := ⟨.hbm, 179, rfl⟩
abbrev main_call0_v1 : Ref sig .tc := ⟨.hbm, 180, rfl⟩
abbrev main_v119 : Ref sig .tc := ⟨.hbm, 181, rfl⟩
abbrev main_v120 : Ref sig .tc := ⟨.hbm, 182, rfl⟩
abbrev main_cst_46 : Ref sig .tc := ⟨.hbm, 183, rfl⟩
abbrev main_v121 : Ref sig .tc := ⟨.hbm, 184, rfl⟩
abbrev main_cst_47 : Ref sig .tc := ⟨.hbm, 185, rfl⟩
abbrev main_v122 : Ref sig .tc := ⟨.hbm, 186, rfl⟩
abbrev main_c_48 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_c_49 : Ref sig .tc := ⟨.hbm, 192, rfl⟩
abbrev main_call1_v0 : Ref sig .tc := ⟨.hbm, 193, rfl⟩
abbrev main_call1_c : Ref sig .tc := ⟨.hbm, 194, rfl⟩
abbrev main_call1_v1 : Ref sig .tc := ⟨.hbm, 195, rfl⟩
abbrev main_call1_c_0 : Ref sig .tc := ⟨.hbm, 196, rfl⟩
abbrev main_call1_v2 : Ref sig .tc := ⟨.hbm, 197, rfl⟩
abbrev main_call1_v3 : Ref sig .tc := ⟨.hbm, 198, rfl⟩
abbrev main_call1_v4 : Ref sig .tc := ⟨.hbm, 199, rfl⟩
abbrev main_call1_c_1 : Ref sig .tc := ⟨.hbm, 200, rfl⟩
abbrev main_call1_v5 : Ref sig .tc := ⟨.hbm, 201, rfl⟩
abbrev main_call1_v6 : Ref sig .tc := ⟨.hbm, 202, rfl⟩
abbrev main_call1_c_2 : Ref sig .tc := ⟨.hbm, 203, rfl⟩
abbrev main_call1_v7 : Ref sig .tc := ⟨.hbm, 204, rfl⟩
abbrev main_call1_v8 : Ref sig .tc := ⟨.hbm, 205, rfl⟩
abbrev main_call1_c_3 : Ref sig .tc := ⟨.hbm, 206, rfl⟩
abbrev main_call1_v9 : Ref sig .tc := ⟨.hbm, 207, rfl⟩
abbrev main_call1_v10 : Ref sig .tc := ⟨.hbm, 208, rfl⟩
abbrev main_call1_v11 : Ref sig .tc := ⟨.hbm, 209, rfl⟩
abbrev main_call1_v12 : Ref sig .tc := ⟨.hbm, 210, rfl⟩
abbrev main_call1_v13 : Ref sig .tc := ⟨.hbm, 211, rfl⟩
abbrev main_call1_v14 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_c_50 : Ref sig .tc := ⟨.hbm, 218, rfl⟩
abbrev main_v132 : Ref sig .tc := ⟨.hbm, 219, rfl⟩
abbrev main_v133 : Ref sig .tc := ⟨.hbm, 220, rfl⟩
abbrev main_c_51 : Ref sig .tc := ⟨.hbm, 221, rfl⟩
abbrev main_v134 : Ref sig .tc := ⟨.hbm, 222, rfl⟩
abbrev main_v135 : Ref sig .tc := ⟨.hbm, 223, rfl⟩
abbrev main_v136 : Ref sig .tc := ⟨.hbm, 224, rfl⟩
abbrev main_v137 : Ref sig .tc := ⟨.hbm, 225, rfl⟩
abbrev main_cst_52 : Ref sig .tc := ⟨.hbm, 226, rfl⟩
abbrev main_v138 : Ref sig .tc := ⟨.hbm, 227, rfl⟩
abbrev main_cst_53 : Ref sig .tc := ⟨.hbm, 228, rfl⟩
abbrev main_v139 : Ref sig .tc := ⟨.hbm, 229, rfl⟩
abbrev main_v140 : Ref sig .tc := ⟨.hbm, 230, rfl⟩
abbrev main_cst_54 : Ref sig .tc := ⟨.hbm, 231, rfl⟩
abbrev main_v141 : Ref sig .tc := ⟨.hbm, 232, rfl⟩
abbrev main_cst_55 : Ref sig .tc := ⟨.hbm, 233, rfl⟩
abbrev main_v142 : Ref sig .tc := ⟨.hbm, 234, rfl⟩
abbrev main_v143 : Ref sig .tc := ⟨.hbm, 235, rfl⟩
abbrev main_call2_v0 : Ref sig .tc := ⟨.hbm, 236, rfl⟩
abbrev main_call2_v1 : Ref sig .tc := ⟨.hbm, 237, rfl⟩
abbrev main_v144 : Ref sig .tc := ⟨.hbm, 238, rfl⟩
abbrev main_v145 : Ref sig .tc := ⟨.hbm, 239, rfl⟩
abbrev main_cst_56 : Ref sig .tc := ⟨.hbm, 240, rfl⟩
abbrev main_v146 : Ref sig .tc := ⟨.hbm, 241, rfl⟩
abbrev main_v147 : Ref sig .tc := ⟨.hbm, 242, rfl⟩
abbrev main_v148 : Ref sig .tc := ⟨.hbm, 243, rfl⟩
abbrev main_cst_57 : Ref sig .tc := ⟨.hbm, 244, rfl⟩
abbrev main_v149 : Ref sig .tc := ⟨.hbm, 245, rfl⟩
abbrev main_cst_58 : Ref sig .tc := ⟨.hbm, 246, rfl⟩
abbrev main_v150 : Ref sig .tc := ⟨.hbm, 247, rfl⟩
abbrev main_v151 : Ref sig .tc := ⟨.hbm, 248, rfl⟩
abbrev main_v152 : Ref sig .tc := ⟨.hbm, 249, rfl⟩
abbrev main_v153 : Ref sig .tc := ⟨.hbm, 250, rfl⟩
abbrev main_call3_cst : Ref sig .tc := ⟨.hbm, 251, rfl⟩
abbrev main_call3_v0 : Ref sig .tc := ⟨.hbm, 252, rfl⟩
abbrev main_call3_v1 : Ref sig .tc := ⟨.hbm, 253, rfl⟩
abbrev main_call3_v2 : Ref sig .tc := ⟨.hbm, 254, rfl⟩
abbrev main_call3_v3 : Ref sig .tc := ⟨.hbm, 255, rfl⟩
abbrev main_call3_v4 : Ref sig .tc := ⟨.hbm, 256, rfl⟩
abbrev main_call3_v5 : Ref sig .tc := ⟨.hbm, 257, rfl⟩
abbrev main_call3_v6 : Ref sig .tc := ⟨.hbm, 258, rfl⟩
abbrev main_call3_v7 : Ref sig .tc := ⟨.hbm, 259, rfl⟩
abbrev main_call3_v8 : Ref sig .tc := ⟨.hbm, 260, rfl⟩
abbrev main_call3_v9 : Ref sig .tc := ⟨.hbm, 261, rfl⟩
abbrev main_call3_v10 : Ref sig .tc := ⟨.hbm, 262, rfl⟩
abbrev main_call3_v11 : Ref sig .tc := ⟨.hbm, 263, rfl⟩
abbrev main_v154 : Ref sig .tc := ⟨.hbm, 264, rfl⟩
abbrev main_cst_59 : Ref sig .tc := ⟨.hbm, 265, rfl⟩
abbrev main_v155 : Ref sig .tc := ⟨.hbm, 266, rfl⟩
abbrev main_cst_60 : Ref sig .tc := ⟨.hbm, 267, rfl⟩
abbrev main_v156 : Ref sig .tc := ⟨.hbm, 268, rfl⟩
abbrev main_cst_61 : Ref sig .tc := ⟨.hbm, 269, rfl⟩
abbrev main_v157 : Ref sig .tc := ⟨.hbm, 270, rfl⟩
abbrev main_v158 : Ref sig .tc := ⟨.hbm, 271, rfl⟩
abbrev main_call4_cst : Ref sig .tc := ⟨.hbm, 272, rfl⟩
abbrev main_call4_v0 : Ref sig .tc := ⟨.hbm, 273, rfl⟩
abbrev main_call4_v1 : Ref sig .tc := ⟨.hbm, 274, rfl⟩
abbrev main_call4_v2 : Ref sig .tc := ⟨.hbm, 275, rfl⟩
abbrev main_call4_v3 : Ref sig .tc := ⟨.hbm, 276, rfl⟩
abbrev main_call4_v4 : Ref sig .tc := ⟨.hbm, 277, rfl⟩
abbrev main_call4_v5 : Ref sig .tc := ⟨.hbm, 278, rfl⟩
abbrev main_call4_v6 : Ref sig .tc := ⟨.hbm, 279, rfl⟩
abbrev main_call4_v7 : Ref sig .tc := ⟨.hbm, 280, rfl⟩
abbrev main_call4_v8 : Ref sig .tc := ⟨.hbm, 281, rfl⟩
abbrev main_call4_v9 : Ref sig .tc := ⟨.hbm, 282, rfl⟩
abbrev main_call4_v10 : Ref sig .tc := ⟨.hbm, 283, rfl⟩
abbrev main_call4_v11 : Ref sig .tc := ⟨.hbm, 284, rfl⟩
abbrev main_v159 : Ref sig .tc := ⟨.hbm, 285, rfl⟩
abbrev main_cst_62 : Ref sig .tc := ⟨.hbm, 286, rfl⟩
abbrev main_v160 : Ref sig .tc := ⟨.hbm, 287, rfl⟩
abbrev main_cst_63 : Ref sig .tc := ⟨.hbm, 288, rfl⟩
abbrev main_v161 : Ref sig .tc := ⟨.hbm, 289, rfl⟩
abbrev main_cst_64 : Ref sig .tc := ⟨.hbm, 290, rfl⟩
abbrev main_v162 : Ref sig .tc := ⟨.hbm, 291, rfl⟩
abbrev main_v163 : Ref sig .tc := ⟨.hbm, 292, rfl⟩
abbrev main_v164 : Ref sig .tc := ⟨.hbm, 293, rfl⟩
abbrev main_call5_cst : Ref sig .tc := ⟨.hbm, 294, rfl⟩
abbrev main_call5_v0 : Ref sig .tc := ⟨.hbm, 295, rfl⟩
abbrev main_call5_v1 : Ref sig .tc := ⟨.hbm, 296, rfl⟩
abbrev main_call5_v2 : Ref sig .tc := ⟨.hbm, 297, rfl⟩
abbrev main_call5_v3 : Ref sig .tc := ⟨.hbm, 298, rfl⟩
abbrev main_call5_v4 : Ref sig .tc := ⟨.hbm, 299, rfl⟩
abbrev main_call5_v5 : Ref sig .tc := ⟨.hbm, 300, rfl⟩
abbrev main_call5_v6 : Ref sig .tc := ⟨.hbm, 301, rfl⟩
abbrev main_call5_v7 : Ref sig .tc := ⟨.hbm, 302, rfl⟩
abbrev main_call5_v8 : Ref sig .tc := ⟨.hbm, 303, rfl⟩
abbrev main_call5_v9 : Ref sig .tc := ⟨.hbm, 304, rfl⟩
abbrev main_call5_v10 : Ref sig .tc := ⟨.hbm, 305, rfl⟩
abbrev main_call5_v11 : Ref sig .tc := ⟨.hbm, 306, rfl⟩
abbrev main_v165 : Ref sig .tc := ⟨.hbm, 307, rfl⟩
abbrev main_cst_65 : Ref sig .tc := ⟨.hbm, 308, rfl⟩
abbrev main_v166 : Ref sig .tc := ⟨.hbm, 309, rfl⟩
abbrev main_cst_66 : Ref sig .tc := ⟨.hbm, 310, rfl⟩
abbrev main_v167 : Ref sig .tc := ⟨.hbm, 311, rfl⟩
abbrev main_cst_67 : Ref sig .tc := ⟨.hbm, 312, rfl⟩
abbrev main_v168 : Ref sig .tc := ⟨.hbm, 313, rfl⟩
abbrev main_v169 : Ref sig .tc := ⟨.hbm, 314, rfl⟩
abbrev main_v170 : Ref sig .tc := ⟨.hbm, 315, rfl⟩
abbrev main_v171 : Ref sig .tc := ⟨.hbm, 316, rfl⟩

abbrev nD : Nat := 1
abbrev τ : Topo := Topo.v7x

variable {F : FTy → Type} [FloatOps F]

class Facts₀ : Prop where
  reducesTo_S32x2048x512_S32x2048_d2 : S32x2048x512.ReducesTo [2] S32x2048
  h_S_ : 0 < S_.numel
  bcast_S32x2048_S32x2048x1_0_1 : S32x2048.BroadcastsInDim S32x2048x1 (![0, 1] : Fin 2 → Fin S32x2048x1.rank)
  bcast_S_S32x2048x1 : S_.BroadcastsInDim S32x2048x1 (![] : Fin 0 → Fin S32x2048x1.rank)
  bcast_S32x2048x1_S32x2048x512_0_1_2 : S32x2048x1.BroadcastsInDim S32x2048x512 (![0, 1, 2] : Fin 3 → Fin S32x2048x512.rank)
  reducesTo_S32x2048x512_S2048x512_d0 : S32x2048x512.ReducesTo [0] S2048x512
  bcast_S_S2048x512 : S_.BroadcastsInDim S2048x512 (![] : Fin 0 → Fin S2048x512.rank)
  reducesTo_S2048x512_S_d0_1 : S2048x512.ReducesTo [0, 1] S_
  reducesTo_S32x128x512_S32x128_d2 : S32x128x512.ReducesTo [2] S32x128
  bcast_S32x128_S32x128x1_0_1 : S32x128.BroadcastsInDim S32x128x1 (![0, 1] : Fin 2 → Fin S32x128x1.rank)
  bcast_S_S32x128x1 : S_.BroadcastsInDim S32x128x1 (![] : Fin 0 → Fin S32x128x1.rank)
  bcast_S32x128x1_S32x128x512_0_1_2 : S32x128x1.BroadcastsInDim S32x128x512 (![0, 1, 2] : Fin 3 → Fin S32x128x512.rank)
  reducesTo_S32x128x512_S128x512_d0 : S32x128x512.ReducesTo [0] S128x512
  bcast_S_S128x512 : S_.BroadcastsInDim S128x512 (![] : Fin 0 → Fin S128x512.rank)
  reducesTo_S128x512_S_d0_1 : S128x512.ReducesTo [0, 1] S_
  reducesTo_S32x512_S32_d1 : S32x512.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x512_0_1 : S32x1.BroadcastsInDim S32x512 (![0, 1] : Fin 2 → Fin S32x512.rank)
  reducesTo_S32x512_S512_d0 : S32x512.ReducesTo [0] S512
  bcast_S_S512 : S_.BroadcastsInDim S512 (![] : Fin 0 → Fin S512.rank)
  reducesTo_S512_S_d0 : S512.ReducesTo [0] S_
  bcast_S_S32x2048 : S_.BroadcastsInDim S32x2048 (![] : Fin 0 → Fin S32x2048.rank)
  slices_S32x2048_S32x2047_0_1 : S32x2048.Slices ![0, 1] S32x2047
  slices_S32x2048_S32x2047_0_0 : S32x2048.Slices ![0, 0] S32x2047
  reducesTo_S32x2047_S_d0_1 : S32x2047.ReducesTo [0, 1] S_
  natLt_1_32 : 1 < 32
  bcast_S_S32x2047 : S_.BroadcastsInDim S32x2047 (![] : Fin 0 → Fin S32x2047.rank)
  reducesTo_S32x2047_S2047_d0 : S32x2047.ReducesTo [0] S2047
  bcast_S_S2047 : S_.BroadcastsInDim S2047 (![] : Fin 0 → Fin S2047.rank)
  reducesTo_S2047_S_d0 : S2047.ReducesTo [0] S_
  reducesTo_S32x2048_S_d0_1 : S32x2048.ReducesTo [0, 1] S_
  bcast_S_S32x128 : S_.BroadcastsInDim S32x128 (![] : Fin 0 → Fin S32x128.rank)
  reducesTo_S32x128_S_d0_1 : S32x128.ReducesTo [0, 1] S_
  reducesTo_S32x1_S_d0_1 : S32x1.ReducesTo [0, 1] S_

variable [Facts₀]

class Facts : Prop extends Facts₀ where

variable [Facts]
-- ==== Proof.KRun.lean ====
import proofs.«139213_j64381559767355_2_alg».proof.Proof.Gen.KernelIdeal.Frame

/-! # The kernel program's run, with its result named

Every weakly fair execution of the program terminates without a fault; in the final state the result buffer
holds the last boundary's contents `Gen.W18` at that buffer (a fold of the host operations and of the three
regions' write-backs over the launch memory), and each of the twelve argument arrays holds what it held at launch. -/

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination, no fault, the result buffer at the last boundary's contents, the arguments as launched.
    The last thread state holds every unscoped buffer at `Gen.W18`; it is read against the final state, at the
    result buffer as it stands and at each argument through the fold back to the launch memory. -/
theorem run_named : θ_run defs (onTc (τ := τ) (main (F := F))) ⟨m, fun _ => 0, ρ⟩ (fun r => ∀ c : Dev nD,
      r.2.mem ((c.tc : Thread nD τ).loc main_v101) = Gen.W18 m ρ c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v101 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c)⟩)

end Cert.KernelIdeal.KRun

end
-- ==== Proof.RefRunDefs.lean ====
import proofs.«139213_j64381559767355_2_alg».proof.ReferenceIdeal

noncomputable section

namespace Cert.ReferenceIdeal.RefRun

open Cert.ReferenceIdeal Idealize.ShloMosaic Idealize.ShloMosaic.TcCoe Idealize.SL.Sem
open Facts₀

variable {F : FTy → Type} [FloatOps F] [Facts]

/-- A feature array of shape [32, 2048, 512] scaled along its last axis: x / max (sqrt (Σ_d x²)) ε, ε the constant 0x2B8CBCCC. -/
def nrmL (x : (⟨S32x2048x512, .f32⟩ : BufTy).Contents (Elt F)) :
    (⟨S32x2048x512, .f32⟩ : BufTy).Contents (Elt F) :=
  (Host.divf x (broadcastInDim S32x2048x512 ![0, 1, 2] bcast_S32x2048x1_S32x2048x512_0_1_2 (maximumf (Host.sqrt (broadcastInDim S32x2048x1 ![0, 1] bcast_S32x2048_S32x2048x1_0_1 (Host.reduceAdd (mulf x x) (constant (F := F) S_ .f32 0x00000000#32) reducesTo_S32x2048x512_S32x2048_d2 h_S_))) (broadcastInDim S32x2048x1 ![] bcast_S_S32x2048x1 (constant (F := F) S_ .f32 0x2B8CBCCC#32)))))

/-- The mean over the batch axis of a [32, 2048, 512] array: (Σ_b y) / 32. -/
def meanL (y : (⟨S32x2048x512, .f32⟩ : BufTy).Contents (Elt F)) :
    (⟨S2048x512, .f32⟩ : BufTy).Contents (Elt F) :=
  (Host.divf (Host.reduceAdd y (constant (F := F) S_ .f32 0x00000000#32) reducesTo_S32x2048x512_S2048x512_d0 h_S_) (broadcastInDim S2048x512 ![] bcast_S_S2048x512 (constant (F := F) S_ .f32 0x42000000#32)))

/-- The mean over [2048, 512] of the squared difference: (Σ (a − b)²) / 2²⁰. -/
def msdL (a : (⟨S2048x512, .f32⟩ : BufTy).Contents (Elt F)) (b : (⟨S2048x512, .f32⟩ : BufTy).Contents (Elt F)) :
    (⟨S_, .f32⟩ : BufTy).Contents (Elt F) :=
  (Host.divf (Host.reduceAdd (mulf (subf a b) (subf a b)) (constant (F := F) S_ .f32 0x00000000#32) reducesTo_S2048x512_S_d0_1 h_S_) (constant (F := F) S_ .f32 0x49800000#32))

/-- The same scaling at shape [32, 128, 512]. -/
def nrmP (x : (⟨S32x128x512, .f32⟩ : BufTy).Contents (Elt F)) :
    (⟨S32x128x512, .f32⟩ : BufTy).Contents (Elt F) :=
  (Host.divf x (broadcastInDim S32x128x512 ![0, 1, 2] bcast_S32x128x1_S32x128x512_0_1_2 (maximumf (Host.sqrt (broadcastInDim S32x128x1 ![0, 1] bcast_S32x128_S32x128x1_0_1 (Host.reduceAdd (mulf x x) (constant (F := F) S_ .f32 0x00000000#32) reducesTo_S32x128x512_S32x128_d2 h_S_))) (broadcastInDim S32x128x1 ![] bcast_S_S32x128x1 (constant (F := F) S_ .f32 0x2B8CBCCC#32)))))

/-- The batch mean at shape [32, 128, 512]. -/
def meanP (y : (⟨S32x128x512, .f32⟩ : BufTy).Contents (Elt F)) :
    (⟨S128x512, .f32⟩ : BufTy).Contents (Elt F) :=
  (Host.divf (Host.reduceAdd y (constant (F := F) S_ .f32 0x00000000#32) reducesTo_S32x128x512_S128x512_d0 h_S_) (broadcastInDim S128x512 ![] bcast_S_S128x512 (constant (F := F) S_ .f32 0x42000000#32)))

/-- The mean over [128, 512] of the squared difference: (Σ (a − b)²) / 65536. -/
def msdP (a : (⟨S128x512, .f32⟩ : BufTy).Contents (Elt F)) (b : (⟨S128x512, .f32⟩ : BufTy).Contents (Elt F)) :
    (⟨S_, .f32⟩ : BufTy).Contents (Elt F) :=
  (Host.divf (Host.reduceAdd (mulf (subf a b) (subf a b)) (constant (F := F) S_ .f32 0x00000000#32) reducesTo_S128x512_S_d0_1 h_S_) (constant (F := F) S_ .f32 0x47800000#32))

/-- The same scaling at shape [32, 512]. -/
def nrmG (x : (⟨S32x512, .f32⟩ : BufTy).Contents (Elt F)) :
    (⟨S32x512, .f32⟩ : BufTy).Contents (Elt F) :=
  (Host.divf x (broadcastInDim S32x512 ![0, 1] bcast_S32x1_S32x512_0_1 (maximumf (Host.sqrt (broadcastInDim S32x1 ![0] bcast_S32_S32x1_0 (Host.reduceAdd (mulf x x) (constant (F := F) S_ .f32 0x00000000#32) reducesTo_S32x512_S32_d1 h_S_))) (broadcastInDim S32x1 ![] bcast_S_S32x1 (constant (F := F) S_ .f32 0x2B8CBCCC#32)))))

/-- The batch mean at shape [32, 512]. -/
def meanG (y : (⟨S32x512, .f32⟩ : BufTy).Contents (Elt F)) :
    (⟨S512, .f32⟩ : BufTy).Contents (Elt F) :=
  (Host.divf (Host.reduceAdd y (constant (F := F) S_ .f32 0x00000000#32) reducesTo_S32x512_S512_d0 h_S_) (broadcastInDim S512 ![] bcast_S_S512 (constant (F := F) S_ .f32 0x42000000#32)))

/-- The mean over [512] of the squared difference: (Σ (a − b)²) / 512. -/
def msdG (a : (⟨S512, .f32⟩ : BufTy).Contents (Elt F)) (b : (⟨S512, .f32⟩ : BufTy).Contents (Elt F)) :
    (⟨S_, .f32⟩ : BufTy).Contents (Elt F) :=
  (Host.divf (Host.reduceAdd (mulf (subf a b) (subf a b)) (constant (F := F) S_ .f32 0x00000000#32) reducesTo_S512_S_d0 h_S_) (constant (F := F) S_ .f32 0x44000000#32))

/-- The weighted sum of the four feature terms, as the operations spell it: ((((0 + 0.4·mL) + 0.4·mP) + 0.2·mG) + 0.1·mI) / 4. -/
def combine (mL : (⟨S_, .f32⟩ : BufTy).Contents (Elt F)) (mP : (⟨S_, .f32⟩ : BufTy).Contents (Elt F)) (mG : (⟨S_, .f32⟩ : BufTy).Contents (Elt F)) (mI : (⟨S_, .f32⟩ : BufTy).Contents (Elt F)) :
    (⟨S_, .f32⟩ : BufTy).Contents (Elt F) :=
  (Host.divf (addf (addf (addf (addf (constant (F := F) S_ .f32 0x00000000#32) (mulf (constant (F := F) S_ .f32 0x3ECCCCCD#32) mL)) (mulf (constant (F := F) S_ .f32 0x3ECCCCCD#32) mP)) (mulf (constant (F := F) S_ .f32 0x3E4CCCCD#32) mG)) (mulf (constant (F := F) S_ .f32 0x3DCCCCCD#32) mI)) (constant (F := F) S_ .f32 0x40800000#32))

/-- The token term's first summand: the mean absolute step of the indicator 256 ≤ tok < 768 along the sequence. -/
def mus1 (tok : (⟨S32x2048, .i32⟩ : BufTy).Contents (Elt F)) :
    (⟨S_, .f32⟩ : BufTy).Contents (Elt F) :=
  (Host.divf (Host.reduceAdd (Host.absf (subf (extractStridedSlice S32x2047 ![0, 1] (uitofp (F := F) .f32 (andi (cmpi .sge tok (broadcastInDim S32x2048 ![] bcast_S_S32x2048 (constantI S_ 32 256#32))) (cmpi .slt tok (broadcastInDim S32x2048 ![] bcast_S_S32x2048 (constantI S_ 32 768#32))))) slices_S32x2048_S32x2047_0_1) (extractStridedSlice S32x2047 ![0, 0] (uitofp (F := F) .f32 (andi (cmpi .sge tok (broadcastInDim S32x2048 ![] bcast_S_S32x2048 (constantI S_ 32 256#32))) (cmpi .slt tok (broadcastInDim S32x2048 ![] bcast_S_S32x2048 (constantI S_ 32 768#32))))) slices_S32x2048_S32x2047_0_0))) (constant (F := F) S_ .f32 0x00000000#32) reducesTo_S32x2047_S_d0_1 h_S_) (constant (F := F) S_ .f32 0x477FE000#32))

/-- The tokens below 128, the others replaced by 0. -/
def tokm (tok : (⟨S32x2048, .i32⟩ : BufTy).Contents (Elt F)) :
    (⟨S32x2048, .i32⟩ : BufTy).Contents (Elt F) :=
  (muli tok (extui 32 (cmpi .slt tok (broadcastInDim S32x2048 ![] bcast_S_S32x2048 (constantI S_ 32 128#32))) natLt_1_32))

/-- The floored remainder modulo 12 (sign of the divisor), as jax spells it. -/
def rem12 (t : (⟨S32x2048, .i32⟩ : BufTy).Contents (Elt F)) :
    (⟨S32x2048, .i32⟩ : BufTy).Contents (Elt F) :=
  (select (andi (cmpi .ne (cmpi .slt (Host.remsi t (broadcastInDim S32x2048 ![] bcast_S_S32x2048 (select (cmpi .eq ((constantI S_ 32 12#32)) (constantI S_ 32 0#32)) (constantI S_ 32 1#32) ((constantI S_ 32 12#32))))) (broadcastInDim S32x2048 ![] bcast_S_S32x2048 (constantI S_ 32 0#32))) (broadcastInDim S32x2048 ![] bcast_S_S32x2048 (cmpi .slt (select (cmpi .eq ((constantI S_ 32 12#32)) (constantI S_ 32 0#32)) (constantI S_ 32 1#32) ((constantI S_ 32 12#32))) (constantI S_ 32 0#32)))) (cmpi .ne (Host.remsi t (broadcastInDim S32x2048 ![] bcast_S_S32x2048 (select (cmpi .eq ((constantI S_ 32 12#32)) (constantI S_ 32 0#32)) (constantI S_ 32 1#32) ((constantI S_ 32 12#32))))) (broadcastInDim S32x2048 ![] bcast_S_S32x2048 (constantI S_ 32 0#32)))) (addi (Host.remsi t (broadcastInDim S32x2048 ![] bcast_S_S32x2048 (select (cmpi .eq ((constantI S_ 32 12#32)) (constantI S_ 32 0#32)) (constantI S_ 32 1#32) ((constantI S_ 32 12#32))))) (broadcastInDim S32x2048 ![] bcast_S_S32x2048 (select (cmpi .eq ((constantI S_ 32 12#32)) (constantI S_ 32 0#32)) (constantI S_ 32 1#32) ((constantI S_ 32 12#32))))) (Host.remsi t (broadcastInDim S32x2048 ![] bcast_S_S32x2048 (select (cmpi .eq ((constantI S_ 32 12#32)) (constantI S_ 32 0#32)) (constantI S_ 32 1#32) ((constantI S_ 32 12#32))))))

/-- The token term's second summand: how often consecutive pitch classes differ by 6 or 11, averaged. -/
def mus2 (pc : (⟨S32x2048, .i32⟩ : BufTy).Contents (Elt F)) :
    (⟨S_, .f32⟩ : BufTy).Contents (Elt F) :=
  (Host.divf (Host.reduceAdd (Host.divf (Host.reduceAdd (uitofp (F := F) .f32 (ori (cmpi .eq (absi (subi (extractStridedSlice S32x2047 ![0, 0] pc slices_S32x2048_S32x2047_0_0) (extractStridedSlice S32x2047 ![0, 1] pc slices_S32x2048_S32x2047_0_1))) (broadcastInDim S32x2047 ![] bcast_S_S32x2047 (constantI S_ 32 6#32))) (cmpi .eq (absi (subi (extractStridedSlice S32x2047 ![0, 0] pc slices_S32x2048_S32x2047_0_0) (extractStridedSlice S32x2047 ![0, 1] pc slices_S32x2048_S32x2047_0_1))) (broadcastInDim S32x2047 ![] bcast_S_S32x2047 (constantI S_ 32 11#32))))) (constant (F := F) S_ .f32 0x00000000#32) reducesTo_S32x2047_S2047_d0 h_S_) (broadcastInDim S2047 ![] bcast_S_S2047 (constant (F := F) S_ .f32 0x42000000#32))) (constant (F := F) S_ .f32 0x00000000#32) reducesTo_S2047_S_d0 h_S_) (constant (F := F) S_ .f32 0x45000000#32))

/-- The token term's third summand: how often consecutive masked tokens differ by more than 12. -/
def mus3 (t : (⟨S32x2048, .i32⟩ : BufTy).Contents (Elt F)) :
    (⟨S_, .f32⟩ : BufTy).Contents (Elt F) :=
  (Host.divf (Host.reduceAdd (uitofp (F := F) .f32 (cmpf .ogt (Host.absf (subf (extractStridedSlice S32x2047 ![0, 1] (sitofp (F := F) .f32 t) slices_S32x2048_S32x2047_0_1) (extractStridedSlice S32x2047 ![0, 0] (sitofp (F := F) .f32 t) slices_S32x2048_S32x2047_0_0))) (broadcastInDim S32x2047 ![] bcast_S_S32x2047 (constant (F := F) S_ .f32 0x41400000#32)))) (constant (F := F) S_ .f32 0x00000000#32) reducesTo_S32x2047_S_d0_1 h_S_) (constant (F := F) S_ .f32 0x477FE000#32))

/-- The token term: the three summands added in the program's order. -/
def musical (tok : (⟨S32x2048, .i32⟩ : BufTy).Contents (Elt F)) :
    (⟨S_, .f32⟩ : BufTy).Contents (Elt F) :=
  (addf (addf (mus1 tok) (mus2 (rem12 (tokm tok)))) (mus3 (tokm tok)))

/-- softplus at shape [32, 2048], as jax spells it (the NaN branch kept). -/
def spL (x : (⟨S32x2048, .f32⟩ : BufTy).Contents (Elt F)) :
    (⟨S32x2048, .f32⟩ : BufTy).Contents (Elt F) :=
  (select (cmpf .une (subf x (broadcastInDim S32x2048 ![] bcast_S_S32x2048 (constant (F := F) S_ .f32 0x00000000#32))) (subf x (broadcastInDim S32x2048 ![] bcast_S_S32x2048 (constant (F := F) S_ .f32 0x00000000#32)))) (addf x (broadcastInDim S32x2048 ![] bcast_S_S32x2048 (constant (F := F) S_ .f32 0x00000000#32))) (addf (maximumf x (broadcastInDim S32x2048 ![] bcast_S_S32x2048 (constant (F := F) S_ .f32 0x00000000#32))) (Host.log1p (Host.exp (Host.negf (Host.absf (subf x (broadcastInDim S32x2048 ![] bcast_S_S32x2048 (constant (F := F) S_ .f32 0x00000000#32)))))))))

/-- softplus at shape [32, 128]. -/
def spP (x : (⟨S32x128, .f32⟩ : BufTy).Contents (Elt F)) :
    (⟨S32x128, .f32⟩ : BufTy).Contents (Elt F) :=
  (select (cmpf .une (subf x (broadcastInDim S32x128 ![] bcast_S_S32x128 (constant (F := F) S_ .f32 0x00000000#32))) (subf x (broadcastInDim S32x128 ![] bcast_S_S32x128 (constant (F := F) S_ .f32 0x00000000#32)))) (addf x (broadcastInDim S32x128 ![] bcast_S_S32x128 (constant (F := F) S_ .f32 0x00000000#32))) (addf (maximumf x (broadcastInDim S32x128 ![] bcast_S_S32x128 (constant (F := F) S_ .f32 0x00000000#32))) (Host.log1p (Host.exp (Host.negf (Host.absf (subf x (broadcastInDim S32x128 ![] bcast_S_S32x128 (constant (F := F) S_ .f32 0x00000000#32)))))))))

/-- softplus at shape [32, 1]. -/
def spG (x : (⟨S32x1, .f32⟩ : BufTy).Contents (Elt F)) :
    (⟨S32x1, .f32⟩ : BufTy).Contents (Elt F) :=
  (select (cmpf .une (subf x (broadcastInDim S32x1 ![] bcast_S_S32x1 (constant (F := F) S_ .f32 0x00000000#32))) (subf x (broadcastInDim S32x1 ![] bcast_S_S32x1 (constant (F := F) S_ .f32 0x00000000#32)))) (addf x (broadcastInDim S32x1 ![] bcast_S_S32x1 (constant (F := F) S_ .f32 0x00000000#32))) (addf (maximumf x (broadcastInDim S32x1 ![] bcast_S_S32x1 (constant (F := F) S_ .f32 0x00000000#32))) (Host.log1p (Host.exp (Host.negf (Host.absf (subf x (broadcastInDim S32x1 ![] bcast_S_S32x1 (constant (F := F) S_ .f32 0x00000000#32)))))))))

/-- The softplus term: 0.4·mean softplus(−l) + 0.4·mean softplus(−p) + 0.2·mean softplus(−g), added in the program's order. -/
def adv (l : (⟨S32x2048, .f32⟩ : BufTy).Contents (Elt F)) (p : (⟨S32x128, .f32⟩ : BufTy).Contents (Elt F)) (g : (⟨S32x1, .f32⟩ : BufTy).Contents (Elt F)) :
    (⟨S_, .f32⟩ : BufTy).Contents (Elt F) :=
  (addf (addf (mulf (constant (F := F) S_ .f32 0x3ECCCCCD#32) (Host.divf (Host.reduceAdd (spL (Host.negf l)) (constant (F := F) S_ .f32 0x00000000#32) reducesTo_S32x2048_S_d0_1 h_S_) (constant (F := F) S_ .f32 0x47800000#32))) (mulf (constant (F := F) S_ .f32 0x3ECCCCCD#32) (Host.divf (Host.reduceAdd (spP (Host.negf p)) (constant (F := F) S_ .f32 0x00000000#32) reducesTo_S32x128_S_d0_1 h_S_) (constant (F := F) S_ .f32 0x45800000#32)))) (mulf (constant (F := F) S_ .f32 0x3E4CCCCD#32) (Host.divf (Host.reduceAdd (spG (Host.negf g)) (constant (F := F) S_ .f32 0x00000000#32) reducesTo_S32x1_S_d0_1 h_S_) (constant (F := F) S_ .f32 0x42000000#32))))

/-- The scalar of one [32, 2048, 512] feature pair: the mean over (s, d) of (mean_b f̂ − mean_b r̂)², each array scaled
    along its last axis first. `r` is the real features, `f` the fake ones. -/
def featL (r f : (⟨S32x2048x512, .f32⟩ : BufTy).Contents (Elt F)) : (⟨S_, .f32⟩ : BufTy).Contents (Elt F) :=
  msdL (meanL (nrmL f)) (meanL (nrmL r))

/-- The same scalar of a [32, 128, 512] feature pair. -/
def featP (r f : (⟨S32x128x512, .f32⟩ : BufTy).Contents (Elt F)) : (⟨S_, .f32⟩ : BufTy).Contents (Elt F) :=
  msdP (meanP (nrmP f)) (meanP (nrmP r))

/-- The same scalar of a [32, 512] feature pair. -/
def featG (r f : (⟨S32x512, .f32⟩ : BufTy).Contents (Elt F)) : (⟨S_, .f32⟩ : BufTy).Contents (Elt F) :=
  msdG (meanG (nrmG f)) (meanG (nrmG r))

/-- The input pair's scalar: the operations are those of the first [32, 2048, 512] pair, word for word. -/
abbrev featI (r f : (⟨S32x2048x512, .f32⟩ : BufTy).Contents (Elt F)) : (⟨S_, .f32⟩ : BufTy).Contents (Elt F) :=
  featL r f

/-- The result: the feature terms' weighted sum, plus the token term, plus the softplus term, in the program's order. -/
def out (a0 : (⟨S32x2048x512, .f32⟩ : BufTy).Contents (Elt F)) (a1 : (⟨S32x128x512, .f32⟩ : BufTy).Contents (Elt F)) (a2 : (⟨S32x512, .f32⟩ : BufTy).Contents (Elt F))
    (a3 : (⟨S32x2048x512, .f32⟩ : BufTy).Contents (Elt F)) (a4 : (⟨S32x2048x512, .f32⟩ : BufTy).Contents (Elt F)) (a5 : (⟨S32x128x512, .f32⟩ : BufTy).Contents (Elt F))
    (a6 : (⟨S32x512, .f32⟩ : BufTy).Contents (Elt F)) (a7 : (⟨S32x2048x512, .f32⟩ : BufTy).Contents (Elt F)) (a8 : (⟨S32x2048, .f32⟩ : BufTy).Contents (Elt F))
    (a9 : (⟨S32x128, .f32⟩ : BufTy).Contents (Elt F)) (a10 : (⟨S32x1, .f32⟩ : BufTy).Contents (Elt F)) (a11 : (⟨S32x2048, .i32⟩ : BufTy).Contents (Elt F)) :
    (⟨S_, .f32⟩ : BufTy).Contents (Elt F) :=
  addf (addf (combine (featL a0 a4) (featP a1 a5) (featG a2 a6) (featI a3 a7)) (musical a11)) (adv a8 a9 a10)

end Cert.ReferenceIdeal.RefRun

end
-- ==== Proof.RefRunPart0.lean ====
import proofs.«139213_j64381559767355_2_alg».proof.ReferenceIdeal
import Idealize.ShloMosaic.Lib.StableHlo.Run
import proofs.«139213_j64381559767355_2_alg».proof.Proof.RefRunDefs

noncomputable section

namespace Cert.ReferenceIdeal.RefRun

open Cert.ReferenceIdeal Idealize.ShloMosaic Idealize.ShloMosaic.TcCoe Idealize.SL.Sem Idealize.ShloMosaic.StableHlo
open Facts₀

variable {F : FTy → Type} [FloatOps F] [Facts]

/-- The first window's 60 operations, in order. -/
abbrev ops0 : List (HloOp τ sig (Elt F)) :=
  [ StableHlo.binary main_arg0 main_arg0 main_v0 (mulf : (⟨S32x2048x512, .f32⟩ : BufTy).Contents (Elt F) → (⟨S32x2048x512, .f32⟩ : BufTy).Contents (Elt F) → (⟨S32x2048x512, .f32⟩ : BufTy).Contents (Elt F)),
    StableHlo.nullary main_cst (constant S_ .f32 0x00000000#32),
    StableHlo.binary main_v0 main_cst main_v1 ((fun x v => Host.reduceAdd x v reducesTo_S32x2048x512_S32x2048_d2 h_S_) : (⟨S32x2048x512, .f32⟩ : BufTy).Contents (Elt F) → (⟨S_, .f32⟩ : BufTy).Contents (Elt F) → (⟨S32x2048, .f32⟩ : BufTy).Contents (Elt F)),
    StableHlo.unary main_v1 main_v2 (broadcastInDim S32x2048x1 ![0, 1] bcast_S32x2048_S32x2048x1_0_1 : (⟨S32x2048, .f32⟩ : BufTy).Contents (Elt F) → (⟨S32x2048x1, .f32⟩ : BufTy).Contents (Elt F)),
    StableHlo.unary main_v2 main_v3 (Host.sqrt : (⟨S32x2048x1, .f32⟩ : BufTy).Contents (Elt F) → (⟨S32x2048x1, .f32⟩ : BufTy).Contents (Elt F)),
    StableHlo.nullary main_cst_0 (constant S_ .f32 0x2B8CBCCC#32),
    StableHlo.unary main_cst_0 main_v4 (broadcastInDim S32x2048x1 ![] bcast_S_S32x2048x1 : (⟨S_, .f32⟩ : BufTy).Contents (Elt F) → (⟨S32x2048x1, .f32⟩ : BufTy).Contents (Elt F)),
    StableHlo.binary main_v3 main_v4 main_v5 (maximumf : (⟨S32x2048x1, .f32⟩ : BufTy).Contents (Elt F) → (⟨S32x2048x1, .f32⟩ : BufTy).Contents (Elt F) → (⟨S32x2048x1, .f32⟩ : BufTy).Contents (Elt F)),
    StableHlo.unary main_v5 main_v6 (broadcastInDim S32x2048x512 ![0, 1, 2] bcast_S32x2048x1_S32x2048x512_0_1_2 : (⟨S32x2048x1, .f32⟩ : BufTy).Contents (Elt F) → (⟨S32x2048x512, .f32⟩ : BufTy).Contents (Elt F)),
    StableHlo.binary main_arg0 main_v6 main_v7 (Host.divf : (⟨S32x2048x512, .f32⟩ : BufTy).Contents (Elt F) → (⟨S32x2048x512, .f32⟩ : BufTy).Contents (Elt F) → (⟨S32x2048x512, .f32⟩ : BufTy).Contents (Elt F)),
    StableHlo.binary main_arg4 main_arg4 main_v8 (mulf : (⟨S32x2048x512, .f32⟩ : BufTy).Contents (Elt F) → (⟨S32x2048x512, .f32⟩ : BufTy).Contents (Elt F) → (⟨S32x2048x512, .f32⟩ : BufTy).Contents (Elt F)),
    StableHlo.nullary main_cst_1 (constant S_ .f32 0x00000000#32),
    StableHlo.binary main_v8 main_cst_1 main_v9 ((fun x v => Host.reduceAdd x v reducesTo_S32x2048x512_S32x2048_d2 h_S_) : (⟨S32x2048x512, .f32⟩ : BufTy).Contents (Elt F) → (⟨S_, .f32⟩ : BufTy).Contents (Elt F) → (⟨S32x2048, .f32⟩ : BufTy).Contents (Elt F)),
    StableHlo.unary main_v9 main_v10 (broadcastInDim S32x2048x1 ![0, 1] bcast_S32x2048_S32x2048x1_0_1 : (⟨S32x2048, .f32⟩ : BufTy).Contents (Elt F) → (⟨S32x2048x1, .f32⟩ : BufTy).Contents (Elt F)),
    StableHlo.unary main_v10 main_v11 (Host.sqrt : (⟨S32x2048x1, .f32⟩ : BufTy).Contents (Elt F) → (⟨S32x2048x1, .f32⟩ : BufTy).Contents (Elt F)),
    StableHlo.nullary main_cst_2 (constant S_ .f32 0x2B8CBCCC#32),
    StableHlo.unary main_cst_2 main_v12 (broadcastInDim S32x2048x1 ![] bcast_S_S32x2048x1 : (⟨S_, .f32⟩ : BufTy).Contents (Elt F) → (⟨S32x2048x1, .f32⟩ : BufTy).Contents (Elt F)),
    StableHlo.binary main_v11 main_v12 main_v13 (maximumf : (⟨S32x2048x1, .f32⟩ : BufTy).Contents (Elt F) → (⟨S32x2048x1, .f32⟩ : BufTy).Contents (Elt F) → (⟨S32x2048x1, .f32⟩ : BufTy).Contents (Elt F)),
    StableHlo.unary main_v13 main_v14 (broadcastInDim S32x2048x512 ![0, 1, 2] bcast_S32x2048x1_S32x2048x512_0_1_2 : (⟨S32x2048x1, .f32⟩ : BufTy).Contents (Elt F) → (⟨S32x2048x512, .f32⟩ : BufTy).Contents (Elt F)),
    StableHlo.binary main_arg4 main_v14 main_v15 (Host.divf : (⟨S32x2048x512, .f32⟩ : BufTy).Contents (Elt F) → (⟨S32x2048x512, .f32⟩ : BufTy).Contents (Elt F) → (⟨S32x2048x512, .f32⟩ : BufTy).Contents (Elt F)),
    StableHlo.nullary main_cst_3 (constant S_ .f32 0x00000000#32),
    StableHlo.binary main_v15 main_cst_3 main_v16 ((fun x v => Host.reduceAdd x v reducesTo_S32x2048x512_S2048x512_d0 h_S_) : (⟨S32x2048x512, .f32⟩ : BufTy).Contents (Elt F) → (⟨S_, .f32⟩ : BufTy).Contents (Elt F) → (⟨S2048x512, .f32⟩ : BufTy).Contents (Elt F)),
    StableHlo.nullary main_cst_4 (constant S_ .f32 0x42000000#32),
    StableHlo.unary main_cst_4 main_v17 (broadcastInDim S2048x512 ![] bcast_S_S2048x512 : (⟨S_, .f32⟩ : BufTy).Contents (Elt F) → (⟨S2048x512, .f32⟩ : BufTy).Contents (Elt F)),
    StableHlo.binary main_v16 main_v17 main_v18 (Host.divf : (⟨S2048x512, .f32⟩ : BufTy).Contents (Elt F) → (⟨S2048x512, .f32⟩ : BufTy).Contents (Elt F) → (⟨S2048x512, .f32⟩ : BufTy).Contents (Elt F)),
    StableHlo.nullary main_cst_5 (constant S_ .f32 0x00000000#32),
    StableHlo.binary main_v7 main_cst_5 main_v19 ((fun x v => Host.reduceAdd x v reducesTo_S32x2048x512_S2048x512_d0 h_S_) : (⟨S32x2048x512, .f32⟩ : BufTy).Contents (Elt F) → (⟨S_, .f32⟩ : BufTy).Contents (Elt F) → (⟨S2048x512, .f32⟩ : BufTy).Contents (Elt F)),
    StableHlo.nullary main_cst_6 (constant S_ .f32 0x42000000#32),
    StableHlo.unary main_cst_6 main_v20 (broadcastInDim S2048x512 ![] bcast_S_S2048x512 : (⟨S_, .f32⟩ : BufTy).Contents (Elt F) → (⟨S2048x512, .f32⟩ : BufTy).Contents (Elt F)),
    StableHlo.binary main_v19 main_v20 main_v21 (Host.divf : (⟨S2048x512, .f32⟩ : BufTy).Contents (Elt F) → (⟨S2048x512, .f32⟩ : BufTy).Contents (Elt F) → (⟨S2048x512, .f32⟩ : BufTy).Contents (Elt F)),
    StableHlo.binary main_v18 main_v21 main_v22 (subf : (⟨S2048x512, .f32⟩ : BufTy).Contents (Elt F) → (⟨S2048x512, .f32⟩ : BufTy).Contents (Elt F) → (⟨S2048x512, .f32⟩ : BufTy).Contents (Elt F)),
    StableHlo.binary main_v22 main_v22 main_v23 (mulf : (⟨S2048x512, .f32⟩ : BufTy).Contents (Elt F) → (⟨S2048x512, .f32⟩ : BufTy).Contents (Elt F) → (⟨S2048x512, .f32⟩ : BufTy).Contents (Elt F)),
    StableHlo.nullary main_cst_7 (constant S_ .f32 0x00000000#32),
    StableHlo.binary main_v23 main_cst_7 main_v24 ((fun x v => Host.reduceAdd x v reducesTo_S2048x512_S_d0_1 h_S_) : (⟨S2048x512, .f32⟩ : BufTy).Contents (Elt F) → (⟨S_, .f32⟩ : BufTy).Contents (Elt F) → (⟨S_, .f32⟩ : BufTy).Contents (Elt F)),
    StableHlo.nullary main_cst_8 (constant S_ .f32 0x49800000#32),
    StableHlo.binary main_v24 main_cst_8 main_v25 (Host.divf : (⟨S_, .f32⟩ : BufTy).Contents (Elt F) → (⟨S_, .f32⟩ : BufTy).Contents (Elt F) → (⟨S_, .f32⟩ : BufTy).Contents (Elt F)),
    StableHlo.nullary main_cst_9 (constant S_ .f32 0x3ECCCCCD#32),
    StableHlo.binary main_cst_9 main_v25 main_v26 (mulf : (⟨S_, .f32⟩ : BufTy).Contents (Elt F) → (⟨S_, .f32⟩ : BufTy).Contents (Elt F) → (⟨S_, .f32⟩ : BufTy).Contents (Elt F)),
    StableHlo.nullary main_cst_10 (constant S_ .f32 0x00000000#32),
    StableHlo.binary main_cst_10 main_v26 main_v27 (addf : (⟨S_, .f32⟩ : BufTy).Contents (Elt F) → (⟨S_, .f32⟩ : BufTy).Contents (Elt F) → (⟨S_, .f32⟩ : BufTy).Contents (Elt F)),
    StableHlo.binary main_arg1 main_arg1 main_v28 (mulf : (⟨S32x128x512, .f32⟩ : BufTy).Contents (Elt F) → (⟨S32x128x512, .f32⟩ : BufTy).Contents (Elt F) → (⟨S32x128x512, .f32⟩ : BufTy).Contents (Elt F)),
    StableHlo.nullary main_cst_11 (constant S_ .f32 0x00000000#32),
    StableHlo.binary main_v28 main_cst_11 main_v29 ((fun x v => Host.reduceAdd x v reducesTo_S32x128x512_S32x128_d2 h_S_) : (⟨S32x128x512, .f32⟩ : BufTy).Contents (Elt F) → (⟨S_, .f32⟩ : BufTy).Contents (Elt F) → (⟨S32x128, .f32⟩ : BufTy).Contents (Elt F)),
    StableHlo.unary main_v29 main_v30 (broadcastInDim S32x128x1 ![0, 1] bcast_S32x128_S32x128x1_0_1 : (⟨S32x128, .f32⟩ : BufTy).Contents (Elt F) → (⟨S32x128x1, .f32⟩ : BufTy).Contents (Elt F)),
    StableHlo.unary main_v30 main_v31 (Host.sqrt : (⟨S32x128x1, .f32⟩ : BufTy).Contents (Elt F) → (⟨S32x128x1, .f32⟩ : BufTy).Contents (Elt F)),
    StableHlo.nullary main_cst_12 (constant S_ .f32 0x2B8CBCCC#32),
    StableHlo.unary main_cst_12 main_v32 (broadcastInDim S32x128x1 ![] bcast_S_S32x128x1 : (⟨S_, .f32⟩ : BufTy).Contents (Elt F) → (⟨S32x128x1, .f32⟩ : BufTy).Contents (Elt F)),
    StableHlo.binary main_v31 main_v32 main_v33 (maximumf : (⟨S32x128x1, .f32⟩ : BufTy).Contents (Elt F) → (⟨S32x128x1, .f32⟩ : BufTy).Contents (Elt F) → (⟨S32x128x1, .f32⟩ : BufTy).Contents (Elt F)),
    StableHlo.unary main_v33 main_v34 (broadcastInDim S32x128x512 ![0, 1, 2] bcast_S32x128x1_S32x128x512_0_1_2 : (⟨S32x128x1, .f32⟩ : BufTy).Contents (Elt F) → (⟨S32x128x512, .f32⟩ : BufTy).Contents (Elt F)),
    StableHlo.binary main_arg1 main_v34 main_v35 (Host.divf : (⟨S32x128x512, .f32⟩ : BufTy).Contents (Elt F) → (⟨S32x128x512, .f32⟩ : BufTy).Contents (Elt F) → (⟨S32x128x512, .f32⟩ : BufTy).Contents (Elt F)),
    StableHlo.binary main_arg5 main_arg5 main_v36 (mulf : (⟨S32x128x512, .f32⟩ : BufTy).Contents (Elt F) → (⟨S32x128x512, .f32⟩ : BufTy).Contents (Elt F) → (⟨S32x128x512, .f32⟩ : BufTy).Contents (Elt F)),
    StableHlo.nullary main_cst_13 (constant S_ .f32 0x00000000#32),
    StableHlo.binary main_v36 main_cst_13 main_v37 ((fun x v => Host.reduceAdd x v reducesTo_S32x128x512_S32x128_d2 h_S_) : (⟨S32x128x512, .f32⟩ : BufTy).Contents (Elt F) → (⟨S_, .f32⟩ : BufTy).Contents (Elt F) → (⟨S32x128, .f32⟩ : BufTy).Contents (Elt F)),
    StableHlo.unary main_v37 main_v38 (broadcastInDim S32x128x1 ![0, 1] bcast_S32x128_S32x128x1_0_1 : (⟨S32x128, .f32⟩ : BufTy).Contents (Elt F) → (⟨S32x128x1, .f32⟩ : BufTy).Contents (Elt F)),
    StableHlo.unary main_v38 main_v39 (Host.sqrt : (⟨S32x128x1, .f32⟩ : BufTy).Contents (Elt F) → (⟨S32x128x1, .f32⟩ : BufTy).Contents (Elt F)),
    StableHlo.nullary main_cst_14 (constant S_ .f32 0x2B8CBCCC#32),
    StableHlo.unary main_cst_14 main_v40 (broadcastInDim S32x128x1 ![] bcast_S_S32x128x1 : (⟨S_, .f32⟩ : BufTy).Contents (Elt F) → (⟨S32x128x1, .f32⟩ : BufTy).Contents (Elt F)),
    StableHlo.binary main_v39 main_v40 main_v41 (maximumf : (⟨S32x128x1, .f32⟩ : BufTy).Contents (Elt F) → (⟨S32x128x1, .f32⟩ : BufTy).Contents (Elt F) → (⟨S32x128x1, .f32⟩ : BufTy).Contents (Elt F)),
    StableHlo.unary main_v41 main_v42 (broadcastInDim S32x128x512 ![0, 1, 2] bcast_S32x128x1_S32x128x512_0_1_2 : (⟨S32x128x1, .f32⟩ : BufTy).Contents (Elt F) → (⟨S32x128x512, .f32⟩ : BufTy).Contents (Elt F)),
    StableHlo.binary main_arg5 main_v42 main_v43 (Host.divf : (⟨S32x128x512, .f32⟩ : BufTy).Contents (Elt F) → (⟨S32x128x512, .f32⟩ : BufTy).Contents (Elt F) → (⟨S32x128x512, .f32⟩ : BufTy).Contents (Elt F)) ]

set_option maxRecDepth 8192 in
/-- The window is that straight line: both sides are the same chain of `hlo` steps. -/
theorem main_part0_eq (c : Dev nD) : main_part0 (F := F) c = seq ops0 := rfl

set_option maxRecDepth 8192 in
/-- Every operation of the window touches TensorCore references only. -/
theorem ops0_sub : (ops0 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., binary_bufs_sub .., nullary_bufs_sub .., unary_bufs_sub .., binary_bufs_sub .., nullary_bufs_sub .., binary_bufs_sub .., nullary_bufs_sub .., unary_bufs_sub .., binary_bufs_sub .., binary_bufs_sub .., binary_bufs_sub .., nullary_bufs_sub .., binary_bufs_sub .., nullary_bufs_sub .., binary_bufs_sub .., nullary_bufs_sub .., binary_bufs_sub .., nullary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

set_option maxRecDepth 8192 in
set_option maxHeartbeats 4000000 in
/-- Every operation of the window determines its results. -/
theorem ops0_fresh : ∀ op ∈ (ops0 : List (HloOp τ sig (Elt F))), op.fresh = ∅ := by
  intro _ h; (repeat (cases h with | head => rfl | tail _ h => ?_)); exact nomatch h

/-- The buffers the window's operations write. -/
abbrev ops0_W : List (Ref sig .tc) := [main_v0, main_cst, main_v1, main_v2, main_v3, main_cst_0, main_v4, main_v5, main_v6, main_v7, main_v8, main_cst_1, main_v9, main_v10, main_v11, main_cst_2, main_v12, main_v13, main_v14, main_v15, main_cst_3, main_v16, main_cst_4, main_v17, main_v18, main_cst_5, main_v19, main_cst_6, main_v20, main_v21, main_v22, main_v23, main_cst_7, main_v24, main_cst_8, main_v25, main_cst_9, main_v26, main_cst_10, main_v27, main_v28, main_cst_11, main_v29, main_v30, main_v31, main_cst_12, main_v32, main_v33, main_v34, main_v35, main_v36, main_cst_13, main_v37, main_v38, main_v39, main_cst_14, main_v40, main_v41, main_v42, main_v43]

set_option maxRecDepth 8192 in
set_option maxHeartbeats 4000000 in
theorem ops0_writes : (ops0 : List (HloOp τ sig (Elt F))).Forall fun op =>
    op.writes ⊆ (ops0_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem ops0_keep (V : Valuation τ sig (Elt F)) (r : Ref sig .tc) (h : r ∉ ops0_W) :
    after ops0 V (Proc.devRef .tc r) = V (Proc.devRef .tc r) :=
  after_of_writes_sub ops0 V ops0_writes h

attribute [local irreducible] Host.reduceAdd Host.divf Host.sqrt Host.absf Host.negf Host.exp Host.log1p Host.remsi broadcastInDim extractStridedSlice in
set_option maxRecDepth 8192 in
set_option maxHeartbeats 6000000 in
/-- `main_v27` after the window, as a term of the arguments, from what the window's inputs hold. -/
theorem w0_v27 (V : Valuation τ sig (Elt F))
    {a0 : (⟨S32x2048x512, .f32⟩ : BufTy).Contents (Elt F)} {a4 : (⟨S32x2048x512, .f32⟩ : BufTy).Contents (Elt F)}
    (h_arg4 : V (Proc.devRef .tc main_arg4) = a4)
    (h_arg0 : V (Proc.devRef .tc main_arg0) = a0) :
    after ops0 V (Proc.devRef .tc main_v27) = addf (constant (F := F) S_ .f32 0x00000000#32) (mulf (constant (F := F) S_ .f32 0x3ECCCCCD#32) (featL a0 a4)) := by
  after_results_simp
  all_goals (try simp only [h_arg4, h_arg0])
  all_goals rfl

attribute [local irreducible] Host.reduceAdd Host.divf Host.sqrt Host.absf Host.negf Host.exp Host.log1p Host.remsi broadcastInDim extractStridedSlice in
set_option maxRecDepth 8192 in
set_option maxHeartbeats 6000000 in
/-- `main_v35` after the window, as a term of the arguments, from what the window's inputs hold. -/
theorem w0_v35 (V : Valuation τ sig (Elt F))
    {a1 : (⟨S32x128x512, .f32⟩ : BufTy).Contents (Elt F)}
    (h_arg1 : V (Proc.devRef .tc main_arg1) = a1) :
    after ops0 V (Proc.devRef .tc main_v35) = nrmP a1 := by
  after_results_simp
  all_goals (try simp only [h_arg1])
  all_goals rfl

attribute [local irreducible] Host.reduceAdd Host.divf Host.sqrt Host.absf Host.negf Host.exp Host.log1p Host.remsi broadcastInDim extractStridedSlice in
set_option maxRecDepth 8192 in
set_option maxHeartbeats 6000000 in
/-- `main_v43` after the window, as a term of the arguments, from what the window's inputs hold. -/
theorem w0_v43 (V : Valuation τ sig (Elt F))
    {a5 : (⟨S32x128x512, .f32⟩ : BufTy).Contents (Elt F)}
    (h_arg5 : V (Proc.devRef .tc main_arg5) = a5) :
    after ops0 V (Proc.devRef .tc main_v43) = nrmP a5 := by
  after_results_simp
  all_goals (try simp only [h_arg5])
  all_goals rfl

end Cert.ReferenceIdeal.RefRun

end
-- ==== Proof.RefRunPart1.lean ====
import proofs.«139213_j64381559767355_2_alg».proof.ReferenceIdeal
import Idealize.ShloMosaic.Lib.StableHlo.Run
import proofs.«139213_j64381559767355_2_alg».proof.Proof.RefRunDefs

noncomputable section

namespace Cert.ReferenceIdeal.RefRun

open Cert.ReferenceIdeal Idealize.ShloMosaic Idealize.ShloMosaic.TcCoe Idealize.SL.Sem Idealize.ShloMosaic.StableHlo
open Facts₀

variable {F : FTy → Type} [FloatOps F] [Facts]

/-- The second window's 60 operations, in order. -/
abbrev ops1 : List (HloOp τ sig (Elt F)) :=
  [ StableHlo.nullary main_cst_15 (constant S_ .f32 0x00000000#32),
    StableHlo.binary main_v43 main_cst_15 main_v44 ((fun x v => Host.reduceAdd x v reducesTo_S32x128x512_S128x512_d0 h_S_) : (⟨S32x128x512, .f32⟩ : BufTy).Contents (Elt F) → (⟨S_, .f32⟩ : BufTy).Contents (Elt F) → (⟨S128x512, .f32⟩ : BufTy).Contents (Elt F)),
    StableHlo.nullary main_cst_16 (constant S_ .f32 0x42000000#32),
    StableHlo.unary main_cst_16 main_v45 (broadcastInDim S128x512 ![] bcast_S_S128x512 : (⟨S_, .f32⟩ : BufTy).Contents (Elt F) → (⟨S128x512, .f32⟩ : BufTy).Contents (Elt F)),
    StableHlo.binary main_v44 main_v45 main_v46 (Host.divf : (⟨S128x512, .f32⟩ : BufTy).Contents (Elt F) → (⟨S128x512, .f32⟩ : BufTy).Contents (Elt F) → (⟨S128x512, .f32⟩ : BufTy).Contents (Elt F)),
    StableHlo.nullary main_cst_17 (constant S_ .f32 0x00000000#32),
    StableHlo.binary main_v35 main_cst_17 main_v47 ((fun x v => Host.reduceAdd x v reducesTo_S32x128x512_S128x512_d0 h_S_) : (⟨S32x128x512, .f32⟩ : BufTy).Contents (Elt F) → (⟨S_, .f32⟩ : BufTy).Contents (Elt F) → (⟨S128x512, .f32⟩ : BufTy).Contents (Elt F)),
    StableHlo.nullary main_cst_18 (constant S_ .f32 0x42000000#32),
    StableHlo.unary main_cst_18 main_v48 (broadcastInDim S128x512 ![] bcast_S_S128x512 : (⟨S_, .f32⟩ : BufTy).Contents (Elt F) → (⟨S128x512, .f32⟩ : BufTy).Contents (Elt F)),
    StableHlo.binary main_v47 main_v48 main_v49 (Host.divf : (⟨S128x512, .f32⟩ : BufTy).Contents (Elt F) → (⟨S128x512, .f32⟩ : BufTy).Contents (Elt F) → (⟨S128x512, .f32⟩ : BufTy).Contents (Elt F)),
    StableHlo.binary main_v46 main_v49 main_v50 (subf : (⟨S128x512, .f32⟩ : BufTy).Contents (Elt F) → (⟨S128x512, .f32⟩ : BufTy).Contents (Elt F) → (⟨S128x512, .f32⟩ : BufTy).Contents (Elt F)),
    StableHlo.binary main_v50 main_v50 main_v51 (mulf : (⟨S128x512, .f32⟩ : BufTy).Contents (Elt F) → (⟨S128x512, .f32⟩ : BufTy).Contents (Elt F) → (⟨S128x512, .f32⟩ : BufTy).Contents (Elt F)),
    StableHlo.nullary main_cst_19 (constant S_ .f32 0x00000000#32),
    StableHlo.binary main_v51 main_cst_19 main_v52 ((fun x v => Host.reduceAdd x v reducesTo_S128x512_S_d0_1 h_S_) : (⟨S128x512, .f32⟩ : BufTy).Contents (Elt F) → (⟨S_, .f32⟩ : BufTy).Contents (Elt F) → (⟨S_, .f32⟩ : BufTy).Contents (Elt F)),
    StableHlo.nullary main_cst_20 (constant S_ .f32 0x47800000#32),
    StableHlo.binary main_v52 main_cst_20 main_v53 (Host.divf : (⟨S_, .f32⟩ : BufTy).Contents (Elt F) → (⟨S_, .f32⟩ : BufTy).Contents (Elt F) → (⟨S_, .f32⟩ : BufTy).Contents (Elt F)),
    StableHlo.nullary main_cst_21 (constant S_ .f32 0x3ECCCCCD#32),
    StableHlo.binary main_cst_21 main_v53 main_v54 (mulf : (⟨S_, .f32⟩ : BufTy).Contents (Elt F) → (⟨S_, .f32⟩ : BufTy).Contents (Elt F) → (⟨S_, .f32⟩ : BufTy).Contents (Elt F)),
    StableHlo.binary main_v27 main_v54 main_v55 (addf : (⟨S_, .f32⟩ : BufTy).Contents (Elt F) → (⟨S_, .f32⟩ : BufTy).Contents (Elt F) → (⟨S_, .f32⟩ : BufTy).Contents (Elt F)),
    StableHlo.binary main_arg2 main_arg2 main_v56 (mulf : (⟨S32x512, .f32⟩ : BufTy).Contents (Elt F) → (⟨S32x512, .f32⟩ : BufTy).Contents (Elt F) → (⟨S32x512, .f32⟩ : BufTy).Contents (Elt F)),
    StableHlo.nullary main_cst_22 (constant S_ .f32 0x00000000#32),
    StableHlo.binary main_v56 main_cst_22 main_v57 ((fun x v => Host.reduceAdd x v reducesTo_S32x512_S32_d1 h_S_) : (⟨S32x512, .f32⟩ : BufTy).Contents (Elt F) → (⟨S_, .f32⟩ : BufTy).Contents (Elt F) → (⟨S32, .f32⟩ : BufTy).Contents (Elt F)),
    StableHlo.unary main_v57 main_v58 (broadcastInDim S32x1 ![0] bcast_S32_S32x1_0 : (⟨S32, .f32⟩ : BufTy).Contents (Elt F) → (⟨S32x1, .f32⟩ : BufTy).Contents (Elt F)),
    StableHlo.unary main_v58 main_v59 (Host.sqrt : (⟨S32x1, .f32⟩ : BufTy).Contents (Elt F) → (⟨S32x1, .f32⟩ : BufTy).Contents (Elt F)),
    StableHlo.nullary main_cst_23 (constant S_ .f32 0x2B8CBCCC#32),
    StableHlo.unary main_cst_23 main_v60 (broadcastInDim S32x1 ![] bcast_S_S32x1 : (⟨S_, .f32⟩ : BufTy).Contents (Elt F) → (⟨S32x1, .f32⟩ : BufTy).Contents (Elt F)),
    StableHlo.binary main_v59 main_v60 main_v61 (maximumf : (⟨S32x1, .f32⟩ : BufTy).Contents (Elt F) → (⟨S32x1, .f32⟩ : BufTy).Contents (Elt F) → (⟨S32x1, .f32⟩ : BufTy).Contents (Elt F)),
    StableHlo.unary main_v61 main_v62 (broadcastInDim S32x512 ![0, 1] bcast_S32x1_S32x512_0_1 : (⟨S32x1, .f32⟩ : BufTy).Contents (Elt F) → (⟨S32x512, .f32⟩ : BufTy).Contents (Elt F)),
    StableHlo.binary main_arg2 main_v62 main_v63 (Host.divf : (⟨S32x512, .f32⟩ : BufTy).Contents (Elt F) → (⟨S32x512, .f32⟩ : BufTy).Contents (Elt F) → (⟨S32x512, .f32⟩ : BufTy).Contents (Elt F)),
    StableHlo.binary main_arg6 main_arg6 main_v64 (mulf : (⟨S32x512, .f32⟩ : BufTy).Contents (Elt F) → (⟨S32x512, .f32⟩ : BufTy).Contents (Elt F) → (⟨S32x512, .f32⟩ : BufTy).Contents (Elt F)),
    StableHlo.nullary main_cst_24 (constant S_ .f32 0x00000000#32),
    StableHlo.binary main_v64 main_cst_24 main_v65 ((fun x v => Host.reduceAdd x v reducesTo_S32x512_S32_d1 h_S_) : (⟨S32x512, .f32⟩ : BufTy).Contents (Elt F) → (⟨S_, .f32⟩ : BufTy).Contents (Elt F) → (⟨S32, .f32⟩ : BufTy).Contents (Elt F)),
    StableHlo.unary main_v65 main_v66 (broadcastInDim S32x1 ![0] bcast_S32_S32x1_0 : (⟨S32, .f32⟩ : BufTy).Contents (Elt F) → (⟨S32x1, .f32⟩ : BufTy).Contents (Elt F)),
    StableHlo.unary main_v66 main_v67 (Host.sqrt : (⟨S32x1, .f32⟩ : BufTy).Contents (Elt F) → (⟨S32x1, .f32⟩ : BufTy).Contents (Elt F)),
    StableHlo.nullary main_cst_25 (constant S_ .f32 0x2B8CBCCC#32),
    StableHlo.unary main_cst_25 main_v68 (broadcastInDim S32x1 ![] bcast_S_S32x1 : (⟨S_, .f32⟩ : BufTy).Contents (Elt F) → (⟨S32x1, .f32⟩ : BufTy).Contents (Elt F)),
    StableHlo.binary main_v67 main_v68 main_v69 (maximumf : (⟨S32x1, .f32⟩ : BufTy).Contents (Elt F) → (⟨S32x1, .f32⟩ : BufTy).Contents (Elt F) → (⟨S32x1, .f32⟩ : BufTy).Contents (Elt F)),
    StableHlo.unary main_v69 main_v70 (broadcastInDim S32x512 ![0, 1] bcast_S32x1_S32x512_0_1 : (⟨S32x1, .f32⟩ : BufTy).Contents (Elt F) → (⟨S32x512, .f32⟩ : BufTy).Contents (Elt F)),
    StableHlo.binary main_arg6 main_v70 main_v71 (Host.divf : (⟨S32x512, .f32⟩ : BufTy).Contents (Elt F) → (⟨S32x512, .f32⟩ : BufTy).Contents (Elt F) → (⟨S32x512, .f32⟩ : BufTy).Contents (Elt F)),
    StableHlo.nullary main_cst_26 (constant S_ .f32 0x00000000#32),
    StableHlo.binary main_v71 main_cst_26 main_v72 ((fun x v => Host.reduceAdd x v reducesTo_S32x512_S512_d0 h_S_) : (⟨S32x512, .f32⟩ : BufTy).Contents (Elt F) → (⟨S_, .f32⟩ : BufTy).Contents (Elt F) → (⟨S512, .f32⟩ : BufTy).Contents (Elt F)),
    StableHlo.nullary main_cst_27 (constant S_ .f32 0x42000000#32),
    StableHlo.unary main_cst_27 main_v73 (broadcastInDim S512 ![] bcast_S_S512 : (⟨S_, .f32⟩ : BufTy).Contents (Elt F) → (⟨S512, .f32⟩ : BufTy).Contents (Elt F)),
    StableHlo.binary main_v72 main_v73 main_v74 (Host.divf : (⟨S512, .f32⟩ : BufTy).Contents (Elt F) → (⟨S512, .f32⟩ : BufTy).Contents (Elt F) → (⟨S512, .f32⟩ : BufTy).Contents (Elt F)),
    StableHlo.nullary main_cst_28 (constant S_ .f32 0x00000000#32),
    StableHlo.binary main_v63 main_cst_28 main_v75 ((fun x v => Host.reduceAdd x v reducesTo_S32x512_S512_d0 h_S_) : (⟨S32x512, .f32⟩ : BufTy).Contents (Elt F) → (⟨S_, .f32⟩ : BufTy).Contents (Elt F) → (⟨S512, .f32⟩ : BufTy).Contents (Elt F)),
    StableHlo.nullary main_cst_29 (constant S_ .f32 0x42000000#32),
    StableHlo.unary main_cst_29 main_v76 (broadcastInDim S512 ![] bcast_S_S512 : (⟨S_, .f32⟩ : BufTy).Contents (Elt F) → (⟨S512, .f32⟩ : BufTy).Contents (Elt F)),
    StableHlo.binary main_v75 main_v76 main_v77 (Host.divf : (⟨S512, .f32⟩ : BufTy).Contents (Elt F) → (⟨S512, .f32⟩ : BufTy).Contents (Elt F) → (⟨S512, .f32⟩ : BufTy).Contents (Elt F)),
    StableHlo.binary main_v74 main_v77 main_v78 (subf : (⟨S512, .f32⟩ : BufTy).Contents (Elt F) → (⟨S512, .f32⟩ : BufTy).Contents (Elt F) → (⟨S512, .f32⟩ : BufTy).Contents (Elt F)),
    StableHlo.binary main_v78 main_v78 main_v79 (mulf : (⟨S512, .f32⟩ : BufTy).Contents (Elt F) → (⟨S512, .f32⟩ : BufTy).Contents (Elt F) → (⟨S512, .f32⟩ : BufTy).Contents (Elt F)),
    StableHlo.nullary main_cst_30 (constant S_ .f32 0x00000000#32),
    StableHlo.binary main_v79 main_cst_30 main_v80 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    StableHlo.nullary main_cst_31 (constant S_ .f32 0x44000000#32),
    StableHlo.binary main_v80 main_cst_31 main_v81 (Host.divf : (⟨S_, .f32⟩ : BufTy).Contents (Elt F) → (⟨S_, .f32⟩ : BufTy).Contents (Elt F) → (⟨S_, .f32⟩ : BufTy).Contents (Elt F)),
    StableHlo.nullary main_cst_32 (constant S_ .f32 0x3E4CCCCD#32),
    StableHlo.binary main_cst_32 main_v81 main_v82 (mulf : (⟨S_, .f32⟩ : BufTy).Contents (Elt F) → (⟨S_, .f32⟩ : BufTy).Contents (Elt F) → (⟨S_, .f32⟩ : BufTy).Contents (Elt F)),
    StableHlo.binary main_v55 main_v82 main_v83 (addf : (⟨S_, .f32⟩ : BufTy).Contents (Elt F) → (⟨S_, .f32⟩ : BufTy).Contents (Elt F) → (⟨S_, .f32⟩ : BufTy).Contents (Elt F)),
    StableHlo.binary main_arg3 main_arg3 main_v84 (mulf : (⟨S32x2048x512, .f32⟩ : BufTy).Contents (Elt F) → (⟨S32x2048x512, .f32⟩ : BufTy).Contents (Elt F) → (⟨S32x2048x512, .f32⟩ : BufTy).Contents (Elt F)),
    StableHlo.nullary main_cst_33 (constant S_ .f32 0x00000000#32) ]

set_option maxRecDepth 8192 in
/-- The window is that straight line: both sides are the same chain of `hlo` steps. -/
theorem main_part1_eq (c : Dev nD) : main_part1 (F := F) c = seq ops1 := rfl

set_option maxRecDepth 8192 in
/-- Every operation of the window touches TensorCore references only. -/
theorem ops1_sub : (ops1 : List (HloOp τ sig (Elt F))).Forall fun op => op.bufs ⊆ tcRefs τ sig :=
  ⟨nullary_bufs_sub .., binary_bufs_sub .., nullary_bufs_sub .., unary_bufs_sub .., binary_bufs_sub .., nullary_bufs_sub .., binary_bufs_sub .., nullary_bufs_sub .., unary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., binary_bufs_sub .., nullary_bufs_sub .., unary_bufs_sub .., binary_bufs_sub .., nullary_bufs_sub .., binary_bufs_sub .., nullary_bufs_sub .., unary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., nullary_bufs_sub ..⟩

set_option maxRecDepth 8192 in
set_option maxHeartbeats 4000000 in
/-- Every operation of the window determines its results. -/
theorem ops1_fresh : ∀ op ∈ (ops1 : List (HloOp τ sig (Elt F))), op.fresh = ∅ := by
  intro _ h; (repeat (cases h with | head => rfl | tail _ h => ?_)); exact nomatch h

/-- The buffers the window's operations write. -/
abbrev ops1_W : List (Ref sig .tc) := [main_cst_15, main_v44, main_cst_16, main_v45, main_v46, main_cst_17, main_v47, main_cst_18, main_v48, main_v49, main_v50, main_v51, main_cst_19, main_v52, main_cst_20, main_v53, main_cst_21, main_v54, main_v55, main_v56, main_cst_22, main_v57, main_v58, main_v59, main_cst_23, main_v60, main_v61, main_v62, main_v63, main_v64, main_cst_24, main_v65, main_v66, main_v67, main_cst_25, main_v68, main_v69, main_v70, main_v71, main_cst_26, main_v72, main_cst_27, main_v73, main_v74, main_cst_28, main_v75, main_cst_29, main_v76, main_v77, main_v78, main_v79, main_cst_30, main_v80, main_cst_31, main_v81, main_cst_32, main_v82, main_v83, main_v84, main_cst_33]

set_option maxRecDepth 8192 in
set_option maxHeartbeats 4000000 in
theorem ops1_writes : (ops1 : List (HloOp τ sig (Elt F))).Forall fun op =>
    op.writes ⊆ (ops1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem ops1_keep (V : Valuation τ sig (Elt F)) (r : Ref sig .tc) (h : r ∉ ops1_W) :
    after ops1 V (Proc.devRef .tc r) = V (Proc.devRef .tc r) :=
  after_of_writes_sub ops1 V ops1_writes h

attribute [local irreducible] Host.reduceAdd Host.divf Host.sqrt Host.absf Host.negf Host.exp Host.log1p Host.remsi broadcastInDim extractStridedSlice in
set_option maxRecDepth 8192 in
set_option maxHeartbeats 6000000 in
/-- `main_v83` after the window, as a term of the arguments, from what the window's inputs hold. -/
theorem w1_v83 (V : Valuation τ sig (Elt F))
    {a0 : (⟨S32x2048x512, .f32⟩ : BufTy).Contents (Elt F)} {a1 : (⟨S32x128x512, .f32⟩ : BufTy).Contents (Elt F)} {a2 : (⟨S32x512, .f32⟩ : BufTy).Contents (Elt F)} {a4 : (⟨S32x2048x512, .f32⟩ : BufTy).Contents (Elt F)} {a5 : (⟨S32x128x512, .f32⟩ : BufTy).Contents (Elt F)} {a6 : (⟨S32x512, .f32⟩ : BufTy).Contents (Elt F)}
    (h_v27 : V (Proc.devRef .tc main_v27) = addf (constant (F := F) S_ .f32 0x00000000#32) (mulf (constant (F := F) S_ .f32 0x3ECCCCCD#32) (featL a0 a4)))
    (h_v43 : V (Proc.devRef .tc main_v43) = nrmP a5)
    (h_v35 : V (Proc.devRef .tc main_v35) = nrmP a1)
    (h_arg6 : V (Proc.devRef .tc main_arg6) = a6)
    (h_arg2 : V (Proc.devRef .tc main_arg2) = a2) :
    after ops1 V (Proc.devRef .tc main_v83) = addf (addf (addf (constant (F := F) S_ .f32 0x00000000#32) (mulf (constant (F := F) S_ .f32 0x3ECCCCCD#32) (featL a0 a4))) (mulf (constant (F := F) S_ .f32 0x3ECCCCCD#32) (featP a1 a5))) (mulf (constant (F := F) S_ .f32 0x3E4CCCCD#32) (featG a2 a6)) := by
  after_results_simp
  all_goals (try simp only [h_v27, h_v43, h_v35, h_arg6, h_arg2])
  all_goals rfl

attribute [local irreducible] Host.reduceAdd Host.divf Host.sqrt Host.absf Host.negf Host.exp Host.log1p Host.remsi broadcastInDim extractStridedSlice in
set_option maxRecDepth 8192 in
set_option maxHeartbeats 6000000 in
/-- `main_v84` after the window, as a term of the arguments, from what the window's inputs hold. -/
theorem w1_v84 (V : Valuation τ sig (Elt F))
    {a3 : (⟨S32x2048x512, .f32⟩ : BufTy).Contents (Elt F)}
    (h_arg3 : V (Proc.devRef .tc main_arg3) = a3) :
    after ops1 V (Proc.devRef .tc main_v84) = mulf a3 a3 := by
  after_results_simp
  all_goals (try simp only [h_arg3])
  all_goals rfl

attribute [local irreducible] Host.reduceAdd Host.divf Host.sqrt Host.absf Host.negf Host.exp Host.log1p Host.remsi broadcastInDim extractStridedSlice in
set_option maxRecDepth 8192 in
set_option maxHeartbeats 6000000 in
/-- `main_cst_33` after the window, as a term of the arguments, from what the window's inputs hold. -/
theorem w1_cst_33 (V : Valuation τ sig (Elt F)) :
    after ops1 V (Proc.devRef .tc main_cst_33) = constant (F := F) S_ .f32 0x00000000#32 := by
  after_results_simp
  all_goals rfl

end Cert.ReferenceIdeal.RefRun

end
-- ==== Proof.RefRunPart2.lean ====
import proofs.«139213_j64381559767355_2_alg».proof.ReferenceIdeal
import Idealize.ShloMosaic.Lib.StableHlo.Run
import proofs.«139213_j64381559767355_2_alg».proof.Proof.RefRunDefs

noncomputable section

namespace Cert.ReferenceIdeal.RefRun

open Cert.ReferenceIdeal Idealize.ShloMosaic Idealize.ShloMosaic.TcCoe Idealize.SL.Sem Idealize.ShloMosaic.StableHlo
open Facts₀

variable {F : FTy → Type} [FloatOps F] [Facts]

/-- The third window's operations, in order, the two calls (the sequence difference and the floored remainder, which itself calls the scalar select) unfolded at their call sites over their records' buffers. -/
abbrev ops2 : List (HloOp τ sig (Elt F)) :=
  [ StableHlo.binary main_v84 main_cst_33 main_v85 ((fun x v => Host.reduceAdd x v reducesTo_S32x2048x512_S32x2048_d2 h_S_) : (⟨S32x2048x512, .f32⟩ : BufTy).Contents (Elt F) → (⟨S_, .f32⟩ : BufTy).Contents (Elt F) → (⟨S32x2048, .f32⟩ : BufTy).Contents (Elt F)),
    StableHlo.unary main_v85 main_v86 (broadcastInDim S32x2048x1 ![0, 1] bcast_S32x2048_S32x2048x1_0_1 : (⟨S32x2048, .f32⟩ : BufTy).Contents (Elt F) → (⟨S32x2048x1, .f32⟩ : BufTy).Contents (Elt F)),
    StableHlo.unary main_v86 main_v87 (Host.sqrt : (⟨S32x2048x1, .f32⟩ : BufTy).Contents (Elt F) → (⟨S32x2048x1, .f32⟩ : BufTy).Contents (Elt F)),
    StableHlo.nullary main_cst_34 (constant S_ .f32 0x2B8CBCCC#32),
    StableHlo.unary main_cst_34 main_v88 (broadcastInDim S32x2048x1 ![] bcast_S_S32x2048x1 : (⟨S_, .f32⟩ : BufTy).Contents (Elt F) → (⟨S32x2048x1, .f32⟩ : BufTy).Contents (Elt F)),
    StableHlo.binary main_v87 main_v88 main_v89 (maximumf : (⟨S32x2048x1, .f32⟩ : BufTy).Contents (Elt F) → (⟨S32x2048x1, .f32⟩ : BufTy).Contents (Elt F) → (⟨S32x2048x1, .f32⟩ : BufTy).Contents (Elt F)),
    StableHlo.unary main_v89 main_v90 (broadcastInDim S32x2048x512 ![0, 1, 2] bcast_S32x2048x1_S32x2048x512_0_1_2 : (⟨S32x2048x1, .f32⟩ : BufTy).Contents (Elt F) → (⟨S32x2048x512, .f32⟩ : BufTy).Contents (Elt F)),
    StableHlo.binary main_arg3 main_v90 main_v91 (Host.divf : (⟨S32x2048x512, .f32⟩ : BufTy).Contents (Elt F) → (⟨S32x2048x512, .f32⟩ : BufTy).Contents (Elt F) → (⟨S32x2048x512, .f32⟩ : BufTy).Contents (Elt F)),
    StableHlo.binary main_arg7 main_arg7 main_v92 (mulf : (⟨S32x2048x512, .f32⟩ : BufTy).Contents (Elt F) → (⟨S32x2048x512, .f32⟩ : BufTy).Contents (Elt F) → (⟨S32x2048x512, .f32⟩ : BufTy).Contents (Elt F)),
    StableHlo.nullary main_cst_35 (constant S_ .f32 0x00000000#32),
    StableHlo.binary main_v92 main_cst_35 main_v93 ((fun x v => Host.reduceAdd x v reducesTo_S32x2048x512_S32x2048_d2 h_S_) : (⟨S32x2048x512, .f32⟩ : BufTy).Contents (Elt F) → (⟨S_, .f32⟩ : BufTy).Contents (Elt F) → (⟨S32x2048, .f32⟩ : BufTy).Contents (Elt F)),
    StableHlo.unary main_v93 main_v94 (broadcastInDim S32x2048x1 ![0, 1] bcast_S32x2048_S32x2048x1_0_1 : (⟨S32x2048, .f32⟩ : BufTy).Contents (Elt F) → (⟨S32x2048x1, .f32⟩ : BufTy).Contents (Elt F)),
    StableHlo.unary main_v94 main_v95 (Host.sqrt : (⟨S32x2048x1, .f32⟩ : BufTy).Contents (Elt F) → (⟨S32x2048x1, .f32⟩ : BufTy).Contents (Elt F)),
    StableHlo.nullary main_cst_36 (constant S_ .f32 0x2B8CBCCC#32),
    StableHlo.unary main_cst_36 main_v96 (broadcastInDim S32x2048x1 ![] bcast_S_S32x2048x1 : (⟨S_, .f32⟩ : BufTy).Contents (Elt F) → (⟨S32x2048x1, .f32⟩ : BufTy).Contents (Elt F)),
    StableHlo.binary main_v95 main_v96 main_v97 (maximumf : (⟨S32x2048x1, .f32⟩ : BufTy).Contents (Elt F) → (⟨S32x2048x1, .f32⟩ : BufTy).Contents (Elt F) → (⟨S32x2048x1, .f32⟩ : BufTy).Contents (Elt F)),
    StableHlo.unary main_v97 main_v98 (broadcastInDim S32x2048x512 ![0, 1, 2] bcast_S32x2048x1_S32x2048x512_0_1_2 : (⟨S32x2048x1, .f32⟩ : BufTy).Contents (Elt F) → (⟨S32x2048x512, .f32⟩ : BufTy).Contents (Elt F)),
    StableHlo.binary main_arg7 main_v98 main_v99 (Host.divf : (⟨S32x2048x512, .f32⟩ : BufTy).Contents (Elt F) → (⟨S32x2048x512, .f32⟩ : BufTy).Contents (Elt F) → (⟨S32x2048x512, .f32⟩ : BufTy).Contents (Elt F)),
    StableHlo.nullary main_cst_37 (constant S_ .f32 0x00000000#32),
    StableHlo.binary main_v99 main_cst_37 main_v100 ((fun x v => Host.reduceAdd x v reducesTo_S32x2048x512_S2048x512_d0 h_S_) : (⟨S32x2048x512, .f32⟩ : BufTy).Contents (Elt F) → (⟨S_, .f32⟩ : BufTy).Contents (Elt F) → (⟨S2048x512, .f32⟩ : BufTy).Contents (Elt F)),
    StableHlo.nullary main_cst_38 (constant S_ .f32 0x42000000#32),
    StableHlo.unary main_cst_38 main_v101 (broadcastInDim S2048x512 ![] bcast_S_S2048x512 : (⟨S_, .f32⟩ : BufTy).Contents (Elt F) → (⟨S2048x512, .f32⟩ : BufTy).Contents (Elt F)),
    StableHlo.binary main_v100 main_v101 main_v102 (Host.divf : (⟨S2048x512, .f32⟩ : BufTy).Contents (Elt F) → (⟨S2048x512, .f32⟩ : BufTy).Contents (Elt F) → (⟨S2048x512, .f32⟩ : BufTy).Contents (Elt F)),
    StableHlo.nullary main_cst_39 (constant S_ .f32 0x00000000#32),
    StableHlo.binary main_v91 main_cst_39 main_v103 ((fun x v => Host.reduceAdd x v reducesTo_S32x2048x512_S2048x512_d0 h_S_) : (⟨S32x2048x512, .f32⟩ : BufTy).Contents (Elt F) → (⟨S_, .f32⟩ : BufTy).Contents (Elt F) → (⟨S2048x512, .f32⟩ : BufTy).Contents (Elt F)),
    StableHlo.nullary main_cst_40 (constant S_ .f32 0x42000000#32),
    StableHlo.unary main_cst_40 main_v104 (broadcastInDim S2048x512 ![] bcast_S_S2048x512 : (⟨S_, .f32⟩ : BufTy).Contents (Elt F) → (⟨S2048x512, .f32⟩ : BufTy).Contents (Elt F)),
    StableHlo.binary main_v103 main_v104 main_v105 (Host.divf : (⟨S2048x512, .f32⟩ : BufTy).Contents (Elt F) → (⟨S2048x512, .f32⟩ : BufTy).Contents (Elt F) → (⟨S2048x512, .f32⟩ : BufTy).Contents (Elt F)),
    StableHlo.binary main_v102 main_v105 main_v106 (subf : (⟨S2048x512, .f32⟩ : BufTy).Contents (Elt F) → (⟨S2048x512, .f32⟩ : BufTy).Contents (Elt F) → (⟨S2048x512, .f32⟩ : BufTy).Contents (Elt F)),
    StableHlo.binary main_v106 main_v106 main_v107 (mulf : (⟨S2048x512, .f32⟩ : BufTy).Contents (Elt F) → (⟨S2048x512, .f32⟩ : BufTy).Contents (Elt F) → (⟨S2048x512, .f32⟩ : BufTy).Contents (Elt F)),
    StableHlo.nullary main_cst_41 (constant S_ .f32 0x00000000#32),
    StableHlo.binary main_v107 main_cst_41 main_v108 ((fun x v => Host.reduceAdd x v reducesTo_S2048x512_S_d0_1 h_S_) : (⟨S2048x512, .f32⟩ : BufTy).Contents (Elt F) → (⟨S_, .f32⟩ : BufTy).Contents (Elt F) → (⟨S_, .f32⟩ : BufTy).Contents (Elt F)),
    StableHlo.nullary main_cst_42 (constant S_ .f32 0x49800000#32),
    StableHlo.binary main_v108 main_cst_42 main_v109 (Host.divf : (⟨S_, .f32⟩ : BufTy).Contents (Elt F) → (⟨S_, .f32⟩ : BufTy).Contents (Elt F) → (⟨S_, .f32⟩ : BufTy).Contents (Elt F)),
    StableHlo.nullary main_cst_43 (constant S_ .f32 0x3DCCCCCD#32),
    StableHlo.binary main_cst_43 main_v109 main_v110 (mulf : (⟨S_, .f32⟩ : BufTy).Contents (Elt F) → (⟨S_, .f32⟩ : BufTy).Contents (Elt F) → (⟨S_, .f32⟩ : BufTy).Contents (Elt F)),
    StableHlo.binary main_v83 main_v110 main_v111 (addf : (⟨S_, .f32⟩ : BufTy).Contents (Elt F) → (⟨S_, .f32⟩ : BufTy).Contents (Elt F) → (⟨S_, .f32⟩ : BufTy).Contents (Elt F)),
    StableHlo.nullary main_cst_44 (constant S_ .f32 0x40800000#32),
    StableHlo.binary main_v111 main_cst_44 main_v112 (Host.divf : (⟨S_, .f32⟩ : BufTy).Contents (Elt F) → (⟨S_, .f32⟩ : BufTy).Contents (Elt F) → (⟨S_, .f32⟩ : BufTy).Contents (Elt F)),
    StableHlo.nullary main_c (constantI S_ 32 256#32),
    StableHlo.unary main_c main_v113 (broadcastInDim S32x2048 ![] bcast_S_S32x2048 : (⟨S_, .i32⟩ : BufTy).Contents (Elt F) → (⟨S32x2048, .i32⟩ : BufTy).Contents (Elt F)),
    StableHlo.binary main_arg11 main_v113 main_v114 (cmpi .sge : (⟨S32x2048, .i32⟩ : BufTy).Contents (Elt F) → (⟨S32x2048, .i32⟩ : BufTy).Contents (Elt F) → (⟨S32x2048, .i1⟩ : BufTy).Contents (Elt F)),
    StableHlo.nullary main_c_45 (constantI S_ 32 768#32),
    StableHlo.unary main_c_45 main_v115 (broadcastInDim S32x2048 ![] bcast_S_S32x2048 : (⟨S_, .i32⟩ : BufTy).Contents (Elt F) → (⟨S32x2048, .i32⟩ : BufTy).Contents (Elt F)),
    StableHlo.binary main_arg11 main_v115 main_v116 (cmpi .slt : (⟨S32x2048, .i32⟩ : BufTy).Contents (Elt F) → (⟨S32x2048, .i32⟩ : BufTy).Contents (Elt F) → (⟨S32x2048, .i1⟩ : BufTy).Contents (Elt F)),
    StableHlo.binary main_v114 main_v116 main_v117 (andi : (⟨S32x2048, .i1⟩ : BufTy).Contents (Elt F) → (⟨S32x2048, .i1⟩ : BufTy).Contents (Elt F) → (⟨S32x2048, .i1⟩ : BufTy).Contents (Elt F)),
    StableHlo.unary main_v117 main_v118 (uitofp .f32 : (⟨S32x2048, .i1⟩ : BufTy).Contents (Elt F) → (⟨S32x2048, .f32⟩ : BufTy).Contents (Elt F)),
    StableHlo.TRef.unary (.of main_v118 : StableHlo.TRef sig ⟨S32x2048, .f32⟩) main_call0.v0 (extractStridedSlice S32x2047 ![0, 1] · slices_S32x2048_S32x2047_0_1),
    StableHlo.TRef.unary (.of main_v118 : StableHlo.TRef sig ⟨S32x2048, .f32⟩) main_call0.v1 (extractStridedSlice S32x2047 ![0, 0] · slices_S32x2048_S32x2047_0_0),
    StableHlo.TRef.binary main_call0.v0 main_call0.v1 main_call0.v2 subf,
    StableHlo.unary main_v119 main_v120 (Host.absf : (⟨S32x2047, .f32⟩ : BufTy).Contents (Elt F) → (⟨S32x2047, .f32⟩ : BufTy).Contents (Elt F)),
    StableHlo.nullary main_cst_46 (constant S_ .f32 0x00000000#32),
    StableHlo.binary main_v120 main_cst_46 main_v121 ((fun x v => Host.reduceAdd x v reducesTo_S32x2047_S_d0_1 h_S_) : (⟨S32x2047, .f32⟩ : BufTy).Contents (Elt F) → (⟨S_, .f32⟩ : BufTy).Contents (Elt F) → (⟨S_, .f32⟩ : BufTy).Contents (Elt F)),
    StableHlo.nullary main_cst_47 (constant S_ .f32 0x477FE000#32),
    StableHlo.binary main_v121 main_cst_47 main_v122 (Host.divf : (⟨S_, .f32⟩ : BufTy).Contents (Elt F) → (⟨S_, .f32⟩ : BufTy).Contents (Elt F) → (⟨S_, .f32⟩ : BufTy).Contents (Elt F)),
    StableHlo.nullary main_c_48 (constantI S_ 32 128#32),
    StableHlo.unary main_c_48 main_v123 (broadcastInDim S32x2048 ![] bcast_S_S32x2048 : (⟨S_, .i32⟩ : BufTy).Contents (Elt F) → (⟨S32x2048, .i32⟩ : BufTy).Contents (Elt F)),
    StableHlo.binary main_arg11 main_v123 main_v124 (cmpi .slt : (⟨S32x2048, .i32⟩ : BufTy).Contents (Elt F) → (⟨S32x2048, .i32⟩ : BufTy).Contents (Elt F) → (⟨S32x2048, .i1⟩ : BufTy).Contents (Elt F)),
    StableHlo.unary main_v124 main_v125 ((extui 32 · natLt_1_32) : (⟨S32x2048, .i1⟩ : BufTy).Contents (Elt F) → (⟨S32x2048, .i32⟩ : BufTy).Contents (Elt F)),
    StableHlo.binary main_arg11 main_v125 main_v126 (muli : (⟨S32x2048, .i32⟩ : BufTy).Contents (Elt F) → (⟨S32x2048, .i32⟩ : BufTy).Contents (Elt F) → (⟨S32x2048, .i32⟩ : BufTy).Contents (Elt F)),
    StableHlo.nullary main_c_49 (constantI S_ 32 12#32),
    StableHlo.TRef.unary (.of main_c_49 : StableHlo.TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S32x2048 ![] bcast_S_S32x2048),
    StableHlo.TRef.binary (.of main_v126 : StableHlo.TRef sig ⟨S32x2048, .i32⟩) main_call1.v3 main_call1.v4 Host.remsi,
    StableHlo.TRef.nullary main_call1.c_1 (constantI S_ 32 0#32),
    StableHlo.TRef.unary main_call1.c_1 main_call1.v5 (broadcastInDim S32x2048 ![] bcast_S_S32x2048),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S32x2048 ![] bcast_S_S32x2048),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S32x2048 ![] bcast_S_S32x2048),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S32x2048 ![] bcast_S_S32x2048),
    StableHlo.TRef.binary main_call1.v4 main_call1.v13 main_call1.v14 addi,
    StableHlo.TRef.ternary main_call1.v12 main_call1.v14 main_call1.v4 main_call1.v15 select ]

set_option maxRecDepth 8192 in
set_option maxHeartbeats 4000000 in
/-- The window is that straight line: the called functions' definitions unfolded at their calls and the records at
    their fields, both sides are one chain of `hlo` steps once sequencing is reassociated. -/
theorem main_part2_eq (c : Dev nD) : main_part2 (F := F) c = seq ops2 := by
  simp only [main_part2, fn_diff.body, fn_remainder.body, fn_where.body, seq, bind_assoc, pure_bind]
  all_goals rfl

set_option maxRecDepth 8192 in
/-- Every operation of the window touches TensorCore references only. -/
theorem ops2_sub : (ops2 : List (HloOp τ sig (Elt F))).Forall fun op => op.bufs ⊆ tcRefs τ sig :=
  ⟨binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., binary_bufs_sub .., nullary_bufs_sub .., unary_bufs_sub .., binary_bufs_sub .., nullary_bufs_sub .., binary_bufs_sub .., nullary_bufs_sub .., unary_bufs_sub .., binary_bufs_sub .., binary_bufs_sub .., binary_bufs_sub .., nullary_bufs_sub .., binary_bufs_sub .., nullary_bufs_sub .., binary_bufs_sub .., nullary_bufs_sub .., binary_bufs_sub .., binary_bufs_sub .., nullary_bufs_sub .., binary_bufs_sub .., nullary_bufs_sub .., unary_bufs_sub .., binary_bufs_sub .., nullary_bufs_sub .., unary_bufs_sub .., binary_bufs_sub .., binary_bufs_sub .., unary_bufs_sub .., unary_bufs_sub .., unary_bufs_sub .., binary_bufs_sub .., unary_bufs_sub .., nullary_bufs_sub .., binary_bufs_sub .., nullary_bufs_sub .., binary_bufs_sub .., nullary_bufs_sub .., unary_bufs_sub .., binary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

set_option maxRecDepth 8192 in
set_option maxHeartbeats 4000000 in
/-- Every operation of the window determines its results. -/
theorem ops2_fresh : ∀ op ∈ (ops2 : List (HloOp τ sig (Elt F))), op.fresh = ∅ := by
  intro _ h; (repeat (cases h with | head => rfl | tail _ h => ?_)); exact nomatch h

/-- The buffers the window's operations write. -/
abbrev ops2_W : List (Ref sig .tc) := [main_v85, main_v86, main_v87, main_cst_34, main_v88, main_v89, main_v90, main_v91, main_v92, main_cst_35, main_v93, main_v94, main_v95, main_cst_36, main_v96, main_v97, main_v98, main_v99, main_cst_37, main_v100, main_cst_38, main_v101, main_v102, main_cst_39, main_v103, main_cst_40, main_v104, main_v105, main_v106, main_v107, main_cst_41, main_v108, main_cst_42, main_v109, main_cst_43, main_v110, main_v111, main_cst_44, main_v112, main_c, main_v113, main_v114, main_c_45, main_v115, main_v116, main_v117, main_v118, main_call0_v0, main_call0_v1, main_v119, main_v120, main_cst_46, main_v121, main_cst_47, main_v122, main_c_48, main_v123, main_v124, main_v125, main_v126, main_c_49, main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v127]

set_option maxRecDepth 8192 in
set_option maxHeartbeats 4000000 in
theorem ops2_writes : (ops2 : List (HloOp τ sig (Elt F))).Forall fun op =>
    op.writes ⊆ (ops2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem ops2_keep (V : Valuation τ sig (Elt F)) (r : Ref sig .tc) (h : r ∉ ops2_W) :
    after ops2 V (Proc.devRef .tc r) = V (Proc.devRef .tc r) :=
  after_of_writes_sub ops2 V ops2_writes h

attribute [local irreducible] Host.reduceAdd Host.divf Host.sqrt Host.absf Host.negf Host.exp Host.log1p Host.remsi broadcastInDim extractStridedSlice in
set_option maxRecDepth 8192 in
set_option maxHeartbeats 8200000 in
/-- `main_v112` after the window, as a term of the arguments, from what the window's inputs hold. -/
theorem w2_v112 (V : Valuation τ sig (Elt F))
    {a0 : (⟨S32x2048x512, .f32⟩ : BufTy).Contents (Elt F)} {a1 : (⟨S32x128x512, .f32⟩ : BufTy).Contents (Elt F)} {a2 : (⟨S32x512, .f32⟩ : BufTy).Contents (Elt F)} {a3 : (⟨S32x2048x512, .f32⟩ : BufTy).Contents (Elt F)} {a4 : (⟨S32x2048x512, .f32⟩ : BufTy).Contents (Elt F)} {a5 : (⟨S32x128x512, .f32⟩ : BufTy).Contents (Elt F)} {a6 : (⟨S32x512, .f32⟩ : BufTy).Contents (Elt F)} {a7 : (⟨S32x2048x512, .f32⟩ : BufTy).Contents (Elt F)}
    (h_v83 : V (Proc.devRef .tc main_v83) = addf (addf (addf (constant (F := F) S_ .f32 0x00000000#32) (mulf (constant (F := F) S_ .f32 0x3ECCCCCD#32) (featL a0 a4))) (mulf (constant (F := F) S_ .f32 0x3ECCCCCD#32) (featP a1 a5))) (mulf (constant (F := F) S_ .f32 0x3E4CCCCD#32) (featG a2 a6)))
    (h_arg7 : V (Proc.devRef .tc main_arg7) = a7)
    (h_arg3 : V (Proc.devRef .tc main_arg3) = a3)
    (h_v84 : V (Proc.devRef .tc main_v84) = mulf a3 a3)
    (h_cst_33 : V (Proc.devRef .tc main_cst_33) = constant (F := F) S_ .f32 0x00000000#32) :
    after ops2 V (Proc.devRef .tc main_v112) = combine (featL a0 a4) (featP a1 a5) (featG a2 a6) (featI a3 a7) := by
  after_results_simp
  all_goals (try simp only [h_v83, h_arg7, h_arg3, h_v84, h_cst_33])
  all_goals rfl

attribute [local irreducible] Host.reduceAdd Host.divf Host.sqrt Host.absf Host.negf Host.exp Host.log1p Host.remsi broadcastInDim extractStridedSlice in
set_option maxRecDepth 8192 in
set_option maxHeartbeats 8200000 in
/-- `main_v122` after the window, as a term of the arguments, from what the window's inputs hold. -/
theorem w2_v122 (V : Valuation τ sig (Elt F))
    {a11 : (⟨S32x2048, .i32⟩ : BufTy).Contents (Elt F)}
    (h_arg11 : V (Proc.devRef .tc main_arg11) = a11) :
    after ops2 V (Proc.devRef .tc main_v122) = mus1 a11 := by
  after_results_simp
  all_goals (try simp only [h_arg11])
  all_goals rfl

attribute [local irreducible] Host.reduceAdd Host.divf Host.sqrt Host.absf Host.negf Host.exp Host.log1p Host.remsi broadcastInDim extractStridedSlice in
set_option maxRecDepth 8192 in
set_option maxHeartbeats 8200000 in
/-- `main_v126` after the window, as a term of the arguments, from what the window's inputs hold. -/
theorem w2_v126 (V : Valuation τ sig (Elt F))
    {a11 : (⟨S32x2048, .i32⟩ : BufTy).Contents (Elt F)}
    (h_arg11 : V (Proc.devRef .tc main_arg11) = a11) :
    after ops2 V (Proc.devRef .tc main_v126) = tokm a11 := by
  after_results_simp
  all_goals (try simp only [h_arg11])
  all_goals rfl

attribute [local irreducible] Host.reduceAdd Host.divf Host.sqrt Host.absf Host.negf Host.exp Host.log1p Host.remsi broadcastInDim extractStridedSlice in
set_option maxRecDepth 8192 in
set_option maxHeartbeats 8200000 in
/-- `main_v127` after the window, as a term of the arguments, from what the window's inputs hold. -/
theorem w2_v127 (V : Valuation τ sig (Elt F))
    {a11 : (⟨S32x2048, .i32⟩ : BufTy).Contents (Elt F)}
    (h_arg11 : V (Proc.devRef .tc main_arg11) = a11) :
    after ops2 V (Proc.devRef .tc main_v127) = rem12 (tokm a11) := by
  after_results_simp
  all_goals (try simp only [h_arg11])
  all_goals rfl

end Cert.ReferenceIdeal.RefRun

end
-- ==== Proof.RefRunPart3.lean ====
import proofs.«139213_j64381559767355_2_alg».proof.ReferenceIdeal
import Idealize.ShloMosaic.Lib.StableHlo.Run
import proofs.«139213_j64381559767355_2_alg».proof.Proof.RefRunDefs

noncomputable section

namespace Cert.ReferenceIdeal.RefRun

open Cert.ReferenceIdeal Idealize.ShloMosaic Idealize.ShloMosaic.TcCoe Idealize.SL.Sem Idealize.ShloMosaic.StableHlo
open Facts₀

variable {F : FTy → Type} [FloatOps F] [Facts]

/-- The fourth window's operations, in order, the four calls (the sequence difference and the three softplus) unfolded at their call sites over their records' buffers. -/
abbrev ops3 : List (HloOp τ sig (Elt F)) :=
  [ StableHlo.unary main_v127 main_v128 ((extractStridedSlice S32x2047 ![0, 0] · slices_S32x2048_S32x2047_0_0) : (⟨S32x2048, .i32⟩ : BufTy).Contents (Elt F) → (⟨S32x2047, .i32⟩ : BufTy).Contents (Elt F)),
    StableHlo.unary main_v127 main_v129 ((extractStridedSlice S32x2047 ![0, 1] · slices_S32x2048_S32x2047_0_1) : (⟨S32x2048, .i32⟩ : BufTy).Contents (Elt F) → (⟨S32x2047, .i32⟩ : BufTy).Contents (Elt F)),
    StableHlo.binary main_v128 main_v129 main_v130 (subi : (⟨S32x2047, .i32⟩ : BufTy).Contents (Elt F) → (⟨S32x2047, .i32⟩ : BufTy).Contents (Elt F) → (⟨S32x2047, .i32⟩ : BufTy).Contents (Elt F)),
    StableHlo.unary main_v130 main_v131 (absi : (⟨S32x2047, .i32⟩ : BufTy).Contents (Elt F) → (⟨S32x2047, .i32⟩ : BufTy).Contents (Elt F)),
    StableHlo.nullary main_c_50 (constantI S_ 32 6#32),
    StableHlo.unary main_c_50 main_v132 (broadcastInDim S32x2047 ![] bcast_S_S32x2047 : (⟨S_, .i32⟩ : BufTy).Contents (Elt F) → (⟨S32x2047, .i32⟩ : BufTy).Contents (Elt F)),
    StableHlo.binary main_v131 main_v132 main_v133 (cmpi .eq : (⟨S32x2047, .i32⟩ : BufTy).Contents (Elt F) → (⟨S32x2047, .i32⟩ : BufTy).Contents (Elt F) → (⟨S32x2047, .i1⟩ : BufTy).Contents (Elt F)),
    StableHlo.nullary main_c_51 (constantI S_ 32 11#32),
    StableHlo.unary main_c_51 main_v134 (broadcastInDim S32x2047 ![] bcast_S_S32x2047 : (⟨S_, .i32⟩ : BufTy).Contents (Elt F) → (⟨S32x2047, .i32⟩ : BufTy).Contents (Elt F)),
    StableHlo.binary main_v131 main_v134 main_v135 (cmpi .eq : (⟨S32x2047, .i32⟩ : BufTy).Contents (Elt F) → (⟨S32x2047, .i32⟩ : BufTy).Contents (Elt F) → (⟨S32x2047, .i1⟩ : BufTy).Contents (Elt F)),
    StableHlo.binary main_v133 main_v135 main_v136 (ori : (⟨S32x2047, .i1⟩ : BufTy).Contents (Elt F) → (⟨S32x2047, .i1⟩ : BufTy).Contents (Elt F) → (⟨S32x2047, .i1⟩ : BufTy).Contents (Elt F)),
    StableHlo.unary main_v136 main_v137 (uitofp .f32 : (⟨S32x2047, .i1⟩ : BufTy).Contents (Elt F) → (⟨S32x2047, .f32⟩ : BufTy).Contents (Elt F)),
    StableHlo.nullary main_cst_52 (constant S_ .f32 0x00000000#32),
    StableHlo.binary main_v137 main_cst_52 main_v138 ((fun x v => Host.reduceAdd x v reducesTo_S32x2047_S2047_d0 h_S_) : (⟨S32x2047, .f32⟩ : BufTy).Contents (Elt F) → (⟨S_, .f32⟩ : BufTy).Contents (Elt F) → (⟨S2047, .f32⟩ : BufTy).Contents (Elt F)),
    StableHlo.nullary main_cst_53 (constant S_ .f32 0x42000000#32),
    StableHlo.unary main_cst_53 main_v139 (broadcastInDim S2047 ![] bcast_S_S2047 : (⟨S_, .f32⟩ : BufTy).Contents (Elt F) → (⟨S2047, .f32⟩ : BufTy).Contents (Elt F)),
    StableHlo.binary main_v138 main_v139 main_v140 (Host.divf : (⟨S2047, .f32⟩ : BufTy).Contents (Elt F) → (⟨S2047, .f32⟩ : BufTy).Contents (Elt F) → (⟨S2047, .f32⟩ : BufTy).Contents (Elt F)),
    StableHlo.nullary main_cst_54 (constant S_ .f32 0x00000000#32),
    StableHlo.binary main_v140 main_cst_54 main_v141 ((fun x v => Host.reduceAdd x v reducesTo_S2047_S_d0 h_S_) : (⟨S2047, .f32⟩ : BufTy).Contents (Elt F) → (⟨S_, .f32⟩ : BufTy).Contents (Elt F) → (⟨S_, .f32⟩ : BufTy).Contents (Elt F)),
    StableHlo.nullary main_cst_55 (constant S_ .f32 0x45000000#32),
    StableHlo.binary main_v141 main_cst_55 main_v142 (Host.divf : (⟨S_, .f32⟩ : BufTy).Contents (Elt F) → (⟨S_, .f32⟩ : BufTy).Contents (Elt F) → (⟨S_, .f32⟩ : BufTy).Contents (Elt F)),
    StableHlo.unary main_v126 main_v143 (sitofp .f32 : (⟨S32x2048, .i32⟩ : BufTy).Contents (Elt F) → (⟨S32x2048, .f32⟩ : BufTy).Contents (Elt F)),
    StableHlo.TRef.unary (.of main_v143 : StableHlo.TRef sig ⟨S32x2048, .f32⟩) main_call2.v0 (extractStridedSlice S32x2047 ![0, 1] · slices_S32x2048_S32x2047_0_1),
    StableHlo.TRef.unary (.of main_v143 : StableHlo.TRef sig ⟨S32x2048, .f32⟩) main_call2.v1 (extractStridedSlice S32x2047 ![0, 0] · slices_S32x2048_S32x2047_0_0),
    StableHlo.TRef.binary main_call2.v0 main_call2.v1 main_call2.v2 subf,
    StableHlo.unary main_v144 main_v145 (Host.absf : (⟨S32x2047, .f32⟩ : BufTy).Contents (Elt F) → (⟨S32x2047, .f32⟩ : BufTy).Contents (Elt F)),
    StableHlo.nullary main_cst_56 (constant S_ .f32 0x41400000#32),
    StableHlo.unary main_cst_56 main_v146 (broadcastInDim S32x2047 ![] bcast_S_S32x2047 : (⟨S_, .f32⟩ : BufTy).Contents (Elt F) → (⟨S32x2047, .f32⟩ : BufTy).Contents (Elt F)),
    StableHlo.binary main_v145 main_v146 main_v147 (cmpf .ogt : (⟨S32x2047, .f32⟩ : BufTy).Contents (Elt F) → (⟨S32x2047, .f32⟩ : BufTy).Contents (Elt F) → (⟨S32x2047, .i1⟩ : BufTy).Contents (Elt F)),
    StableHlo.unary main_v147 main_v148 (uitofp .f32 : (⟨S32x2047, .i1⟩ : BufTy).Contents (Elt F) → (⟨S32x2047, .f32⟩ : BufTy).Contents (Elt F)),
    StableHlo.nullary main_cst_57 (constant S_ .f32 0x00000000#32),
    StableHlo.binary main_v148 main_cst_57 main_v149 ((fun x v => Host.reduceAdd x v reducesTo_S32x2047_S_d0_1 h_S_) : (⟨S32x2047, .f32⟩ : BufTy).Contents (Elt F) → (⟨S_, .f32⟩ : BufTy).Contents (Elt F) → (⟨S_, .f32⟩ : BufTy).Contents (Elt F)),
    StableHlo.nullary main_cst_58 (constant S_ .f32 0x477FE000#32),
    StableHlo.binary main_v149 main_cst_58 main_v150 (Host.divf : (⟨S_, .f32⟩ : BufTy).Contents (Elt F) → (⟨S_, .f32⟩ : BufTy).Contents (Elt F) → (⟨S_, .f32⟩ : BufTy).Contents (Elt F)),
    StableHlo.binary main_v122 main_v142 main_v151 (addf : (⟨S_, .f32⟩ : BufTy).Contents (Elt F) → (⟨S_, .f32⟩ : BufTy).Contents (Elt F) → (⟨S_, .f32⟩ : BufTy).Contents (Elt F)),
    StableHlo.binary main_v151 main_v150 main_v152 (addf : (⟨S_, .f32⟩ : BufTy).Contents (Elt F) → (⟨S_, .f32⟩ : BufTy).Contents (Elt F) → (⟨S_, .f32⟩ : BufTy).Contents (Elt F)),
    StableHlo.unary main_arg8 main_v153 (Host.negf : (⟨S32x2048, .f32⟩ : BufTy).Contents (Elt F) → (⟨S32x2048, .f32⟩ : BufTy).Contents (Elt F)),
    StableHlo.TRef.nullary main_call3.cst (constant S_ .f32 0x00000000#32),
    StableHlo.TRef.unary main_call3.cst main_call3.v0 (broadcastInDim S32x2048 ![] bcast_S_S32x2048),
    StableHlo.TRef.binary (.of main_v153 : StableHlo.TRef sig ⟨S32x2048, .f32⟩) main_call3.v0 main_call3.v1 maximumf,
    StableHlo.TRef.unary main_call3.cst main_call3.v2 (broadcastInDim S32x2048 ![] bcast_S_S32x2048),
    StableHlo.TRef.binary (.of main_v153 : StableHlo.TRef sig ⟨S32x2048, .f32⟩) main_call3.v2 main_call3.v3 subf,
    StableHlo.TRef.binary main_call3.v3 main_call3.v3 main_call3.v4 (cmpf .une),
    StableHlo.TRef.unary main_call3.cst main_call3.v5 (broadcastInDim S32x2048 ![] bcast_S_S32x2048),
    StableHlo.TRef.binary (.of main_v153 : StableHlo.TRef sig ⟨S32x2048, .f32⟩) main_call3.v5 main_call3.v6 addf,
    StableHlo.TRef.unary main_call3.v3 main_call3.v7 Host.absf,
    StableHlo.TRef.unary main_call3.v7 main_call3.v8 Host.negf,
    StableHlo.TRef.unary main_call3.v8 main_call3.v9 Host.exp,
    StableHlo.TRef.unary main_call3.v9 main_call3.v10 Host.log1p,
    StableHlo.TRef.binary main_call3.v1 main_call3.v10 main_call3.v11 addf,
    StableHlo.TRef.ternary main_call3.v4 main_call3.v6 main_call3.v11 main_call3.v12 select,
    StableHlo.nullary main_cst_59 (constant S_ .f32 0x00000000#32),
    StableHlo.binary main_v154 main_cst_59 main_v155 ((fun x v => Host.reduceAdd x v reducesTo_S32x2048_S_d0_1 h_S_) : (⟨S32x2048, .f32⟩ : BufTy).Contents (Elt F) → (⟨S_, .f32⟩ : BufTy).Contents (Elt F) → (⟨S_, .f32⟩ : BufTy).Contents (Elt F)),
    StableHlo.nullary main_cst_60 (constant S_ .f32 0x47800000#32),
    StableHlo.binary main_v155 main_cst_60 main_v156 (Host.divf : (⟨S_, .f32⟩ : BufTy).Contents (Elt F) → (⟨S_, .f32⟩ : BufTy).Contents (Elt F) → (⟨S_, .f32⟩ : BufTy).Contents (Elt F)),
    StableHlo.nullary main_cst_61 (constant S_ .f32 0x3ECCCCCD#32),
    StableHlo.binary main_cst_61 main_v156 main_v157 (mulf : (⟨S_, .f32⟩ : BufTy).Contents (Elt F) → (⟨S_, .f32⟩ : BufTy).Contents (Elt F) → (⟨S_, .f32⟩ : BufTy).Contents (Elt F)),
    StableHlo.unary main_arg9 main_v158 (Host.negf : (⟨S32x128, .f32⟩ : BufTy).Contents (Elt F) → (⟨S32x128, .f32⟩ : BufTy).Contents (Elt F)),
    StableHlo.TRef.nullary main_call4.cst (constant S_ .f32 0x00000000#32),
    StableHlo.TRef.unary main_call4.cst main_call4.v0 (broadcastInDim S32x128 ![] bcast_S_S32x128),
    StableHlo.TRef.binary (.of main_v158 : StableHlo.TRef sig ⟨S32x128, .f32⟩) main_call4.v0 main_call4.v1 maximumf,
    StableHlo.TRef.unary main_call4.cst main_call4.v2 (broadcastInDim S32x128 ![] bcast_S_S32x128),
    StableHlo.TRef.binary (.of main_v158 : StableHlo.TRef sig ⟨S32x128, .f32⟩) main_call4.v2 main_call4.v3 subf,
    StableHlo.TRef.binary main_call4.v3 main_call4.v3 main_call4.v4 (cmpf .une),
    StableHlo.TRef.unary main_call4.cst main_call4.v5 (broadcastInDim S32x128 ![] bcast_S_S32x128),
    StableHlo.TRef.binary (.of main_v158 : StableHlo.TRef sig ⟨S32x128, .f32⟩) main_call4.v5 main_call4.v6 addf,
    StableHlo.TRef.unary main_call4.v3 main_call4.v7 Host.absf,
    StableHlo.TRef.unary main_call4.v7 main_call4.v8 Host.negf,
    StableHlo.TRef.unary main_call4.v8 main_call4.v9 Host.exp,
    StableHlo.TRef.unary main_call4.v9 main_call4.v10 Host.log1p,
    StableHlo.TRef.binary main_call4.v1 main_call4.v10 main_call4.v11 addf,
    StableHlo.TRef.ternary main_call4.v4 main_call4.v6 main_call4.v11 main_call4.v12 select,
    StableHlo.nullary main_cst_62 (constant S_ .f32 0x00000000#32),
    StableHlo.binary main_v159 main_cst_62 main_v160 ((fun x v => Host.reduceAdd x v reducesTo_S32x128_S_d0_1 h_S_) : (⟨S32x128, .f32⟩ : BufTy).Contents (Elt F) → (⟨S_, .f32⟩ : BufTy).Contents (Elt F) → (⟨S_, .f32⟩ : BufTy).Contents (Elt F)),
    StableHlo.nullary main_cst_63 (constant S_ .f32 0x45800000#32),
    StableHlo.binary main_v160 main_cst_63 main_v161 (Host.divf : (⟨S_, .f32⟩ : BufTy).Contents (Elt F) → (⟨S_, .f32⟩ : BufTy).Contents (Elt F) → (⟨S_, .f32⟩ : BufTy).Contents (Elt F)),
    StableHlo.nullary main_cst_64 (constant S_ .f32 0x3ECCCCCD#32),
    StableHlo.binary main_cst_64 main_v161 main_v162 (mulf : (⟨S_, .f32⟩ : BufTy).Contents (Elt F) → (⟨S_, .f32⟩ : BufTy).Contents (Elt F) → (⟨S_, .f32⟩ : BufTy).Contents (Elt F)),
    StableHlo.binary main_v157 main_v162 main_v163 (addf : (⟨S_, .f32⟩ : BufTy).Contents (Elt F) → (⟨S_, .f32⟩ : BufTy).Contents (Elt F) → (⟨S_, .f32⟩ : BufTy).Contents (Elt F)),
    StableHlo.unary main_arg10 main_v164 (Host.negf : (⟨S32x1, .f32⟩ : BufTy).Contents (Elt F) → (⟨S32x1, .f32⟩ : BufTy).Contents (Elt F)),
    StableHlo.TRef.nullary main_call5.cst (constant S_ .f32 0x00000000#32),
    StableHlo.TRef.unary main_call5.cst main_call5.v0 (broadcastInDim S32x1 ![] bcast_S_S32x1),
    StableHlo.TRef.binary (.of main_v164 : StableHlo.TRef sig ⟨S32x1, .f32⟩) main_call5.v0 main_call5.v1 maximumf,
    StableHlo.TRef.unary main_call5.cst main_call5.v2 (broadcastInDim S32x1 ![] bcast_S_S32x1),
    StableHlo.TRef.binary (.of main_v164 : StableHlo.TRef sig ⟨S32x1, .f32⟩) main_call5.v2 main_call5.v3 subf,
    StableHlo.TRef.binary main_call5.v3 main_call5.v3 main_call5.v4 (cmpf .une),
    StableHlo.TRef.unary main_call5.cst main_call5.v5 (broadcastInDim S32x1 ![] bcast_S_S32x1),
    StableHlo.TRef.binary (.of main_v164 : StableHlo.TRef sig ⟨S32x1, .f32⟩) main_call5.v5 main_call5.v6 addf,
    StableHlo.TRef.unary main_call5.v3 main_call5.v7 Host.absf,
    StableHlo.TRef.unary main_call5.v7 main_call5.v8 Host.negf,
    StableHlo.TRef.unary main_call5.v8 main_call5.v9 Host.exp,
    StableHlo.TRef.unary main_call5.v9 main_call5.v10 Host.log1p,
    StableHlo.TRef.binary main_call5.v1 main_call5.v10 main_call5.v11 addf,
    StableHlo.TRef.ternary main_call5.v4 main_call5.v6 main_call5.v11 main_call5.v12 select,
    StableHlo.nullary main_cst_65 (constant S_ .f32 0x00000000#32),
    StableHlo.binary main_v165 main_cst_65 main_v166 ((fun x v => Host.reduceAdd x v reducesTo_S32x1_S_d0_1 h_S_) : (⟨S32x1, .f32⟩ : BufTy).Contents (Elt F) → (⟨S_, .f32⟩ : BufTy).Contents (Elt F) → (⟨S_, .f32⟩ : BufTy).Contents (Elt F)),
    StableHlo.nullary main_cst_66 (constant S_ .f32 0x42000000#32),
    StableHlo.binary main_v166 main_cst_66 main_v167 (Host.divf : (⟨S_, .f32⟩ : BufTy).Contents (Elt F) → (⟨S_, .f32⟩ : BufTy).Contents (Elt F) → (⟨S_, .f32⟩ : BufTy).Contents (Elt F)),
    StableHlo.nullary main_cst_67 (constant S_ .f32 0x3E4CCCCD#32),
    StableHlo.binary main_cst_67 main_v167 main_v168 (mulf : (⟨S_, .f32⟩ : BufTy).Contents (Elt F) → (⟨S_, .f32⟩ : BufTy).Contents (Elt F) → (⟨S_, .f32⟩ : BufTy).Contents (Elt F)),
    StableHlo.binary main_v163 main_v168 main_v169 (addf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- The window is that straight line: the called functions' definitions unfolded at their calls and the records at
    their fields, both sides are one chain of `hlo` steps once sequencing is reassociated. -/
theorem main_part3_eq (c : Dev nD) : main_part3 (F := F) c = seq ops3 := by
  simp only [main_part3, fn_diff.body, fn_softplus.body, fn_softplus_0.body, fn_softplus_1.body, seq, bind_assoc, pure_bind]
  all_goals rfl

set_option maxRecDepth 8192 in
/-- Every operation of the window touches TensorCore references only. -/
theorem ops3_sub : (ops3 : List (HloOp τ sig (Elt F))).Forall fun op => op.bufs ⊆ tcRefs τ sig :=
  ⟨unary_bufs_sub .., unary_bufs_sub .., binary_bufs_sub .., unary_bufs_sub .., nullary_bufs_sub .., unary_bufs_sub .., binary_bufs_sub .., nullary_bufs_sub .., unary_bufs_sub .., binary_bufs_sub .., binary_bufs_sub .., unary_bufs_sub .., nullary_bufs_sub .., binary_bufs_sub .., nullary_bufs_sub .., unary_bufs_sub .., binary_bufs_sub .., nullary_bufs_sub .., binary_bufs_sub .., nullary_bufs_sub .., binary_bufs_sub .., unary_bufs_sub .., unary_bufs_sub .., unary_bufs_sub .., binary_bufs_sub .., unary_bufs_sub .., nullary_bufs_sub .., unary_bufs_sub .., binary_bufs_sub .., unary_bufs_sub .., nullary_bufs_sub .., binary_bufs_sub .., nullary_bufs_sub .., binary_bufs_sub .., binary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., binary_bufs_sub .., nullary_bufs_sub .., binary_bufs_sub .., nullary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., binary_bufs_sub .., nullary_bufs_sub .., binary_bufs_sub .., nullary_bufs_sub .., binary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., binary_bufs_sub .., nullary_bufs_sub .., binary_bufs_sub .., nullary_bufs_sub .., binary_bufs_sub .., binary_bufs_sub ..⟩

set_option maxRecDepth 8192 in
set_option maxHeartbeats 4000000 in
/-- Every operation of the window determines its results. -/
theorem ops3_fresh : ∀ op ∈ (ops3 : List (HloOp τ sig (Elt F))), op.fresh = ∅ := by
  intro _ h; (repeat (cases h with | head => rfl | tail _ h => ?_)); exact nomatch h

/-- The buffers the window's operations write. -/
abbrev ops3_W : List (Ref sig .tc) := [main_v128, main_v129, main_v130, main_v131, main_c_50, main_v132, main_v133, main_c_51, main_v134, main_v135, main_v136, main_v137, main_cst_52, main_v138, main_cst_53, main_v139, main_v140, main_cst_54, main_v141, main_cst_55, main_v142, main_v143, main_call2_v0, main_call2_v1, main_v144, main_v145, main_cst_56, main_v146, main_v147, main_v148, main_cst_57, main_v149, main_cst_58, main_v150, main_v151, main_v152, main_v153, main_call3_cst, main_call3_v0, main_call3_v1, main_call3_v2, main_call3_v3, main_call3_v4, main_call3_v5, main_call3_v6, main_call3_v7, main_call3_v8, main_call3_v9, main_call3_v10, main_call3_v11, main_v154, main_cst_59, main_v155, main_cst_60, main_v156, main_cst_61, main_v157, main_v158, main_call4_cst, main_call4_v0, main_call4_v1, main_call4_v2, main_call4_v3, main_call4_v4, main_call4_v5, main_call4_v6, main_call4_v7, main_call4_v8, main_call4_v9, main_call4_v10, main_call4_v11, main_v159, main_cst_62, main_v160, main_cst_63, main_v161, main_cst_64, main_v162, main_v163, main_v164, main_call5_cst, main_call5_v0, main_call5_v1, main_call5_v2, main_call5_v3, main_call5_v4, main_call5_v5, main_call5_v6, main_call5_v7, main_call5_v8, main_call5_v9, main_call5_v10, main_call5_v11, main_v165, main_cst_65, main_v166, main_cst_66, main_v167, main_cst_67, main_v168, main_v169]

set_option maxRecDepth 8192 in
set_option maxHeartbeats 4000000 in
theorem ops3_writes : (ops3 : List (HloOp τ sig (Elt F))).Forall fun op =>
    op.writes ⊆ (ops3_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem ops3_keep (V : Valuation τ sig (Elt F)) (r : Ref sig .tc) (h : r ∉ ops3_W) :
    after ops3 V (Proc.devRef .tc r) = V (Proc.devRef .tc r) :=
  after_of_writes_sub ops3 V ops3_writes h

attribute [local irreducible] Host.reduceAdd Host.divf Host.sqrt Host.absf Host.negf Host.exp Host.log1p Host.remsi broadcastInDim extractStridedSlice in
set_option maxRecDepth 8192 in
set_option maxHeartbeats 10100000 in
/-- `main_v152` after the window, as a term of the arguments, from what the window's inputs hold. -/
theorem w3_v152 (V : Valuation τ sig (Elt F))
    {a11 : (⟨S32x2048, .i32⟩ : BufTy).Contents (Elt F)}
    (h_v122 : V (Proc.devRef .tc main_v122) = mus1 a11)
    (h_v127 : V (Proc.devRef .tc main_v127) = rem12 (tokm a11))
    (h_v126 : V (Proc.devRef .tc main_v126) = tokm a11) :
    after ops3 V (Proc.devRef .tc main_v152) = musical a11 := by
  after_results_simp
  all_goals (try simp only [h_v122, h_v127, h_v126])
  all_goals rfl

attribute [local irreducible] Host.reduceAdd Host.divf Host.sqrt Host.absf Host.negf Host.exp Host.log1p Host.remsi broadcastInDim extractStridedSlice in
set_option maxRecDepth 8192 in
set_option maxHeartbeats 10100000 in
/-- `main_v169` after the window, as a term of the arguments, from what the window's inputs hold. -/
theorem w3_v169 (V : Valuation τ sig (Elt F))
    {a8 : (⟨S32x2048, .f32⟩ : BufTy).Contents (Elt F)} {a9 : (⟨S32x128, .f32⟩ : BufTy).Contents (Elt F)} {a10 : (⟨S32x1, .f32⟩ : BufTy).Contents (Elt F)}
    (h_arg8 : V (Proc.devRef .tc main_arg8) = a8)
    (h_arg9 : V (Proc.devRef .tc main_arg9) = a9)
    (h_arg10 : V (Proc.devRef .tc main_arg10) = a10) :
    after ops3 V (Proc.devRef .tc main_v169) = adv a8 a9 a10 := by
  after_results_simp
  all_goals (try simp only [h_arg8, h_arg9, h_arg10])
  all_goals rfl

end Cert.ReferenceIdeal.RefRun

end
-- ==== Proof.RefRunPart4.lean ====
import proofs.«139213_j64381559767355_2_alg».proof.ReferenceIdeal
import Idealize.ShloMosaic.Lib.StableHlo.Run
import proofs.«139213_j64381559767355_2_alg».proof.Proof.RefRunDefs

noncomputable section

namespace Cert.ReferenceIdeal.RefRun

open Cert.ReferenceIdeal Idealize.ShloMosaic Idealize.ShloMosaic.TcCoe Idealize.SL.Sem Idealize.ShloMosaic.StableHlo
open Facts₀

variable {F : FTy → Type} [FloatOps F] [Facts]

/-- The last window's two additions. -/
abbrev ops4 : List (HloOp τ sig (Elt F)) :=
  [ StableHlo.binary main_v112 main_v152 main_v170 (addf : (⟨S_, .f32⟩ : BufTy).Contents (Elt F) → (⟨S_, .f32⟩ : BufTy).Contents (Elt F) → (⟨S_, .f32⟩ : BufTy).Contents (Elt F)),
    StableHlo.binary main_v170 main_v169 main_v171 (addf : (⟨S_, .f32⟩ : BufTy).Contents (Elt F) → (⟨S_, .f32⟩ : BufTy).Contents (Elt F) → (⟨S_, .f32⟩ : BufTy).Contents (Elt F)) ]

set_option maxRecDepth 8192 in
/-- The window is that straight line: both sides are the same chain of `hlo` steps. -/
theorem main_part4_eq (c : Dev nD) : main_part4 (F := F) c = seq ops4 := rfl

set_option maxRecDepth 8192 in
/-- Every operation of the window touches TensorCore references only. -/
theorem ops4_sub : (ops4 : List (HloOp τ sig (Elt F))).Forall fun op => op.bufs ⊆ tcRefs τ sig :=
  ⟨binary_bufs_sub .., binary_bufs_sub ..⟩

set_option maxRecDepth 8192 in
set_option maxHeartbeats 4000000 in
/-- Every operation of the window determines its results. -/
theorem ops4_fresh : ∀ op ∈ (ops4 : List (HloOp τ sig (Elt F))), op.fresh = ∅ := by
  intro _ h; (repeat (cases h with | head => rfl | tail _ h => ?_)); exact nomatch h

/-- The buffers the window's operations write. -/
abbrev ops4_W : List (Ref sig .tc) := [main_v170, main_v171]

set_option maxRecDepth 8192 in
set_option maxHeartbeats 4000000 in
theorem ops4_writes : (ops4 : List (HloOp τ sig (Elt F))).Forall fun op =>
    op.writes ⊆ (ops4_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem ops4_keep (V : Valuation τ sig (Elt F)) (r : Ref sig .tc) (h : r ∉ ops4_W) :
    after ops4 V (Proc.devRef .tc r) = V (Proc.devRef .tc r) :=
  after_of_writes_sub ops4 V ops4_writes h

attribute [local irreducible] Host.reduceAdd Host.divf Host.sqrt Host.absf Host.negf Host.exp Host.log1p Host.remsi broadcastInDim extractStridedSlice in
set_option maxRecDepth 8192 in
set_option maxHeartbeats 400000 in
/-- `main_v171` after the window, as a term of the arguments, from what the window's inputs hold. -/
theorem w4_v171 (V : Valuation τ sig (Elt F))
    {a0 : (⟨S32x2048x512, .f32⟩ : BufTy).Contents (Elt F)} {a1 : (⟨S32x128x512, .f32⟩ : BufTy).Contents (Elt F)} {a2 : (⟨S32x512, .f32⟩ : BufTy).Contents (Elt F)} {a3 : (⟨S32x2048x512, .f32⟩ : BufTy).Contents (Elt F)} {a4 : (⟨S32x2048x512, .f32⟩ : BufTy).Contents (Elt F)} {a5 : (⟨S32x128x512, .f32⟩ : BufTy).Contents (Elt F)} {a6 : (⟨S32x512, .f32⟩ : BufTy).Contents (Elt F)} {a7 : (⟨S32x2048x512, .f32⟩ : BufTy).Contents (Elt F)} {a8 : (⟨S32x2048, .f32⟩ : BufTy).Contents (Elt F)} {a9 : (⟨S32x128, .f32⟩ : BufTy).Contents (Elt F)} {a10 : (⟨S32x1, .f32⟩ : BufTy).Contents (Elt F)} {a11 : (⟨S32x2048, .i32⟩ : BufTy).Contents (Elt F)}
    (h_v112 : V (Proc.devRef .tc main_v112) = combine (featL a0 a4) (featP a1 a5) (featG a2 a6) (featI a3 a7))
    (h_v152 : V (Proc.devRef .tc main_v152) = musical a11)
    (h_v169 : V (Proc.devRef .tc main_v169) = adv a8 a9 a10) :
    after ops4 V (Proc.devRef .tc main_v171) = addf (addf (combine (featL a0 a4) (featP a1 a5) (featG a2 a6) (featI a3 a7)) (musical a11)) (adv a8 a9 a10) := by
  after_results_simp
  all_goals (try simp only [h_v112, h_v152, h_v169])
  all_goals rfl

end Cert.ReferenceIdeal.RefRun

end
-- ==== Proof.RefRun.lean ====
import proofs.«139213_j64381559767355_2_alg».proof.Proof.RefRunPart0
import proofs.«139213_j64381559767355_2_alg».proof.Proof.RefRunPart1
import proofs.«139213_j64381559767355_2_alg».proof.Proof.RefRunPart2
import proofs.«139213_j64381559767355_2_alg».proof.Proof.RefRunPart3
import proofs.«139213_j64381559767355_2_alg».proof.Proof.RefRunPart4

noncomputable section

namespace Cert.ReferenceIdeal.RefRun

open Cert.ReferenceIdeal Idealize.ShloMosaic Idealize.ShloMosaic.TcCoe Idealize.SL.Sem Idealize.ShloMosaic.StableHlo
open Facts₀

variable {F : FTy → Type} [FloatOps F] [Facts]

/-- Folding two lines run in a row is folding the second from where the first ends. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- Every host operation of @main in order, the called functions' operations at their call sites: the five windows'
    lists, one after the other. -/
abbrev ops : List (HloOp τ sig (Elt F)) :=
  ops0 ++ (ops1 ++ (ops2 ++ (ops3 ++ (ops4))))

/-- @main runs its windows in order, and each window is its line of operations. -/
theorem main_eq (c : Dev nD) : main (F := F) c = seq ops := by
  simp only [ops, seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h]

theorem ops_fresh : ∀ op ∈ (ops : List (HloOp τ sig (Elt F))), op.fresh = ∅ := fun op h => by
  simp only [ops, List.mem_append] at h
  rcases h with h | h | h | h | h
  exacts [ops0_fresh op h, ops1_fresh op h, ops2_fresh op h, ops3_fresh op h, ops4_fresh op h]

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## The fold, window by window

`valK V0` is what the buffers hold after the first K windows from contents `V0`; for each buffer still read later its
lemma gives it as a term of `V0` at the arguments. -/

/-- The device's buffer contents before the first window. -/
def val0 (V0 : Valuation τ sig (Elt F)) : Valuation τ sig (Elt F) := V0
theorem val0_arg0 (V0 : Valuation τ sig (Elt F)) : val0 V0 (Proc.devRef .tc main_arg0) = V0 (Proc.devRef .tc main_arg0) := rfl
theorem val0_arg1 (V0 : Valuation τ sig (Elt F)) : val0 V0 (Proc.devRef .tc main_arg1) = V0 (Proc.devRef .tc main_arg1) := rfl
theorem val0_arg2 (V0 : Valuation τ sig (Elt F)) : val0 V0 (Proc.devRef .tc main_arg2) = V0 (Proc.devRef .tc main_arg2) := rfl
theorem val0_arg3 (V0 : Valuation τ sig (Elt F)) : val0 V0 (Proc.devRef .tc main_arg3) = V0 (Proc.devRef .tc main_arg3) := rfl
theorem val0_arg4 (V0 : Valuation τ sig (Elt F)) : val0 V0 (Proc.devRef .tc main_arg4) = V0 (Proc.devRef .tc main_arg4) := rfl
theorem val0_arg5 (V0 : Valuation τ sig (Elt F)) : val0 V0 (Proc.devRef .tc main_arg5) = V0 (Proc.devRef .tc main_arg5) := rfl
theorem val0_arg6 (V0 : Valuation τ sig (Elt F)) : val0 V0 (Proc.devRef .tc main_arg6) = V0 (Proc.devRef .tc main_arg6) := rfl
theorem val0_arg7 (V0 : Valuation τ sig (Elt F)) : val0 V0 (Proc.devRef .tc main_arg7) = V0 (Proc.devRef .tc main_arg7) := rfl
theorem val0_arg8 (V0 : Valuation τ sig (Elt F)) : val0 V0 (Proc.devRef .tc main_arg8) = V0 (Proc.devRef .tc main_arg8) := rfl
theorem val0_arg9 (V0 : Valuation τ sig (Elt F)) : val0 V0 (Proc.devRef .tc main_arg9) = V0 (Proc.devRef .tc main_arg9) := rfl
theorem val0_arg10 (V0 : Valuation τ sig (Elt F)) : val0 V0 (Proc.devRef .tc main_arg10) = V0 (Proc.devRef .tc main_arg10) := rfl
theorem val0_arg11 (V0 : Valuation τ sig (Elt F)) : val0 V0 (Proc.devRef .tc main_arg11) = V0 (Proc.devRef .tc main_arg11) := rfl

/-- The device's buffer contents after the first 1 window. -/
def val1 (V0 : Valuation τ sig (Elt F)) : Valuation τ sig (Elt F) := after ops0 (val0 V0)
theorem val1_arg0 (V0 : Valuation τ sig (Elt F)) :
    val1 V0 (Proc.devRef .tc main_arg0) = (V0 (Proc.devRef .tc main_arg0)) :=
  (ops0_keep _ main_arg0 (by decide)).trans (val0_arg0 V0)
theorem val1_arg1 (V0 : Valuation τ sig (Elt F)) :
    val1 V0 (Proc.devRef .tc main_arg1) = (V0 (Proc.devRef .tc main_arg1)) :=
  (ops0_keep _ main_arg1 (by decide)).trans (val0_arg1 V0)
theorem val1_arg2 (V0 : Valuation τ sig (Elt F)) :
    val1 V0 (Proc.devRef .tc main_arg2) = (V0 (Proc.devRef .tc main_arg2)) :=
  (ops0_keep _ main_arg2 (by decide)).trans (val0_arg2 V0)
theorem val1_arg3 (V0 : Valuation τ sig (Elt F)) :
    val1 V0 (Proc.devRef .tc main_arg3) = (V0 (Proc.devRef .tc main_arg3)) :=
  (ops0_keep _ main_arg3 (by decide)).trans (val0_arg3 V0)
theorem val1_arg4 (V0 : Valuation τ sig (Elt F)) :
    val1 V0 (Proc.devRef .tc main_arg4) = (V0 (Proc.devRef .tc main_arg4)) :=
  (ops0_keep _ main_arg4 (by decide)).trans (val0_arg4 V0)
theorem val1_arg5 (V0 : Valuation τ sig (Elt F)) :
    val1 V0 (Proc.devRef .tc main_arg5) = (V0 (Proc.devRef .tc main_arg5)) :=
  (ops0_keep _ main_arg5 (by decide)).trans (val0_arg5 V0)
theorem val1_arg6 (V0 : Valuation τ sig (Elt F)) :
    val1 V0 (Proc.devRef .tc main_arg6) = (V0 (Proc.devRef .tc main_arg6)) :=
  (ops0_keep _ main_arg6 (by decide)).trans (val0_arg6 V0)
theorem val1_arg7 (V0 : Valuation τ sig (Elt F)) :
    val1 V0 (Proc.devRef .tc main_arg7) = (V0 (Proc.devRef .tc main_arg7)) :=
  (ops0_keep _ main_arg7 (by decide)).trans (val0_arg7 V0)
theorem val1_arg8 (V0 : Valuation τ sig (Elt F)) :
    val1 V0 (Proc.devRef .tc main_arg8) = (V0 (Proc.devRef .tc main_arg8)) :=
  (ops0_keep _ main_arg8 (by decide)).trans (val0_arg8 V0)
theorem val1_arg9 (V0 : Valuation τ sig (Elt F)) :
    val1 V0 (Proc.devRef .tc main_arg9) = (V0 (Proc.devRef .tc main_arg9)) :=
  (ops0_keep _ main_arg9 (by decide)).trans (val0_arg9 V0)
theorem val1_arg10 (V0 : Valuation τ sig (Elt F)) :
    val1 V0 (Proc.devRef .tc main_arg10) = (V0 (Proc.devRef .tc main_arg10)) :=
  (ops0_keep _ main_arg10 (by decide)).trans (val0_arg10 V0)
theorem val1_arg11 (V0 : Valuation τ sig (Elt F)) :
    val1 V0 (Proc.devRef .tc main_arg11) = (V0 (Proc.devRef .tc main_arg11)) :=
  (ops0_keep _ main_arg11 (by decide)).trans (val0_arg11 V0)
theorem val1_v27 (V0 : Valuation τ sig (Elt F)) :
    val1 V0 (Proc.devRef .tc main_v27) = addf (constant (F := F) S_ .f32 0x00000000#32) (mulf (constant (F := F) S_ .f32 0x3ECCCCCD#32) (featL (V0 (Proc.devRef .tc main_arg0)) (V0 (Proc.devRef .tc main_arg4)))) :=
  w0_v27 _ (val0_arg4 V0) (val0_arg0 V0)
theorem val1_v35 (V0 : Valuation τ sig (Elt F)) :
    val1 V0 (Proc.devRef .tc main_v35) = nrmP (V0 (Proc.devRef .tc main_arg1)) :=
  w0_v35 _ (val0_arg1 V0)
theorem val1_v43 (V0 : Valuation τ sig (Elt F)) :
    val1 V0 (Proc.devRef .tc main_v43) = nrmP (V0 (Proc.devRef .tc main_arg5)) :=
  w0_v43 _ (val0_arg5 V0)

/-- The device's buffer contents after the first 2 windows. -/
def val2 (V0 : Valuation τ sig (Elt F)) : Valuation τ sig (Elt F) := after ops1 (val1 V0)
theorem val2_arg0 (V0 : Valuation τ sig (Elt F)) :
    val2 V0 (Proc.devRef .tc main_arg0) = (V0 (Proc.devRef .tc main_arg0)) :=
  (ops1_keep _ main_arg0 (by decide)).trans (val1_arg0 V0)
theorem val2_arg1 (V0 : Valuation τ sig (Elt F)) :
    val2 V0 (Proc.devRef .tc main_arg1) = (V0 (Proc.devRef .tc main_arg1)) :=
  (ops1_keep _ main_arg1 (by decide)).trans (val1_arg1 V0)
theorem val2_arg2 (V0 : Valuation τ sig (Elt F)) :
    val2 V0 (Proc.devRef .tc main_arg2) = (V0 (Proc.devRef .tc main_arg2)) :=
  (ops1_keep _ main_arg2 (by decide)).trans (val1_arg2 V0)
theorem val2_arg3 (V0 : Valuation τ sig (Elt F)) :
    val2 V0 (Proc.devRef .tc main_arg3) = (V0 (Proc.devRef .tc main_arg3)) :=
  (ops1_keep _ main_arg3 (by decide)).trans (val1_arg3 V0)
theorem val2_arg4 (V0 : Valuation τ sig (Elt F)) :
    val2 V0 (Proc.devRef .tc main_arg4) = (V0 (Proc.devRef .tc main_arg4)) :=
  (ops1_keep _ main_arg4 (by decide)).trans (val1_arg4 V0)
theorem val2_arg5 (V0 : Valuation τ sig (Elt F)) :
    val2 V0 (Proc.devRef .tc main_arg5) = (V0 (Proc.devRef .tc main_arg5)) :=
  (ops1_keep _ main_arg5 (by decide)).trans (val1_arg5 V0)
theorem val2_arg6 (V0 : Valuation τ sig (Elt F)) :
    val2 V0 (Proc.devRef .tc main_arg6) = (V0 (Proc.devRef .tc main_arg6)) :=
  (ops1_keep _ main_arg6 (by decide)).trans (val1_arg6 V0)
theorem val2_arg7 (V0 : Valuation τ sig (Elt F)) :
    val2 V0 (Proc.devRef .tc main_arg7) = (V0 (Proc.devRef .tc main_arg7)) :=
  (ops1_keep _ main_arg7 (by decide)).trans (val1_arg7 V0)
theorem val2_arg8 (V0 : Valuation τ sig (Elt F)) :
    val2 V0 (Proc.devRef .tc main_arg8) = (V0 (Proc.devRef .tc main_arg8)) :=
  (ops1_keep _ main_arg8 (by decide)).trans (val1_arg8 V0)
theorem val2_arg9 (V0 : Valuation τ sig (Elt F)) :
    val2 V0 (Proc.devRef .tc main_arg9) = (V0 (Proc.devRef .tc main_arg9)) :=
  (ops1_keep _ main_arg9 (by decide)).trans (val1_arg9 V0)
theorem val2_arg10 (V0 : Valuation τ sig (Elt F)) :
    val2 V0 (Proc.devRef .tc main_arg10) = (V0 (Proc.devRef .tc main_arg10)) :=
  (ops1_keep _ main_arg10 (by decide)).trans (val1_arg10 V0)
theorem val2_arg11 (V0 : Valuation τ sig (Elt F)) :
    val2 V0 (Proc.devRef .tc main_arg11) = (V0 (Proc.devRef .tc main_arg11)) :=
  (ops1_keep _ main_arg11 (by decide)).trans (val1_arg11 V0)
theorem val2_v83 (V0 : Valuation τ sig (Elt F)) :
    val2 V0 (Proc.devRef .tc main_v83) = addf (addf (addf (constant (F := F) S_ .f32 0x00000000#32) (mulf (constant (F := F) S_ .f32 0x3ECCCCCD#32) (featL (V0 (Proc.devRef .tc main_arg0)) (V0 (Proc.devRef .tc main_arg4))))) (mulf (constant (F := F) S_ .f32 0x3ECCCCCD#32) (featP (V0 (Proc.devRef .tc main_arg1)) (V0 (Proc.devRef .tc main_arg5))))) (mulf (constant (F := F) S_ .f32 0x3E4CCCCD#32) (featG (V0 (Proc.devRef .tc main_arg2)) (V0 (Proc.devRef .tc main_arg6)))) :=
  w1_v83 _ (val1_v27 V0) (val1_v43 V0) (val1_v35 V0) (val1_arg6 V0) (val1_arg2 V0)
theorem val2_v84 (V0 : Valuation τ sig (Elt F)) :
    val2 V0 (Proc.devRef .tc main_v84) = mulf (V0 (Proc.devRef .tc main_arg3)) (V0 (Proc.devRef .tc main_arg3)) :=
  w1_v84 _ (val1_arg3 V0)
theorem val2_cst_33 (V0 : Valuation τ sig (Elt F)) :
    val2 V0 (Proc.devRef .tc main_cst_33) = constant (F := F) S_ .f32 0x00000000#32 :=
  w1_cst_33 _

/-- The device's buffer contents after the first 3 windows. -/
def val3 (V0 : Valuation τ sig (Elt F)) : Valuation τ sig (Elt F) := after ops2 (val2 V0)
theorem val3_arg0 (V0 : Valuation τ sig (Elt F)) :
    val3 V0 (Proc.devRef .tc main_arg0) = (V0 (Proc.devRef .tc main_arg0)) :=
  (ops2_keep _ main_arg0 (by decide)).trans (val2_arg0 V0)
theorem val3_arg1 (V0 : Valuation τ sig (Elt F)) :
    val3 V0 (Proc.devRef .tc main_arg1) = (V0 (Proc.devRef .tc main_arg1)) :=
  (ops2_keep _ main_arg1 (by decide)).trans (val2_arg1 V0)
theorem val3_arg2 (V0 : Valuation τ sig (Elt F)) :
    val3 V0 (Proc.devRef .tc main_arg2) = (V0 (Proc.devRef .tc main_arg2)) :=
  (ops2_keep _ main_arg2 (by decide)).trans (val2_arg2 V0)
theorem val3_arg3 (V0 : Valuation τ sig (Elt F)) :
    val3 V0 (Proc.devRef .tc main_arg3) = (V0 (Proc.devRef .tc main_arg3)) :=
  (ops2_keep _ main_arg3 (by decide)).trans (val2_arg3 V0)
theorem val3_arg4 (V0 : Valuation τ sig (Elt F)) :
    val3 V0 (Proc.devRef .tc main_arg4) = (V0 (Proc.devRef .tc main_arg4)) :=
  (ops2_keep _ main_arg4 (by decide)).trans (val2_arg4 V0)
theorem val3_arg5 (V0 : Valuation τ sig (Elt F)) :
    val3 V0 (Proc.devRef .tc main_arg5) = (V0 (Proc.devRef .tc main_arg5)) :=
  (ops2_keep _ main_arg5 (by decide)).trans (val2_arg5 V0)
theorem val3_arg6 (V0 : Valuation τ sig (Elt F)) :
    val3 V0 (Proc.devRef .tc main_arg6) = (V0 (Proc.devRef .tc main_arg6)) :=
  (ops2_keep _ main_arg6 (by decide)).trans (val2_arg6 V0)
theorem val3_arg7 (V0 : Valuation τ sig (Elt F)) :
    val3 V0 (Proc.devRef .tc main_arg7) = (V0 (Proc.devRef .tc main_arg7)) :=
  (ops2_keep _ main_arg7 (by decide)).trans (val2_arg7 V0)
theorem val3_arg8 (V0 : Valuation τ sig (Elt F)) :
    val3 V0 (Proc.devRef .tc main_arg8) = (V0 (Proc.devRef .tc main_arg8)) :=
  (ops2_keep _ main_arg8 (by decide)).trans (val2_arg8 V0)
theorem val3_arg9 (V0 : Valuation τ sig (Elt F)) :
    val3 V0 (Proc.devRef .tc main_arg9) = (V0 (Proc.devRef .tc main_arg9)) :=
  (ops2_keep _ main_arg9 (by decide)).trans (val2_arg9 V0)
theorem val3_arg10 (V0 : Valuation τ sig (Elt F)) :
    val3 V0 (Proc.devRef .tc main_arg10) = (V0 (Proc.devRef .tc main_arg10)) :=
  (ops2_keep _ main_arg10 (by decide)).trans (val2_arg10 V0)
theorem val3_arg11 (V0 : Valuation τ sig (Elt F)) :
    val3 V0 (Proc.devRef .tc main_arg11) = (V0 (Proc.devRef .tc main_arg11)) :=
  (ops2_keep _ main_arg11 (by decide)).trans (val2_arg11 V0)
theorem val3_v112 (V0 : Valuation τ sig (Elt F)) :
    val3 V0 (Proc.devRef .tc main_v112) = combine (featL (V0 (Proc.devRef .tc main_arg0)) (V0 (Proc.devRef .tc main_arg4))) (featP (V0 (Proc.devRef .tc main_arg1)) (V0 (Proc.devRef .tc main_arg5))) (featG (V0 (Proc.devRef .tc main_arg2)) (V0 (Proc.devRef .tc main_arg6))) (featI (V0 (Proc.devRef .tc main_arg3)) (V0 (Proc.devRef .tc main_arg7))) :=
  w2_v112 _ (val2_v83 V0) (val2_arg7 V0) (val2_arg3 V0) (val2_v84 V0) (val2_cst_33 V0)
theorem val3_v122 (V0 : Valuation τ sig (Elt F)) :
    val3 V0 (Proc.devRef .tc main_v122) = mus1 (V0 (Proc.devRef .tc main_arg11)) :=
  w2_v122 _ (val2_arg11 V0)
theorem val3_v126 (V0 : Valuation τ sig (Elt F)) :
    val3 V0 (Proc.devRef .tc main_v126) = tokm (V0 (Proc.devRef .tc main_arg11)) :=
  w2_v126 _ (val2_arg11 V0)
theorem val3_v127 (V0 : Valuation τ sig (Elt F)) :
    val3 V0 (Proc.devRef .tc main_v127) = rem12 (tokm (V0 (Proc.devRef .tc main_arg11))) :=
  w2_v127 _ (val2_arg11 V0)

/-- The device's buffer contents after the first 4 windows. -/
def val4 (V0 : Valuation τ sig (Elt F)) : Valuation τ sig (Elt F) := after ops3 (val3 V0)
theorem val4_arg0 (V0 : Valuation τ sig (Elt F)) :
    val4 V0 (Proc.devRef .tc main_arg0) = (V0 (Proc.devRef .tc main_arg0)) :=
  (ops3_keep _ main_arg0 (by decide)).trans (val3_arg0 V0)
theorem val4_arg1 (V0 : Valuation τ sig (Elt F)) :
    val4 V0 (Proc.devRef .tc main_arg1) = (V0 (Proc.devRef .tc main_arg1)) :=
  (ops3_keep _ main_arg1 (by decide)).trans (val3_arg1 V0)
theorem val4_arg2 (V0 : Valuation τ sig (Elt F)) :
    val4 V0 (Proc.devRef .tc main_arg2) = (V0 (Proc.devRef .tc main_arg2)) :=
  (ops3_keep _ main_arg2 (by decide)).trans (val3_arg2 V0)
theorem val4_arg3 (V0 : Valuation τ sig (Elt F)) :
    val4 V0 (Proc.devRef .tc main_arg3) = (V0 (Proc.devRef .tc main_arg3)) :=
  (ops3_keep _ main_arg3 (by decide)).trans (val3_arg3 V0)
theorem val4_arg4 (V0 : Valuation τ sig (Elt F)) :
    val4 V0 (Proc.devRef .tc main_arg4) = (V0 (Proc.devRef .tc main_arg4)) :=
  (ops3_keep _ main_arg4 (by decide)).trans (val3_arg4 V0)
theorem val4_arg5 (V0 : Valuation τ sig (Elt F)) :
    val4 V0 (Proc.devRef .tc main_arg5) = (V0 (Proc.devRef .tc main_arg5)) :=
  (ops3_keep _ main_arg5 (by decide)).trans (val3_arg5 V0)
theorem val4_arg6 (V0 : Valuation τ sig (Elt F)) :
    val4 V0 (Proc.devRef .tc main_arg6) = (V0 (Proc.devRef .tc main_arg6)) :=
  (ops3_keep _ main_arg6 (by decide)).trans (val3_arg6 V0)
theorem val4_arg7 (V0 : Valuation τ sig (Elt F)) :
    val4 V0 (Proc.devRef .tc main_arg7) = (V0 (Proc.devRef .tc main_arg7)) :=
  (ops3_keep _ main_arg7 (by decide)).trans (val3_arg7 V0)
theorem val4_arg8 (V0 : Valuation τ sig (Elt F)) :
    val4 V0 (Proc.devRef .tc main_arg8) = (V0 (Proc.devRef .tc main_arg8)) :=
  (ops3_keep _ main_arg8 (by decide)).trans (val3_arg8 V0)
theorem val4_arg9 (V0 : Valuation τ sig (Elt F)) :
    val4 V0 (Proc.devRef .tc main_arg9) = (V0 (Proc.devRef .tc main_arg9)) :=
  (ops3_keep _ main_arg9 (by decide)).trans (val3_arg9 V0)
theorem val4_arg10 (V0 : Valuation τ sig (Elt F)) :
    val4 V0 (Proc.devRef .tc main_arg10) = (V0 (Proc.devRef .tc main_arg10)) :=
  (ops3_keep _ main_arg10 (by decide)).trans (val3_arg10 V0)
theorem val4_arg11 (V0 : Valuation τ sig (Elt F)) :
    val4 V0 (Proc.devRef .tc main_arg11) = (V0 (Proc.devRef .tc main_arg11)) :=
  (ops3_keep _ main_arg11 (by decide)).trans (val3_arg11 V0)
theorem val4_v112 (V0 : Valuation τ sig (Elt F)) :
    val4 V0 (Proc.devRef .tc main_v112) = combine (featL (V0 (Proc.devRef .tc main_arg0)) (V0 (Proc.devRef .tc main_arg4))) (featP (V0 (Proc.devRef .tc main_arg1)) (V0 (Proc.devRef .tc main_arg5))) (featG (V0 (Proc.devRef .tc main_arg2)) (V0 (Proc.devRef .tc main_arg6))) (featI (V0 (Proc.devRef .tc main_arg3)) (V0 (Proc.devRef .tc main_arg7))) :=
  (ops3_keep _ main_v112 (by decide)).trans (val3_v112 V0)
theorem val4_v152 (V0 : Valuation τ sig (Elt F)) :
    val4 V0 (Proc.devRef .tc main_v152) = musical (V0 (Proc.devRef .tc main_arg11)) :=
  w3_v152 _ (val3_v122 V0) (val3_v127 V0) (val3_v126 V0)
theorem val4_v169 (V0 : Valuation τ sig (Elt F)) :
    val4 V0 (Proc.devRef .tc main_v169) = adv (V0 (Proc.devRef .tc main_arg8)) (V0 (Proc.devRef .tc main_arg9)) (V0 (Proc.devRef .tc main_arg10)) :=
  w3_v169 _ (val3_arg8 V0) (val3_arg9 V0) (val3_arg10 V0)

/-- The device's buffer contents after the first 5 windows. -/
def val5 (V0 : Valuation τ sig (Elt F)) : Valuation τ sig (Elt F) := after ops4 (val4 V0)
theorem val5_arg0 (V0 : Valuation τ sig (Elt F)) :
    val5 V0 (Proc.devRef .tc main_arg0) = (V0 (Proc.devRef .tc main_arg0)) :=
  (ops4_keep _ main_arg0 (by decide)).trans (val4_arg0 V0)
theorem val5_arg1 (V0 : Valuation τ sig (Elt F)) :
    val5 V0 (Proc.devRef .tc main_arg1) = (V0 (Proc.devRef .tc main_arg1)) :=
  (ops4_keep _ main_arg1 (by decide)).trans (val4_arg1 V0)
theorem val5_arg2 (V0 : Valuation τ sig (Elt F)) :
    val5 V0 (Proc.devRef .tc main_arg2) = (V0 (Proc.devRef .tc main_arg2)) :=
  (ops4_keep _ main_arg2 (by decide)).trans (val4_arg2 V0)
theorem val5_arg3 (V0 : Valuation τ sig (Elt F)) :
    val5 V0 (Proc.devRef .tc main_arg3) = (V0 (Proc.devRef .tc main_arg3)) :=
  (ops4_keep _ main_arg3 (by decide)).trans (val4_arg3 V0)
theorem val5_arg4 (V0 : Valuation τ sig (Elt F)) :
    val5 V0 (Proc.devRef .tc main_arg4) = (V0 (Proc.devRef .tc main_arg4)) :=
  (ops4_keep _ main_arg4 (by decide)).trans (val4_arg4 V0)
theorem val5_arg5 (V0 : Valuation τ sig (Elt F)) :
    val5 V0 (Proc.devRef .tc main_arg5) = (V0 (Proc.devRef .tc main_arg5)) :=
  (ops4_keep _ main_arg5 (by decide)).trans (val4_arg5 V0)
theorem val5_arg6 (V0 : Valuation τ sig (Elt F)) :
    val5 V0 (Proc.devRef .tc main_arg6) = (V0 (Proc.devRef .tc main_arg6)) :=
  (ops4_keep _ main_arg6 (by decide)).trans (val4_arg6 V0)
theorem val5_arg7 (V0 : Valuation τ sig (Elt F)) :
    val5 V0 (Proc.devRef .tc main_arg7) = (V0 (Proc.devRef .tc main_arg7)) :=
  (ops4_keep _ main_arg7 (by decide)).trans (val4_arg7 V0)
theorem val5_arg8 (V0 : Valuation τ sig (Elt F)) :
    val5 V0 (Proc.devRef .tc main_arg8) = (V0 (Proc.devRef .tc main_arg8)) :=
  (ops4_keep _ main_arg8 (by decide)).trans (val4_arg8 V0)
theorem val5_arg9 (V0 : Valuation τ sig (Elt F)) :
    val5 V0 (Proc.devRef .tc main_arg9) = (V0 (Proc.devRef .tc main_arg9)) :=
  (ops4_keep _ main_arg9 (by decide)).trans (val4_arg9 V0)
theorem val5_arg10 (V0 : Valuation τ sig (Elt F)) :
    val5 V0 (Proc.devRef .tc main_arg10) = (V0 (Proc.devRef .tc main_arg10)) :=
  (ops4_keep _ main_arg10 (by decide)).trans (val4_arg10 V0)
theorem val5_arg11 (V0 : Valuation τ sig (Elt F)) :
    val5 V0 (Proc.devRef .tc main_arg11) = (V0 (Proc.devRef .tc main_arg11)) :=
  (ops4_keep _ main_arg11 (by decide)).trans (val4_arg11 V0)
theorem val5_v171 (V0 : Valuation τ sig (Elt F)) :
    val5 V0 (Proc.devRef .tc main_v171) = addf (addf (combine (featL (V0 (Proc.devRef .tc main_arg0)) (V0 (Proc.devRef .tc main_arg4))) (featP (V0 (Proc.devRef .tc main_arg1)) (V0 (Proc.devRef .tc main_arg5))) (featG (V0 (Proc.devRef .tc main_arg2)) (V0 (Proc.devRef .tc main_arg6))) (featI (V0 (Proc.devRef .tc main_arg3)) (V0 (Proc.devRef .tc main_arg7)))) (musical (V0 (Proc.devRef .tc main_arg11)))) (adv (V0 (Proc.devRef .tc main_arg8)) (V0 (Proc.devRef .tc main_arg9)) (V0 (Proc.devRef .tc main_arg10))) :=
  w4_v171 _ (val4_v112 V0) (val4_v152 V0) (val4_v169 V0)

/-- The whole fold is the fifth window's end. -/
theorem after_ops (V0 : Valuation τ sig (Elt F)) : after ops V0 = val5 V0 := by
  simp only [ops, after_app]
  rfl

/-- No operation writes `main_arg0`. -/
theorem arg0_eq (V : Valuation τ sig (Elt F)) : after ops V (main_arg0 : DevRef τ sig) = V (main_arg0 : DevRef τ sig) := by
  rw [after_ops]; exact val5_arg0 V
/-- No operation writes `main_arg1`. -/
theorem arg1_eq (V : Valuation τ sig (Elt F)) : after ops V (main_arg1 : DevRef τ sig) = V (main_arg1 : DevRef τ sig) := by
  rw [after_ops]; exact val5_arg1 V
/-- No operation writes `main_arg2`. -/
theorem arg2_eq (V : Valuation τ sig (Elt F)) : after ops V (main_arg2 : DevRef τ sig) = V (main_arg2 : DevRef τ sig) := by
  rw [after_ops]; exact val5_arg2 V
/-- No operation writes `main_arg3`. -/
theorem arg3_eq (V : Valuation τ sig (Elt F)) : after ops V (main_arg3 : DevRef τ sig) = V (main_arg3 : DevRef τ sig) := by
  rw [after_ops]; exact val5_arg3 V
/-- No operation writes `main_arg4`. -/
theorem arg4_eq (V : Valuation τ sig (Elt F)) : after ops V (main_arg4 : DevRef τ sig) = V (main_arg4 : DevRef τ sig) := by
  rw [after_ops]; exact val5_arg4 V
/-- No operation writes `main_arg5`. -/
theorem arg5_eq (V : Valuation τ sig (Elt F)) : after ops V (main_arg5 : DevRef τ sig) = V (main_arg5 : DevRef τ sig) := by
  rw [after_ops]; exact val5_arg5 V
/-- No operation writes `main_arg6`. -/
theorem arg6_eq (V : Valuation τ sig (Elt F)) : after ops V (main_arg6 : DevRef τ sig) = V (main_arg6 : DevRef τ sig) := by
  rw [after_ops]; exact val5_arg6 V
/-- No operation writes `main_arg7`. -/
theorem arg7_eq (V : Valuation τ sig (Elt F)) : after ops V (main_arg7 : DevRef τ sig) = V (main_arg7 : DevRef τ sig) := by
  rw [after_ops]; exact val5_arg7 V
/-- No operation writes `main_arg8`. -/
theorem arg8_eq (V : Valuation τ sig (Elt F)) : after ops V (main_arg8 : DevRef τ sig) = V (main_arg8 : DevRef τ sig) := by
  rw [after_ops]; exact val5_arg8 V
/-- No operation writes `main_arg9`. -/
theorem arg9_eq (V : Valuation τ sig (Elt F)) : after ops V (main_arg9 : DevRef τ sig) = V (main_arg9 : DevRef τ sig) := by
  rw [after_ops]; exact val5_arg9 V
/-- No operation writes `main_arg10`. -/
theorem arg10_eq (V : Valuation τ sig (Elt F)) : after ops V (main_arg10 : DevRef τ sig) = V (main_arg10 : DevRef τ sig) := by
  rw [after_ops]; exact val5_arg10 V
/-- No operation writes `main_arg11`. -/
theorem arg11_eq (V : Valuation τ sig (Elt F)) : after ops V (main_arg11 : DevRef τ sig) = V (main_arg11 : DevRef τ sig) := by
  rw [after_ops]; exact val5_arg11 V

/-- The result buffer after the whole line is `out` of the arguments. -/
theorem out_eq (V : Valuation τ sig (Elt F)) :
    after ops V (main_v171 : DevRef τ sig)
      = out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [after_ops]; exact val5_v171 V

/-- On every device, for any float values, from any memory with zero counters: every weakly fair execution of @main
    terminates with the result at `out` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v171) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v171).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c)),
      (h c main_arg11).trans (arg11_eq (launchContents m c))⟩)
    (run_main m ρ)

end Cert.ReferenceIdeal.RefRun

end
-- ==== Proof.RegionInputs.lean ====
import proofs.«139213_j64381559767355_2_alg».proof.Proof.Gen.KernelIdeal.Frame

noncomputable section

open Idealize.ShloMosaic Idealize.ShloMosaic.TcCoe Idealize.SL.Sem
open Idealize.ShloMosaic.Pipeline (Dat)

/-! # The regions find their input arrays as launched, and leave their output arrays as the write-backs fold them

Each region reads two argument arrays that nothing before it writes: the host operations between the regions write
only their own results, and an earlier region writes only its own three arrays. So the contents a region finds in its
two input arrays are the launch contents. After a region, its output array holds the fold of the region's write-backs. -/

namespace Cert.KernelIdeal.RegionValue
open Cert.KernelIdeal Cert.KernelIdeal.Gen

variable {F : FTy → Type} [FloatOps F]
variable (m : (ℓ : Loc nD τ sig) → Buf (Elt F) ℓ) (ρ : Dev nD → PrngReg)

/-- Region 0 is entered from the launch memory. -/
theorem V0_in0 (c : Dev nD) : V0 m ρ c (Pipeline.arrRef spec0 0) = m ((c : Thread nD τ).loc main_arg0) := rfl
theorem V0_in1 (c : Dev nD) : V0 m ρ c (Pipeline.arrRef spec0 1) = m ((c : Thread nD τ).loc main_arg4) := rfl

/-! Region 1's inputs: not written by the host operations after region 0, nor by region 0. -/

theorem V2_in0 (c : Dev nD) : V2 m ρ c (Pipeline.arrRef spec1 0) = m ((c : Thread nD τ).loc main_arg1) :=
  calc W2 m ρ c (Proc.devRef .tc main_arg1)
    _ = W1 m ρ c (Proc.devRef .tc main_arg1) := StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg1) := W1_of_ne m ρ c main_arg1 (by decide)
    _ = m ((c : Thread nD τ).loc main_arg1) := rfl

theorem V2_in1 (c : Dev nD) : V2 m ρ c (Pipeline.arrRef spec1 1) = m ((c : Thread nD τ).loc main_arg5) :=
  calc W2 m ρ c (Proc.devRef .tc main_arg5)
    _ = W1 m ρ c (Proc.devRef .tc main_arg5) := StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg5) := W1_of_ne m ρ c main_arg5 (by decide)
    _ = m ((c : Thread nD τ).loc main_arg5) := rfl

/-! Region 2's inputs: not written by either stretch of host operations, nor by regions 0 and 1. -/

theorem V4_in0 (c : Dev nD) : V4 m ρ c (Pipeline.arrRef spec2 0) = m ((c : Thread nD τ).loc main_arg3) :=
  calc W4 m ρ c (Proc.devRef .tc main_arg3)
    _ = W3 m ρ c (Proc.devRef .tc main_arg3) := StableHlo.after_of_forall_not_mem (b := Proc.devRef .tc main_arg3) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg3) := W1_of_ne m ρ c main_arg3 (by decide)
    _ = m ((c : Thread nD τ).loc main_arg3) := rfl

theorem V4_in1 (c : Dev nD) : V4 m ρ c (Pipeline.arrRef spec2 1) = m ((c : Thread nD τ).loc main_arg7) :=
  calc W4 m ρ c (Proc.devRef .tc main_arg7)
    _ = W3 m ρ c (Proc.devRef .tc main_arg7) := StableHlo.after_of_forall_not_mem (b := Proc.devRef .tc main_arg7) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg7) := W3_of_ne m ρ c main_arg7 (by decide)
    _ = W1 m ρ c (Proc.devRef .tc main_arg7) := StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg7) := W1_of_ne m ρ c main_arg7 (by decide)
    _ = m ((c : Thread nD τ).loc main_arg7) := rfl

/-- After each region its output array holds the fold of the region's write-backs. -/
theorem out0_arr (c : Dev nD) : W1 m ρ c (Proc.devRef .tc main_v0) = (dat0 (V0 m ρ) c).arrAt 2 cfg0.N := W1_arr m ρ c 2
theorem out1_arr (c : Dev nD) : W3 m ρ c (Proc.devRef .tc main_v2) = (dat1 (V2 m ρ) c).arrAt 2 cfg1.N := W3_arr m ρ c 2
theorem out2_arr (c : Dev nD) : W5 m ρ c (Proc.devRef .tc main_v4) = (dat2 (V4 m ρ) c).arrAt 2 cfg2.N := W5_arr m ρ c 2

end Cert.KernelIdeal.RegionValue

end
-- ==== Proof.RegionLib.lean ====
import proofs.«139213_j64381559767355_2_alg».proof.Proof.Gen.KernelIdeal.Frame
import Idealize.ShloMosaic.Lib.Pipeline.Value
import Idealize.ShloMosaic.Lib.ValueIdx
import Idealize.ShloMosaic.Lib.Tactic
import Idealize.ShloMosaic.PureOps.Ideal.Laws

noncomputable section

open Idealize.ShloMosaic Idealize.ShloMosaic.TcCoe Idealize.SL.Sem
open Idealize.ShloMosaic.Pipeline (Dat)

/-! Facts shared by the three regions: every region's output block has ONE element, the accumulate step adds
    the point's partial sum to it, and the reset stores zero. -/
namespace Cert.KernelIdeal.RegionValue
open Cert.KernelIdeal Cert.KernelIdeal.Gen

theorem hz3 : (![0, 0, 0] : Fin 3 → Nat) = fun _ => 0 := funext fun a => by fin_cases a <;> rfl

/-- The accumulate step at the block's one index: what the buffer held plus the point's partial sum (the two
    shape casts move between shapes with a single element). -/
theorem acc_apply (h1 : S1x1x1.ShapeCasts S1x1x1) (h2 : S1x1.ShapeCasts S1x1x1) (v36 : FVec Ideal S1x1 .f32)
    (v37 : FVec Ideal S1x1x1 .f32) (j : S1x1x1.Idx) :
    addf (shapeCast S1x1x1 v37 h1) (shapeCast S1x1x1 v36 h2) j = v37 j + v36 (ValueIdx.ix2 0 0) := by
  rw [ValueIdx.addf_apply, shapeCast_self]
  refine congrArg (v37 j + ·) (shapeCast_apply v36 h2 j (ValueIdx.ix2 0 0) ?_)
  have a := (S1x1.rowMajor (ValueIdx.ix2 0 0)).isLt
  have b := (S1x1x1.rowMajor j).isLt
  have e1 : S1x1.numel = 1 := by decide
  have e2 : S1x1x1.numel = 1 := by decide
  omega

/-- The reset value: the zero word is the real number zero. -/
theorem zero_apply (j : S1x1x1.Idx) :
    (broadcast S1x1x1 (Scalar.ofBits (F := Ideal) .f32 0x00000000#32) : FVec Ideal S1x1x1 .f32) j = 0 :=
  Ideal.ofBits_zero_f32

end Cert.KernelIdeal.RegionValue

end
-- ==== Proof.Region0.lean ====
import proofs.«139213_j64381559767355_2_alg».proof.Proof.RegionLib

noncomputable section

open Idealize.ShloMosaic Idealize.ShloMosaic.TcCoe Idealize.SL.Sem
open Idealize.ShloMosaic.Pipeline (Dat)

/-! # Region 0 read as values

The first pallas_call runs 32 grid points, 16 per core. Every point reduces its two input blocks to ONE number (the
point's partial sum); the first point of a core's run stores zero and adds its partial sum, every later point adds its
own to what the buffer held, and the last point of the run writes the buffer back as that core's entry of the `[2,1,1]`
output. So the output entry of core `a` is the sum of the partial sums of points `16 a … 16 a + 15`, and the input block
at point `t` is rows `64 t … 64 t + 63` of the input array. -/

namespace Cert.KernelIdeal.RegionValue
open Cert.KernelIdeal Cert.KernelIdeal.Gen

section Pieces
variable {F : FTy → Type} [FloatOps F]

/-- A later point of a core's run leaves, in the output's buffer holding `xo`, `xo` plus the point's partial sum. -/
theorem out0_B (c : Dev nD) (i : grid0.Coords) (a2 : Memref sig .tc .vmem S32x64x512 .f32) (h2 : a2.IsWhole)
    (a3 : Memref sig .tc .vmem S32x64x512 .f32) (h3 : a3.IsWhole) (a4 : Memref sig .tc .vmem S1x1x1 .f32) (h4 : a4.IsWhole)
    (hc : ¬cond0_0 i) (x0 x1 : Vec F S32x64x512 .f32) (xo : Vec F S1x1x1 .f32) :
    out0_B_2 c i a2 h2 a3 h3 a4 h4 hc x0 x1 xo = k0_pay1 (k0_pay3 x0 x1) xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread, View.ld_unit_zero (S := S32x64x512) hz3, View.ld_unit_zero (S := S1x1x1) hz3]

/-- The first point of a core's run stores zero, reads it back, and leaves zero plus the point's partial sum. -/
theorem out0_A (c : Dev nD) (i : grid0.Coords) (a2 : Memref sig .tc .vmem S32x64x512 .f32) (h2 : a2.IsWhole)
    (a3 : Memref sig .tc .vmem S32x64x512 .f32) (h3 : a3.IsWhole) (a4 : Memref sig .tc .vmem S1x1x1 .f32) (h4 : a4.IsWhole)
    (hc : cond0_0 i) (x0 x1 : Vec F S32x64x512 .f32) :
    out0_A_2 c i a2 h2 a3 h3 a4 h4 hc x0 x1 = k0_pay1 (k0_pay3 x0 x1) k0_pay2 := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, View.ld_unit_zero (S := S32x64x512) hz3]

end Pieces

theorem k0_pay1_apply (v36 : FVec Ideal S1x1 .f32) (v37 : Vec Ideal S1x1x1 .f32) (j : S1x1x1.Idx) :
    k0_pay1 (F := Ideal) v36 v37 j = v37 j + v36 (ValueIdx.ix2 0 0) := by
  unfold k0_pay1
  exact acc_apply _ _ v36 v37 j

theorem k0_pay2_apply (j : S1x1x1.Idx) : k0_pay2 (F := Ideal) j = 0 := by
  unfold k0_pay2
  exact zero_apply j

variable (V : (c : Dev nD) → (b : Ref sig .tc) → Buf (Elt Ideal) ((c : Thread nD τ).loc b))

/-- One grid point's partial sum: the body's reduction of the two input blocks at point `t`, at its one index. -/
def point0 (c : Dev nD) (t : Fin cfg0.N) : EReal :=
  k0_pay3 (F := Ideal) (iblk0 V c 0 t) (iblk0 V c 1 t) (ValueIdx.ix2 0 0)

/-- The same over all naturals (zero past the grid), so that sums over ranges of points need no bound proofs. -/
def pt0 (c : Dev nD) (n : ℕ) : EReal := if h : n < cfg0.N then point0 V c ⟨n, h⟩ else 0

/-- What the output's buffer holds after point `n`: the sum of the partial sums of the points of `n`'s run of 16
    up to `n` — by induction on the point. -/
theorem outsAt0_eq (c : Dev nD) : ∀ (n : ℕ) (h : n < cfg0.N) (y : S1x1x1.Idx),
    (outsAt0 V c n h y : EReal) = ∑ s ∈ Finset.range (n % 16 + 1), pt0 V c (16 * (n / 16) + s)
  | 0, h, y => by
    rw [outsAt0_A V c ⟨0, h⟩ rfl, out0_A, k0_pay1_apply, k0_pay2_apply, zero_add]
    show _ = ∑ s ∈ Finset.range 1, pt0 V c (16 * (0 / 16) + s)
    rw [Finset.sum_range_one, pt0, dif_pos h]
    rfl
  | n + 1, h, y => by
    by_cases h0 : (n + 1) % 16 = 0
    · rw [outsAt0_A V c ⟨n + 1, h⟩ h0, out0_A, k0_pay1_apply, k0_pay2_apply, zero_add, h0]
      rw [Finset.sum_range_one, show 16 * ((n + 1) / 16) + 0 = n + 1 by omega, pt0, dif_pos h]
      rfl
    · rw [outsAt0_B V c ⟨n + 1, h⟩ h0, out0_B, k0_pay1_apply]
      show (outsAt0 V c n _ y : EReal) + _ = _
      rw [outsAt0_eq c n (Nat.lt_of_succ_lt h) y, show (n + 1) % 16 = n % 16 + 1 by omega,
        show (n + 1) / 16 = n / 16 by omega, Finset.sum_range_succ _ (n % 16 + 1)]
      refine congrArg (_ + ·) ?_
      rw [show 16 * (n / 16) + (n % 16 + 1) = n + 1 by omega, pt0, dif_pos h]
      rfl

/-- The printed index maps, decided once over the grid: the input windows' block index along the long axis is
    the point's number, the output window's along the core axis is the point's run. -/
theorem idx_facts0 : ∀ t : Fin cfg0.N,
    (win0_0.index t 0 = 0 ∧ win0_0.index t 1 = t.val ∧ win0_0.index t 2 = 0)
    ∧ (win0_1.index t 0 = 0 ∧ win0_1.index t 1 = t.val ∧ win0_1.index t 2 = 0)
    ∧ (win0_2.index t 0 = t.val / 16 ∧ win0_2.index t 1 = 0 ∧ win0_2.index t 2 = 0) :=
  (by decide +kernel : ∀ t : Fin grid0.N, _)

theorem row_lt0 (t : Fin cfg0.N) (s : Fin 64) : t.val * 64 + s.val < 2048 := by
  have := t.isLt; have hN : cfg0.N = 32 := N_0; have := s.isLt; omega

/-- A block's coordinate is block index × block size + the coordinate inside the block: the first input window's
    block at point `t` is rows `64 t … 64 t + 63` of its array. -/
theorem iblk0_0_apply (c : Dev nD) (t : Fin cfg0.N) (b : Fin 32) (s : Fin 64) (d : Fin 512) :
    (iblk0 V c 0 t : Vec Ideal S32x64x512 .f32) (ValueIdx.ix3 b s d)
      = (V c (Pipeline.arrRef spec0 0) : S32x2048x512.Idx → Ideal .f32) (ValueIdx.ix3 b ⟨t.val * 64 + s.val, row_lt0 t s⟩ d) := by
  obtain ⟨⟨i0, i1, i2⟩, -, -⟩ := idx_facts0 t
  unfold iblk0
  rw [View.read_apply]
  refine congrArg (V c (Pipeline.arrRef spec0 0)) (funext fun a => Fin.ext ?_)
  match a with
  | ⟨0, _⟩ => show win0_0.index t 0 * 32 + 1 * b.val = b.val; rw [i0]; omega
  | ⟨1, _⟩ => show win0_0.index t 1 * 64 + 1 * s.val = t.val * 64 + s.val; rw [i1]; omega
  | ⟨2, _⟩ => show win0_0.index t 2 * 512 + 1 * d.val = d.val; rw [i2]; omega

theorem iblk0_1_apply (c : Dev nD) (t : Fin cfg0.N) (b : Fin 32) (s : Fin 64) (d : Fin 512) :
    (iblk0 V c 1 t : Vec Ideal S32x64x512 .f32) (ValueIdx.ix3 b s d)
      = (V c (Pipeline.arrRef spec0 1) : S32x2048x512.Idx → Ideal .f32) (ValueIdx.ix3 b ⟨t.val * 64 + s.val, row_lt0 t s⟩ d) := by
  obtain ⟨-, ⟨i0, i1, i2⟩, -⟩ := idx_facts0 t
  unfold iblk0
  rw [View.read_apply]
  refine congrArg (V c (Pipeline.arrRef spec0 1)) (funext fun a => Fin.ext ?_)
  match a with
  | ⟨0, _⟩ => show win0_1.index t 0 * 32 + 1 * b.val = b.val; rw [i0]; omega
  | ⟨1, _⟩ => show win0_1.index t 1 * 64 + 1 * s.val = t.val * 64 + s.val; rw [i1]; omega
  | ⟨2, _⟩ => show win0_1.index t 2 * 512 + 1 * d.val = d.val; rw [i2]; omega

/-- The output array after the region: core `j 0`'s entry is the sum of the partial sums of that core's 16 points. -/
def G0 (c : Dev nD) : S2x1x1.Idx → EReal := fun j => ∑ s ∈ Finset.range 16, pt0 V c (16 * (j 0).val + s)

/-- The last point of each core's run writes back that core's entry. -/
theorem flushed0_eq (c : Dev nD) (t : Fin cfg0.N) (hf : (cfg0.win 2).flush t = true) :
    (dat0 V c).flushed 2 t = ((cfg0.win 2).blk t).view.read (Elt Ideal) (G0 V c) := by
  have h15 : t.val % 16 = 15 := (flush0_2 t).mp hf
  obtain ⟨-, -, ⟨i0, -, -⟩⟩ := idx_facts0 t
  funext y
  rw [View.read_apply]
  show (dat0 V c).after 2 t ((cfg0.win 2).xinj (grid0.coords t) y) = G0 V c (((cfg0.win 2).blk t).view.emb y)
  rw [after0_2]
  refine (outsAt0_eq V c t.val t.isLt _).trans ?_
  unfold G0
  rw [h15]
  have e : ((((cfg0.win 2).blk t).view.emb y) 0 : ℕ) = t.val / 16 := by
    show win0_2.index t 0 * 1 + 1 * (y 0).val = _
    have : (y 0).val < 1 := (y 0).isLt
    rw [i0]; omega
  rw [e]

theorem last_lt0 (a : Fin 2) : 16 * a.val + 15 < cfg0.N := by
  have := a.isLt; have hN : cfg0.N = 32 := N_0; omega

/-- The last point of core `a`'s run. -/
abbrev last0 (a : Fin 2) : Fin cfg0.N := ⟨16 * a.val + 15, last_lt0 a⟩

/-- So the output array ends holding `G0`: entry `j` lies in the block written back by the last point of core `j 0`. -/
theorem final0 (c : Dev nD) : (dat0 V c).arrAt 2 cfg0.N = G0 V c :=
  (dat0 V c).arrAt_eq_of_cover 2 (G0 V c) (flushed0_eq V c) fun i =>
    ⟨last0 (i 0), (flush0_2 _).mpr (by dsimp only; omega), by
      obtain ⟨-, -, ⟨i0, i1, i2⟩⟩ := idx_facts0 (last0 (i 0))
      show i ∈ ((View.whole main_v0).slice (win0_2.rect (last0 (i 0)))).set
      rw [View.set_slice_whole, Rect.mem_set_unit]
      intro a
      have h0 : (i 0 : Nat) < 2 := (i 0).isLt
      have h1 : (i 1 : Nat) < 1 := (i 1).isLt
      have h2 : (i 2 : Nat) < 1 := (i 2).isLt
      match a with
      | ⟨0, _⟩ => show win0_2.index (last0 (i 0)) 0 * 1 ≤ (i 0 : Nat) ∧ (i 0 : Nat) < win0_2.index (last0 (i 0)) 0 * 1 + 1
                  rw [i0]; dsimp only; omega
      | ⟨1, _⟩ => show win0_2.index (last0 (i 0)) 1 * 1 ≤ (i 1 : Nat) ∧ (i 1 : Nat) < win0_2.index (last0 (i 0)) 1 * 1 + 1
                  rw [i1]; omega
      | ⟨2, _⟩ => show win0_2.index (last0 (i 0)) 2 * 1 ≤ (i 2 : Nat) ∧ (i 2 : Nat) < win0_2.index (last0 (i 0)) 2 * 1 + 1
                  rw [i2]; omega⟩

theorem pt_lt0 (a : Fin 2) (i : Fin 16) : a.val * 16 + i.val < cfg0.N := by
  have := a.isLt; have := i.isLt; have hN : cfg0.N = 32 := N_0; omega

/-- `G0` as a sum over a core's 16 points. -/
theorem G0_apply (c : Dev nD) (j : S2x1x1.Idx) :
    G0 V c j = ∑ i : Fin 16, point0 V c ⟨(j 0).val * 16 + i.val, pt_lt0 (j 0) i⟩ := by
  unfold G0
  rw [← Fin.sum_univ_eq_sum_range (fun s => pt0 V c (16 * (j 0).val + s)) 16]
  refine Finset.sum_congr rfl fun i _ => ?_
  have e : 16 * (j 0).val + i.val = (j 0).val * 16 + i.val := by omega
  rw [e, pt0, dif_pos (pt_lt0 (j 0) i)]

/-- The region's result: the output array's entry for core `j 0` is the sum of that core's 16 points' partial sums. -/
theorem arr0_apply (c : Dev nD) (j : S2x1x1.Idx) :
    ((dat0 (F := Ideal) V c).arrAt 2 cfg0.N : S2x1x1.Idx → EReal) j
      = ∑ i : Fin 16, point0 V c ⟨(j 0).val * 16 + i.val, pt_lt0 (j 0) i⟩ :=
  (congrFun (final0 V c) j).trans (G0_apply V c j)

end Cert.KernelIdeal.RegionValue

end
-- ==== Proof.LibTileSum.lean ====
/-
  A sum over `K * T` consecutive indices cut into `K` tiles of `T` consecutive indices each.

  The index `i < K * T` is written `i = k * T + j` with `k < K` the tile and `j < T` the position inside the tile; the
  map `(k, j) ↦ k * T + j` is a bijection of `Fin K × Fin T` with `Fin (K * T)`, so the sum of `f` over all indices is
  the sum over the tiles of each tile's sum (`sum_tiles`). A running total that starts at `0` and adds one tile's sum
  at each of `K` steps therefore ends at the whole sum (`sum_tiles_fold`). Both hold in any additive commutative monoid.
-/
import Mathlib.Data.Fintype.BigOperators
import Mathlib.Logic.Equiv.Fin.Basic
import Mathlib.Algebra.BigOperators.Fin

open scoped BigOperators

namespace Cert.Lib

/-- Position `j` of tile `k` is a valid index: `k * T + j < (k + 1) * T ≤ K * T`. -/
theorem tile_lt {K T k : ℕ} (hk : k < K) (j : Fin T) : k * T + j.val < K * T :=
  calc k * T + j.val < k * T + T := Nat.add_lt_add_left j.isLt _
    _ = (k + 1) * T := (Nat.succ_mul k T).symm
    _ ≤ K * T := Nat.mul_le_mul_right T hk

/-- The sum over `K * T` indices is the sum over the `K` tiles of the sum over each tile's `T` positions: re-index the
    right side along the bijection `(k, j) ↦ k * T + j` and split the sum over the product into the double sum. -/
theorem sum_tiles {M : Type*} [AddCommMonoid M] (K T : ℕ) (f : Fin (K * T) → M) :
    ∑ k : Fin K, ∑ j : Fin T, f ⟨k.val * T + j.val, tile_lt k.isLt j⟩ = ∑ i : Fin (K * T), f i := by
  refine Eq.trans ?_ (Equiv.sum_comp (finProdFinEquiv (m := K) (n := T)) f)
  rw [Fintype.sum_prod_type]
  refine Finset.sum_congr rfl fun k _ => Finset.sum_congr rfl fun j _ => congrArg f (Fin.ext ?_)
  show k.val * T + j.val = j.val + T * k.val
  rw [Nat.mul_comm, Nat.add_comm]

/-- The running form: a total `acc` that starts at `0` and at step `k < K` adds the sum of tile `k` is, after `K` steps,
    the sum over all `K * T` indices. After `n ≤ K` steps the total is the sum of the first `n` tiles (induction on
    `n`); at `n = K` that is the double sum of `sum_tiles`. -/
theorem sum_tiles_fold {M : Type*} [AddCommMonoid M] (K T : ℕ) (f : Fin (K * T) → M) (acc : ℕ → M) (h0 : acc 0 = 0)
    (hs : ∀ k (hk : k < K), acc (k + 1) = acc k + ∑ j : Fin T, f ⟨k * T + j.val, tile_lt hk j⟩) :
    acc K = ∑ i : Fin (K * T), f i := by
  have key : ∀ n, n ≤ K → acc n = ∑ k ∈ Finset.range n,
      (if hk : k < K then ∑ j : Fin T, f ⟨k * T + j.val, tile_lt hk j⟩ else 0) := by
    intro n
    induction n with
    | zero => intro _; rw [Finset.range_zero, Finset.sum_empty]; exact h0
    | succ n ih =>
      intro hn
      have hk : n < K := hn
      rw [Finset.sum_range_succ, ← ih (Nat.le_of_lt hk), dif_pos hk, hs n hk]
  rw [key K (Nat.le_refl K), ← sum_tiles K T f, Finset.sum_fin_eq_sum_range]

/-- `sum_tiles` at 16 tiles of 1024, stated over `Fin 16384`. -/
theorem sum_tiles_16_1024 {M : Type*} [AddCommMonoid M] (f : Fin 16384 → M) :
    ∑ k : Fin 16, ∑ j : Fin 1024, f ⟨k.val * 1024 + j.val, by omega⟩ = ∑ i : Fin 16384, f i :=
  sum_tiles 16 1024 f

/-- `sum_tiles_fold` at 16 tiles of 1024, stated over `Fin 16384`. -/
theorem sum_tiles_fold_16_1024 {M : Type*} [AddCommMonoid M] (f : Fin 16384 → M) (acc : ℕ → M) (h0 : acc 0 = 0)
    (hs : ∀ k (hk : k < 16), acc (k + 1) = acc k + ∑ j : Fin 1024, f ⟨k * 1024 + j.val, by omega⟩) :
    acc 16 = ∑ i : Fin 16384, f i :=
  sum_tiles_fold 16 1024 f acc h0 hs

end Cert.Lib
-- ==== Proof.Spec.lean ====
/-
  The feature-matching quantity both programs compute, stated once over plain finite index types.

  For an array `x` indexed by (batch b, position s, channel d) the row (b, s) is scaled to unit length, its length
  clamped below by a small positive constant: the reference divides each entry by the clamped length, the kernel
  multiplies it by the reciprocal of the clamped length. On the extended reals `x / n` is `x * n⁻¹` whenever `n ≠ 0`,
  and `1 / n` is `1 * n⁻¹`; the clamped length is at least the positive constant, so it is never zero and the two
  scalings are one function (`unitK_eq`). The squared difference of the two batch means at (s, d) is `sqDiff`, and the
  quantity is its sum over all positions and channels. A sum over `T * 64` positions is the sum over `T` tiles of 64
  (`sum_tiles`), which is how a grid of tiles, and two halves of that grid, add up to the whole (`sum_points`,
  `sum_cores`): only commutativity and associativity of addition are used.
-/
import Idealize.ShloMosaic.PureOps.Ideal
import Idealize.ShloMosaic.PureOps.Ideal.Laws
import proofs.«139213_j64381559767355_2_alg».proof.Proof.LibTileSum

noncomputable section

open scoped BigOperators

namespace Cert.FM

open Idealize.ShloMosaic

/-- The clamp constant (the f32 nearest 1e-12) as an extended real. -/
def eps : EReal := Ideal.ofBits .f32 0x2B8CBCCC#32

/-- The batch size 32 as an extended real. -/
def c32 : EReal := Ideal.ofBits .f32 0x42000000#32

/-- The clamp constant is positive. -/
theorem eps_pos : 0 < eps := by
  unfold eps
  simp [Ideal.ofBits, Ideal.ieee, -EReal.coe_mul]

/-- The f32 word of 1.0 denotes 1. -/
theorem ofBits_one : Ideal.ofBits .f32 0x3F800000#32 = 1 := by
  simp [Ideal.ofBits, Ideal.ieee, -EReal.coe_mul]; norm_num

/-- A length clamped below by the positive constant is not zero. -/
theorem clamp_ne_zero (a : EReal) : max a eps ≠ 0 :=
  (lt_of_lt_of_le eps_pos (le_max_right a eps)).ne'

/-- Multiplying by the reciprocal of a nonzero extended real is dividing by it. -/
theorem mul_recip (x n : EReal) (hn : n ≠ 0) : x * Ideal.div 1 n = Ideal.div x n := by
  unfold Ideal.div
  rw [if_neg hn, if_neg hn, one_mul]

/-- The clamped length of a row. -/
def clampNorm {D : ℕ} (row : Fin D → EReal) : EReal := max (Ideal.sqrt (∑ k, row k * row k)) eps

/-- The reference's scaling: the entry divided by its row's clamped length. -/
def unitR {B S D : ℕ} (x : Fin B → Fin S → Fin D → EReal) (b : Fin B) (s : Fin S) (d : Fin D) : EReal :=
  Ideal.div (x b s d) (clampNorm (x b s))

/-- The kernel's scaling: the entry times the reciprocal of its row's clamped length. -/
def unitK {B S D : ℕ} (x : Fin B → Fin S → Fin D → EReal) (b : Fin B) (s : Fin S) (d : Fin D) : EReal :=
  x b s d * Ideal.div 1 (clampNorm (x b s))

theorem unitK_eq {B S D : ℕ} (x : Fin B → Fin S → Fin D → EReal) (b : Fin B) (s : Fin S) (d : Fin D) :
    unitK x b s d = unitR x b s d :=
  mul_recip _ _ (clamp_ne_zero _)

/-- The squared difference, at position `s` and channel `d`, of the batch means of the scaled fake and real arrays. -/
def sqDiff {B S D : ℕ} (r f : Fin B → Fin S → Fin D → EReal) (s : Fin S) (d : Fin D) : EReal :=
  (Ideal.div (∑ b, unitR f b s d) c32 - Ideal.div (∑ b, unitR r b s d) c32)
    * (Ideal.div (∑ b, unitR f b s d) c32 - Ideal.div (∑ b, unitR r b s d) c32)

/-- The same with the kernel's scaling. -/
def sqDiffK {B S D : ℕ} (r f : Fin B → Fin S → Fin D → EReal) (s : Fin S) (d : Fin D) : EReal :=
  (Ideal.div (∑ b, unitK f b s d) c32 - Ideal.div (∑ b, unitK r b s d) c32)
    * (Ideal.div (∑ b, unitK f b s d) c32 - Ideal.div (∑ b, unitK r b s d) c32)

theorem sqDiffK_eq {B S D : ℕ} (r f : Fin B → Fin S → Fin D → EReal) (s : Fin S) (d : Fin D) :
    sqDiffK r f s d = sqDiff r f s d := by
  unfold sqDiffK sqDiff
  simp only [unitK_eq]

/-- The feature-matching sum of squares over all positions and channels. -/
def total {B S D : ℕ} (r f : Fin B → Fin S → Fin D → EReal) : EReal := ∑ s : Fin S, ∑ d : Fin D, sqDiff r f s d

/-- Tile `t` of 64 consecutive positions of an array. -/
def tile {B T D : ℕ} (x : Fin B → Fin (T * 64) → Fin D → EReal) (t : Fin T) : Fin B → Fin 64 → Fin D → EReal :=
  fun b s d => x b ⟨t.val * 64 + s.val, Cert.Lib.tile_lt t.isLt s⟩ d

/-- What one grid point adds: the sum over its tile's 64 positions and all channels, with the kernel's scaling. -/
def point {B T D : ℕ} (r f : Fin B → Fin (T * 64) → Fin D → EReal) (t : Fin T) : EReal :=
  ∑ s : Fin 64, ∑ d : Fin D, sqDiffK (tile r t) (tile f t) s d

/-- A tile's squared differences are the array's at the tile's positions: scaling a row looks only at that row. -/
theorem sqDiff_tile {B T D : ℕ} (r f : Fin B → Fin (T * 64) → Fin D → EReal) (t : Fin T) (s : Fin 64) (d : Fin D) :
    sqDiff (tile r t) (tile f t) s d = sqDiff r f ⟨t.val * 64 + s.val, Cert.Lib.tile_lt t.isLt s⟩ d := rfl

/-- The grid points' contributions add up to the whole sum. -/
theorem sum_points {B T D : ℕ} (r f : Fin B → Fin (T * 64) → Fin D → EReal) :
    ∑ t : Fin T, point r f t = total r f := by
  unfold point total
  simp only [sqDiffK_eq, sqDiff_tile]
  exact Cert.Lib.sum_tiles T 64 fun s => ∑ d : Fin D, sqDiff r f s d

/-- Two cores, each summing its own half of the grid points, together sum them all. -/
theorem sum_cores {M : Type*} [AddCommMonoid M] (I : ℕ) (g : Fin (2 * I) → M) :
    ∑ c : Fin 2, ∑ i : Fin I, g ⟨c.val * I + i.val, Cert.Lib.tile_lt c.isLt i⟩ = ∑ t : Fin (2 * I), g t :=
  Cert.Lib.sum_tiles 2 I g

/-- The two cores' runs of `I` grid points each add up to the whole sum. -/
theorem cores_points_total {B D : ℕ} (I : ℕ) (r f : Fin B → Fin ((2 * I) * 64) → Fin D → EReal) :
    ∑ a : Fin 2, ∑ i : Fin I, point r f ⟨a.val * I + i.val, Cert.Lib.tile_lt a.isLt i⟩ = total r f :=
  (sum_cores I (point r f)).trans (sum_points r f)

end Cert.FM

end
-- ==== Proof.LibKeepdims.lean ====
/-
  General lemmas: a sum along the last axis of a matrix that keeps the axis as a unit column, read at an index.

  A `keepdims` row reduction of an `[a, b]` matrix passes through three layout steps: the lane sum into `[a]`, the
  cast of `[a]` to the column `[a, 1]`, and the broadcast of the column `[a, 1]` back over `[a, b]`. Each is read
  here at an index written by its coordinates, so that it applies to a printed operation by unification:
  * `laneSum_ab_apply`: at the ideal values the f32 lane sum at row `p` is `Σ k, v (p, k)`;
  * `shapeCast_a_a1_apply`: the column's entry `(p, 0)` is the vector's entry `p`;
  * `broadcastTo_a1_ab_apply`: the broadcast's entry `(p, c)` is the column's entry `(p, 0)`.
-/
import Idealize.ShloMosaic.Lib.Pipeline.Value
import Idealize.ShloMosaic.Lib.ValueIdx
import Idealize.ShloMosaic.PureOps.Ideal.Laws

noncomputable section

open scoped BigOperators

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values an f32 lane sum of an `[a, b]` matrix (a `vector.multi_reduction <add>` over axis 1 into
    `[a]`, from the sum's neutral word) is, at row `p`, the sum over the row's entries. -/
theorem laneSum_ab_apply {a b : ℕ} (v : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

end Idealize.ShloMosaic.ValueIdx

end
-- ==== Proof.LibKeepdims3.lean ====
/-
  General lemmas: the layout steps of a `keepdims` reduction along the last axis of a rank-3 array, and the sums along
  its first and last axes, each read at an index written by its coordinates.

  * `laneSum_abc_apply`: at the ideal values the f32 sum over the last axis of an `[a, b, c]` array, at `(p, q)`, is
    `Σ k, v (p, q, k)`;
  * `shapeCast_ab_ab1_apply`: an `[a, b]` array cast to `[a, b, 1]` reads, at `(p, q, u)`, the operand at `(p, q)`;
  * `broadcastTo_ab1_abc_apply`: an `[a, b, 1]` array broadcast to `[a, b, c]` reads, at `(p, q, r)`, its entry `(p, q, 0)`;
  * `leadSum_abc_apply`: the f32 sum over the FIRST axis of an `[a, b, c]` array, at `(q, r)`, is `Σ k, v (k, q, r)`;
  * `leadSum_a1_apply`: the f32 sum over the first axis of a column `[a, 1]` into `[1]` is `Σ k, v (k, 0)`;
  * `shapeCast_1_11_apply`: a `[1]` array cast to `[1, 1]` reads its one entry.
-/
import Idealize.ShloMosaic.Lib.Pipeline.Value
import Idealize.ShloMosaic.Lib.ValueIdx
import Idealize.ShloMosaic.PureOps.Ideal.Laws

noncomputable section

open scoped BigOperators

namespace Idealize.ShloMosaic.ValueIdx

open Idealize.ShloMosaic

variable {α : Type}

/-- At the ideal values an f32 sum over the last axis of an `[a, b, c]` array (a `vector.multi_reduction <add>` over
    axis 2 into `[a, b]`, from the sum's neutral word) is, at `(p, q)`, the sum over that row's entries. -/
theorem laneSum_abc_apply {a b c : ℕ} (v : FVec Ideal ⟨3, ![a, b, c]⟩ .f32) (acc : BitVec FTy.f32.bits)
    (h : (⟨3, ![a, b, c]⟩ : Shape).Reduces [2] ⟨2, ![a, b]⟩) (hφ : FKind.Formats .f32) (hacc : acc = FKind.add.neutral .f32 hφ)
    (p : Fin a) (q : Fin b) :
    multiReduction .add [2] ⟨2, ![a, b]⟩ v acc h hφ hacc (ix2 p q) = ∑ k : Fin c, v (ix3 p q k) :=
  (Ideal.multiReduction_add_single v acc h hφ hacc (ix2 p q)).trans
    (Finset.sum_congr rfl fun k _ => congrArg v (funext fun ax => Fin.ext (by
      match ax with
      | ⟨0, _⟩ => rfl
      | ⟨1, _⟩ => rfl
      | ⟨2, _⟩ => rfl)))

/-- The f32 sum over the FIRST axis of an `[a, b, c]` array (axis 0, into `[b, c]`) is, at `(q, r)`, the sum over the
    first coordinate. -/
theorem leadSum_abc_apply {a b c : ℕ} (v : FVec Ideal ⟨3, ![a, b, c]⟩ .f32) (acc : BitVec FTy.f32.bits)
    (h : (⟨3, ![a, b, c]⟩ : Shape).Reduces [0] ⟨2, ![b, c]⟩) (hφ : FKind.Formats .f32) (hacc : acc = FKind.add.neutral .f32 hφ)
    (q : Fin b) (r : Fin c) :
    multiReduction .add [0] ⟨2, ![b, c]⟩ v acc h hφ hacc (ix2 q r) = ∑ k : Fin a, v (ix3 k q r) :=
  (Ideal.multiReduction_add_single v acc h hφ hacc (ix2 q r)).trans
    (Finset.sum_congr rfl fun k _ => congrArg v (funext fun ax => Fin.ext (by
      match ax with
      | ⟨0, _⟩ => rfl
      | ⟨1, _⟩ => rfl
      | ⟨2, _⟩ => rfl)))

/-- The f32 sum over the first axis of a column `[a, 1]` (axis 0, into `[1]`) is the sum of the column's entries. -/
theorem leadSum_a1_apply {a : ℕ} (v : FVec Ideal ⟨2, ![a, 1]⟩ .f32) (acc : BitVec FTy.f32.bits)
    (h : (⟨2, ![a, 1]⟩ : Shape).Reduces [0] ⟨1, ![1]⟩) (hφ : FKind.Formats .f32) (hacc : acc = FKind.add.neutral .f32 hφ)
    (u : Fin 1) :
    multiReduction .add [0] ⟨1, ![1]⟩ v acc h hφ hacc (ix1 u) = ∑ k : Fin a, v (ix2 k (0 : Fin 1)) :=
  (Ideal.multiReduction_add_single v acc h hφ hacc (ix1 u)).trans
    (Finset.sum_congr rfl fun k _ => congrArg v (funext fun ax => Fin.ext (by
      match ax with
      | ⟨0, _⟩ => rfl
      | ⟨1, _⟩ => show (u : ℕ) = 0; omega)))

/-- An `[a, b]` array cast to `[a, b, 1]` reads, at `(p, q, u)`, the operand at `(p, q)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, b, 1]` array broadcast to `[a, b, c]` reads, at `(p, q, r)`, its entry `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A `[1]` array cast to `[1, 1]` reads its one entry. -/
theorem shapeCast_1_11_apply (x : (⟨1, ![1]⟩ : Shape).Idx → α) (h : (⟨1, ![1]⟩ : Shape).ShapeCasts ⟨2, ![1, 1]⟩)
    (u w : Fin 1) : shapeCast ⟨2, ![1, 1]⟩ x h (ix2 u w) = x (ix1 (0 : Fin 1)) :=
  shapeCast_apply x h _ _ (by
    have hu : u.val = 0 := by omega
    have hw : w.val = 0 := by omega
    rw [Shape.rowMajor_val_two, Shape.rowMajor_val_one]
    show (0 : ℕ) = u.val * 1 + w.val
    rw [hu, hw])

end Idealize.ShloMosaic.ValueIdx

end
-- ==== Proof.Payload.lean ====
/-
  One grid point's contribution, read at its one index.

  The kernel body loads a real block and a fake block of shape [32, 64, 512], scales every row (b, s) of each by the
  reciprocal of its clamped length (`scaled`: the row's sum of squares along the channels, kept as a unit column, its
  square root, the clamp, the reciprocal, broadcast back over the channels), takes the two batch means at every
  (s, d), squares their difference, and sums over channels and then positions into a single number (`pointSum`).
  Index by index this is `Cert.FM.sqDiffK` of the two blocks summed over (s, d) — the statement of `pointSum_apply`.
  The three regions run the same body, so their three payloads are this one term.
-/
import proofs.«139213_j64381559767355_2_alg».proof.Proof.Gen.KernelIdeal.Skeleton
import proofs.«139213_j64381559767355_2_alg».proof.Proof.Spec
import proofs.«139213_j64381559767355_2_alg».proof.Proof.LibKeepdims
import proofs.«139213_j64381559767355_2_alg».proof.Proof.LibKeepdims3
import Idealize.ShloMosaic.Lib.ValueIdx
import Idealize.ShloMosaic.Lib.Pipeline.Value

noncomputable section

open scoped BigOperators

namespace Cert.KernelIdeal.Payload

open Idealize.ShloMosaic Idealize.ShloMosaic.ValueIdx Cert.KernelIdeal

/-- A block with every row scaled by the reciprocal of its clamped length. -/
def scaled (X : FVec Ideal S32x64x512 .f32) : FVec Ideal S32x64x512 .f32 :=
  mulf X (broadcastTo S32x64x512
    (divf (broadcast S32x64x1 (Scalar.ofBits (F := Ideal) .f32 0x3F800000#32))
      (maximumf
        (sqrt (shapeCast S32x64x1
          (multiReduction .add [2] S32x64 (mulf X X) 0x00000000#32 Gen.reduces_S32x64x512_S32x64 (.inl rfl) rfl)
          Gen.shapeCasts_S32x64_S32x64x1))
        (broadcast S32x64x1 (Scalar.ofBits (F := Ideal) .f32 0x2B8CBCCC#32))))
    Gen.broadcasts_S32x64x1_S32x64x512)

/-- The scaled block at (b, s, d) is the kernel's scaling of the entry by its row. -/
theorem scaled_apply (X : FVec Ideal S32x64x512 .f32) (b : Fin 32) (s : Fin 64) (d : Fin 512) :
    scaled X (ix3 b s d) = Cert.FM.unitK (fun b s d => X (ix3 b s d)) b s d := by
  unfold scaled Cert.FM.unitK
  refine congrArg (X (ix3 b s d) * ·) ?_
  refine (broadcastTo_ab1_abc_apply _ _ b s d).trans ?_
  show Ideal.div (Ideal.ofBits .f32 0x3F800000#32) (max (Ideal.sqrt (shapeCast S32x64x1 _ Gen.shapeCasts_S32x64_S32x64x1 (ix3 b s (0 : Fin 1)))) (Ideal.ofBits .f32 0x2B8CBCCC#32)) = _
  rw [Cert.FM.ofBits_one, shapeCast_ab_ab1_apply]
  refine congrArg (fun z => Ideal.div 1 (max (Ideal.sqrt z) (Ideal.ofBits .f32 0x2B8CBCCC#32))) ?_
  exact laneSum_abc_apply (mulf X X) _ _ _ _ b s

/-- The batch mean of a scaled block at (s, d). -/
def meanOf (X : FVec Ideal S32x64x512 .f32) : FVec Ideal S64x512 .f32 :=
  divf (multiReduction .add [0] S64x512 (scaled X) 0x00000000#32 Gen.reduces_S32x64x512_S64x512 (.inl rfl) rfl)
    (broadcast S64x512 (Scalar.ofBits (F := Ideal) .f32 0x42000000#32))

theorem meanOf_apply (X : FVec Ideal S32x64x512 .f32) (s : Fin 64) (d : Fin 512) :
    meanOf X (ix2 s d) = Ideal.div (∑ b : Fin 32, Cert.FM.unitK (fun b s d => X (ix3 b s d)) b s d) Cert.FM.c32 := by
  unfold meanOf
  show Ideal.div (multiReduction .add [0] S64x512 (scaled X) 0x00000000#32 Gen.reduces_S32x64x512_S64x512 (.inl rfl) rfl (ix2 s d)) (Ideal.ofBits .f32 0x42000000#32) = _
  refine congrArg (fun z => Ideal.div z Cert.FM.c32) ?_
  refine (leadSum_abc_apply (scaled X) _ _ _ _ s d).trans ?_
  exact Finset.sum_congr rfl fun b _ => scaled_apply X b s d

/-- The point's partial sum as one term of the two blocks. -/
def pointSum (X0 X1 : FVec Ideal S32x64x512 .f32) : FVec Ideal S1x1 .f32 :=
  shapeCast S1x1
    (multiReduction .add [0] S1
      (shapeCast S64x1
        (multiReduction .add [1] S64
          (mulf (subf (meanOf X1) (meanOf X0)) (subf (meanOf X1) (meanOf X0)))
          0x00000000#32 Gen.reduces_S64x512_S64 (.inl rfl) rfl)
        Gen.shapeCasts_S64_S64x1)
      0x00000000#32 Gen.reduces_S64x1_S1 (.inl rfl) rfl)
    Gen.shapeCasts_S1_S1x1

theorem pointSum_apply (X0 X1 : FVec Ideal S32x64x512 .f32) (u w : Fin 1) :
    pointSum X0 X1 (ix2 u w)
      = ∑ s : Fin 64, ∑ d : Fin 512,
          Cert.FM.sqDiffK (fun b s d => X0 (ix3 b s d)) (fun b s d => X1 (ix3 b s d)) s d := by
  unfold pointSum
  refine (shapeCast_1_11_apply _ _ u w).trans ?_
  refine (leadSum_a1_apply _ _ _ _ _ (0 : Fin 1)).trans ?_
  refine Finset.sum_congr rfl fun s _ => ?_
  refine (shapeCast_a_a1_apply _ _ s (0 : Fin 1)).trans ?_
  refine (laneSum_ab_apply _ _ _ _ _ s).trans ?_
  refine Finset.sum_congr rfl fun d _ => ?_
  show (meanOf X1 (ix2 s d) - meanOf X0 (ix2 s d)) * (meanOf X1 (ix2 s d) - meanOf X0 (ix2 s d)) = _
  rw [meanOf_apply, meanOf_apply]
  rfl

/-- Region 0: the point's partial sum, at its one index, is the sum over the tile's 64 positions and 512 channels
    of the squared difference of the two scaled blocks' batch means. -/
theorem pay3_0_apply (X0 X1 : FVec Ideal S32x64x512 .f32) (u w : Fin 1) :
    Gen.k0_pay3 (F := Ideal) X0 X1 (ix2 u w)
      = ∑ s : Fin 64, ∑ d : Fin 512,
          Cert.FM.sqDiffK (fun b s d => X0 (ix3 b s d)) (fun b s d => X1 (ix3 b s d)) s d := by
  have e : Gen.k0_pay3 (F := Ideal) X0 X1 = pointSum X0 X1 := rfl
  rw [e]
  exact pointSum_apply X0 X1 u w

/-- Region 1: the point's partial sum, at its one index, is the sum over the tile's 64 positions and 512 channels
    of the squared difference of the two scaled blocks' batch means. -/
theorem pay3_1_apply (X0 X1 : FVec Ideal S32x64x512 .f32) (u w : Fin 1) :
    Gen.k1_pay3 (F := Ideal) X0 X1 (ix2 u w)
      = ∑ s : Fin 64, ∑ d : Fin 512,
          Cert.FM.sqDiffK (fun b s d => X0 (ix3 b s d)) (fun b s d => X1 (ix3 b s d)) s d := by
  have e : Gen.k1_pay3 (F := Ideal) X0 X1 = pointSum X0 X1 := rfl
  rw [e]
  exact pointSum_apply X0 X1 u w

/-- Region 2: the point's partial sum, at its one index, is the sum over the tile's 64 positions and 512 channels
    of the squared difference of the two scaled blocks' batch means. -/
theorem pay3_2_apply (X0 X1 : FVec Ideal S32x64x512 .f32) (u w : Fin 1) :
    Gen.k2_pay3 (F := Ideal) X0 X1 (ix2 u w)
      = ∑ s : Fin 64, ∑ d : Fin 512,
          Cert.FM.sqDiffK (fun b s d => X0 (ix3 b s d)) (fun b s d => X1 (ix3 b s d)) s d := by
  have e : Gen.k2_pay3 (F := Ideal) X0 X1 = pointSum X0 X1 := rfl
  rw [e]
  exact pointSum_apply X0 X1 u w

end Cert.KernelIdeal.Payload

end
-- ==== Proof.KValue0.lean ====
/-
  Region 0 (the first feature pair, 2048 positions): the two cores' entries of the region's output add up to the
  specification's total of the region's two input arrays.

  Core `a`'s entry is the sum of the partial sums of its 16 grid points; the partial sum of point `t` is the sum over the
  point's tile of 64 positions and all channels of the squared difference of batch means of the two blocks; the block
  of point `t` is rows `64 t … 64 t + 63` of the array. Summing the tiles of both cores' runs covers every position once.
-/
import proofs.«139213_j64381559767355_2_alg».proof.Proof.Region0
import proofs.«139213_j64381559767355_2_alg».proof.Proof.Payload

noncomputable section

open scoped BigOperators

namespace Cert.KernelIdeal.KValue

open Idealize.ShloMosaic Idealize.ShloMosaic.TcCoe Idealize.SL.Sem Idealize.ShloMosaic.ValueIdx
open Cert.KernelIdeal Cert.KernelIdeal.Gen Cert.KernelIdeal.RegionValue

variable (V : (c : Dev nD) → (b : Ref sig .tc) → Buf (Elt Ideal) ((c : Thread nD τ).loc b))

/-- A [32, 2048, 512] array read by coordinates, its positions written as 32 tiles of 64. -/
def coords0 (A : S32x2048x512.Idx → EReal) : Fin 32 → Fin ((2 * 16) * 64) → Fin 512 → EReal :=
  fun b s d => A (ix3 b s d)

/-- The partial sum of grid point `t` is the specification's point value of the two arrays. -/
theorem point0_eq (c : Dev nD) (t : Fin cfg0.N) (t' : Fin (2 * 16)) (ht : t'.val = t.val) :
    point0 V c t = Cert.FM.point (coords0 (V c (Pipeline.arrRef spec0 0))) (coords0 (V c (Pipeline.arrRef spec0 1))) t' := by
  unfold point0
  rw [Cert.KernelIdeal.Payload.pay3_0_apply]
  unfold Cert.FM.point
  refine Finset.sum_congr rfl fun s _ => Finset.sum_congr rfl fun d _ => ?_
  refine congrArg₂ (fun r f => Cert.FM.sqDiffK r f s d) ?_ ?_
  · funext b s d
    rw [iblk0_0_apply]
    unfold Cert.FM.tile coords0
    exact congrArg _ (congrArg (fun k => ix3 b k d) (Fin.ext (by show t.val * 64 + s.val = t'.val * 64 + s.val; rw [ht])))
  · funext b s d
    rw [iblk0_1_apply]
    unfold Cert.FM.tile coords0
    exact congrArg _ (congrArg (fun k => ix3 b k d) (Fin.ext (by show t.val * 64 + s.val = t'.val * 64 + s.val; rw [ht])))

/-- The two cores' entries of region 0's output add up to the total of its two input arrays. -/
theorem cores0_total (c : Dev nD) (arr : S2x1x1.Idx → EReal)
    (harr : ∀ j : S2x1x1.Idx, arr j = ((dat0 (F := Ideal) V c).arrAt 2 cfg0.N : S2x1x1.Idx → EReal) j) :
    ∑ a : Fin 2, arr (ix3 a (0 : Fin 1) (0 : Fin 1))
      = Cert.FM.total (coords0 (V c (Pipeline.arrRef spec0 0))) (coords0 (V c (Pipeline.arrRef spec0 1))) := by
  rw [← Cert.FM.cores_points_total 16]
  refine Finset.sum_congr rfl fun a _ => ?_
  rw [harr, arr0_apply]
  exact Finset.sum_congr rfl fun i _ => point0_eq V c _ _ rfl

end Cert.KernelIdeal.KValue

end
-- ==== Proof.Region1.lean ====
import proofs.«139213_j64381559767355_2_alg».proof.Proof.RegionLib

noncomputable section

open Idealize.ShloMosaic Idealize.ShloMosaic.TcCoe Idealize.SL.Sem
open Idealize.ShloMosaic.Pipeline (Dat)

/-! # Region 1 read as values

The second pallas_call runs 2 grid points, one per core. Each point stores zero, reduces its two input blocks to ONE
number (the point's partial sum), adds it to the zero it reads back, and writes the result back as its core's entry of
the `[2,1,1]` output. So the output entry of core `a` is the partial sum of point `a` (a sum with one term), and the
input block at point `t` is rows `64 t … 64 t + 63` of the `[32,128,512]` input array. -/

namespace Cert.KernelIdeal.RegionValue
open Cert.KernelIdeal Cert.KernelIdeal.Gen

section Pieces
variable {F : FTy → Type} [FloatOps F]

/-- Every point stores zero, reads it back, and leaves zero plus the point's partial sum. -/
theorem out1_A (c : Dev nD) (i : grid1.Coords) (a2 : Memref sig .tc .vmem S32x64x512 .f32) (h2 : a2.IsWhole)
    (a3 : Memref sig .tc .vmem S32x64x512 .f32) (h3 : a3.IsWhole) (a4 : Memref sig .tc .vmem S1x1x1 .f32) (h4 : a4.IsWhole)
    (hc : cond1_0 i) (x0 x1 : Vec F S32x64x512 .f32) :
    out1_A_2 c i a2 h2 a3 h3 a4 h4 hc x0 x1 = k1_pay1 (k1_pay3 x0 x1) k1_pay2 := by
  unfold out1_A_2
  rw [View.read_writes_eq_canon _ _ _ (cover1_A_2 c i a2 h2 a3 h3 a4 h4 hc x0 x1)]
  unfold kernelRun1_A
  dsimp only
  sl_unfold_words
  rw [View.canon_cons_unit_zero (S := S1x1x1) hz3, View.readCov_unit_zero (S := S1x1x1) _ hz3]
  simp only [View.readAt_eq_ld, h2.read_unread, h3.read_unread, View.ld_unit_zero (S := S32x64x512) hz3]

end Pieces

theorem k1_pay1_apply (v36 : FVec Ideal S1x1 .f32) (v37 : Vec Ideal S1x1x1 .f32) (j : S1x1x1.Idx) :
    k1_pay1 (F := Ideal) v36 v37 j = v37 j + v36 (ValueIdx.ix2 0 0) := by
  unfold k1_pay1
  exact acc_apply _ _ v36 v37 j

theorem k1_pay2_apply (j : S1x1x1.Idx) : k1_pay2 (F := Ideal) j = 0 := by
  unfold k1_pay2
  exact zero_apply j

variable (V : (c : Dev nD) → (b : Ref sig .tc) → Buf (Elt Ideal) ((c : Thread nD τ).loc b))

/-- One grid point's partial sum: the body's reduction of the two input blocks at point `t`, at its one index. -/
def point1 (c : Dev nD) (t : Fin cfg1.N) : EReal :=
  k1_pay3 (F := Ideal) (iblk1 V c 0 t) (iblk1 V c 1 t) (ValueIdx.ix2 0 0)

/-- The same over all naturals (zero past the grid). -/
def pt1 (c : Dev nD) (n : ℕ) : EReal := if h : n < cfg1.N then point1 V c ⟨n, h⟩ else 0

/-- What the output's buffer holds after point `t`: zero plus the point's partial sum. -/
theorem outsAt1_eq (c : Dev nD) (t : Fin cfg1.N) (y : S1x1x1.Idx) : (outsAt1 V c t y : EReal) = point1 V c t := by
  unfold outsAt1
  rw [out1_A, k1_pay1_apply, k1_pay2_apply, zero_add]
  rfl

/-- The printed index maps, decided once over the grid: the input windows' block index along the long axis is
    the point's number, and so is the output window's along the core axis. -/
theorem idx_facts1 : ∀ t : Fin cfg1.N,
    (win1_0.index t 0 = 0 ∧ win1_0.index t 1 = t.val ∧ win1_0.index t 2 = 0)
    ∧ (win1_1.index t 0 = 0 ∧ win1_1.index t 1 = t.val ∧ win1_1.index t 2 = 0)
    ∧ (win1_2.index t 0 = t.val ∧ win1_2.index t 1 = 0 ∧ win1_2.index t 2 = 0) :=
  (by decide +kernel : ∀ t : Fin grid1.N, _)

theorem row_lt1 (t : Fin cfg1.N) (s : Fin 64) : t.val * 64 + s.val < 128 := by
  have := t.isLt; have hN : cfg1.N = 2 := N_1; have := s.isLt; omega

/-- A block's coordinate is block index × block size + the coordinate inside the block: the first input window's
    block at point `t` is rows `64 t … 64 t + 63` of its array. -/
theorem iblk1_0_apply (c : Dev nD) (t : Fin cfg1.N) (b : Fin 32) (s : Fin 64) (d : Fin 512) :
    (iblk1 V c 0 t : Vec Ideal S32x64x512 .f32) (ValueIdx.ix3 b s d)
      = (V c (Pipeline.arrRef spec1 0) : S32x128x512.Idx → Ideal .f32) (ValueIdx.ix3 b ⟨t.val * 64 + s.val, row_lt1 t s⟩ d) := by
  obtain ⟨⟨i0, i1, i2⟩, -, -⟩ := idx_facts1 t
  unfold iblk1
  rw [View.read_apply]
  refine congrArg (V c (Pipeline.arrRef spec1 0)) (funext fun a => Fin.ext ?_)
  match a with
  | ⟨0, _⟩ => show win1_0.index t 0 * 32 + 1 * b.val = b.val; rw [i0]; omega
  | ⟨1, _⟩ => show win1_0.index t 1 * 64 + 1 * s.val = t.val * 64 + s.val; rw [i1]; omega
  | ⟨2, _⟩ => show win1_0.index t 2 * 512 + 1 * d.val = d.val; rw [i2]; omega

theorem iblk1_1_apply (c : Dev nD) (t : Fin cfg1.N) (b : Fin 32) (s : Fin 64) (d : Fin 512) :
    (iblk1 V c 1 t : Vec Ideal S32x64x512 .f32) (ValueIdx.ix3 b s d)
      = (V c (Pipeline.arrRef spec1 1) : S32x128x512.Idx → Ideal .f32) (ValueIdx.ix3 b ⟨t.val * 64 + s.val, row_lt1 t s⟩ d) := by
  obtain ⟨-, ⟨i0, i1, i2⟩, -⟩ := idx_facts1 t
  unfold iblk1
  rw [View.read_apply]
  refine congrArg (V c (Pipeline.arrRef spec1 1)) (funext fun a => Fin.ext ?_)
  match a with
  | ⟨0, _⟩ => show win1_1.index t 0 * 32 + 1 * b.val = b.val; rw [i0]; omega
  | ⟨1, _⟩ => show win1_1.index t 1 * 64 + 1 * s.val = t.val * 64 + s.val; rw [i1]; omega
  | ⟨2, _⟩ => show win1_1.index t 2 * 512 + 1 * d.val = d.val; rw [i2]; omega

/-- The output array after the region: core `j 0`'s entry is the partial sum of that core's one point. -/
def G1 (c : Dev nD) : S2x1x1.Idx → EReal := fun j => pt1 V c (j 0).val

/-- Every point writes back its core's entry. -/
theorem flushed1_eq (c : Dev nD) (t : Fin cfg1.N) (hf : (cfg1.win 2).flush t = true) :
    (dat1 V c).flushed 2 t = ((cfg1.win 2).blk t).view.read (Elt Ideal) (G1 V c) := by
  obtain ⟨-, -, ⟨i0, -, -⟩⟩ := idx_facts1 t
  funext y
  rw [View.read_apply]
  show (dat1 V c).after 2 t ((cfg1.win 2).xinj (grid1.coords t) y) = G1 V c (((cfg1.win 2).blk t).view.emb y)
  rw [after1_2]
  refine (outsAt1_eq V c t _).trans ?_
  unfold G1
  have e : ((((cfg1.win 2).blk t).view.emb y) 0 : ℕ) = t.val := by
    show win1_2.index t 0 * 1 + 1 * (y 0).val = _
    have : (y 0).val < 1 := (y 0).isLt
    rw [i0]; omega
  rw [e, pt1, dif_pos t.isLt]

theorem core_lt1 (a : Fin 2) : a.val < cfg1.N := by
  have := a.isLt; have hN : cfg1.N = 2 := N_1; omega

/-- The point of core `a`. -/
abbrev last1 (a : Fin 2) : Fin cfg1.N := ⟨a.val, core_lt1 a⟩

/-- So the output array ends holding `G1`: entry `j` lies in the block written back by the point of core `j 0`. -/
theorem final1 (c : Dev nD) : (dat1 V c).arrAt 2 cfg1.N = G1 V c :=
  (dat1 V c).arrAt_eq_of_cover 2 (G1 V c) (flushed1_eq V c) fun i =>
    ⟨last1 (i 0), flush1_2 _, by
      obtain ⟨-, -, ⟨i0, i1, i2⟩⟩ := idx_facts1 (last1 (i 0))
      show i ∈ ((View.whole main_v2).slice (win1_2.rect (last1 (i 0)))).set
      rw [View.set_slice_whole, Rect.mem_set_unit]
      intro a
      have h0 : (i 0 : Nat) < 2 := (i 0).isLt
      have h1 : (i 1 : Nat) < 1 := (i 1).isLt
      have h2 : (i 2 : Nat) < 1 := (i 2).isLt
      match a with
      | ⟨0, _⟩ => show win1_2.index (last1 (i 0)) 0 * 1 ≤ (i 0 : Nat) ∧ (i 0 : Nat) < win1_2.index (last1 (i 0)) 0 * 1 + 1
                  rw [i0]; dsimp only; omega
      | ⟨1, _⟩ => show win1_2.index (last1 (i 0)) 1 * 1 ≤ (i 1 : Nat) ∧ (i 1 : Nat) < win1_2.index (last1 (i 0)) 1 * 1 + 1
                  rw [i1]; omega
      | ⟨2, _⟩ => show win1_2.index (last1 (i 0)) 2 * 1 ≤ (i 2 : Nat) ∧ (i 2 : Nat) < win1_2.index (last1 (i 0)) 2 * 1 + 1
                  rw [i2]; omega⟩

theorem pt_lt1 (a : Fin 2) (i : Fin 1) : a.val * 1 + i.val < cfg1.N := by
  have := a.isLt; have := i.isLt; have hN : cfg1.N = 2 := N_1; omega

/-- `G1` as a sum over a core's one point. -/
theorem G1_apply (c : Dev nD) (j : S2x1x1.Idx) :
    G1 V c j = ∑ i : Fin 1, point1 V c ⟨(j 0).val * 1 + i.val, pt_lt1 (j 0) i⟩ := by
  unfold G1
  rw [Fin.sum_univ_one, pt1, dif_pos (core_lt1 (j 0))]
  exact congrArg (point1 V c) (Fin.ext (by show (j 0).val = (j 0).val * 1 + 0; omega))

/-- The region's result: the output array's entry for core `j 0` is the sum of that core's one point's partial sum. -/
theorem arr1_apply (c : Dev nD) (j : S2x1x1.Idx) :
    ((dat1 (F := Ideal) V c).arrAt 2 cfg1.N : S2x1x1.Idx → EReal) j
      = ∑ i : Fin 1, point1 V c ⟨(j 0).val * 1 + i.val, pt_lt1 (j 0) i⟩ :=
  (congrFun (final1 V c) j).trans (G1_apply V c j)

/-- The same without the one-term sum. -/
theorem arr1_apply_point (c : Dev nD) (j : S2x1x1.Idx) :
    ((dat1 (F := Ideal) V c).arrAt 2 cfg1.N : S2x1x1.Idx → EReal) j = point1 V c ⟨(j 0).val, core_lt1 (j 0)⟩ := by
  refine (congrFun (final1 V c) j).trans ?_
  unfold G1
  rw [pt1, dif_pos (core_lt1 (j 0))]

end Cert.KernelIdeal.RegionValue

end
-- ==== Proof.KValue1.lean ====
/-
  Region 1 (the second feature pair, 128 positions): each core runs ONE grid point, a tile of 64 positions, so the two
  cores' entries of the region's output are the two tiles' sums and add up to the specification's total.
-/
import proofs.«139213_j64381559767355_2_alg».proof.Proof.Region1
import proofs.«139213_j64381559767355_2_alg».proof.Proof.Payload

noncomputable section

open scoped BigOperators

namespace Cert.KernelIdeal.KValue

open Idealize.ShloMosaic Idealize.ShloMosaic.TcCoe Idealize.SL.Sem Idealize.ShloMosaic.ValueIdx
open Cert.KernelIdeal Cert.KernelIdeal.Gen Cert.KernelIdeal.RegionValue

variable (V : (c : Dev nD) → (b : Ref sig .tc) → Buf (Elt Ideal) ((c : Thread nD τ).loc b))

/-- A [32, 128, 512] array read by coordinates, its positions written as 2 tiles of 64. -/
def coords1 (A : S32x128x512.Idx → EReal) : Fin 32 → Fin ((2 * 1) * 64) → Fin 512 → EReal :=
  fun b s d => A (ix3 b s d)

/-- The partial sum of grid point `t` is the specification's point value of the two arrays. -/
theorem point1_eq (c : Dev nD) (t : Fin cfg1.N) (t' : Fin (2 * 1)) (ht : t'.val = t.val) :
    point1 V c t = Cert.FM.point (coords1 (V c (Pipeline.arrRef spec1 0))) (coords1 (V c (Pipeline.arrRef spec1 1))) t' := by
  unfold point1
  rw [Cert.KernelIdeal.Payload.pay3_1_apply]
  unfold Cert.FM.point
  refine Finset.sum_congr rfl fun s _ => Finset.sum_congr rfl fun d _ => ?_
  refine congrArg₂ (fun r f => Cert.FM.sqDiffK r f s d) ?_ ?_
  · funext b s d
    rw [iblk1_0_apply]
    unfold Cert.FM.tile coords1
    exact congrArg _ (congrArg (fun k => ix3 b k d) (Fin.ext (by show t.val * 64 + s.val = t'.val * 64 + s.val; rw [ht])))
  · funext b s d
    rw [iblk1_1_apply]
    unfold Cert.FM.tile coords1
    exact congrArg _ (congrArg (fun k => ix3 b k d) (Fin.ext (by show t.val * 64 + s.val = t'.val * 64 + s.val; rw [ht])))

/-- The two cores' entries of region 0's output add up to the total of its two input arrays. -/
theorem cores1_total (c : Dev nD) (arr : S2x1x1.Idx → EReal)
    (harr : ∀ j : S2x1x1.Idx, arr j = ((dat1 (F := Ideal) V c).arrAt 2 cfg1.N : S2x1x1.Idx → EReal) j) :
    ∑ a : Fin 2, arr (ix3 a (0 : Fin 1) (0 : Fin 1))
      = Cert.FM.total (coords1 (V c (Pipeline.arrRef spec1 0))) (coords1 (V c (Pipeline.arrRef spec1 1))) := by
  rw [← Cert.FM.cores_points_total 1]
  refine Finset.sum_congr rfl fun a _ => ?_
  rw [harr, arr1_apply]
  exact Finset.sum_congr rfl fun i _ => point1_eq V c _ _ rfl

end Cert.KernelIdeal.KValue

end
-- ==== Proof.Region2.lean ====
import proofs.«139213_j64381559767355_2_alg».proof.Proof.RegionLib

noncomputable section

open Idealize.ShloMosaic Idealize.ShloMosaic.TcCoe Idealize.SL.Sem
open Idealize.ShloMosaic.Pipeline (Dat)

/-! # Region 2 read as values

The third pallas_call runs 32 grid points, 16 per core. Every point reduces its two input blocks to ONE number (the
point's partial sum); the first point of a core's run stores zero and adds its partial sum, every later point adds its
own to what the buffer held, and the last point of the run writes the buffer back as that core's entry of the `[2,1,1]`
output. So the output entry of core `a` is the sum of the partial sums of points `16 a … 16 a + 15`, and the input block
at point `t` is rows `64 t … 64 t + 63` of the input array. -/

namespace Cert.KernelIdeal.RegionValue
open Cert.KernelIdeal Cert.KernelIdeal.Gen

section Pieces
variable {F : FTy → Type} [FloatOps F]

/-- A later point of a core's run leaves, in the output's buffer holding `xo`, `xo` plus the point's partial sum. -/
theorem out2_B (c : Dev nD) (i : grid2.Coords) (a2 : Memref sig .tc .vmem S32x64x512 .f32) (h2 : a2.IsWhole)
    (a3 : Memref sig .tc .vmem S32x64x512 .f32) (h3 : a3.IsWhole) (a4 : Memref sig .tc .vmem S1x1x1 .f32) (h4 : a4.IsWhole)
    (hc : ¬cond2_0 i) (x0 x1 : Vec F S32x64x512 .f32) (xo : Vec F S1x1x1 .f32) :
    out2_B_2 c i a2 h2 a3 h3 a4 h4 hc x0 x1 xo = k2_pay1 (k2_pay3 x0 x1) xo := by
  unfold out2_B_2
  rw [View.read_writes_eq_canon _ _ _ (cover2_B_2 c i a2 h2 a3 h3 a4 h4 hc x0 x1 xo)]
  unfold kernelRun2_B
  dsimp only
  sl_unfold_words
  rw [View.canon_unit_zero hz3]
  simp only [View.readAt_eq_ld, h2.read_unread, h3.read_unread, h4.read_unread, View.ld_unit_zero (S := S32x64x512) hz3, View.ld_unit_zero (S := S1x1x1) hz3]

/-- The first point of a core's run stores zero, reads it back, and leaves zero plus the point's partial sum. -/
theorem out2_A (c : Dev nD) (i : grid2.Coords) (a2 : Memref sig .tc .vmem S32x64x512 .f32) (h2 : a2.IsWhole)
    (a3 : Memref sig .tc .vmem S32x64x512 .f32) (h3 : a3.IsWhole) (a4 : Memref sig .tc .vmem S1x1x1 .f32) (h4 : a4.IsWhole)
    (hc : cond2_0 i) (x0 x1 : Vec F S32x64x512 .f32) :
    out2_A_2 c i a2 h2 a3 h3 a4 h4 hc x0 x1 = k2_pay1 (k2_pay3 x0 x1) k2_pay2 := by
  unfold out2_A_2
  rw [View.read_writes_eq_canon _ _ _ (cover2_A_2 c i a2 h2 a3 h3 a4 h4 hc x0 x1)]
  unfold kernelRun2_A
  dsimp only
  sl_unfold_words
  rw [View.canon_cons_unit_zero (S := S1x1x1) hz3, View.readCov_unit_zero (S := S1x1x1) _ hz3]
  simp only [View.readAt_eq_ld, h2.read_unread, h3.read_unread, View.ld_unit_zero (S := S32x64x512) hz3]

end Pieces

theorem k2_pay1_apply (v36 : FVec Ideal S1x1 .f32) (v37 : Vec Ideal S1x1x1 .f32) (j : S1x1x1.Idx) :
    k2_pay1 (F := Ideal) v36 v37 j = v37 j + v36 (ValueIdx.ix2 0 0) := by
  unfold k2_pay1
  exact acc_apply _ _ v36 v37 j

theorem k2_pay2_apply (j : S1x1x1.Idx) : k2_pay2 (F := Ideal) j = 0 := by
  unfold k2_pay2
  exact zero_apply j

variable (V : (c : Dev nD) → (b : Ref sig .tc) → Buf (Elt Ideal) ((c : Thread nD τ).loc b))

/-- One grid point's partial sum: the body's reduction of the two input blocks at point `t`, at its one index. -/
def point2 (c : Dev nD) (t : Fin cfg2.N) : EReal :=
  k2_pay3 (F := Ideal) (iblk2 V c 0 t) (iblk2 V c 1 t) (ValueIdx.ix2 0 0)

/-- The same over all naturals (zero past the grid), so that sums over ranges of points need no bound proofs. -/
def pt2 (c : Dev nD) (n : ℕ) : EReal := if h : n < cfg2.N then point2 V c ⟨n, h⟩ else 0

/-- What the output's buffer holds after point `n`: the sum of the partial sums of the points of `n`'s run of 16
    up to `n` — by induction on the point. -/
theorem outsAt2_eq (c : Dev nD) : ∀ (n : ℕ) (h : n < cfg2.N) (y : S1x1x1.Idx),
    (outsAt2 V c n h y : EReal) = ∑ s ∈ Finset.range (n % 16 + 1), pt2 V c (16 * (n / 16) + s)
  | 0, h, y => by
    rw [outsAt2_A V c ⟨0, h⟩ rfl, out2_A, k2_pay1_apply, k2_pay2_apply, zero_add]
    show _ = ∑ s ∈ Finset.range 1, pt2 V c (16 * (0 / 16) + s)
    rw [Finset.sum_range_one, pt2, dif_pos h]
    rfl
  | n + 1, h, y => by
    by_cases h0 : (n + 1) % 16 = 0
    · rw [outsAt2_A V c ⟨n + 1, h⟩ h0, out2_A, k2_pay1_apply, k2_pay2_apply, zero_add, h0]
      rw [Finset.sum_range_one, show 16 * ((n + 1) / 16) + 0 = n + 1 by omega, pt2, dif_pos h]
      rfl
    · rw [outsAt2_B V c ⟨n + 1, h⟩ h0, out2_B, k2_pay1_apply]
      show (outsAt2 V c n _ y : EReal) + _ = _
      rw [outsAt2_eq c n (Nat.lt_of_succ_lt h) y, show (n + 1) % 16 = n % 16 + 1 by omega,
        show (n + 1) / 16 = n / 16 by omega, Finset.sum_range_succ _ (n % 16 + 1)]
      refine congrArg (_ + ·) ?_
      rw [show 16 * (n / 16) + (n % 16 + 1) = n + 1 by omega, pt2, dif_pos h]
      rfl

/-- The printed index maps, decided once over the grid: the input windows' block index along the long axis is
    the point's number, the output window's along the core axis is the point's run. -/
theorem idx_facts2 : ∀ t : Fin cfg2.N,
    (win2_0.index t 0 = 0 ∧ win2_0.index t 1 = t.val ∧ win2_0.index t 2 = 0)
    ∧ (win2_1.index t 0 = 0 ∧ win2_1.index t 1 = t.val ∧ win2_1.index t 2 = 0)
    ∧ (win2_2.index t 0 = t.val / 16 ∧ win2_2.index t 1 = 0 ∧ win2_2.index t 2 = 0) :=
  (by decide +kernel : ∀ t : Fin grid2.N, _)

theorem row_lt2 (t : Fin cfg2.N) (s : Fin 64) : t.val * 64 + s.val < 2048 := by
  have := t.isLt; have hN : cfg2.N = 32 := N_2; have := s.isLt; omega

/-- A block's coordinate is block index × block size + the coordinate inside the block: the first input window's
    block at point `t` is rows `64 t … 64 t + 63` of its array. -/
theorem iblk2_0_apply (c : Dev nD) (t : Fin cfg2.N) (b : Fin 32) (s : Fin 64) (d : Fin 512) :
    (iblk2 V c 0 t : Vec Ideal S32x64x512 .f32) (ValueIdx.ix3 b s d)
      = (V c (Pipeline.arrRef spec2 0) : S32x2048x512.Idx → Ideal .f32) (ValueIdx.ix3 b ⟨t.val * 64 + s.val, row_lt2 t s⟩ d) := by
  obtain ⟨⟨i0, i1, i2⟩, -, -⟩ := idx_facts2 t
  unfold iblk2
  rw [View.read_apply]
  refine congrArg (V c (Pipeline.arrRef spec2 0)) (funext fun a => Fin.ext ?_)
  match a with
  | ⟨0, _⟩ => show win2_0.index t 0 * 32 + 1 * b.val = b.val; rw [i0]; omega
  | ⟨1, _⟩ => show win2_0.index t 1 * 64 + 1 * s.val = t.val * 64 + s.val; rw [i1]; omega
  | ⟨2, _⟩ => show win2_0.index t 2 * 512 + 1 * d.val = d.val; rw [i2]; omega

theorem iblk2_1_apply (c : Dev nD) (t : Fin cfg2.N) (b : Fin 32) (s : Fin 64) (d : Fin 512) :
    (iblk2 V c 1 t : Vec Ideal S32x64x512 .f32) (ValueIdx.ix3 b s d)
      = (V c (Pipeline.arrRef spec2 1) : S32x2048x512.Idx → Ideal .f32) (ValueIdx.ix3 b ⟨t.val * 64 + s.val, row_lt2 t s⟩ d) := by
  obtain ⟨-, ⟨i0, i1, i2⟩, -⟩ := idx_facts2 t
  unfold iblk2
  rw [View.read_apply]
  refine congrArg (V c (Pipeline.arrRef spec2 1)) (funext fun a => Fin.ext ?_)
  match a with
  | ⟨0, _⟩ => show win2_1.index t 0 * 32 + 1 * b.val = b.val; rw [i0]; omega
  | ⟨1, _⟩ => show win2_1.index t 1 * 64 + 1 * s.val = t.val * 64 + s.val; rw [i1]; omega
  | ⟨2, _⟩ => show win2_1.index t 2 * 512 + 1 * d.val = d.val; rw [i2]; omega

/-- The output array after the region: core `j 0`'s entry is the sum of the partial sums of that core's 16 points. -/
def G2 (c : Dev nD) : S2x1x1.Idx → EReal := fun j => ∑ s ∈ Finset.range 16, pt2 V c (16 * (j 0).val + s)

/-- The last point of each core's run writes back that core's entry. -/
theorem flushed2_eq (c : Dev nD) (t : Fin cfg2.N) (hf : (cfg2.win 2).flush t = true) :
    (dat2 V c).flushed 2 t = ((cfg2.win 2).blk t).view.read (Elt Ideal) (G2 V c) := by
  have h15 : t.val % 16 = 15 := (flush2_2 t).mp hf
  obtain ⟨-, -, ⟨i0, -, -⟩⟩ := idx_facts2 t
  funext y
  rw [View.read_apply]
  show (dat2 V c).after 2 t ((cfg2.win 2).xinj (grid2.coords t) y) = G2 V c (((cfg2.win 2).blk t).view.emb y)
  rw [after2_2]
  refine (outsAt2_eq V c t.val t.isLt _).trans ?_
  unfold G2
  rw [h15]
  have e : ((((cfg2.win 2).blk t).view.emb y) 0 : ℕ) = t.val / 16 := by
    show win2_2.index t 0 * 1 + 1 * (y 0).val = _
    have : (y 0).val < 1 := (y 0).isLt
    rw [i0]; omega
  rw [e]

theorem last_lt2 (a : Fin 2) : 16 * a.val + 15 < cfg2.N := by
  have := a.isLt; have hN : cfg2.N = 32 := N_2; omega

/-- The last point of core `a`'s run. -/
abbrev last2 (a : Fin 2) : Fin cfg2.N := ⟨16 * a.val + 15, last_lt2 a⟩

/-- So the output array ends holding `G2`: entry `j` lies in the block written back by the last point of core `j 0`. -/
theorem final2 (c : Dev nD) : (dat2 V c).arrAt 2 cfg2.N = G2 V c :=
  (dat2 V c).arrAt_eq_of_cover 2 (G2 V c) (flushed2_eq V c) fun i =>
    ⟨last2 (i 0), (flush2_2 _).mpr (by dsimp only; omega), by
      obtain ⟨-, -, ⟨i0, i1, i2⟩⟩ := idx_facts2 (last2 (i 0))
      show i ∈ ((View.whole main_v4).slice (win2_2.rect (last2 (i 0)))).set
      rw [View.set_slice_whole, Rect.mem_set_unit]
      intro a
      have h0 : (i 0 : Nat) < 2 := (i 0).isLt
      have h1 : (i 1 : Nat) < 1 := (i 1).isLt
      have h2 : (i 2 : Nat) < 1 := (i 2).isLt
      match a with
      | ⟨0, _⟩ => show win2_2.index (last2 (i 0)) 0 * 1 ≤ (i 0 : Nat) ∧ (i 0 : Nat) < win2_2.index (last2 (i 0)) 0 * 1 + 1
                  rw [i0]; dsimp only; omega
      | ⟨1, _⟩ => show win2_2.index (last2 (i 0)) 1 * 1 ≤ (i 1 : Nat) ∧ (i 1 : Nat) < win2_2.index (last2 (i 0)) 1 * 1 + 1
                  rw [i1]; omega
      | ⟨2, _⟩ => show win2_2.index (last2 (i 0)) 2 * 1 ≤ (i 2 : Nat) ∧ (i 2 : Nat) < win2_2.index (last2 (i 0)) 2 * 1 + 1
                  rw [i2]; omega⟩

theorem pt_lt2 (a : Fin 2) (i : Fin 16) : a.val * 16 + i.val < cfg2.N := by
  have := a.isLt; have := i.isLt; have hN : cfg2.N = 32 := N_2; omega

/-- `G2` as a sum over a core's 16 points. -/
theorem G2_apply (c : Dev nD) (j : S2x1x1.Idx) :
    G2 V c j = ∑ i : Fin 16, point2 V c ⟨(j 0).val * 16 + i.val, pt_lt2 (j 0) i⟩ := by
  unfold G2
  rw [← Fin.sum_univ_eq_sum_range (fun s => pt2 V c (16 * (j 0).val + s)) 16]
  refine Finset.sum_congr rfl fun i _ => ?_
  have e : 16 * (j 0).val + i.val = (j 0).val * 16 + i.val := by omega
  rw [e, pt2, dif_pos (pt_lt2 (j 0) i)]

/-- The region's result: the output array's entry for core `j 0` is the sum of that core's 16 points' partial sums. -/
theorem arr2_apply (c : Dev nD) (j : S2x1x1.Idx) :
    ((dat2 (F := Ideal) V c).arrAt 2 cfg2.N : S2x1x1.Idx → EReal) j
      = ∑ i : Fin 16, point2 V c ⟨(j 0).val * 16 + i.val, pt_lt2 (j 0) i⟩ :=
  (congrFun (final2 V c) j).trans (G2_apply V c j)

end Cert.KernelIdeal.RegionValue

end
-- ==== Proof.KValue2.lean ====
/-
  Region 2 (the third feature pair, 2048 positions): the two cores' entries of the region's output add up to the
  specification's total of the region's two input arrays — 16 grid points per core, each a tile of 64 positions, as
  in region 0.
-/
import proofs.«139213_j64381559767355_2_alg».proof.Proof.Region2
import proofs.«139213_j64381559767355_2_alg».proof.Proof.Payload

noncomputable section

open scoped BigOperators

namespace Cert.KernelIdeal.KValue

open Idealize.ShloMosaic Idealize.ShloMosaic.TcCoe Idealize.SL.Sem Idealize.ShloMosaic.ValueIdx
open Cert.KernelIdeal Cert.KernelIdeal.Gen Cert.KernelIdeal.RegionValue

variable (V : (c : Dev nD) → (b : Ref sig .tc) → Buf (Elt Ideal) ((c : Thread nD τ).loc b))

/-- A [32, 2048, 512] array read by coordinates, its positions written as 32 tiles of 64 (region 2's arrays). -/
def coords2 (A : S32x2048x512.Idx → EReal) : Fin 32 → Fin ((2 * 16) * 64) → Fin 512 → EReal :=
  fun b s d => A (ix3 b s d)

/-- The partial sum of grid point `t` is the specification's point value of the two arrays. -/
theorem point2_eq (c : Dev nD) (t : Fin cfg2.N) (t' : Fin (2 * 16)) (ht : t'.val = t.val) :
    point2 V c t = Cert.FM.point (coords2 (V c (Pipeline.arrRef spec2 0))) (coords2 (V c (Pipeline.arrRef spec2 1))) t' := by
  unfold point2
  rw [Cert.KernelIdeal.Payload.pay3_2_apply]
  unfold Cert.FM.point
  refine Finset.sum_congr rfl fun s _ => Finset.sum_congr rfl fun d _ => ?_
  refine congrArg₂ (fun r f => Cert.FM.sqDiffK r f s d) ?_ ?_
  · funext b s d
    rw [iblk2_0_apply]
    unfold Cert.FM.tile coords2
    exact congrArg _ (congrArg (fun k => ix3 b k d) (Fin.ext (by show t.val * 64 + s.val = t'.val * 64 + s.val; rw [ht])))
  · funext b s d
    rw [iblk2_1_apply]
    unfold Cert.FM.tile coords2
    exact congrArg _ (congrArg (fun k => ix3 b k d) (Fin.ext (by show t.val * 64 + s.val = t'.val * 64 + s.val; rw [ht])))

/-- The two cores' entries of region 0's output add up to the total of its two input arrays. -/
theorem cores2_total (c : Dev nD) (arr : S2x1x1.Idx → EReal)
    (harr : ∀ j : S2x1x1.Idx, arr j = ((dat2 (F := Ideal) V c).arrAt 2 cfg2.N : S2x1x1.Idx → EReal) j) :
    ∑ a : Fin 2, arr (ix3 a (0 : Fin 1) (0 : Fin 1))
      = Cert.FM.total (coords2 (V c (Pipeline.arrRef spec2 0))) (coords2 (V c (Pipeline.arrRef spec2 1))) := by
  rw [← Cert.FM.cores_points_total 16]
  refine Finset.sum_congr rfl fun a _ => ?_
  rw [harr, arr2_apply]
  exact Finset.sum_congr rfl fun i _ => point2_eq V c _ _ rfl

end Cert.KernelIdeal.KValue

end
-- ==== Proof.KTailDefs.lean ====
import proofs.«139213_j64381559767355_2_alg».proof.Proof.Gen.KernelIdeal

/-! # The host operations around the three regions, as plain functions

Each definition is the composed term of a run of the program's host operations, spelt operation by operation as the
program prints them; nothing is simplified. `out` is the program's result as a function of the three regions'
`[2, 1, 1]` outputs' sums and of the six argument arrays the host operations read. -/

noncomputable section

namespace Cert.KernelIdeal.KRun

open Cert.KernelIdeal Idealize.ShloMosaic Idealize.ShloMosaic.TcCoe Idealize.SL.Sem
open Cert.KernelIdeal.Gen

variable {F : FTy → Type} [FloatOps F]

/-- A `[32, 512]` array scaled along its last axis: `x / max (sqrt (Σ_d x²)) ε`, `ε` the constant `0x2B8CBCCC`. -/
def nrmG (x : (⟨S32x512, .f32⟩ : BufTy).Contents (Elt F)) :
    (⟨S32x512, .f32⟩ : BufTy).Contents (Elt F) :=
  (Host.divf x (broadcastInDim S32x512 ![0, 1] bcast_S32x1_S32x512_0_1 (maximumf (Host.sqrt (broadcastInDim S32x1 ![0] bcast_S32_S32x1_0 (Host.reduceAdd (mulf x x) (constant (F := F) S_ .f32 0x00000000#32) reducesTo_S32x512_S32_d1 h_S_))) (broadcastInDim S32x1 ![] bcast_S_S32x1 (constant (F := F) S_ .f32 0x2B8CBCCC#32)))))

/-- The mean over the batch axis of a `[32, 512]` array: `(Σ_b y) / 32`. -/
def meanG (y : (⟨S32x512, .f32⟩ : BufTy).Contents (Elt F)) :
    (⟨S512, .f32⟩ : BufTy).Contents (Elt F) :=
  (Host.divf (Host.reduceAdd y (constant (F := F) S_ .f32 0x00000000#32) reducesTo_S32x512_S512_d0 h_S_) (broadcastInDim S512 ![] bcast_S_S512 (constant (F := F) S_ .f32 0x42000000#32)))

/-- The mean over `[512]` of the squared difference: `(Σ (a − b)²) / 512`. -/
def msdG (a : (⟨S512, .f32⟩ : BufTy).Contents (Elt F)) (b : (⟨S512, .f32⟩ : BufTy).Contents (Elt F)) :
    (⟨S_, .f32⟩ : BufTy).Contents (Elt F) :=
  (Host.divf (Host.reduceAdd (mulf (subf a b) (subf a b)) (constant (F := F) S_ .f32 0x00000000#32) reducesTo_S512_S_d0 h_S_) (constant (F := F) S_ .f32 0x44000000#32))

/-- The weighted sum of the four feature terms, as the operations spell it: `(((0.4·mL + 0.4·mP) + 0.2·mG) + 0.1·mI) / 4`. -/
def combine (mL : (⟨S_, .f32⟩ : BufTy).Contents (Elt F)) (mP : (⟨S_, .f32⟩ : BufTy).Contents (Elt F)) (mG : (⟨S_, .f32⟩ : BufTy).Contents (Elt F)) (mI : (⟨S_, .f32⟩ : BufTy).Contents (Elt F)) :
    (⟨S_, .f32⟩ : BufTy).Contents (Elt F) :=
  (Host.divf (addf (addf (addf (mulf (constant (F := F) S_ .f32 0x3ECCCCCD#32) mL) (mulf (constant (F := F) S_ .f32 0x3ECCCCCD#32) mP)) (mulf (constant (F := F) S_ .f32 0x3E4CCCCD#32) mG)) (mulf (constant (F := F) S_ .f32 0x3DCCCCCD#32) mI)) (constant (F := F) S_ .f32 0x40800000#32))

/-- The token term's first summand: the mean absolute step of the indicator `256 ≤ tok < 768` along the sequence. -/
def mus1 (tok : (⟨S32x2048, .i32⟩ : BufTy).Contents (Elt F)) :
    (⟨S_, .f32⟩ : BufTy).Contents (Elt F) :=
  (Host.divf (Host.reduceAdd (Host.absf (subf (extractStridedSlice S32x2047 ![0, 1] (uitofp (F := F) .f32 (andi (cmpi .sge tok (broadcastInDim S32x2048 ![] bcast_S_S32x2048 (constantI S_ 32 256#32))) (cmpi .slt tok (broadcastInDim S32x2048 ![] bcast_S_S32x2048 (constantI S_ 32 768#32))))) slices_S32x2048_S32x2047_0_1) (extractStridedSlice S32x2047 ![0, 0] (uitofp (F := F) .f32 (andi (cmpi .sge tok (broadcastInDim S32x2048 ![] bcast_S_S32x2048 (constantI S_ 32 256#32))) (cmpi .slt tok (broadcastInDim S32x2048 ![] bcast_S_S32x2048 (constantI S_ 32 768#32))))) slices_S32x2048_S32x2047_0_0))) (constant (F := F) S_ .f32 0x00000000#32) reducesTo_S32x2047_S_d0_1 h_S_) (constant (F := F) S_ .f32 0x477FE000#32))

/-- The tokens below 128, the others replaced by 0. -/
def tokm (tok : (⟨S32x2048, .i32⟩ : BufTy).Contents (Elt F)) :
    (⟨S32x2048, .i32⟩ : BufTy).Contents (Elt F) :=
  (muli tok (extui 32 (cmpi .slt tok (broadcastInDim S32x2048 ![] bcast_S_S32x2048 (constantI S_ 32 128#32))) natLt_1_32))

/-- The floored remainder modulo 12 (the sign of the divisor), elementwise. -/
def rem12 (t : (⟨S32x2048, .i32⟩ : BufTy).Contents (Elt F)) :
    (⟨S32x2048, .i32⟩ : BufTy).Contents (Elt F) :=
  (select (andi (cmpi .ne (cmpi .slt (Host.remsi t (broadcastInDim S32x2048 ![] bcast_S_S32x2048 (select (cmpi .eq (constantI S_ 32 12#32) (constantI S_ 32 0#32)) (constantI S_ 32 1#32) (constantI S_ 32 12#32)))) (broadcastInDim S32x2048 ![] bcast_S_S32x2048 (constantI S_ 32 0#32))) (broadcastInDim S32x2048 ![] bcast_S_S32x2048 (cmpi .slt (select (cmpi .eq (constantI S_ 32 12#32) (constantI S_ 32 0#32)) (constantI S_ 32 1#32) (constantI S_ 32 12#32)) (constantI S_ 32 0#32)))) (cmpi .ne (Host.remsi t (broadcastInDim S32x2048 ![] bcast_S_S32x2048 (select (cmpi .eq (constantI S_ 32 12#32) (constantI S_ 32 0#32)) (constantI S_ 32 1#32) (constantI S_ 32 12#32)))) (broadcastInDim S32x2048 ![] bcast_S_S32x2048 (constantI S_ 32 0#32)))) (addi (Host.remsi t (broadcastInDim S32x2048 ![] bcast_S_S32x2048 (select (cmpi .eq (constantI S_ 32 12#32) (constantI S_ 32 0#32)) (constantI S_ 32 1#32) (constantI S_ 32 12#32)))) (broadcastInDim S32x2048 ![] bcast_S_S32x2048 (select (cmpi .eq (constantI S_ 32 12#32) (constantI S_ 32 0#32)) (constantI S_ 32 1#32) (constantI S_ 32 12#32)))) (Host.remsi t (broadcastInDim S32x2048 ![] bcast_S_S32x2048 (select (cmpi .eq (constantI S_ 32 12#32) (constantI S_ 32 0#32)) (constantI S_ 32 1#32) (constantI S_ 32 12#32)))))

/-- The token term's second summand: how often consecutive pitch classes differ by 6 or 11, averaged. -/
def mus2 (pc : (⟨S32x2048, .i32⟩ : BufTy).Contents (Elt F)) :
    (⟨S_, .f32⟩ : BufTy).Contents (Elt F) :=
  (Host.divf (Host.reduceAdd (Host.divf (Host.reduceAdd (uitofp (F := F) .f32 (ori (cmpi .eq (absi (subi (extractStridedSlice S32x2047 ![0, 0] pc slices_S32x2048_S32x2047_0_0) (extractStridedSlice S32x2047 ![0, 1] pc slices_S32x2048_S32x2047_0_1))) (broadcastInDim S32x2047 ![] bcast_S_S32x2047 (constantI S_ 32 6#32))) (cmpi .eq (absi (subi (extractStridedSlice S32x2047 ![0, 0] pc slices_S32x2048_S32x2047_0_0) (extractStridedSlice S32x2047 ![0, 1] pc slices_S32x2048_S32x2047_0_1))) (broadcastInDim S32x2047 ![] bcast_S_S32x2047 (constantI S_ 32 11#32))))) (constant (F := F) S_ .f32 0x00000000#32) reducesTo_S32x2047_S2047_d0 h_S_) (broadcastInDim S2047 ![] bcast_S_S2047 (constant (F := F) S_ .f32 0x42000000#32))) (constant (F := F) S_ .f32 0x00000000#32) reducesTo_S2047_S_d0 h_S_) (constant (F := F) S_ .f32 0x45000000#32))

/-- The token term's third summand: how often consecutive masked tokens differ by more than 12. -/
def mus3 (t : (⟨S32x2048, .i32⟩ : BufTy).Contents (Elt F)) :
    (⟨S_, .f32⟩ : BufTy).Contents (Elt F) :=
  (Host.divf (Host.reduceAdd (uitofp (F := F) .f32 (cmpf .ogt (Host.absf (subf (extractStridedSlice S32x2047 ![0, 1] (sitofp (F := F) .f32 t) slices_S32x2048_S32x2047_0_1) (extractStridedSlice S32x2047 ![0, 0] (sitofp (F := F) .f32 t) slices_S32x2048_S32x2047_0_0))) (broadcastInDim S32x2047 ![] bcast_S_S32x2047 (constant (F := F) S_ .f32 0x41400000#32)))) (constant (F := F) S_ .f32 0x00000000#32) reducesTo_S32x2047_S_d0_1 h_S_) (constant (F := F) S_ .f32 0x477FE000#32))

/-- The token term: the three summands added in the program's order. -/
def musical (tok : (⟨S32x2048, .i32⟩ : BufTy).Contents (Elt F)) :
    (⟨S_, .f32⟩ : BufTy).Contents (Elt F) :=
  (addf (addf (mus1 tok) (mus2 (rem12 (tokm tok)))) (mus3 (tokm tok)))

/-- Softplus at shape `[32, 2048]`: `max x 0 + log1p (exp (−|x|))`, a NaN passed through. -/
def spL (x : (⟨S32x2048, .f32⟩ : BufTy).Contents (Elt F)) :
    (⟨S32x2048, .f32⟩ : BufTy).Contents (Elt F) :=
  (select (cmpf .une (subf x (broadcastInDim S32x2048 ![] bcast_S_S32x2048 (constant (F := F) S_ .f32 0x00000000#32))) (subf x (broadcastInDim S32x2048 ![] bcast_S_S32x2048 (constant (F := F) S_ .f32 0x00000000#32)))) (addf x (broadcastInDim S32x2048 ![] bcast_S_S32x2048 (constant (F := F) S_ .f32 0x00000000#32))) (addf (maximumf x (broadcastInDim S32x2048 ![] bcast_S_S32x2048 (constant (F := F) S_ .f32 0x00000000#32))) (Host.log1p (Host.exp (Host.negf (Host.absf (subf x (broadcastInDim S32x2048 ![] bcast_S_S32x2048 (constant (F := F) S_ .f32 0x00000000#32)))))))))

/-- Softplus at shape `[32, 128]`. -/
def spP (x : (⟨S32x128, .f32⟩ : BufTy).Contents (Elt F)) :
    (⟨S32x128, .f32⟩ : BufTy).Contents (Elt F) :=
  (select (cmpf .une (subf x (broadcastInDim S32x128 ![] bcast_S_S32x128 (constant (F := F) S_ .f32 0x00000000#32))) (subf x (broadcastInDim S32x128 ![] bcast_S_S32x128 (constant (F := F) S_ .f32 0x00000000#32)))) (addf x (broadcastInDim S32x128 ![] bcast_S_S32x128 (constant (F := F) S_ .f32 0x00000000#32))) (addf (maximumf x (broadcastInDim S32x128 ![] bcast_S_S32x128 (constant (F := F) S_ .f32 0x00000000#32))) (Host.log1p (Host.exp (Host.negf (Host.absf (subf x (broadcastInDim S32x128 ![] bcast_S_S32x128 (constant (F := F) S_ .f32 0x00000000#32)))))))))

/-- Softplus at shape `[32, 1]`. -/
def spG (x : (⟨S32x1, .f32⟩ : BufTy).Contents (Elt F)) :
    (⟨S32x1, .f32⟩ : BufTy).Contents (Elt F) :=
  (select (cmpf .une (subf x (broadcastInDim S32x1 ![] bcast_S_S32x1 (constant (F := F) S_ .f32 0x00000000#32))) (subf x (broadcastInDim S32x1 ![] bcast_S_S32x1 (constant (F := F) S_ .f32 0x00000000#32)))) (addf x (broadcastInDim S32x1 ![] bcast_S_S32x1 (constant (F := F) S_ .f32 0x00000000#32))) (addf (maximumf x (broadcastInDim S32x1 ![] bcast_S_S32x1 (constant (F := F) S_ .f32 0x00000000#32))) (Host.log1p (Host.exp (Host.negf (Host.absf (subf x (broadcastInDim S32x1 ![] bcast_S_S32x1 (constant (F := F) S_ .f32 0x00000000#32)))))))))

/-- The softplus term: `0.4·mean softplus(−l) + 0.4·mean softplus(−p) + 0.2·mean softplus(−g)`, added in the program's order. -/
def adv (l : (⟨S32x2048, .f32⟩ : BufTy).Contents (Elt F)) (p : (⟨S32x128, .f32⟩ : BufTy).Contents (Elt F)) (g : (⟨S32x1, .f32⟩ : BufTy).Contents (Elt F)) :
    (⟨S_, .f32⟩ : BufTy).Contents (Elt F) :=
  (addf (addf (mulf (constant (F := F) S_ .f32 0x3ECCCCCD#32) (Host.divf (Host.reduceAdd (spL (Host.negf l)) (constant (F := F) S_ .f32 0x00000000#32) reducesTo_S32x2048_S_d0_1 h_S_) (constant (F := F) S_ .f32 0x47800000#32))) (mulf (constant (F := F) S_ .f32 0x3ECCCCCD#32) (Host.divf (Host.reduceAdd (spP (Host.negf p)) (constant (F := F) S_ .f32 0x00000000#32) reducesTo_S32x128_S_d0_1 h_S_) (constant (F := F) S_ .f32 0x45800000#32)))) (mulf (constant (F := F) S_ .f32 0x3E4CCCCD#32) (Host.divf (Host.reduceAdd (spG (Host.negf g)) (constant (F := F) S_ .f32 0x00000000#32) reducesTo_S32x1_S_d0_1 h_S_) (constant (F := F) S_ .f32 0x42000000#32))))

/-- The scalar of a `[32, 512]` feature pair: the mean over `d` of `(mean_b f̂ − mean_b r̂)²`, each array scaled along its
    last axis first. `r` is the real features, `f` the fake ones. -/
def featG (r f : (⟨S32x512, .f32⟩ : BufTy).Contents (Elt F)) : (⟨S_, .f32⟩ : BufTy).Contents (Elt F) :=
  msdG (meanG (nrmG f)) (meanG (nrmG r))

/-- A sum of squared differences divided by `2048·512`, the element count of a `[2048, 512]` mean. -/
def mseL (s : (⟨S_, .f32⟩ : BufTy).Contents (Elt F)) :
    (⟨S_, .f32⟩ : BufTy).Contents (Elt F) :=
  (Host.divf s (constant (F := F) S_ .f32 0x49800000#32))

/-- A sum of squared differences divided by `128·512`. -/
def mseP (s : (⟨S_, .f32⟩ : BufTy).Contents (Elt F)) :
    (⟨S_, .f32⟩ : BufTy).Contents (Elt F) :=
  (Host.divf s (constant (F := F) S_ .f32 0x47800000#32))

/-- A sum of squared differences divided by `2048·512` (the last region's). -/
def mseI (s : (⟨S_, .f32⟩ : BufTy).Contents (Elt F)) :
    (⟨S_, .f32⟩ : BufTy).Contents (Elt F) :=
  (Host.divf s (constant (F := F) S_ .f32 0x49800000#32))

/-- The two cores' partial sums added: a region's `[2, 1, 1]` output reduced over all its axes, from zero. -/
def coreSum (arr : (⟨S2x1x1, .f32⟩ : BufTy).Contents (Elt F)) :
    (⟨S_, .f32⟩ : BufTy).Contents (Elt F) :=
  (Host.reduceAdd arr (constant (F := F) S_ .f32 0x00000000#32) reducesTo_S2x1x1_S_d0_1_2 h_S_)

/-- The result: the feature terms' weighted sum — the three regions' sums each divided by its element count, and the
    global pair's scalar —, plus the token term, plus the softplus term, in the program's order. -/
def out (sL sP sI : (⟨S_, .f32⟩ : BufTy).Contents (Elt F)) (a2 a6 : (⟨S32x512, .f32⟩ : BufTy).Contents (Elt F))
    (a8 : (⟨S32x2048, .f32⟩ : BufTy).Contents (Elt F)) (a9 : (⟨S32x128, .f32⟩ : BufTy).Contents (Elt F)) (a10 : (⟨S32x1, .f32⟩ : BufTy).Contents (Elt F))
    (a11 : (⟨S32x2048, .i32⟩ : BufTy).Contents (Elt F)) :
    (⟨S_, .f32⟩ : BufTy).Contents (Elt F) :=
  addf (addf (combine (mseL sL) (mseP sP) (featG a2 a6) (mseI sI)) (musical a11)) (adv a8 a9 a10)

end Cert.KernelIdeal.KRun

end
-- ==== Proof.KHost.lean ====
/-
  A region's [2, 1, 1] output summed by the host and divided by the element count, read at the ideal values.

  The host's sum over all three axes starts from the constant 0 and adds every entry; the array's indices are
  (a, 0, 0) for the two cores a, so the sum is the two cores' entries added, and `0 + x = x`.
-/
import proofs.«139213_j64381559767355_2_alg».proof.Proof.KTailDefs
import Idealize.ShloMosaic.Lib.IdealHost
import Idealize.ShloMosaic.Lib.ValueIdx
import Idealize.ShloMosaic.PureOps.Ideal.Laws

noncomputable section

open scoped BigOperators

namespace Cert.KernelIdeal.KValue

open Idealize.ShloMosaic Idealize.ShloMosaic.ValueIdx Cert.KernelIdeal

/-- The indices of a [2, 1, 1] array are the two cores. -/
def coreEquiv : S2x1x1.Idx ≃ Fin 2 where
  toFun j := j 0
  invFun a := ix3 a (0 : Fin 1) (0 : Fin 1)
  left_inv j := by
    funext ax
    match ax with
    | ⟨0, _⟩ => rfl
    | ⟨1, _⟩ => exact Fin.ext (by have h : (j 1).val < 1 := (j 1).isLt; show (0 : ℕ) = (j 1).val; omega)
    | ⟨2, _⟩ => exact Fin.ext (by have h : (j 2).val < 1 := (j 2).isLt; show (0 : ℕ) = (j 2).val; omega)
  right_inv _ := rfl

/-- A sum over a [2, 1, 1] array's indices is the sum over the two cores. -/
theorem sum_cores_idx {M : Type*} [AddCommMonoid M] (g : S2x1x1.Idx → M) :
    ∑ j : S2x1x1.Idx, g j = ∑ a : Fin 2, g (ix3 a (0 : Fin 1) (0 : Fin 1)) :=
  (Equiv.sum_comp coreEquiv.symm g).symm

/-- The host's sum of a region's output is the two cores' entries added. -/
theorem coreSum_apply (arr : FVec Ideal S2x1x1 .f32) (j : S_.Idx) :
    KRun.coreSum (F := Ideal) arr j = ∑ a : Fin 2, arr (ix3 a (0 : Fin 1) (0 : Fin 1)) := by
  unfold KRun.coreSum
  rw [hostReduceAdd_apply, Ideal.hostReduceAdd_total _ (fun b => b.elim0), constant_apply, Ideal.ofBits_zero_f32, zero_add]
  exact sum_cores_idx arr

theorem mseL_coreSum (arr : FVec Ideal S2x1x1 .f32) (j : S_.Idx) :
    KRun.mseL (F := Ideal) (KRun.coreSum arr) j
      = Ideal.div (∑ a : Fin 2, arr (ix3 a (0 : Fin 1) (0 : Fin 1))) (Ideal.ofBits .f32 0x49800000#32) := by
  unfold KRun.mseL
  rw [hostDivf_apply, coreSum_apply, constant_apply]

theorem mseP_coreSum (arr : FVec Ideal S2x1x1 .f32) (j : S_.Idx) :
    KRun.mseP (F := Ideal) (KRun.coreSum arr) j
      = Ideal.div (∑ a : Fin 2, arr (ix3 a (0 : Fin 1) (0 : Fin 1))) (Ideal.ofBits .f32 0x47800000#32) := by
  unfold KRun.mseP
  rw [hostDivf_apply, coreSum_apply, constant_apply]

theorem mseI_coreSum (arr : FVec Ideal S2x1x1 .f32) (j : S_.Idx) :
    KRun.mseI (F := Ideal) (KRun.coreSum arr) j
      = Ideal.div (∑ a : Fin 2, arr (ix3 a (0 : Fin 1) (0 : Fin 1))) (Ideal.ofBits .f32 0x49800000#32) := by
  unfold KRun.mseI
  rw [hostDivf_apply, coreSum_apply, constant_apply]

end Cert.KernelIdeal.KValue

end
-- ==== Proof.RefFeatLib.lean ====
/-
  Index lemmas for a reference's host operations on rank-3 arrays, read at the ideal values:
  the sum over the last axis and over the first axis of an [a, b, c] array as a sum over that
  axis's coordinates, and the two keep-dimension broadcasts [a, b] → [a, b, 1] → [a, b, c] read
  at an index. Every index is built from literal coordinates.
-/
import Idealize.ShloMosaic.Lib.IdealHost
import Idealize.ShloMosaic.Lib.Pipeline.Value

noncomputable section

open Idealize.ShloMosaic Idealize.ShloMosaic.TcCoe Idealize.SL.Sem
open Idealize.ShloMosaic.ValueIdx
open scoped BigOperators

namespace Cert.ReferenceIdeal.RefFeat

variable {a b c : Nat}

/-- The sum over the LAST axis of an [a, b, c] array, at (p, q): the initial value plus the sum
    over k of the array at (p, q, k). -/
theorem hostReduceAdd_last3 (h' : (⟨3, ![a, b, c]⟩ : Shape).ReducesTo [2] ⟨2, ![a, b]⟩)
    (x : (⟨3, ![a, b, c]⟩ : Shape).Idx → EReal) (init : EReal) (p : Fin a) (q : Fin b) :
    Ideal.hostReduceAdd h' x init (ix2 p q) = init + ∑ k : Fin c, x (ix3 p q k) := by
  -- the result has rank 2, so the same shape relation holds in the form that names the inserted index
  have h : (⟨3, ![a, b, c]⟩ : Shape).Reduces [2] ⟨2, ![a, b]⟩ := ⟨h'.1, Nat.zero_lt_two, h'.2⟩
  rw [Ideal.hostReduceAdd_single h' h]
  refine congrArg (init + ·) (Finset.sum_congr rfl fun k _ => congrArg x ?_)
  funext d
  match d with
  | ⟨0, _⟩ => rfl
  | ⟨1, _⟩ => rfl
  | ⟨2, _⟩ => rfl

/-- The sum over the FIRST axis of an [a, b, c] array, at (q, r): the initial value plus the sum
    over p of the array at (p, q, r). -/
theorem hostReduceAdd_first3 (h' : (⟨3, ![a, b, c]⟩ : Shape).ReducesTo [0] ⟨2, ![b, c]⟩)
    (x : (⟨3, ![a, b, c]⟩ : Shape).Idx → EReal) (init : EReal) (q : Fin b) (r : Fin c) :
    Ideal.hostReduceAdd h' x init (ix2 q r) = init + ∑ p : Fin a, x (ix3 p q r) := by
  have h : (⟨3, ![a, b, c]⟩ : Shape).Reduces [0] ⟨2, ![b, c]⟩ := ⟨h'.1, Nat.zero_lt_two, h'.2⟩
  rw [Ideal.hostReduceAdd_single h' h]
  refine congrArg (init + ·) (Finset.sum_congr rfl fun k _ => congrArg x ?_)
  funext d
  match d with
  | ⟨0, _⟩ => rfl
  | ⟨1, _⟩ => rfl
  | ⟨2, _⟩ => rfl

/-- [a, b] → [a, b, 1] on the axes (0, 1): the new unit axis reads the operand at (p, q). -/
theorem broadcastInDim_col3_apply {α : Type}
    (h : (⟨2, ![a, b]⟩ : Shape).BroadcastsInDim ⟨3, ![a, b, 1]⟩ ![0, 1])
    (y : (⟨2, ![a, b]⟩ : Shape).Idx → α) (p : Fin a) (q : Fin b) (z : Fin 1) :
    broadcastInDim ⟨3, ![a, b, 1]⟩ ![0, 1] h y (ix3 p q z) = y (ix2 p q) := by
  refine broadcastInDim_apply ![0, 1] h y (ix3 p q z) (ix2 p q) ?_
  intro d
  match d with
  | ⟨0, _⟩ =>
    show p.val = if a = 1 then 0 else p.val
    split_ifs with ha
    · have := p.isLt; omega
    · rfl
  | ⟨1, _⟩ =>
    show q.val = if b = 1 then 0 else q.val
    split_ifs with hb
    · have := q.isLt; omega
    · rfl

/-- [a, b, 1] → [a, b, c] on the axes (0, 1, 2): every lane r reads the operand at (p, q, 0). -/
theorem broadcastInDim_lane3_apply {α : Type}
    (h : (⟨3, ![a, b, 1]⟩ : Shape).BroadcastsInDim ⟨3, ![a, b, c]⟩ ![0, 1, 2])
    (y : (⟨3, ![a, b, 1]⟩ : Shape).Idx → α) (p : Fin a) (q : Fin b) (r : Fin c) :
    broadcastInDim ⟨3, ![a, b, c]⟩ ![0, 1, 2] h y (ix3 p q r) = y (ix3 p q (0 : Fin 1)) := by
  refine broadcastInDim_apply ![0, 1, 2] h y (ix3 p q r) (ix3 p q (0 : Fin 1)) ?_
  intro d
  match d with
  | ⟨0, _⟩ =>
    show p.val = if a = 1 then 0 else p.val
    split_ifs with ha
    · have := p.isLt; omega
    · rfl
  | ⟨1, _⟩ =>
    show q.val = if b = 1 then 0 else q.val
    split_ifs with hb
    · have := q.isLt; omega
    · rfl
  | ⟨2, _⟩ =>
    show (0 : ℕ) = if (1 : ℕ) = 1 then 0 else r.val
    simp

end Cert.ReferenceIdeal.RefFeat

end
-- ==== Proof.RefFeatG.lean ====
/-
  The feature term of the reference, read at the ideal values, for a sequence length S:
  each row x[b, s, ·] of a [32, S, 512] array is divided by its Euclidean norm clamped below
  by ε, the normalized rows are averaged over the 32 batch entries, and the squared difference
  of the two averages (fake minus real) is summed over (s, d) and divided by a constant.
  One small lemma per host operation at an index built from literal coordinates, then the chain.
  Every `0 +` is the initial value the host's sum starts from.
-/
import proofs.«139213_j64381559767355_2_alg».proof.Proof.RefFeatLib

noncomputable section

open Idealize.ShloMosaic Idealize.ShloMosaic.TcCoe Idealize.SL.Sem
open Idealize.ShloMosaic.ValueIdx
open scoped BigOperators

namespace Cert.ReferenceIdeal.RefFeat

/-! ## Shapes and the shape facts the operations cite -/

/-- The scalar shape. -/
abbrev Sc : Shape := ⟨0, ![]⟩
/-- [32, S, 512]: a feature array. -/
abbrev A3 (S : Nat) : Shape := ⟨3, ![32, S, 512]⟩
/-- [32, S, 1]: one norm per row, the lane axis kept. -/
abbrev A3u (S : Nat) : Shape := ⟨3, ![32, S, 1]⟩
/-- [32, S]: one norm per row. -/
abbrev A2 (S : Nat) : Shape := ⟨2, ![32, S]⟩
/-- [S, 512]: a batch average. -/
abbrev M2 (S : Nat) : Shape := ⟨2, ![S, 512]⟩

/-- The shape relations the eight kinds of operation below are stated under. -/
structure ShapeFacts (S : Nat) : Prop where
  red2 : (A3 S).ReducesTo [2] (A2 S)
  pos0 : 0 < Sc.numel
  bcol : (A2 S).BroadcastsInDim (A3u S) (![0, 1] : Fin 2 → Fin (A3u S).rank)
  bsc3 : Sc.BroadcastsInDim (A3u S) (![] : Fin 0 → Fin (A3u S).rank)
  blane : (A3u S).BroadcastsInDim (A3 S) (![0, 1, 2] : Fin 3 → Fin (A3 S).rank)
  red0 : (A3 S).ReducesTo [0] (M2 S)
  bsc2 : Sc.BroadcastsInDim (M2 S) (![] : Fin 0 → Fin (M2 S).rank)
  redAll : (M2 S).ReducesTo [0, 1] Sc

variable {S : Nat}

/-! ## The specification: plain finite sums over literal coordinates -/

/-- x̂[b, s, d] = x[b, s, d] / max(√(0 + Σ_k x[b, s, k]²), ε). -/
def hat (x : (A3 S).Idx → EReal) (b : Fin 32) (s : Fin S) (d : Fin 512) : EReal :=
  Ideal.div (x (ix3 b s d))
    (max (Ideal.sqrt (0 + ∑ k : Fin 512, x (ix3 b s k) * x (ix3 b s k))) (Ideal.ofBits .f32 0x2B8CBCCC#32))

/-- δ[s, d] = (0 + Σ_b f̂[b, s, d]) / 32 − (0 + Σ_b r̂[b, s, d]) / 32. -/
def dlt (r f : (A3 S).Idx → EReal) (s : Fin S) (d : Fin 512) : EReal :=
  Ideal.div (0 + ∑ b : Fin 32, hat f b s d) (Ideal.ofBits .f32 0x42000000#32)
    - Ideal.div (0 + ∑ b : Fin 32, hat r b s d) (Ideal.ofBits .f32 0x42000000#32)

/-- δ[s, d]². -/
def sqd (r f : (A3 S).Idx → EReal) (s : Fin S) (d : Fin 512) : EReal := dlt r f s d * dlt r f s d

/-! ## The operations, as the reference composes them -/

/-- x ↦ x̂: square, sum over the last axis, keep the axis, root, clamp below by ε, spread over the lanes, divide. -/
def normG (hF : ShapeFacts S) (x : FVec Ideal (A3 S) .f32) : FVec Ideal (A3 S) .f32 :=
  Host.divf (F := Ideal) x
    (broadcastInDim (A3 S) ![0, 1, 2] hF.blane
      (maximumf (F := Ideal)
        (Host.sqrt (F := Ideal) (broadcastInDim (A3u S) ![0, 1] hF.bcol
          (Host.reduceAdd (F := Ideal) (mulf (F := Ideal) x x) (constant (F := Ideal) Sc .f32 0x00000000#32) hF.red2 hF.pos0)))
        (broadcastInDim (A3u S) ![] hF.bsc3 (constant (F := Ideal) Sc .f32 0x2B8CBCCC#32))))

/-- y ↦ its average over the batch axis: sum over axis 0, divide by the splat 32. -/
def meanG (hF : ShapeFacts S) (y : FVec Ideal (A3 S) .f32) : FVec Ideal (M2 S) .f32 :=
  Host.divf (F := Ideal) (Host.reduceAdd (F := Ideal) y (constant (F := Ideal) Sc .f32 0x00000000#32) hF.red0 hF.pos0)
    (broadcastInDim (M2 S) ![] hF.bsc2 (constant (F := Ideal) Sc .f32 0x42000000#32))

/-- The difference of the two averages, fake minus real. -/
def diffG (hF : ShapeFacts S) (r f : FVec Ideal (A3 S) .f32) : FVec Ideal (M2 S) .f32 :=
  subf (F := Ideal) (meanG hF (normG hF f)) (meanG hF (normG hF r))

/-- The feature term: the squared difference summed over both axes, over the constant `cN`. -/
def featG (hF : ShapeFacts S) (cN : BitVec 32) (r f : FVec Ideal (A3 S) .f32) : FVec Ideal Sc .f32 :=
  Host.divf (F := Ideal)
    (Host.reduceAdd (F := Ideal) (mulf (F := Ideal) (diffG hF r f) (diffG hF r f))
      (constant (F := Ideal) Sc .f32 0x00000000#32) hF.redAll hF.pos0)
    (constant (F := Ideal) Sc .f32 cN)

/-! ## Each stage at an index -/

/-- The host's square root at an index is the extended reals' root of the element. -/
theorem hostSqrt_apply {s : Shape} {φ : FTy} (y : FVec Ideal s φ) (i : s.Idx) :
    Host.sqrt (F := Ideal) y i = Ideal.sqrt (y i) := rfl

/-- The sum of squares of row (b, s). -/
theorem sumsq_apply (hF : ShapeFacts S) (x : FVec Ideal (A3 S) .f32) (b : Fin 32) (s : Fin S) :
    Host.reduceAdd (F := Ideal) (mulf (F := Ideal) x x) (constant (F := Ideal) Sc .f32 0x00000000#32) hF.red2 hF.pos0 (ix2 b s)
      = 0 + ∑ k : Fin 512, x (ix3 b s k) * x (ix3 b s k) := by
  rw [hostReduceAdd_apply, hostReduceAdd_last3 hF.red2, constant_apply, Ideal.ofBits_zero_f32]
  rfl

/-- The clamped norm of row (b, s), on the kept unit axis. -/
theorem den_apply (hF : ShapeFacts S) (x : FVec Ideal (A3 S) .f32) (b : Fin 32) (s : Fin S) (z : Fin 1) :
    maximumf (F := Ideal)
        (Host.sqrt (F := Ideal) (broadcastInDim (A3u S) ![0, 1] hF.bcol
          (Host.reduceAdd (F := Ideal) (mulf (F := Ideal) x x) (constant (F := Ideal) Sc .f32 0x00000000#32) hF.red2 hF.pos0)))
        (broadcastInDim (A3u S) ![] hF.bsc3 (constant (F := Ideal) Sc .f32 0x2B8CBCCC#32)) (ix3 b s z)
      = max (Ideal.sqrt (0 + ∑ k : Fin 512, x (ix3 b s k) * x (ix3 b s k))) (Ideal.ofBits .f32 0x2B8CBCCC#32) := by
  rw [maximumf_apply, hostSqrt_apply, broadcastInDim_col3_apply, sumsq_apply hF, broadcastInDim_scalar_apply, constant_apply]

/-- x̂ at (b, s, d). -/
theorem normG_apply (hF : ShapeFacts S) (x : FVec Ideal (A3 S) .f32) (b : Fin 32) (s : Fin S) (d : Fin 512) :
    normG hF x (ix3 b s d) = hat x b s d := by
  unfold normG hat
  rw [hostDivf_apply, broadcastInDim_lane3_apply, den_apply hF]

/-- The batch average at (s, d). -/
theorem meanG_apply (hF : ShapeFacts S) (y : FVec Ideal (A3 S) .f32) (s : Fin S) (d : Fin 512) :
    meanG hF y (ix2 s d) = Ideal.div (0 + ∑ b : Fin 32, y (ix3 b s d)) (Ideal.ofBits .f32 0x42000000#32) := by
  unfold meanG
  rw [hostDivf_apply, hostReduceAdd_apply, hostReduceAdd_first3 hF.red0, constant_apply, Ideal.ofBits_zero_f32,
    broadcastInDim_scalar_apply, constant_apply]

/-- The difference of the averages at (s, d). -/
theorem diffG_apply (hF : ShapeFacts S) (r f : FVec Ideal (A3 S) .f32) (s : Fin S) (d : Fin 512) :
    diffG hF r f (ix2 s d) = dlt r f s d := by
  unfold diffG dlt
  rw [subf_apply, meanG_apply, meanG_apply]
  simp only [normG_apply]

/-! ## The chain -/

/-- The feature term is the total of δ² over (s, d), from the initial value 0, over the constant. -/
theorem featG_apply (hF : ShapeFacts S) (cN : BitVec 32) (r f : FVec Ideal (A3 S) .f32) (j : Sc.Idx) :
    featG hF cN r f j
      = Ideal.div (0 + ∑ i : (M2 S).Idx, sqd r f (i 0) (i 1)) (Ideal.ofBits .f32 cN) := by
  unfold featG
  rw [hostDivf_apply, hostReduceAdd_apply, Ideal.hostReduceAdd_total hF.redAll (fun b => b.elim0),
    constant_apply, constant_apply, Ideal.ofBits_zero_f32]
  refine congrArg (fun t => Ideal.div (0 + t) (Ideal.ofBits .f32 cN)) (Finset.sum_congr rfl fun i _ => ?_)
  obtain ⟨s, d, rfl⟩ : ∃ (s : Fin S) (d : Fin 512), i = ix2 s d := ⟨i 0, i 1, eq_ix2 i⟩
  show mulf (F := Ideal) (diffG hF r f) (diffG hF r f) (ix2 s d) = sqd r f s d
  rw [mulf_apply, diffG_apply]
  rfl

/-- The same total as the double sum over s and d. -/
theorem featG_apply' (hF : ShapeFacts S) (cN : BitVec 32) (r f : FVec Ideal (A3 S) .f32) (j : Sc.Idx) :
    featG hF cN r f j
      = Ideal.div (0 + ∑ s : Fin S, ∑ d : Fin 512, sqd r f s d) (Ideal.ofBits .f32 cN) := by
  rw [featG_apply, sum_idx2]
  rfl

end Cert.ReferenceIdeal.RefFeat

end
-- ==== Proof.RefBridge.lean ====
/-
  The reference's feature term, read at the ideal values, is the specification's total over the constant.

  The host's sums start from the initial value 0, and `0 + x = x`; with those removed the reference's scaled entry is
  the specification's `unitR`, its squared difference of batch means is `sqDiff`, and the double sum over positions
  and channels is `total`.
-/
import proofs.«139213_j64381559767355_2_alg».proof.Proof.RefFeatG
import proofs.«139213_j64381559767355_2_alg».proof.Proof.Spec

noncomputable section

open scoped BigOperators

namespace Cert.ReferenceIdeal.RefFeat

open Idealize.ShloMosaic Idealize.ShloMosaic.ValueIdx

variable {S : Nat}

/-- An array read by coordinates. -/
abbrev byCoords (x : (A3 S).Idx → EReal) : Fin 32 → Fin S → Fin 512 → EReal := fun b s d => x (ix3 b s d)

theorem hat_eq (x : (A3 S).Idx → EReal) (b : Fin 32) (s : Fin S) (d : Fin 512) :
    hat x b s d = Cert.FM.unitR (byCoords x) b s d := by
  unfold hat Cert.FM.unitR Cert.FM.clampNorm Cert.FM.eps
  rw [zero_add]

theorem sqd_eq (r f : (A3 S).Idx → EReal) (s : Fin S) (d : Fin 512) :
    sqd r f s d = Cert.FM.sqDiff (byCoords r) (byCoords f) s d := by
  unfold sqd dlt Cert.FM.sqDiff Cert.FM.c32
  simp only [hat_eq, zero_add]

/-- The reference's feature term is the specification's total divided by the constant. -/
theorem featG_total (hF : ShapeFacts S) (cN : BitVec 32) (r f : FVec Ideal (A3 S) .f32) (j : Sc.Idx) :
    featG hF cN r f j = Ideal.div (Cert.FM.total (byCoords r) (byCoords f)) (Ideal.ofBits .f32 cN) := by
  rw [featG_apply', zero_add]
  unfold Cert.FM.total
  simp only [sqd_eq]

end Cert.ReferenceIdeal.RefFeat

end
-- ==== Proof.RefFeatL.lean ====
/-
  The reference's feature term for the pair of [32, 2048, 512] arrays, read at the ideal values as a
  plain finite sum: its host operations, composed as the reference composes them, are the generic
  term at S = 2048, so the term at its one index is the total over (s, d) of the squared difference
  of the two batch averages of the normalized rows, from the initial value 0, over 2^20.
-/
import proofs.«139213_j64381559767355_2_alg».proof.ReferenceIdeal
import proofs.«139213_j64381559767355_2_alg».proof.Proof.RefFeatG

noncomputable section

open Idealize.ShloMosaic Idealize.ShloMosaic.TcCoe Idealize.SL.Sem
open Idealize.ShloMosaic.ValueIdx
open scoped BigOperators

namespace Cert.ReferenceIdeal.RefFeat

open Cert.ReferenceIdeal
open Facts₀ Facts

variable [Facts]

/-- The shape relations of the [32, 2048, 512] operations, as the program states them. -/
theorem factsL : ShapeFacts 2048 :=
  ⟨reducesTo_S32x2048x512_S32x2048_d2, h_S_, bcast_S32x2048_S32x2048x1_0_1, bcast_S_S32x2048x1,
    bcast_S32x2048x1_S32x2048x512_0_1_2, reducesTo_S32x2048x512_S2048x512_d0, bcast_S_S2048x512, reducesTo_S2048x512_S_d0_1⟩

/-- The feature term of the real array `r` and the fake array `f`, one line per host operation, in the reference's order. -/
def featL (r f : FVec Ideal S32x2048x512 .f32) : FVec Ideal S_ .f32 :=
  let v0 := mulf (F := Ideal) r r
  let c0 := constant (F := Ideal) S_ .f32 0x00000000#32
  let v1 := Host.reduceAdd (F := Ideal) v0 c0 reducesTo_S32x2048x512_S32x2048_d2 h_S_
  let v2 := broadcastInDim S32x2048x1 ![0, 1] bcast_S32x2048_S32x2048x1_0_1 v1
  let v3 := Host.sqrt (F := Ideal) v2
  let c1 := constant (F := Ideal) S_ .f32 0x2B8CBCCC#32
  let v4 := broadcastInDim S32x2048x1 ![] bcast_S_S32x2048x1 c1
  let v5 := maximumf (F := Ideal) v3 v4
  let v6 := broadcastInDim S32x2048x512 ![0, 1, 2] bcast_S32x2048x1_S32x2048x512_0_1_2 v5
  let v7 := Host.divf (F := Ideal) r v6
  let v8 := mulf (F := Ideal) f f
  let v9 := Host.reduceAdd (F := Ideal) v8 c0 reducesTo_S32x2048x512_S32x2048_d2 h_S_
  let v10 := broadcastInDim S32x2048x1 ![0, 1] bcast_S32x2048_S32x2048x1_0_1 v9
  let v11 := Host.sqrt (F := Ideal) v10
  let v12 := broadcastInDim S32x2048x1 ![] bcast_S_S32x2048x1 c1
  let v13 := maximumf (F := Ideal) v11 v12
  let v14 := broadcastInDim S32x2048x512 ![0, 1, 2] bcast_S32x2048x1_S32x2048x512_0_1_2 v13
  let v15 := Host.divf (F := Ideal) f v14
  let v16 := Host.reduceAdd (F := Ideal) v15 c0 reducesTo_S32x2048x512_S2048x512_d0 h_S_
  let c2 := constant (F := Ideal) S_ .f32 0x42000000#32
  let v17 := broadcastInDim S2048x512 ![] bcast_S_S2048x512 c2
  let v18 := Host.divf (F := Ideal) v16 v17
  let v19 := Host.reduceAdd (F := Ideal) v7 c0 reducesTo_S32x2048x512_S2048x512_d0 h_S_
  let v20 := broadcastInDim S2048x512 ![] bcast_S_S2048x512 c2
  let v21 := Host.divf (F := Ideal) v19 v20
  let v22 := subf (F := Ideal) v18 v21
  let v23 := mulf (F := Ideal) v22 v22
  let v24 := Host.reduceAdd (F := Ideal) v23 c0 reducesTo_S2048x512_S_d0_1 h_S_
  let c3 := constant (F := Ideal) S_ .f32 0x49800000#32
  Host.divf (F := Ideal) v24 c3

/-- The composition is the generic term at S = 2048: the same operations, named stage by stage. -/
theorem featL_eq_featG (r f : FVec Ideal S32x2048x512 .f32) :
    featL r f = featG factsL 0x49800000#32 r f := rfl

/-- The feature term at its one index: the total of δ² over the indices of [2048, 512], from 0, over 2^20. -/
theorem featL_apply (r f : FVec Ideal S32x2048x512 .f32) (j : S_.Idx) :
    featL r f j
      = Ideal.div (0 + ∑ i : S2048x512.Idx, sqd (S := 2048) r f (i 0) (i 1)) (Ideal.ofBits .f32 0x49800000#32) := by
  rw [featL_eq_featG]
  exact featG_apply factsL 0x49800000#32 r f j

/-- The same total as the double sum over s and d. -/
theorem featL_apply' (r f : FVec Ideal S32x2048x512 .f32) (j : S_.Idx) :
    featL r f j
      = Ideal.div (0 + ∑ s : Fin 2048, ∑ d : Fin 512, sqd (S := 2048) r f s d) (Ideal.ofBits .f32 0x49800000#32) := by
  rw [featL_eq_featG]
  exact featG_apply' factsL 0x49800000#32 r f j

end Cert.ReferenceIdeal.RefFeat

end
-- ==== Proof.RefFeatP.lean ====
/-
  The reference's feature term for the pair of [32, 128, 512] arrays, read at the ideal values as a
  plain finite sum: its host operations, composed as the reference composes them, are the generic
  term at S = 128, so the term at its one index is the total over (s, d) of the squared difference
  of the two batch averages of the normalized rows, from the initial value 0, over 2^16.
-/
import proofs.«139213_j64381559767355_2_alg».proof.ReferenceIdeal
import proofs.«139213_j64381559767355_2_alg».proof.Proof.RefFeatG

noncomputable section

open Idealize.ShloMosaic Idealize.ShloMosaic.TcCoe Idealize.SL.Sem
open Idealize.ShloMosaic.ValueIdx
open scoped BigOperators

namespace Cert.ReferenceIdeal.RefFeat

open Cert.ReferenceIdeal
open Facts₀ Facts

variable [Facts]

/-- The shape relations of the [32, 128, 512] operations, as the program states them. -/
theorem factsP : ShapeFacts 128 :=
  ⟨reducesTo_S32x128x512_S32x128_d2, h_S_, bcast_S32x128_S32x128x1_0_1, bcast_S_S32x128x1,
    bcast_S32x128x1_S32x128x512_0_1_2, reducesTo_S32x128x512_S128x512_d0, bcast_S_S128x512, reducesTo_S128x512_S_d0_1⟩

/-- The feature term of the real array `r` and the fake array `f`, one line per host operation, in the reference's order. -/
def featP (r f : FVec Ideal S32x128x512 .f32) : FVec Ideal S_ .f32 :=
  let v0 := mulf (F := Ideal) r r
  let c0 := constant (F := Ideal) S_ .f32 0x00000000#32
  let v1 := Host.reduceAdd (F := Ideal) v0 c0 reducesTo_S32x128x512_S32x128_d2 h_S_
  let v2 := broadcastInDim S32x128x1 ![0, 1] bcast_S32x128_S32x128x1_0_1 v1
  let v3 := Host.sqrt (F := Ideal) v2
  let c1 := constant (F := Ideal) S_ .f32 0x2B8CBCCC#32
  let v4 := broadcastInDim S32x128x1 ![] bcast_S_S32x128x1 c1
  let v5 := maximumf (F := Ideal) v3 v4
  let v6 := broadcastInDim S32x128x512 ![0, 1, 2] bcast_S32x128x1_S32x128x512_0_1_2 v5
  let v7 := Host.divf (F := Ideal) r v6
  let v8 := mulf (F := Ideal) f f
  let v9 := Host.reduceAdd (F := Ideal) v8 c0 reducesTo_S32x128x512_S32x128_d2 h_S_
  let v10 := broadcastInDim S32x128x1 ![0, 1] bcast_S32x128_S32x128x1_0_1 v9
  let v11 := Host.sqrt (F := Ideal) v10
  let v12 := broadcastInDim S32x128x1 ![] bcast_S_S32x128x1 c1
  let v13 := maximumf (F := Ideal) v11 v12
  let v14 := broadcastInDim S32x128x512 ![0, 1, 2] bcast_S32x128x1_S32x128x512_0_1_2 v13
  let v15 := Host.divf (F := Ideal) f v14
  let v16 := Host.reduceAdd (F := Ideal) v15 c0 reducesTo_S32x128x512_S128x512_d0 h_S_
  let c2 := constant (F := Ideal) S_ .f32 0x42000000#32
  let v17 := broadcastInDim S128x512 ![] bcast_S_S128x512 c2
  let v18 := Host.divf (F := Ideal) v16 v17
  let v19 := Host.reduceAdd (F := Ideal) v7 c0 reducesTo_S32x128x512_S128x512_d0 h_S_
  let v20 := broadcastInDim S128x512 ![] bcast_S_S128x512 c2
  let v21 := Host.divf (F := Ideal) v19 v20
  let v22 := subf (F := Ideal) v18 v21
  let v23 := mulf (F := Ideal) v22 v22
  let v24 := Host.reduceAdd (F := Ideal) v23 c0 reducesTo_S128x512_S_d0_1 h_S_
  let c3 := constant (F := Ideal) S_ .f32 0x47800000#32
  Host.divf (F := Ideal) v24 c3

/-- The composition is the generic term at S = 128: the same operations, named stage by stage. -/
theorem featP_eq_featG (r f : FVec Ideal S32x128x512 .f32) :
    featP r f = featG factsP 0x47800000#32 r f := rfl

/-- The feature term at its one index: the total of δ² over the indices of [128, 512], from 0, over 2^16. -/
theorem featP_apply (r f : FVec Ideal S32x128x512 .f32) (j : S_.Idx) :
    featP r f j
      = Ideal.div (0 + ∑ i : S128x512.Idx, sqd (S := 128) r f (i 0) (i 1)) (Ideal.ofBits .f32 0x47800000#32) := by
  rw [featP_eq_featG]
  exact featG_apply factsP 0x47800000#32 r f j

/-- The same total as the double sum over s and d. -/
theorem featP_apply' (r f : FVec Ideal S32x128x512 .f32) (j : S_.Idx) :
    featP r f j
      = Ideal.div (0 + ∑ s : Fin 128, ∑ d : Fin 512, sqd (S := 128) r f s d) (Ideal.ofBits .f32 0x47800000#32) := by
  rw [featP_eq_featG]
  exact featG_apply' factsP 0x47800000#32 r f j

end Cert.ReferenceIdeal.RefFeat

end
-- ==== Proof.RefFeatLink.lean ====
/-
  The feature terms that the reference's run names stage by stage (scale each row, average over
  the batch, mean squared difference) are, at the ideal values, the generic term at S = 2048 and
  at S = 128: the same host operations in the same order. So each is, at its one index, the total
  over (s, d) of the squared difference of the two batch averages, from 0, over its constant.
-/
import proofs.«139213_j64381559767355_2_alg».proof.Proof.RefRunDefs
import proofs.«139213_j64381559767355_2_alg».proof.Proof.RefFeatL
import proofs.«139213_j64381559767355_2_alg».proof.Proof.RefFeatP

noncomputable section

open Idealize.ShloMosaic Idealize.ShloMosaic.TcCoe Idealize.SL.Sem
open Idealize.ShloMosaic.ValueIdx
open scoped BigOperators

namespace Cert.ReferenceIdeal.RefFeat

open Cert.ReferenceIdeal

variable [Facts]

/-- The [32, 2048, 512] pair's term is the generic term at S = 2048 over 2^20. -/
theorem featL_link (r f : FVec Ideal S32x2048x512 .f32) :
    Cert.ReferenceIdeal.RefRun.featL (F := Ideal) r f = featG factsL 0x49800000#32 r f := rfl

/-- The [32, 128, 512] pair's term is the generic term at S = 128 over 2^16. -/
theorem featP_link (r f : FVec Ideal S32x128x512 .f32) :
    Cert.ReferenceIdeal.RefRun.featP (F := Ideal) r f = featG factsP 0x47800000#32 r f := rfl

/-- So the [32, 2048, 512] pair's term at its one index is the double sum of δ² over s and d, from 0, over 2^20. -/
theorem featL_run_apply (r f : FVec Ideal S32x2048x512 .f32) (j : S_.Idx) :
    Cert.ReferenceIdeal.RefRun.featL (F := Ideal) r f j
      = Ideal.div (0 + ∑ s : Fin 2048, ∑ d : Fin 512, sqd (S := 2048) r f s d) (Ideal.ofBits .f32 0x49800000#32) :=
  (congrFun (featL_link r f) j).trans (featG_apply' factsL 0x49800000#32 r f j)

/-- And the [32, 128, 512] pair's term is the double sum of δ² over s and d, from 0, over 2^16. -/
theorem featP_run_apply (r f : FVec Ideal S32x128x512 .f32) (j : S_.Idx) :
    Cert.ReferenceIdeal.RefRun.featP (F := Ideal) r f j
      = Ideal.div (0 + ∑ s : Fin 128, ∑ d : Fin 512, sqd (S := 128) r f s d) (Ideal.ofBits .f32 0x47800000#32) :=
  (congrFun (featP_link r f) j).trans (featG_apply' factsP 0x47800000#32 r f j)

end Cert.ReferenceIdeal.RefFeat

end
-- ==== Proof.FeatBridge.lean ====
/-
  Per feature pair: the kernel program's scalar is the reference's.

  The kernel's program divides the host's sum of a region's two core entries by the element count; the entries add up
  to the specification's total of the region's two input arrays (the grid's tiles cover every position once, and the
  kernel's scaling by the reciprocal of the clamped length is the reference's division by it). The reference's scalar
  of the same two arrays, read at the ideal values, is the same total over the same count.
-/
import proofs.«139213_j64381559767355_2_alg».proof.Proof.KValue0
import proofs.«139213_j64381559767355_2_alg».proof.Proof.KValue1
import proofs.«139213_j64381559767355_2_alg».proof.Proof.KValue2
import proofs.«139213_j64381559767355_2_alg».proof.Proof.KHost
import proofs.«139213_j64381559767355_2_alg».proof.Proof.RefBridge
import proofs.«139213_j64381559767355_2_alg».proof.Proof.RefFeatLink
import proofs.«139213_j64381559767355_2_alg».proof.Proof.Gen.ReferenceIdeal

noncomputable section

open scoped BigOperators

namespace Cert.Bridge

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- The first [32, 2048, 512] pair. -/
theorem featL_bridge (c : Dev nD) (arr : FVec Ideal S2x1x1 .f32)
    (harr : ∀ j : S2x1x1.Idx, arr j = ((dat0 (F := Ideal) V c).arrAt 2 cfg0.N : S2x1x1.Idx → EReal) j)
    (r f : FVec Ideal S32x2048x512 .f32)
    (hr : (V c (Pipeline.arrRef spec0 0) : S32x2048x512.Idx → EReal) = r)
    (hf : (V c (Pipeline.arrRef spec0 1) : S32x2048x512.Idx → EReal) = f) (j : S_.Idx) :
    Cert.KernelIdeal.KRun.mseL (F := Ideal) (Cert.KernelIdeal.KRun.coreSum arr) j
      = Cert.ReferenceIdeal.RefRun.featL (F := Ideal) r f j := by
  rw [Cert.KernelIdeal.KValue.mseL_coreSum, Cert.KernelIdeal.KValue.cores0_total V c arr harr,
    Cert.ReferenceIdeal.RefFeat.featL_link, Cert.ReferenceIdeal.RefFeat.featG_total]
  subst hr hf
  rfl

/-- The [32, 128, 512] pair. -/
theorem featP_bridge (c : Dev nD) (arr : FVec Ideal S2x1x1 .f32)
    (harr : ∀ j : S2x1x1.Idx, arr j = ((dat1 (F := Ideal) V c).arrAt 2 cfg1.N : S2x1x1.Idx → EReal) j)
    (r f : FVec Ideal S32x128x512 .f32)
    (hr : (V c (Pipeline.arrRef spec1 0) : S32x128x512.Idx → EReal) = r)
    (hf : (V c (Pipeline.arrRef spec1 1) : S32x128x512.Idx → EReal) = f) (j : S_.Idx) :
    Cert.KernelIdeal.KRun.mseP (F := Ideal) (Cert.KernelIdeal.KRun.coreSum arr) j
      = Cert.ReferenceIdeal.RefRun.featP (F := Ideal) r f j := by
  rw [Cert.KernelIdeal.KValue.mseP_coreSum, Cert.KernelIdeal.KValue.cores1_total V c arr harr,
    Cert.ReferenceIdeal.RefFeat.featP_link, Cert.ReferenceIdeal.RefFeat.featG_total]
  subst hr hf
  rfl

/-- The second [32, 2048, 512] pair (the reference's operations on it are the first pair's, word for word). -/
theorem featI_bridge (c : Dev nD) (arr : FVec Ideal S2x1x1 .f32)
    (harr : ∀ j : S2x1x1.Idx, arr j = ((dat2 (F := Ideal) V c).arrAt 2 cfg2.N : S2x1x1.Idx → EReal) j)
    (r f : FVec Ideal S32x2048x512 .f32)
    (hr : (V c (Pipeline.arrRef spec2 0) : S32x2048x512.Idx → EReal) = r)
    (hf : (V c (Pipeline.arrRef spec2 1) : S32x2048x512.Idx → EReal) = f) (j : S_.Idx) :
    Cert.KernelIdeal.KRun.mseI (F := Ideal) (Cert.KernelIdeal.KRun.coreSum arr) j
      = Cert.ReferenceIdeal.RefRun.featI (F := Ideal) r f j := by
  show _ = Cert.ReferenceIdeal.RefRun.featL (F := Ideal) r f j
  rw [Cert.KernelIdeal.KValue.mseI_coreSum, Cert.KernelIdeal.KValue.cores2_total V c arr harr,
    Cert.ReferenceIdeal.RefFeat.featL_link, Cert.ReferenceIdeal.RefFeat.featG_total]
  subst hr hf
  rfl

end Cert.Bridge

end
-- ==== Proof.TailEq.lean ====
/-
  The host terms the two programs share.

  Outside the three feature pairs the kernel's program and the reference apply the same host operations to the same
  arguments: the [32, 512] feature pair's scalar, the token term and the softplus term are, operation by operation,
  one term in both programs. The weighted sum of the four feature scalars differs only in that the reference starts
  its running total from the constant 0, and `0 + x = x`.
-/
import proofs.«139213_j64381559767355_2_alg».proof.Proof.RefRunDefs
import proofs.«139213_j64381559767355_2_alg».proof.Proof.KTailDefs
import proofs.«139213_j64381559767355_2_alg».proof.Proof.Gen.ReferenceIdeal
import Idealize.ShloMosaic.Lib.ValueIdx
import Idealize.ShloMosaic.PureOps.Ideal.Laws

noncomputable section

namespace Cert.TailEq

open Idealize.ShloMosaic Idealize.ShloMosaic.ValueIdx

/-- The [32, 512] feature pair's scalar is one term in both programs. -/
theorem featG_eq (r f : FVec Ideal Cert.KernelIdeal.S32x512 .f32) :
    Cert.KernelIdeal.KRun.featG (F := Ideal) r f = Cert.ReferenceIdeal.RefRun.featG (F := Ideal) r f := rfl

/-- The token term is one term in both programs. -/
theorem musical_eq (tok : (⟨Cert.KernelIdeal.S32x2048, .i32⟩ : BufTy).Contents (Elt Ideal)) :
    Cert.KernelIdeal.KRun.musical (F := Ideal) tok = Cert.ReferenceIdeal.RefRun.musical (F := Ideal) tok := rfl

/-- The softplus term is one term in both programs. -/
theorem adv_eq (l : FVec Ideal Cert.KernelIdeal.S32x2048 .f32) (p : FVec Ideal Cert.KernelIdeal.S32x128 .f32)
    (g : FVec Ideal Cert.KernelIdeal.S32x1 .f32) :
    Cert.KernelIdeal.KRun.adv (F := Ideal) l p g = Cert.ReferenceIdeal.RefRun.adv (F := Ideal) l p g := rfl

/-- The weighted sum: the reference's running total starts from 0. -/
theorem combine_eq (mL mP mG mI : FVec Ideal Cert.KernelIdeal.S_ .f32) :
    Cert.KernelIdeal.KRun.combine (F := Ideal) mL mP mG mI = Cert.ReferenceIdeal.RefRun.combine (F := Ideal) mL mP mG mI := by
  unfold Cert.KernelIdeal.KRun.combine Cert.ReferenceIdeal.RefRun.combine
  funext j
  show Ideal.div _ _ = Ideal.div _ _
  refine congrArg (fun z => Ideal.div z _) ?_
  show _ = ((((Ideal.ofBits .f32 0x00000000#32 + _) + _) + _) + _)
  rw [Ideal.ofBits_zero_f32, zero_add]
  rfl

end Cert.TailEq

end
-- ==== Proof.OutBridge.lean ====
/-
  The two programs' results as terms: once the three feature pairs' scalars agree, everything else is shared.

  The kernel program's result is the weighted sum of its three regions' scalars and the [32, 512] pair's scalar, plus
  the token term, plus the softplus term; the reference's is the same expression with its own three scalars and a
  running total that starts from 0. The shared terms are one term in both programs.
-/
import proofs.«139213_j64381559767355_2_alg».proof.Proof.TailEq

noncomputable section

namespace Cert.Bridge

open Idealize.ShloMosaic

theorem out_bridge (sL sP sI : FVec Ideal Cert.KernelIdeal.S_ .f32)
    (a0 a3 a4 a7 : FVec Ideal Cert.KernelIdeal.S32x2048x512 .f32) (a1 a5 : FVec Ideal Cert.KernelIdeal.S32x128x512 .f32)
    (a2 a6 : FVec Ideal Cert.KernelIdeal.S32x512 .f32) (a8 : FVec Ideal Cert.KernelIdeal.S32x2048 .f32)
    (a9 : FVec Ideal Cert.KernelIdeal.S32x128 .f32) (a10 : FVec Ideal Cert.KernelIdeal.S32x1 .f32)
    (a11 : (⟨Cert.KernelIdeal.S32x2048, .i32⟩ : BufTy).Contents (Elt Ideal))
    (hL : Cert.KernelIdeal.KRun.mseL (F := Ideal) sL = Cert.ReferenceIdeal.RefRun.featL (F := Ideal) a0 a4)
    (hP : Cert.KernelIdeal.KRun.mseP (F := Ideal) sP = Cert.ReferenceIdeal.RefRun.featP (F := Ideal) a1 a5)
    (hI : Cert.KernelIdeal.KRun.mseI (F := Ideal) sI = Cert.ReferenceIdeal.RefRun.featI (F := Ideal) a3 a7) :
    Cert.KernelIdeal.KRun.out (F := Ideal) sL sP sI a2 a6 a8 a9 a10 a11
      = Cert.ReferenceIdeal.RefRun.out (F := Ideal) a0 a1 a2 a3 a4 a5 a6 a7 a8 a9 a10 a11 := by
  unfold Cert.KernelIdeal.KRun.out Cert.ReferenceIdeal.RefRun.out
  rw [hL, hP, hI, Cert.TailEq.combine_eq, Cert.TailEq.featG_eq, Cert.TailEq.musical_eq, Cert.TailEq.adv_eq]

end Cert.Bridge

end
-- ==== Proof.Claims.lean ====
/-
  The claims' ingredients.

  The frames: the kernel's program, at the word level and at the ideal values, by its frame certificate over the three
  regions; the reference by its run, the result dropped. No operation of the kernel was rewritten by the ideal pass,
  so there is nothing to preserve. The value: the kernel program's result buffer ends at the host operations' term of
  the three regions' outputs and the arguments; each region's output, summed over its two cores and divided by the
  element count, is the reference's scalar of that region's two input arrays, which the region finds as launched;
  every other term of the result is shared by the two programs (`result_bridge`).
-/
import proofs.«139213_j64381559767355_2_alg».proof.Proof.Gen.Kernel.Frame
import proofs.«139213_j64381559767355_2_alg».proof.Proof.Gen.KernelIdeal.Frame
import proofs.«139213_j64381559767355_2_alg».proof.Proof.Gen.Pre_finite_inputs
import proofs.«139213_j64381559767355_2_alg».proof.Proof.KRun
import proofs.«139213_j64381559767355_2_alg».proof.Proof.RefRun
import proofs.«139213_j64381559767355_2_alg».proof.Proof.RegionInputs
import proofs.«139213_j64381559767355_2_alg».proof.Proof.FeatBridge
import proofs.«139213_j64381559767355_2_alg».proof.Proof.OutBridge
import proofs.«139213_j64381559767355_2_alg».proof.Defs

noncomputable section

namespace Cert.Proof.Claims

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

open Cert.KernelIdeal Cert.KernelIdeal.Gen Cert.KernelIdeal.RegionValue in
/-- The kernel program's result term is the reference's result term of the same arguments. -/
theorem result_bridge (m : (ℓ : Loc nD τ sig) → Buf (Elt Ideal) ℓ) (ρ : Dev nD → PrngReg) (c : Dev nD)
    (hres : Gen.W18 m ρ c (Proc.devRef .tc main_v101)
      = Cert.KernelIdeal.KRun.out (F := Ideal)
          (Cert.KernelIdeal.KRun.coreSum ((Gen.dat0 (Gen.V0 m ρ) c).arrAt 2 cfg0.N))
          (Cert.KernelIdeal.KRun.coreSum ((Gen.dat1 (Gen.V2 m ρ) c).arrAt 2 cfg1.N))
          (Cert.KernelIdeal.KRun.coreSum ((Gen.dat2 (Gen.V4 m ρ) c).arrAt 2 cfg2.N))
          (m ((c.tc : Thread nD τ).loc main_arg2)) (m ((c.tc : Thread nD τ).loc main_arg6))
          (m ((c.tc : Thread nD τ).loc main_arg8)) (m ((c.tc : Thread nD τ).loc main_arg9))
          (m ((c.tc : Thread nD τ).loc main_arg10)) (m ((c.tc : Thread nD τ).loc main_arg11))) :
    Gen.W18 m ρ c (Proc.devRef .tc main_v101)
      = Cert.ReferenceIdeal.RefRun.out (F := Ideal)
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)) := by
  rw [hres]
  refine Cert.Bridge.out_bridge _ _ _ _ _ _ _ _ _ _ _ _ _ _ _ ?_ ?_ ?_
  · funext j
    exact Cert.Bridge.featL_bridge (Gen.V0 m ρ) c _ (fun _ => rfl) _ _
      (V0_in0 m ρ c) (V0_in1 m ρ c) j
  · funext j
    exact Cert.Bridge.featP_bridge (Gen.V2 m ρ) c _ (fun _ => rfl) _ _
      (V2_in0 m ρ c) (V2_in1 m ρ c) j
  · funext j
    exact Cert.Bridge.featI_bridge (Gen.V4 m ρ) c _ (fun _ => rfl) _ _
      (V4_in0 m ρ c) (V4_in1 m ρ c) j

end Cert.Proof.Claims

end
-- ==== Proof.KTailWinDefs.lean ====
import proofs.«139213_j64381559767355_2_alg».proof.Proof.KTailDefs

/-! # The host operations stretch by stretch

The pieces of the result's named parts as the program's stretches of host operations cut them, each the composed term of
its own operations, and the named parts read as compositions of these pieces. -/

set_option maxRecDepth 16384

noncomputable section

namespace Cert.KernelIdeal.KRun

open Cert.KernelIdeal Idealize.ShloMosaic Idealize.ShloMosaic.TcCoe Idealize.SL.Sem
open Cert.KernelIdeal.Gen

variable {F : FTy → Type} [FloatOps F]

/-- The indicator `256 ≤ tok < 768`, as a float. -/
def inRange (tok : (⟨S32x2048, .i32⟩ : BufTy).Contents (Elt F)) :
    (⟨S32x2048, .f32⟩ : BufTy).Contents (Elt F) :=
  (uitofp (F := F) .f32 (andi (cmpi .sge tok (broadcastInDim S32x2048 ![] bcast_S_S32x2048 (constantI S_ 32 256#32))) (cmpi .slt tok (broadcastInDim S32x2048 ![] bcast_S_S32x2048 (constantI S_ 32 768#32)))))

/-- Consecutive differences along the second axis: columns `1 … 2047` minus columns `0 … 2046`. -/
def diffF (x : (⟨S32x2048, .f32⟩ : BufTy).Contents (Elt F)) :
    (⟨S32x2047, .f32⟩ : BufTy).Contents (Elt F) :=
  (subf (extractStridedSlice S32x2047 ![0, 1] x slices_S32x2048_S32x2047_0_1) (extractStridedSlice S32x2047 ![0, 0] x slices_S32x2048_S32x2047_0_0))

/-- The mean absolute value of a `[32, 2047]` array, the divisor as the program has it. -/
def absMean (x : (⟨S32x2047, .f32⟩ : BufTy).Contents (Elt F)) :
    (⟨S_, .f32⟩ : BufTy).Contents (Elt F) :=
  (Host.divf (Host.reduceAdd (Host.absf x) (constant (F := F) S_ .f32 0x00000000#32) reducesTo_S32x2047_S_d0_1 h_S_) (constant (F := F) S_ .f32 0x477FE000#32))

/-- The floored remainder of each element by a scalar divisor (a zero divisor replaced by one). -/
def remBy (t : (⟨S32x2048, .i32⟩ : BufTy).Contents (Elt F)) (n : (⟨S_, .i32⟩ : BufTy).Contents (Elt F)) :
    (⟨S32x2048, .i32⟩ : BufTy).Contents (Elt F) :=
  (select (andi (cmpi .ne (cmpi .slt (Host.remsi t (broadcastInDim S32x2048 ![] bcast_S_S32x2048 (select (cmpi .eq n (constantI S_ 32 0#32)) (constantI S_ 32 1#32) n))) (broadcastInDim S32x2048 ![] bcast_S_S32x2048 (constantI S_ 32 0#32))) (broadcastInDim S32x2048 ![] bcast_S_S32x2048 (cmpi .slt (select (cmpi .eq n (constantI S_ 32 0#32)) (constantI S_ 32 1#32) n) (constantI S_ 32 0#32)))) (cmpi .ne (Host.remsi t (broadcastInDim S32x2048 ![] bcast_S_S32x2048 (select (cmpi .eq n (constantI S_ 32 0#32)) (constantI S_ 32 1#32) n))) (broadcastInDim S32x2048 ![] bcast_S_S32x2048 (constantI S_ 32 0#32)))) (addi (Host.remsi t (broadcastInDim S32x2048 ![] bcast_S_S32x2048 (select (cmpi .eq n (constantI S_ 32 0#32)) (constantI S_ 32 1#32) n))) (broadcastInDim S32x2048 ![] bcast_S_S32x2048 (select (cmpi .eq n (constantI S_ 32 0#32)) (constantI S_ 32 1#32) n))) (Host.remsi t (broadcastInDim S32x2048 ![] bcast_S_S32x2048 (select (cmpi .eq n (constantI S_ 32 0#32)) (constantI S_ 32 1#32) n))))

/-- How often an entry of a `[32, 2047]` array exceeds 12 in absolute value, averaged. -/
def jumpMean (x : (⟨S32x2047, .f32⟩ : BufTy).Contents (Elt F)) :
    (⟨S_, .f32⟩ : BufTy).Contents (Elt F) :=
  (Host.divf (Host.reduceAdd (uitofp (F := F) .f32 (cmpf .ogt (Host.absf x) (broadcastInDim S32x2047 ![] bcast_S_S32x2047 (constant (F := F) S_ .f32 0x41400000#32)))) (constant (F := F) S_ .f32 0x00000000#32) reducesTo_S32x2047_S_d0_1 h_S_) (constant (F := F) S_ .f32 0x477FE000#32))

/-- The mean of a `[32, 2048]` array weighted by `0.4`. -/
def advA (x : (⟨S32x2048, .f32⟩ : BufTy).Contents (Elt F)) :
    (⟨S_, .f32⟩ : BufTy).Contents (Elt F) :=
  (mulf (constant (F := F) S_ .f32 0x3ECCCCCD#32) (Host.divf (Host.reduceAdd x (constant (F := F) S_ .f32 0x00000000#32) reducesTo_S32x2048_S_d0_1 h_S_) (constant (F := F) S_ .f32 0x47800000#32)))

/-- The mean of a `[32, 128]` array weighted by `0.4`, added to the term before it. -/
def advB (a : (⟨S_, .f32⟩ : BufTy).Contents (Elt F)) (x : (⟨S32x128, .f32⟩ : BufTy).Contents (Elt F)) :
    (⟨S_, .f32⟩ : BufTy).Contents (Elt F) :=
  (addf a (mulf (constant (F := F) S_ .f32 0x3ECCCCCD#32) (Host.divf (Host.reduceAdd x (constant (F := F) S_ .f32 0x00000000#32) reducesTo_S32x128_S_d0_1 h_S_) (constant (F := F) S_ .f32 0x45800000#32))))

/-- The last stretch: the mean of a `[32, 1]` array weighted by `0.2` added to the softplus terms before it, and the three terms of the result added. -/
def fin (x : (⟨S_, .f32⟩ : BufTy).Contents (Elt F)) (mu : (⟨S_, .f32⟩ : BufTy).Contents (Elt F)) (a : (⟨S_, .f32⟩ : BufTy).Contents (Elt F)) (y : (⟨S32x1, .f32⟩ : BufTy).Contents (Elt F)) :
    (⟨S_, .f32⟩ : BufTy).Contents (Elt F) :=
  (addf (addf x mu) (addf a (mulf (constant (F := F) S_ .f32 0x3E4CCCCD#32) (Host.divf (Host.reduceAdd y (constant (F := F) S_ .f32 0x00000000#32) reducesTo_S32x1_S_d0_1 h_S_) (constant (F := F) S_ .f32 0x42000000#32)))))

/-- The first token summand is the mean absolute step of the range indicator. -/
theorem mus1_eq (tok : (⟨S32x2048, .i32⟩ : BufTy).Contents (Elt F)) : mus1 (F := F) tok = absMean (diffF (inRange tok)) := rfl
/-- The remainder modulo 12 is the remainder by the scalar constant 12. -/
theorem rem12_eq (t : (⟨S32x2048, .i32⟩ : BufTy).Contents (Elt F)) : rem12 (F := F) t = remBy t (constantI S_ 32 12#32) := rfl
/-- The third token summand is the jump rate of the steps of the tokens read as floats. -/
theorem mus3_eq (t : (⟨S32x2048, .i32⟩ : BufTy).Contents (Elt F)) : mus3 (F := F) t = jumpMean (diffF (sitofp (F := F) .f32 t)) := rfl
/-- The softplus term and the sum of the result's three terms, as the last stretches cut them. -/
theorem fin_eq (x mu : (⟨S_, .f32⟩ : BufTy).Contents (Elt F)) (l : (⟨S32x2048, .f32⟩ : BufTy).Contents (Elt F)) (p : (⟨S32x128, .f32⟩ : BufTy).Contents (Elt F)) (g : (⟨S32x1, .f32⟩ : BufTy).Contents (Elt F)) :
    fin (F := F) x mu (advB (advA (spL (Host.negf l))) (spP (Host.negf p))) (spG (Host.negf g)) = addf (addf x mu) (adv l p g) := rfl

end Cert.KernelIdeal.KRun

end
-- ==== Proof.KTailWinA.lean ====
import proofs.«139213_j64381559767355_2_alg».proof.Proof.Gen.KernelIdeal.Launch
import proofs.«139213_j64381559767355_2_alg».proof.Proof.KTailWinDefs

/-! # Reading buffers through the host stretches around the three regions (the first three)

For each stretch, over any contents `W` of the buffers when the stretch is entered: what each buffer that is read later
holds when the stretch is left — the stretch's operations applied to the entry contents of the buffers they read
(`w…`), or the entry contents themselves when no operation of the stretch writes the buffer (`p…`). -/

set_option maxRecDepth 16384

noncomputable section

namespace Cert.KernelIdeal.KRun

open Cert.KernelIdeal Idealize.ShloMosaic Idealize.ShloMosaic.TcCoe Idealize.SL.Sem
open Cert.KernelIdeal.Gen

variable {F : FTy → Type} [FloatOps F]

/-! ## `hostOps1` -/

theorem wh1_v1 (W : Valuation τ sig (Elt F)) :
    StableHlo.after (hostOps1 (F := F)) W (Proc.devRef .tc main_v1)
      = coreSum (W (Proc.devRef .tc main_v0) : (⟨S2x1x1, .f32⟩ : BufTy).Contents (Elt F)) := by
  after_results <;> rfl

theorem ph1_arg1 (W : Valuation τ sig (Elt F)) :
    StableHlo.after (hostOps1 (F := F)) W (Proc.devRef .tc main_arg1) = W (Proc.devRef .tc main_arg1) := by
  after_results <;> rfl

theorem ph1_arg2 (W : Valuation τ sig (Elt F)) :
    StableHlo.after (hostOps1 (F := F)) W (Proc.devRef .tc main_arg2) = W (Proc.devRef .tc main_arg2) := by
  after_results <;> rfl

theorem ph1_arg3 (W : Valuation τ sig (Elt F)) :
    StableHlo.after (hostOps1 (F := F)) W (Proc.devRef .tc main_arg3) = W (Proc.devRef .tc main_arg3) := by
  after_results <;> rfl

theorem ph1_arg5 (W : Valuation τ sig (Elt F)) :
    StableHlo.after (hostOps1 (F := F)) W (Proc.devRef .tc main_arg5) = W (Proc.devRef .tc main_arg5) := by
  after_results <;> rfl

theorem ph1_arg6 (W : Valuation τ sig (Elt F)) :
    StableHlo.after (hostOps1 (F := F)) W (Proc.devRef .tc main_arg6) = W (Proc.devRef .tc main_arg6) := by
  after_results <;> rfl

theorem ph1_arg7 (W : Valuation τ sig (Elt F)) :
    StableHlo.after (hostOps1 (F := F)) W (Proc.devRef .tc main_arg7) = W (Proc.devRef .tc main_arg7) := by
  after_results <;> rfl

theorem ph1_arg8 (W : Valuation τ sig (Elt F)) :
    StableHlo.after (hostOps1 (F := F)) W (Proc.devRef .tc main_arg8) = W (Proc.devRef .tc main_arg8) := by
  after_results <;> rfl

theorem ph1_arg9 (W : Valuation τ sig (Elt F)) :
    StableHlo.after (hostOps1 (F := F)) W (Proc.devRef .tc main_arg9) = W (Proc.devRef .tc main_arg9) := by
  after_results <;> rfl

theorem ph1_arg10 (W : Valuation τ sig (Elt F)) :
    StableHlo.after (hostOps1 (F := F)) W (Proc.devRef .tc main_arg10) = W (Proc.devRef .tc main_arg10) := by
  after_results <;> rfl

theorem ph1_arg11 (W : Valuation τ sig (Elt F)) :
    StableHlo.after (hostOps1 (F := F)) W (Proc.devRef .tc main_arg11) = W (Proc.devRef .tc main_arg11) := by
  after_results <;> rfl

/-! ## `hostOps2` -/

theorem wh2_v3 (W : Valuation τ sig (Elt F)) :
    StableHlo.after (hostOps2 (F := F)) W (Proc.devRef .tc main_v3)
      = coreSum (W (Proc.devRef .tc main_v2) : (⟨S2x1x1, .f32⟩ : BufTy).Contents (Elt F)) := by
  after_results <;> rfl

theorem ph2_v1 (W : Valuation τ sig (Elt F)) :
    StableHlo.after (hostOps2 (F := F)) W (Proc.devRef .tc main_v1) = W (Proc.devRef .tc main_v1) := by
  after_results <;> rfl

theorem ph2_arg2 (W : Valuation τ sig (Elt F)) :
    StableHlo.after (hostOps2 (F := F)) W (Proc.devRef .tc main_arg2) = W (Proc.devRef .tc main_arg2) := by
  after_results <;> rfl

theorem ph2_arg3 (W : Valuation τ sig (Elt F)) :
    StableHlo.after (hostOps2 (F := F)) W (Proc.devRef .tc main_arg3) = W (Proc.devRef .tc main_arg3) := by
  after_results <;> rfl

theorem ph2_arg6 (W : Valuation τ sig (Elt F)) :
    StableHlo.after (hostOps2 (F := F)) W (Proc.devRef .tc main_arg6) = W (Proc.devRef .tc main_arg6) := by
  after_results <;> rfl

theorem ph2_arg7 (W : Valuation τ sig (Elt F)) :
    StableHlo.after (hostOps2 (F := F)) W (Proc.devRef .tc main_arg7) = W (Proc.devRef .tc main_arg7) := by
  after_results <;> rfl

theorem ph2_arg8 (W : Valuation τ sig (Elt F)) :
    StableHlo.after (hostOps2 (F := F)) W (Proc.devRef .tc main_arg8) = W (Proc.devRef .tc main_arg8) := by
  after_results <;> rfl

theorem ph2_arg9 (W : Valuation τ sig (Elt F)) :
    StableHlo.after (hostOps2 (F := F)) W (Proc.devRef .tc main_arg9) = W (Proc.devRef .tc main_arg9) := by
  after_results <;> rfl

theorem ph2_arg10 (W : Valuation τ sig (Elt F)) :
    StableHlo.after (hostOps2 (F := F)) W (Proc.devRef .tc main_arg10) = W (Proc.devRef .tc main_arg10) := by
  after_results <;> rfl

theorem ph2_arg11 (W : Valuation τ sig (Elt F)) :
    StableHlo.after (hostOps2 (F := F)) W (Proc.devRef .tc main_arg11) = W (Proc.devRef .tc main_arg11) := by
  after_results <;> rfl

/-! ## `hostOps3` -/

theorem w0_v42 (W : Valuation τ sig (Elt F)) :
    StableHlo.after (hostOps3 (F := F)) W (Proc.devRef .tc main_v42)
      = combine (mseL (W (Proc.devRef .tc main_v1) : (⟨S_, .f32⟩ : BufTy).Contents (Elt F))) (mseP (W (Proc.devRef .tc main_v3) : (⟨S_, .f32⟩ : BufTy).Contents (Elt F))) (featG (W (Proc.devRef .tc main_arg2) : (⟨S32x512, .f32⟩ : BufTy).Contents (Elt F)) (W (Proc.devRef .tc main_arg6) : (⟨S32x512, .f32⟩ : BufTy).Contents (Elt F))) (mseI (coreSum (W (Proc.devRef .tc main_v4) : (⟨S2x1x1, .f32⟩ : BufTy).Contents (Elt F)))) := by
  after_results_simp <;> rfl

theorem w0_v48 (W : Valuation τ sig (Elt F)) :
    StableHlo.after (hostOps3 (F := F)) W (Proc.devRef .tc main_v48)
      = inRange (W (Proc.devRef .tc main_arg11) : (⟨S32x2048, .i32⟩ : BufTy).Contents (Elt F)) := by
  after_results_simp <;> rfl

theorem p0_arg8 (W : Valuation τ sig (Elt F)) :
    StableHlo.after (hostOps3 (F := F)) W (Proc.devRef .tc main_arg8) = W (Proc.devRef .tc main_arg8) := by
  after_results_simp <;> rfl

theorem p0_arg9 (W : Valuation τ sig (Elt F)) :
    StableHlo.after (hostOps3 (F := F)) W (Proc.devRef .tc main_arg9) = W (Proc.devRef .tc main_arg9) := by
  after_results_simp <;> rfl

theorem p0_arg10 (W : Valuation τ sig (Elt F)) :
    StableHlo.after (hostOps3 (F := F)) W (Proc.devRef .tc main_arg10) = W (Proc.devRef .tc main_arg10) := by
  after_results_simp <;> rfl

theorem p0_arg11 (W : Valuation τ sig (Elt F)) :
    StableHlo.after (hostOps3 (F := F)) W (Proc.devRef .tc main_arg11) = W (Proc.devRef .tc main_arg11) := by
  after_results_simp <;> rfl

end Cert.KernelIdeal.KRun

end
-- ==== Proof.KTailWinB.lean ====
import proofs.«139213_j64381559767355_2_alg».proof.Proof.Gen.KernelIdeal.Launch
import proofs.«139213_j64381559767355_2_alg».proof.Proof.KTailWinDefs

/-! # Reading buffers through the host stretches of the token term

For each stretch, over any contents `W` of the buffers when the stretch is entered: what each buffer that is read later
holds when the stretch is left — the stretch's operations applied to the entry contents of the buffers they read
(`w…`), or the entry contents themselves when no operation of the stretch writes the buffer (`p…`). -/

set_option maxRecDepth 16384

noncomputable section

namespace Cert.KernelIdeal.KRun

open Cert.KernelIdeal Idealize.ShloMosaic Idealize.ShloMosaic.TcCoe Idealize.SL.Sem
open Cert.KernelIdeal.Gen

variable {F : FTy → Type} [FloatOps F]

/-! ## `hostOps3_1` -/

theorem w1_v49 (W : Valuation τ sig (Elt F)) :
    StableHlo.after (hostOps3_1 (F := F)) W (Proc.devRef .tc main_v49)
      = diffF (W (Proc.devRef .tc main_v48) : (⟨S32x2048, .f32⟩ : BufTy).Contents (Elt F)) := by
  after_results <;> rfl

theorem p1_arg11 (W : Valuation τ sig (Elt F)) :
    StableHlo.after (hostOps3_1 (F := F)) W (Proc.devRef .tc main_arg11) = W (Proc.devRef .tc main_arg11) := by
  after_results <;> rfl

theorem p1_arg8 (W : Valuation τ sig (Elt F)) :
    StableHlo.after (hostOps3_1 (F := F)) W (Proc.devRef .tc main_arg8) = W (Proc.devRef .tc main_arg8) := by
  after_results <;> rfl

theorem p1_arg9 (W : Valuation τ sig (Elt F)) :
    StableHlo.after (hostOps3_1 (F := F)) W (Proc.devRef .tc main_arg9) = W (Proc.devRef .tc main_arg9) := by
  after_results <;> rfl

theorem p1_arg10 (W : Valuation τ sig (Elt F)) :
    StableHlo.after (hostOps3_1 (F := F)) W (Proc.devRef .tc main_arg10) = W (Proc.devRef .tc main_arg10) := by
  after_results <;> rfl

theorem p1_v42 (W : Valuation τ sig (Elt F)) :
    StableHlo.after (hostOps3_1 (F := F)) W (Proc.devRef .tc main_v42) = W (Proc.devRef .tc main_v42) := by
  after_results <;> rfl

/-! ## `hostOps3_2` -/

theorem w2_v52 (W : Valuation τ sig (Elt F)) :
    StableHlo.after (hostOps3_2 (F := F)) W (Proc.devRef .tc main_v52)
      = absMean (W (Proc.devRef .tc main_v49) : (⟨S32x2047, .f32⟩ : BufTy).Contents (Elt F)) := by
  after_results <;> rfl

theorem w2_v56 (W : Valuation τ sig (Elt F)) :
    StableHlo.after (hostOps3_2 (F := F)) W (Proc.devRef .tc main_v56)
      = tokm (W (Proc.devRef .tc main_arg11) : (⟨S32x2048, .i32⟩ : BufTy).Contents (Elt F)) := by
  after_results <;> rfl

theorem w2_c_24 (W : Valuation τ sig (Elt F)) :
    StableHlo.after (hostOps3_2 (F := F)) W (Proc.devRef .tc main_c_24)
      = (constantI S_ 32 12#32 : (⟨S_, .i32⟩ : BufTy).Contents (Elt F)) := by
  after_results <;> rfl

theorem p2_arg8 (W : Valuation τ sig (Elt F)) :
    StableHlo.after (hostOps3_2 (F := F)) W (Proc.devRef .tc main_arg8) = W (Proc.devRef .tc main_arg8) := by
  after_results <;> rfl

theorem p2_arg9 (W : Valuation τ sig (Elt F)) :
    StableHlo.after (hostOps3_2 (F := F)) W (Proc.devRef .tc main_arg9) = W (Proc.devRef .tc main_arg9) := by
  after_results <;> rfl

theorem p2_arg10 (W : Valuation τ sig (Elt F)) :
    StableHlo.after (hostOps3_2 (F := F)) W (Proc.devRef .tc main_arg10) = W (Proc.devRef .tc main_arg10) := by
  after_results <;> rfl

theorem p2_v42 (W : Valuation τ sig (Elt F)) :
    StableHlo.after (hostOps3_2 (F := F)) W (Proc.devRef .tc main_v42) = W (Proc.devRef .tc main_v42) := by
  after_results <;> rfl

/-! ## `hostOps3_3` -/

set_option maxHeartbeats 400000 in
theorem w3_v57 (W : Valuation τ sig (Elt F)) :
    StableHlo.after (hostOps3_3 (F := F)) W (Proc.devRef .tc main_v57)
      = remBy (W (Proc.devRef .tc main_v56) : (⟨S32x2048, .i32⟩ : BufTy).Contents (Elt F)) (W (Proc.devRef .tc main_c_24) : (⟨S_, .i32⟩ : BufTy).Contents (Elt F)) := by
  after_results_simp <;> rfl

theorem p3_v56 (W : Valuation τ sig (Elt F)) :
    StableHlo.after (hostOps3_3 (F := F)) W (Proc.devRef .tc main_v56) = W (Proc.devRef .tc main_v56) := by
  after_results <;> rfl

theorem p3_v52 (W : Valuation τ sig (Elt F)) :
    StableHlo.after (hostOps3_3 (F := F)) W (Proc.devRef .tc main_v52) = W (Proc.devRef .tc main_v52) := by
  after_results <;> rfl

theorem p3_arg8 (W : Valuation τ sig (Elt F)) :
    StableHlo.after (hostOps3_3 (F := F)) W (Proc.devRef .tc main_arg8) = W (Proc.devRef .tc main_arg8) := by
  after_results <;> rfl

theorem p3_arg9 (W : Valuation τ sig (Elt F)) :
    StableHlo.after (hostOps3_3 (F := F)) W (Proc.devRef .tc main_arg9) = W (Proc.devRef .tc main_arg9) := by
  after_results <;> rfl

theorem p3_arg10 (W : Valuation τ sig (Elt F)) :
    StableHlo.after (hostOps3_3 (F := F)) W (Proc.devRef .tc main_arg10) = W (Proc.devRef .tc main_arg10) := by
  after_results <;> rfl

theorem p3_v42 (W : Valuation τ sig (Elt F)) :
    StableHlo.after (hostOps3_3 (F := F)) W (Proc.devRef .tc main_v42) = W (Proc.devRef .tc main_v42) := by
  after_results <;> rfl

/-! ## `hostOps3_4` -/

theorem w4_v72 (W : Valuation τ sig (Elt F)) :
    StableHlo.after (hostOps3_4 (F := F)) W (Proc.devRef .tc main_v72)
      = mus2 (W (Proc.devRef .tc main_v57) : (⟨S32x2048, .i32⟩ : BufTy).Contents (Elt F)) := by
  after_results <;> rfl

theorem w4_v73 (W : Valuation τ sig (Elt F)) :
    StableHlo.after (hostOps3_4 (F := F)) W (Proc.devRef .tc main_v73)
      = (sitofp (F := F) .f32 (W (Proc.devRef .tc main_v56) : (⟨S32x2048, .i32⟩ : BufTy).Contents (Elt F)) : (⟨S32x2048, .f32⟩ : BufTy).Contents (Elt F)) := by
  after_results <;> rfl

theorem p4_v52 (W : Valuation τ sig (Elt F)) :
    StableHlo.after (hostOps3_4 (F := F)) W (Proc.devRef .tc main_v52) = W (Proc.devRef .tc main_v52) := by
  after_results <;> rfl

theorem p4_arg8 (W : Valuation τ sig (Elt F)) :
    StableHlo.after (hostOps3_4 (F := F)) W (Proc.devRef .tc main_arg8) = W (Proc.devRef .tc main_arg8) := by
  after_results <;> rfl

theorem p4_arg9 (W : Valuation τ sig (Elt F)) :
    StableHlo.after (hostOps3_4 (F := F)) W (Proc.devRef .tc main_arg9) = W (Proc.devRef .tc main_arg9) := by
  after_results <;> rfl

theorem p4_arg10 (W : Valuation τ sig (Elt F)) :
    StableHlo.after (hostOps3_4 (F := F)) W (Proc.devRef .tc main_arg10) = W (Proc.devRef .tc main_arg10) := by
  after_results <;> rfl

theorem p4_v42 (W : Valuation τ sig (Elt F)) :
    StableHlo.after (hostOps3_4 (F := F)) W (Proc.devRef .tc main_v42) = W (Proc.devRef .tc main_v42) := by
  after_results <;> rfl

/-! ## `hostOps3_5` -/

theorem w5_v74 (W : Valuation τ sig (Elt F)) :
    StableHlo.after (hostOps3_5 (F := F)) W (Proc.devRef .tc main_v74)
      = diffF (W (Proc.devRef .tc main_v73) : (⟨S32x2048, .f32⟩ : BufTy).Contents (Elt F)) := by
  after_results <;> rfl

theorem p5_v52 (W : Valuation τ sig (Elt F)) :
    StableHlo.after (hostOps3_5 (F := F)) W (Proc.devRef .tc main_v52) = W (Proc.devRef .tc main_v52) := by
  after_results <;> rfl

theorem p5_v72 (W : Valuation τ sig (Elt F)) :
    StableHlo.after (hostOps3_5 (F := F)) W (Proc.devRef .tc main_v72) = W (Proc.devRef .tc main_v72) := by
  after_results <;> rfl

theorem p5_arg8 (W : Valuation τ sig (Elt F)) :
    StableHlo.after (hostOps3_5 (F := F)) W (Proc.devRef .tc main_arg8) = W (Proc.devRef .tc main_arg8) := by
  after_results <;> rfl

theorem p5_arg9 (W : Valuation τ sig (Elt F)) :
    StableHlo.after (hostOps3_5 (F := F)) W (Proc.devRef .tc main_arg9) = W (Proc.devRef .tc main_arg9) := by
  after_results <;> rfl

theorem p5_arg10 (W : Valuation τ sig (Elt F)) :
    StableHlo.after (hostOps3_5 (F := F)) W (Proc.devRef .tc main_arg10) = W (Proc.devRef .tc main_arg10) := by
  after_results <;> rfl

theorem p5_v42 (W : Valuation τ sig (Elt F)) :
    StableHlo.after (hostOps3_5 (F := F)) W (Proc.devRef .tc main_v42) = W (Proc.devRef .tc main_v42) := by
  after_results <;> rfl

/-! ## `hostOps3_6` -/

theorem w6_v82 (W : Valuation τ sig (Elt F)) :
    StableHlo.after (hostOps3_6 (F := F)) W (Proc.devRef .tc main_v82)
      = addf (addf (W (Proc.devRef .tc main_v52) : (⟨S_, .f32⟩ : BufTy).Contents (Elt F)) (W (Proc.devRef .tc main_v72) : (⟨S_, .f32⟩ : BufTy).Contents (Elt F))) (jumpMean (W (Proc.devRef .tc main_v74) : (⟨S32x2047, .f32⟩ : BufTy).Contents (Elt F))) := by
  after_results <;> rfl

theorem w6_v83 (W : Valuation τ sig (Elt F)) :
    StableHlo.after (hostOps3_6 (F := F)) W (Proc.devRef .tc main_v83)
      = (Host.negf (W (Proc.devRef .tc main_arg8) : (⟨S32x2048, .f32⟩ : BufTy).Contents (Elt F)) : (⟨S32x2048, .f32⟩ : BufTy).Contents (Elt F)) := by
  after_results <;> rfl

theorem p6_arg9 (W : Valuation τ sig (Elt F)) :
    StableHlo.after (hostOps3_6 (F := F)) W (Proc.devRef .tc main_arg9) = W (Proc.devRef .tc main_arg9) := by
  after_results <;> rfl

theorem p6_arg10 (W : Valuation τ sig (Elt F)) :
    StableHlo.after (hostOps3_6 (F := F)) W (Proc.devRef .tc main_arg10) = W (Proc.devRef .tc main_arg10) := by
  after_results <;> rfl

theorem p6_v42 (W : Valuation τ sig (Elt F)) :
    StableHlo.after (hostOps3_6 (F := F)) W (Proc.devRef .tc main_v42) = W (Proc.devRef .tc main_v42) := by
  after_results <;> rfl

end Cert.KernelIdeal.KRun

end
-- ==== Proof.KTailWinC.lean ====
import proofs.«139213_j64381559767355_2_alg».proof.Proof.Gen.KernelIdeal.Launch
import proofs.«139213_j64381559767355_2_alg».proof.Proof.KTailWinDefs

/-! # Reading buffers through the host stretches of the softplus term and of the last sum

For each stretch, over any contents `W` of the buffers when the stretch is entered: what each buffer that is read later
holds when the stretch is left — the stretch's operations applied to the entry contents of the buffers they read
(`w…`), or the entry contents themselves when no operation of the stretch writes the buffer (`p…`). -/

set_option maxRecDepth 16384

noncomputable section

namespace Cert.KernelIdeal.KRun

open Cert.KernelIdeal Idealize.ShloMosaic Idealize.ShloMosaic.TcCoe Idealize.SL.Sem
open Cert.KernelIdeal.Gen

variable {F : FTy → Type} [FloatOps F]

/-! ## `hostOps3_7` -/

theorem w7_v84 (W : Valuation τ sig (Elt F)) :
    StableHlo.after (hostOps3_7 (F := F)) W (Proc.devRef .tc main_v84)
      = spL (W (Proc.devRef .tc main_v83) : (⟨S32x2048, .f32⟩ : BufTy).Contents (Elt F)) := by
  after_results <;> rfl

theorem p7_arg9 (W : Valuation τ sig (Elt F)) :
    StableHlo.after (hostOps3_7 (F := F)) W (Proc.devRef .tc main_arg9) = W (Proc.devRef .tc main_arg9) := by
  after_results <;> rfl

theorem p7_arg10 (W : Valuation τ sig (Elt F)) :
    StableHlo.after (hostOps3_7 (F := F)) W (Proc.devRef .tc main_arg10) = W (Proc.devRef .tc main_arg10) := by
  after_results <;> rfl

theorem p7_v42 (W : Valuation τ sig (Elt F)) :
    StableHlo.after (hostOps3_7 (F := F)) W (Proc.devRef .tc main_v42) = W (Proc.devRef .tc main_v42) := by
  after_results <;> rfl

theorem p7_v82 (W : Valuation τ sig (Elt F)) :
    StableHlo.after (hostOps3_7 (F := F)) W (Proc.devRef .tc main_v82) = W (Proc.devRef .tc main_v82) := by
  after_results <;> rfl

/-! ## `hostOps3_8` -/

theorem w8_v87 (W : Valuation τ sig (Elt F)) :
    StableHlo.after (hostOps3_8 (F := F)) W (Proc.devRef .tc main_v87)
      = advA (W (Proc.devRef .tc main_v84) : (⟨S32x2048, .f32⟩ : BufTy).Contents (Elt F)) := by
  after_results <;> rfl

theorem w8_v88 (W : Valuation τ sig (Elt F)) :
    StableHlo.after (hostOps3_8 (F := F)) W (Proc.devRef .tc main_v88)
      = (Host.negf (W (Proc.devRef .tc main_arg9) : (⟨S32x128, .f32⟩ : BufTy).Contents (Elt F)) : (⟨S32x128, .f32⟩ : BufTy).Contents (Elt F)) := by
  after_results <;> rfl

theorem p8_arg10 (W : Valuation τ sig (Elt F)) :
    StableHlo.after (hostOps3_8 (F := F)) W (Proc.devRef .tc main_arg10) = W (Proc.devRef .tc main_arg10) := by
  after_results <;> rfl

theorem p8_v42 (W : Valuation τ sig (Elt F)) :
    StableHlo.after (hostOps3_8 (F := F)) W (Proc.devRef .tc main_v42) = W (Proc.devRef .tc main_v42) := by
  after_results <;> rfl

theorem p8_v82 (W : Valuation τ sig (Elt F)) :
    StableHlo.after (hostOps3_8 (F := F)) W (Proc.devRef .tc main_v82) = W (Proc.devRef .tc main_v82) := by
  after_results <;> rfl

/-! ## `hostOps3_9` -/

theorem w9_v89 (W : Valuation τ sig (Elt F)) :
    StableHlo.after (hostOps3_9 (F := F)) W (Proc.devRef .tc main_v89)
      = spP (W (Proc.devRef .tc main_v88) : (⟨S32x128, .f32⟩ : BufTy).Contents (Elt F)) := by
  after_results <;> rfl

theorem p9_v87 (W : Valuation τ sig (Elt F)) :
    StableHlo.after (hostOps3_9 (F := F)) W (Proc.devRef .tc main_v87) = W (Proc.devRef .tc main_v87) := by
  after_results <;> rfl

theorem p9_arg10 (W : Valuation τ sig (Elt F)) :
    StableHlo.after (hostOps3_9 (F := F)) W (Proc.devRef .tc main_arg10) = W (Proc.devRef .tc main_arg10) := by
  after_results <;> rfl

theorem p9_v42 (W : Valuation τ sig (Elt F)) :
    StableHlo.after (hostOps3_9 (F := F)) W (Proc.devRef .tc main_v42) = W (Proc.devRef .tc main_v42) := by
  after_results <;> rfl

theorem p9_v82 (W : Valuation τ sig (Elt F)) :
    StableHlo.after (hostOps3_9 (F := F)) W (Proc.devRef .tc main_v82) = W (Proc.devRef .tc main_v82) := by
  after_results <;> rfl

/-! ## `hostOps3_10` -/

theorem w10_v93 (W : Valuation τ sig (Elt F)) :
    StableHlo.after (hostOps3_10 (F := F)) W (Proc.devRef .tc main_v93)
      = advB (W (Proc.devRef .tc main_v87) : (⟨S_, .f32⟩ : BufTy).Contents (Elt F)) (W (Proc.devRef .tc main_v89) : (⟨S32x128, .f32⟩ : BufTy).Contents (Elt F)) := by
  after_results <;> rfl

theorem w10_v94 (W : Valuation τ sig (Elt F)) :
    StableHlo.after (hostOps3_10 (F := F)) W (Proc.devRef .tc main_v94)
      = (Host.negf (W (Proc.devRef .tc main_arg10) : (⟨S32x1, .f32⟩ : BufTy).Contents (Elt F)) : (⟨S32x1, .f32⟩ : BufTy).Contents (Elt F)) := by
  after_results <;> rfl

theorem p10_v42 (W : Valuation τ sig (Elt F)) :
    StableHlo.after (hostOps3_10 (F := F)) W (Proc.devRef .tc main_v42) = W (Proc.devRef .tc main_v42) := by
  after_results <;> rfl

theorem p10_v82 (W : Valuation τ sig (Elt F)) :
    StableHlo.after (hostOps3_10 (F := F)) W (Proc.devRef .tc main_v82) = W (Proc.devRef .tc main_v82) := by
  after_results <;> rfl

/-! ## `hostOps3_11` -/

theorem w11_v95 (W : Valuation τ sig (Elt F)) :
    StableHlo.after (hostOps3_11 (F := F)) W (Proc.devRef .tc main_v95)
      = spG (W (Proc.devRef .tc main_v94) : (⟨S32x1, .f32⟩ : BufTy).Contents (Elt F)) := by
  after_results <;> rfl

theorem p11_v42 (W : Valuation τ sig (Elt F)) :
    StableHlo.after (hostOps3_11 (F := F)) W (Proc.devRef .tc main_v42) = W (Proc.devRef .tc main_v42) := by
  after_results <;> rfl

theorem p11_v82 (W : Valuation τ sig (Elt F)) :
    StableHlo.after (hostOps3_11 (F := F)) W (Proc.devRef .tc main_v82) = W (Proc.devRef .tc main_v82) := by
  after_results <;> rfl

theorem p11_v93 (W : Valuation τ sig (Elt F)) :
    StableHlo.after (hostOps3_11 (F := F)) W (Proc.devRef .tc main_v93) = W (Proc.devRef .tc main_v93) := by
  after_results <;> rfl

/-! ## `hostOps3_12` -/

theorem w12_v101 (W : Valuation τ sig (Elt F)) :
    StableHlo.after (hostOps3_12 (F := F)) W (Proc.devRef .tc main_v101)
      = fin (W (Proc.devRef .tc main_v42) : (⟨S_, .f32⟩ : BufTy).Contents (Elt F)) (W (Proc.devRef .tc main_v82) : (⟨S_, .f32⟩ : BufTy).Contents (Elt F)) (W (Proc.devRef .tc main_v93) : (⟨S_, .f32⟩ : BufTy).Contents (Elt F)) (W (Proc.devRef .tc main_v95) : (⟨S32x1, .f32⟩ : BufTy).Contents (Elt F)) := by
  after_results <;> rfl

end Cert.KernelIdeal.KRun

end
-- ==== Proof.KTail.lean ====
import proofs.«139213_j64381559767355_2_alg».proof.Proof.Gen.KernelIdeal.Frame
import proofs.«139213_j64381559767355_2_alg».proof.Proof.KTailWinA
import proofs.«139213_j64381559767355_2_alg».proof.Proof.KTailWinB
import proofs.«139213_j64381559767355_2_alg».proof.Proof.KTailWinC

/-! # The kernel program's result as a term

The run's last boundary contents `Gen.W18` at the result buffer, read back stretch by stretch through the host
operations to the three regions' output arrays (as the regions leave them) and to the argument arrays (as launched):
`result_eq`. Every step is one stretch's reading (KTailWinA/B/C) at the boundary contents before it. -/

set_option maxRecDepth 16384

noncomputable section

namespace Cert.KernelIdeal.KRun

open Cert.KernelIdeal Idealize.ShloMosaic Idealize.ShloMosaic.TcCoe Idealize.SL.Sem
open Cert.KernelIdeal.Gen

variable {F : FTy → Type} [FloatOps F]
variable (m : (ℓ : Loc nD τ sig) → Buf (Elt F) ℓ) (ρ : Dev nD → PrngReg)

/-! ## Each stretch's readings at the run's boundary contents -/

theorem W6_v42 (c : Dev nD) :
    Gen.W6 m ρ c (Proc.devRef .tc main_v42)
      = combine (mseL (Gen.W5 m ρ c (Proc.devRef .tc main_v1) : (⟨S_, .f32⟩ : BufTy).Contents (Elt F))) (mseP (Gen.W5 m ρ c (Proc.devRef .tc main_v3) : (⟨S_, .f32⟩ : BufTy).Contents (Elt F))) (featG (Gen.W5 m ρ c (Proc.devRef .tc main_arg2) : (⟨S32x512, .f32⟩ : BufTy).Contents (Elt F)) (Gen.W5 m ρ c (Proc.devRef .tc main_arg6) : (⟨S32x512, .f32⟩ : BufTy).Contents (Elt F))) (mseI (coreSum (Gen.W5 m ρ c (Proc.devRef .tc main_v4) : (⟨S2x1x1, .f32⟩ : BufTy).Contents (Elt F)))) :=
  w0_v42 (Gen.W5 m ρ c)
theorem W6_v48 (c : Dev nD) :
    Gen.W6 m ρ c (Proc.devRef .tc main_v48)
      = inRange (Gen.W5 m ρ c (Proc.devRef .tc main_arg11) : (⟨S32x2048, .i32⟩ : BufTy).Contents (Elt F)) :=
  w0_v48 (Gen.W5 m ρ c)
theorem W7_v49 (c : Dev nD) :
    Gen.W7 m ρ c (Proc.devRef .tc main_v49)
      = diffF (Gen.W6 m ρ c (Proc.devRef .tc main_v48) : (⟨S32x2048, .f32⟩ : BufTy).Contents (Elt F)) :=
  w1_v49 (Gen.W6 m ρ c)
theorem W8_v52 (c : Dev nD) :
    Gen.W8 m ρ c (Proc.devRef .tc main_v52)
      = absMean (Gen.W7 m ρ c (Proc.devRef .tc main_v49) : (⟨S32x2047, .f32⟩ : BufTy).Contents (Elt F)) :=
  w2_v52 (Gen.W7 m ρ c)
theorem W8_v56 (c : Dev nD) :
    Gen.W8 m ρ c (Proc.devRef .tc main_v56)
      = tokm (Gen.W7 m ρ c (Proc.devRef .tc main_arg11) : (⟨S32x2048, .i32⟩ : BufTy).Contents (Elt F)) :=
  w2_v56 (Gen.W7 m ρ c)
theorem W8_c_24 (c : Dev nD) :
    Gen.W8 m ρ c (Proc.devRef .tc main_c_24)
      = (constantI S_ 32 12#32 : (⟨S_, .i32⟩ : BufTy).Contents (Elt F)) :=
  w2_c_24 (Gen.W7 m ρ c)
theorem W9_v57 (c : Dev nD) :
    Gen.W9 m ρ c (Proc.devRef .tc main_v57)
      = remBy (Gen.W8 m ρ c (Proc.devRef .tc main_v56) : (⟨S32x2048, .i32⟩ : BufTy).Contents (Elt F)) (Gen.W8 m ρ c (Proc.devRef .tc main_c_24) : (⟨S_, .i32⟩ : BufTy).Contents (Elt F)) :=
  w3_v57 (Gen.W8 m ρ c)
theorem W10_v72 (c : Dev nD) :
    Gen.W10 m ρ c (Proc.devRef .tc main_v72)
      = mus2 (Gen.W9 m ρ c (Proc.devRef .tc main_v57) : (⟨S32x2048, .i32⟩ : BufTy).Contents (Elt F)) :=
  w4_v72 (Gen.W9 m ρ c)
theorem W10_v73 (c : Dev nD) :
    Gen.W10 m ρ c (Proc.devRef .tc main_v73)
      = (sitofp (F := F) .f32 (Gen.W9 m ρ c (Proc.devRef .tc main_v56) : (⟨S32x2048, .i32⟩ : BufTy).Contents (Elt F)) : (⟨S32x2048, .f32⟩ : BufTy).Contents (Elt F)) :=
  w4_v73 (Gen.W9 m ρ c)
theorem W11_v74 (c : Dev nD) :
    Gen.W11 m ρ c (Proc.devRef .tc main_v74)
      = diffF (Gen.W10 m ρ c (Proc.devRef .tc main_v73) : (⟨S32x2048, .f32⟩ : BufTy).Contents (Elt F)) :=
  w5_v74 (Gen.W10 m ρ c)
theorem W12_v82 (c : Dev nD) :
    Gen.W12 m ρ c (Proc.devRef .tc main_v82)
      = addf (addf (Gen.W11 m ρ c (Proc.devRef .tc main_v52) : (⟨S_, .f32⟩ : BufTy).Contents (Elt F)) (Gen.W11 m ρ c (Proc.devRef .tc main_v72) : (⟨S_, .f32⟩ : BufTy).Contents (Elt F))) (jumpMean (Gen.W11 m ρ c (Proc.devRef .tc main_v74) : (⟨S32x2047, .f32⟩ : BufTy).Contents (Elt F))) :=
  w6_v82 (Gen.W11 m ρ c)
theorem W12_v83 (c : Dev nD) :
    Gen.W12 m ρ c (Proc.devRef .tc main_v83)
      = (Host.negf (Gen.W11 m ρ c (Proc.devRef .tc main_arg8) : (⟨S32x2048, .f32⟩ : BufTy).Contents (Elt F)) : (⟨S32x2048, .f32⟩ : BufTy).Contents (Elt F)) :=
  w6_v83 (Gen.W11 m ρ c)
theorem W13_v84 (c : Dev nD) :
    Gen.W13 m ρ c (Proc.devRef .tc main_v84)
      = spL (Gen.W12 m ρ c (Proc.devRef .tc main_v83) : (⟨S32x2048, .f32⟩ : BufTy).Contents (Elt F)) :=
  w7_v84 (Gen.W12 m ρ c)
theorem W14_v87 (c : Dev nD) :
    Gen.W14 m ρ c (Proc.devRef .tc main_v87)
      = advA (Gen.W13 m ρ c (Proc.devRef .tc main_v84) : (⟨S32x2048, .f32⟩ : BufTy).Contents (Elt F)) :=
  w8_v87 (Gen.W13 m ρ c)
theorem W14_v88 (c : Dev nD) :
    Gen.W14 m ρ c (Proc.devRef .tc main_v88)
      = (Host.negf (Gen.W13 m ρ c (Proc.devRef .tc main_arg9) : (⟨S32x128, .f32⟩ : BufTy).Contents (Elt F)) : (⟨S32x128, .f32⟩ : BufTy).Contents (Elt F)) :=
  w8_v88 (Gen.W13 m ρ c)
theorem W15_v89 (c : Dev nD) :
    Gen.W15 m ρ c (Proc.devRef .tc main_v89)
      = spP (Gen.W14 m ρ c (Proc.devRef .tc main_v88) : (⟨S32x128, .f32⟩ : BufTy).Contents (Elt F)) :=
  w9_v89 (Gen.W14 m ρ c)
theorem W16_v93 (c : Dev nD) :
    Gen.W16 m ρ c (Proc.devRef .tc main_v93)
      = advB (Gen.W15 m ρ c (Proc.devRef .tc main_v87) : (⟨S_, .f32⟩ : BufTy).Contents (Elt F)) (Gen.W15 m ρ c (Proc.devRef .tc main_v89) : (⟨S32x128, .f32⟩ : BufTy).Contents (Elt F)) :=
  w10_v93 (Gen.W15 m ρ c)
theorem W16_v94 (c : Dev nD) :
    Gen.W16 m ρ c (Proc.devRef .tc main_v94)
      = (Host.negf (Gen.W15 m ρ c (Proc.devRef .tc main_arg10) : (⟨S32x1, .f32⟩ : BufTy).Contents (Elt F)) : (⟨S32x1, .f32⟩ : BufTy).Contents (Elt F)) :=
  w10_v94 (Gen.W15 m ρ c)
theorem W17_v95 (c : Dev nD) :
    Gen.W17 m ρ c (Proc.devRef .tc main_v95)
      = spG (Gen.W16 m ρ c (Proc.devRef .tc main_v94) : (⟨S32x1, .f32⟩ : BufTy).Contents (Elt F)) :=
  w11_v95 (Gen.W16 m ρ c)
theorem W18_v101 (c : Dev nD) :
    Gen.W18 m ρ c (Proc.devRef .tc main_v101)
      = fin (Gen.W17 m ρ c (Proc.devRef .tc main_v42) : (⟨S_, .f32⟩ : BufTy).Contents (Elt F)) (Gen.W17 m ρ c (Proc.devRef .tc main_v82) : (⟨S_, .f32⟩ : BufTy).Contents (Elt F)) (Gen.W17 m ρ c (Proc.devRef .tc main_v93) : (⟨S_, .f32⟩ : BufTy).Contents (Elt F)) (Gen.W17 m ρ c (Proc.devRef .tc main_v95) : (⟨S32x1, .f32⟩ : BufTy).Contents (Elt F)) :=
  w12_v101 (Gen.W17 m ρ c)

/-! ## The argument arrays and the regions' sums at the last region's exit -/

theorem W5_arg2 (c : Dev nD) : Gen.W5 m ρ c (Proc.devRef .tc main_arg2) = m ((c : Thread nD τ).loc main_arg2) :=
  (Gen.W5_of_ne m ρ c main_arg2 (by decide)).trans ((ph2_arg2 (Gen.W3 m ρ c)).trans ((Gen.W3_of_ne m ρ c main_arg2 (by decide)).trans
    ((ph1_arg2 (Gen.W1 m ρ c)).trans ((Gen.W1_of_ne m ρ c main_arg2 (by decide)).trans rfl))))
theorem W5_arg6 (c : Dev nD) : Gen.W5 m ρ c (Proc.devRef .tc main_arg6) = m ((c : Thread nD τ).loc main_arg6) :=
  (Gen.W5_of_ne m ρ c main_arg6 (by decide)).trans ((ph2_arg6 (Gen.W3 m ρ c)).trans ((Gen.W3_of_ne m ρ c main_arg6 (by decide)).trans
    ((ph1_arg6 (Gen.W1 m ρ c)).trans ((Gen.W1_of_ne m ρ c main_arg6 (by decide)).trans rfl))))
theorem W5_arg8 (c : Dev nD) : Gen.W5 m ρ c (Proc.devRef .tc main_arg8) = m ((c : Thread nD τ).loc main_arg8) :=
  (Gen.W5_of_ne m ρ c main_arg8 (by decide)).trans ((ph2_arg8 (Gen.W3 m ρ c)).trans ((Gen.W3_of_ne m ρ c main_arg8 (by decide)).trans
    ((ph1_arg8 (Gen.W1 m ρ c)).trans ((Gen.W1_of_ne m ρ c main_arg8 (by decide)).trans rfl))))
theorem W5_arg9 (c : Dev nD) : Gen.W5 m ρ c (Proc.devRef .tc main_arg9) = m ((c : Thread nD τ).loc main_arg9) :=
  (Gen.W5_of_ne m ρ c main_arg9 (by decide)).trans ((ph2_arg9 (Gen.W3 m ρ c)).trans ((Gen.W3_of_ne m ρ c main_arg9 (by decide)).trans
    ((ph1_arg9 (Gen.W1 m ρ c)).trans ((Gen.W1_of_ne m ρ c main_arg9 (by decide)).trans rfl))))
theorem W5_arg10 (c : Dev nD) : Gen.W5 m ρ c (Proc.devRef .tc main_arg10) = m ((c : Thread nD τ).loc main_arg10) :=
  (Gen.W5_of_ne m ρ c main_arg10 (by decide)).trans ((ph2_arg10 (Gen.W3 m ρ c)).trans ((Gen.W3_of_ne m ρ c main_arg10 (by decide)).trans
    ((ph1_arg10 (Gen.W1 m ρ c)).trans ((Gen.W1_of_ne m ρ c main_arg10 (by decide)).trans rfl))))
theorem W5_arg11 (c : Dev nD) : Gen.W5 m ρ c (Proc.devRef .tc main_arg11) = m ((c : Thread nD τ).loc main_arg11) :=
  (Gen.W5_of_ne m ρ c main_arg11 (by decide)).trans ((ph2_arg11 (Gen.W3 m ρ c)).trans ((Gen.W3_of_ne m ρ c main_arg11 (by decide)).trans
    ((ph1_arg11 (Gen.W1 m ρ c)).trans ((Gen.W1_of_ne m ρ c main_arg11 (by decide)).trans rfl))))
/-- Region 0's output summed over the cores, unchanged since the stretch after region 0. -/
theorem W5_v1 (c : Dev nD) : Gen.W5 m ρ c (Proc.devRef .tc main_v1) = coreSum ((Gen.dat0 (Gen.V0 m ρ) c).arrAt 2 cfg0.N) :=
  (Gen.W5_of_ne m ρ c main_v1 (by decide)).trans ((ph2_v1 (Gen.W3 m ρ c)).trans ((Gen.W3_of_ne m ρ c main_v1 (by decide)).trans
    ((wh1_v1 (Gen.W1 m ρ c)).trans (congrArg (coreSum (F := F)) (Gen.W1_arr m ρ c 2)))))
/-- Region 1's output summed over the cores. -/
theorem W5_v3 (c : Dev nD) : Gen.W5 m ρ c (Proc.devRef .tc main_v3) = coreSum ((Gen.dat1 (Gen.V2 m ρ) c).arrAt 2 cfg1.N) :=
  (Gen.W5_of_ne m ρ c main_v3 (by decide)).trans ((wh2_v3 (Gen.W3 m ρ c)).trans (congrArg (coreSum (F := F)) (Gen.W3_arr m ρ c 2)))
/-- Region 2's output, as the region leaves it. -/
theorem W5_v4 (c : Dev nD) : Gen.W5 m ρ c (Proc.devRef .tc main_v4) = (Gen.dat2 (Gen.V4 m ρ) c).arrAt 2 cfg2.N :=
  Gen.W5_arr m ρ c 2

/-! ## Buffers carried unchanged through the stretches that do not write them -/

theorem W17_v42 (c : Dev nD) : Gen.W17 m ρ c (Proc.devRef .tc main_v42) = Gen.W6 m ρ c (Proc.devRef .tc main_v42) :=
  ((p11_v42 (Gen.W16 m ρ c)).trans ((p10_v42 (Gen.W15 m ρ c)).trans ((p9_v42 (Gen.W14 m ρ c)).trans ((p8_v42 (Gen.W13 m ρ c)).trans ((p7_v42 (Gen.W12 m ρ c)).trans ((p6_v42 (Gen.W11 m ρ c)).trans ((p5_v42 (Gen.W10 m ρ c)).trans ((p4_v42 (Gen.W9 m ρ c)).trans ((p3_v42 (Gen.W8 m ρ c)).trans ((p2_v42 (Gen.W7 m ρ c)).trans (p1_v42 (Gen.W6 m ρ c))))))))))))
theorem W17_v82 (c : Dev nD) : Gen.W17 m ρ c (Proc.devRef .tc main_v82) = Gen.W12 m ρ c (Proc.devRef .tc main_v82) :=
  ((p11_v82 (Gen.W16 m ρ c)).trans ((p10_v82 (Gen.W15 m ρ c)).trans ((p9_v82 (Gen.W14 m ρ c)).trans ((p8_v82 (Gen.W13 m ρ c)).trans (p7_v82 (Gen.W12 m ρ c))))))
theorem W17_v93 (c : Dev nD) : Gen.W17 m ρ c (Proc.devRef .tc main_v93) = Gen.W16 m ρ c (Proc.devRef .tc main_v93) :=
  (p11_v93 (Gen.W16 m ρ c))
theorem W15_v87 (c : Dev nD) : Gen.W15 m ρ c (Proc.devRef .tc main_v87) = Gen.W14 m ρ c (Proc.devRef .tc main_v87) :=
  (p9_v87 (Gen.W14 m ρ c))
theorem W11_v52 (c : Dev nD) : Gen.W11 m ρ c (Proc.devRef .tc main_v52) = Gen.W8 m ρ c (Proc.devRef .tc main_v52) :=
  ((p5_v52 (Gen.W10 m ρ c)).trans ((p4_v52 (Gen.W9 m ρ c)).trans (p3_v52 (Gen.W8 m ρ c))))
theorem W11_v72 (c : Dev nD) : Gen.W11 m ρ c (Proc.devRef .tc main_v72) = Gen.W10 m ρ c (Proc.devRef .tc main_v72) :=
  (p5_v72 (Gen.W10 m ρ c))
theorem W9_v56 (c : Dev nD) : Gen.W9 m ρ c (Proc.devRef .tc main_v56) = Gen.W8 m ρ c (Proc.devRef .tc main_v56) :=
  (p3_v56 (Gen.W8 m ρ c))
theorem W15_arg10 (c : Dev nD) : Gen.W15 m ρ c (Proc.devRef .tc main_arg10) = m ((c : Thread nD τ).loc main_arg10) :=
  (((p9_arg10 (Gen.W14 m ρ c)).trans ((p8_arg10 (Gen.W13 m ρ c)).trans ((p7_arg10 (Gen.W12 m ρ c)).trans ((p6_arg10 (Gen.W11 m ρ c)).trans ((p5_arg10 (Gen.W10 m ρ c)).trans ((p4_arg10 (Gen.W9 m ρ c)).trans ((p3_arg10 (Gen.W8 m ρ c)).trans ((p2_arg10 (Gen.W7 m ρ c)).trans ((p1_arg10 (Gen.W6 m ρ c)).trans (p0_arg10 (Gen.W5 m ρ c)))))))))))).trans (W5_arg10 m ρ c)
theorem W13_arg9 (c : Dev nD) : Gen.W13 m ρ c (Proc.devRef .tc main_arg9) = m ((c : Thread nD τ).loc main_arg9) :=
  (((p7_arg9 (Gen.W12 m ρ c)).trans ((p6_arg9 (Gen.W11 m ρ c)).trans ((p5_arg9 (Gen.W10 m ρ c)).trans ((p4_arg9 (Gen.W9 m ρ c)).trans ((p3_arg9 (Gen.W8 m ρ c)).trans ((p2_arg9 (Gen.W7 m ρ c)).trans ((p1_arg9 (Gen.W6 m ρ c)).trans (p0_arg9 (Gen.W5 m ρ c)))))))))).trans (W5_arg9 m ρ c)
theorem W11_arg8 (c : Dev nD) : Gen.W11 m ρ c (Proc.devRef .tc main_arg8) = m ((c : Thread nD τ).loc main_arg8) :=
  (((p5_arg8 (Gen.W10 m ρ c)).trans ((p4_arg8 (Gen.W9 m ρ c)).trans ((p3_arg8 (Gen.W8 m ρ c)).trans ((p2_arg8 (Gen.W7 m ρ c)).trans ((p1_arg8 (Gen.W6 m ρ c)).trans (p0_arg8 (Gen.W5 m ρ c)))))))).trans (W5_arg8 m ρ c)
theorem W7_arg11 (c : Dev nD) : Gen.W7 m ρ c (Proc.devRef .tc main_arg11) = m ((c : Thread nD τ).loc main_arg11) :=
  (((p1_arg11 (Gen.W6 m ρ c)).trans (p0_arg11 (Gen.W5 m ρ c)))).trans (W5_arg11 m ρ c)

/-! ## The result -/

/-- The weighted feature term at the boundary after the first long stretch: the three regions' sums divided by their
    element counts, and the global pair's scalar. -/
theorem W6_v42_eq (c : Dev nD) :
    Gen.W6 m ρ c (Proc.devRef .tc main_v42)
      = combine (mseL (coreSum ((Gen.dat0 (Gen.V0 m ρ) c).arrAt 2 cfg0.N))) (mseP (coreSum ((Gen.dat1 (Gen.V2 m ρ) c).arrAt 2 cfg1.N)))
          (featG (m ((c : Thread nD τ).loc main_arg2) : (⟨S32x512, .f32⟩ : BufTy).Contents (Elt F)) (m ((c : Thread nD τ).loc main_arg6) : (⟨S32x512, .f32⟩ : BufTy).Contents (Elt F))) (mseI (coreSum ((Gen.dat2 (Gen.V4 m ρ) c).arrAt 2 cfg2.N))) := by
  rw [W6_v42 m ρ c, W5_v1 m ρ c, W5_v3 m ρ c, W5_v4 m ρ c, W5_arg2 m ρ c, W5_arg6 m ρ c]

/-- The tokens below 128, where the token term's second and third summands read them. -/
theorem W8_v56_eq (c : Dev nD) : Gen.W8 m ρ c (Proc.devRef .tc main_v56) = tokm (m ((c : Thread nD τ).loc main_arg11) : (⟨S32x2048, .i32⟩ : BufTy).Contents (Elt F)) := by
  rw [W8_v56 m ρ c, W7_arg11 m ρ c]

/-- The token term, once its last stretch has run. -/
theorem W12_v82_eq (c : Dev nD) : Gen.W12 m ρ c (Proc.devRef .tc main_v82) = musical (m ((c : Thread nD τ).loc main_arg11) : (⟨S32x2048, .i32⟩ : BufTy).Contents (Elt F)) := by
  rw [W12_v82 m ρ c, W11_v52 m ρ c, W8_v52 m ρ c, W7_v49 m ρ c, W6_v48 m ρ c, W5_arg11 m ρ c,
    W11_v72 m ρ c, W10_v72 m ρ c, W9_v57 m ρ c, W8_v56_eq m ρ c, W8_c_24 m ρ c,
    W11_v74 m ρ c, W10_v73 m ρ c, W9_v56 m ρ c, W8_v56_eq m ρ c,
    ← mus1_eq, ← rem12_eq, ← mus3_eq]
  rfl

/-- The first two softplus terms added, once their last stretch has run. -/
theorem W16_v93_eq (c : Dev nD) :
    Gen.W16 m ρ c (Proc.devRef .tc main_v93) = advB (advA (spL (Host.negf (m ((c : Thread nD τ).loc main_arg8) : (⟨S32x2048, .f32⟩ : BufTy).Contents (Elt F))))) (spP (Host.negf (m ((c : Thread nD τ).loc main_arg9) : (⟨S32x128, .f32⟩ : BufTy).Contents (Elt F)))) := by
  rw [W16_v93 m ρ c, W15_v87 m ρ c, W14_v87 m ρ c, W13_v84 m ρ c, W12_v83 m ρ c, W11_arg8 m ρ c,
    W15_v89 m ρ c, W14_v88 m ρ c, W13_arg9 m ρ c]

/-- The last softplus, before it is averaged. -/
theorem W17_v95_eq (c : Dev nD) : Gen.W17 m ρ c (Proc.devRef .tc main_v95) = spG (Host.negf (m ((c : Thread nD τ).loc main_arg10) : (⟨S32x1, .f32⟩ : BufTy).Contents (Elt F))) := by
  rw [W17_v95 m ρ c, W16_v94 m ρ c, W15_arg10 m ρ c]

/-- THE RESULT: what the result buffer holds at the last boundary is `out` of the three regions' outputs, each summed
    over the two cores, and of the six argument arrays the host operations read, as launched. -/
theorem result_eq (c : Dev nD) :
    Gen.W18 m ρ c (Proc.devRef .tc main_v101)
      = out (coreSum ((Gen.dat0 (Gen.V0 m ρ) c).arrAt 2 cfg0.N)) (coreSum ((Gen.dat1 (Gen.V2 m ρ) c).arrAt 2 cfg1.N))
          (coreSum ((Gen.dat2 (Gen.V4 m ρ) c).arrAt 2 cfg2.N))
          (m ((c : Thread nD τ).loc main_arg2) : (⟨S32x512, .f32⟩ : BufTy).Contents (Elt F)) (m ((c : Thread nD τ).loc main_arg6) : (⟨S32x512, .f32⟩ : BufTy).Contents (Elt F)) (m ((c : Thread nD τ).loc main_arg8) : (⟨S32x2048, .f32⟩ : BufTy).Contents (Elt F)) (m ((c : Thread nD τ).loc main_arg9) : (⟨S32x128, .f32⟩ : BufTy).Contents (Elt F)) (m ((c : Thread nD τ).loc main_arg10) : (⟨S32x1, .f32⟩ : BufTy).Contents (Elt F)) (m ((c : Thread nD τ).loc main_arg11) : (⟨S32x2048, .i32⟩ : BufTy).Contents (Elt F)) := by
  rw [W18_v101 m ρ c, W17_v42 m ρ c, W6_v42_eq m ρ c, W17_v82 m ρ c, W12_v82_eq m ρ c, W17_v93 m ρ c, W16_v93_eq m ρ c,
    W17_v95_eq m ρ c, fin_eq]
  rfl

end Cert.KernelIdeal.KRun

end
-- ==== Proof.lean ====
/-
  The feature-matching loss: a Pallas kernel for the three large feature pairs against the plain host computation.

  For a pair (real, fake) of arrays indexed by (batch b, position s, channel d), every row (b, s) is scaled to unit
  length with its length clamped below by a small positive constant, the scaled arrays are averaged over the batch, and
  the squared difference of the two averages is summed over all (s, d) and divided by the number of such pairs. The
  reference does this on the host for four pairs, weights the four scalars, and adds a term of the token array and a
  term of three logit arrays. The kernel's program computes three of the four pairs by a kernel each: a grid of
  (2 cores) × (tiles of 64 positions), each grid point adding its tile's sum of squared differences into its core's
  entry of a [2, 1, 1] output, the first point of a core's run starting from zero; the host then adds the two entries
  and divides. Everything else — the fourth pair, the weighting, the token term, the logit term — is the same host
  computation in both programs.

  At the ideal values (floats are extended reals, operations exact) the two agree:
  * the kernel scales a row by MULTIPLYING with the reciprocal of the clamped length where the reference DIVIDES by it;
    `x / n` is `x * n⁻¹` and `1 / n` is `n⁻¹` for `n ≠ 0`, and the clamped length is at least the positive constant;
  * the tiles of the two cores' runs cover every position exactly once, so the grid's partial sums add up to the whole
    sum — only commutativity and associativity of addition on the extended reals are used;
  * the reference's running total of the weighted scalars starts from the constant 0, and `0 + x = x`.
  The precondition (finite inputs) is never opened: none of these laws needs finiteness.

  The frames: the kernel's program by its frame certificate over the three regions (word level and ideal values alike),
  the reference by its run read back as one list of host operations. The ideal pass rewrote no operation, so the
  preservation claim is empty.
-/
import proofs.«139213_j64381559767355_2_alg».proof.Defs
import proofs.«139213_j64381559767355_2_alg».proof.Proof.Gen.Kernel
import proofs.«139213_j64381559767355_2_alg».proof.Proof.Gen.KernelIdeal
import proofs.«139213_j64381559767355_2_alg».proof.Proof.Gen.ReferenceIdeal
import proofs.«139213_j64381559767355_2_alg».proof.Proof.Gen.Pre_finite_inputs
import proofs.«139213_j64381559767355_2_alg».proof.Proof.Claims
import proofs.«139213_j64381559767355_2_alg».proof.Proof.KTail

noncomputable section

namespace Cert.Proof

open Idealize.ShloMosaic Idealize.ShloMosaic.TcCoe Idealize.SL.Sem

/-- From memories agreeing on the arguments both programs run; the kernel program's result buffer ends at its host
    operations' term of the three regions' outputs, the reference's at its own term, and the two terms are equal. -/
theorem algebraic : Cert.algebraic_KernelIdeal_ReferenceIdeal := by
  intro m ρ m' ρ' _ hagree
  refine ⟨fun c => Cert.KernelIdeal.Gen.W18 m ρ c (Proc.devRef .tc Cert.KernelIdeal.main_v101),
    Cert.KernelIdeal.KRun.run_named (F := Ideal) m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8, h9, h10, h11⟩ := hagree c
  rw [h0, h1, h2, h3, h4, h5, h6, h7, h8, h9, h10, h11]
  exact (Cert.Proof.Claims.result_bridge m ρ c (Cert.KernelIdeal.KRun.result_eq m ρ c)).symm

theorem claim : Cert.Claim :=
  ⟨Cert.Kernel.Gen.facts, Cert.KernelIdeal.Gen.facts, Cert.ReferenceIdeal.Gen.facts, Cert.Pre_finite_inputs.Gen.facts,
    Cert.Proof.Claims.frame_kernel, Cert.Proof.Claims.frame_kernelIdeal, Cert.Proof.Claims.frame_referenceIdeal,
    Cert.Proof.Claims.preserves, algebraic⟩

end Cert.Proof

end
